-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x500000 32) (main_arg2 : FVec F S500000 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S1x500000 : Shape := ⟨2, ![1, 500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S5000x128 : Shape := ⟨2, ![5000, 128]⟩
abbrev S550000x128 : Shape := ⟨2, ![550000, 128]⟩
abbrev S1x128 : Shape := ⟨2, ![1, 128]⟩

abbrev nBuf : Space → Nat
  | .hbm => 178
  | .vmem => 54
  | .smem => 0
  | _ => 0

abbrev hbmTy0_0 (i : Nat) : BufTy := match i % 128 with
  | 0 => ⟨S50000x128, .f32⟩
  | 1 => ⟨S2x500000, .i32⟩
  | 2 => ⟨S500000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S1x500000, .i32⟩
  | 16 => ⟨S500000, .i32⟩
  | 17 => ⟨S1x500000, .i32⟩
  | 18 => ⟨S500000, .i32⟩
  | 19 => ⟨S50000, .i32⟩
  | 20 => ⟨S550000, .i32⟩
  | 21 => ⟨S550000, .i32⟩
  | 22 => ⟨S_, .f32⟩
  | 23 => ⟨S50000, .f32⟩
  | 24 => ⟨S550000, .f32⟩
  | 25 => ⟨S_, .f32⟩
  | 26 => ⟨S50000, .f32⟩
  | 27 => ⟨S550000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .i1⟩
  | 39 => ⟨S50000, .f32⟩
  | 40 => ⟨S_, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S550000, .i32⟩
  | 49 => ⟨S550000, .i1⟩
  | 50 => ⟨S_, .i32⟩
  | 51 => ⟨S550000, .i32⟩
  | 52 => ⟨S550000, .i32⟩
  | 53 => ⟨S550000, .i32⟩
  | 54 => ⟨S550000x1, .i32⟩
  | 55 => ⟨S550000, .f32⟩
  | 56 => ⟨S550000, .f32⟩
  | 57 => ⟨S_, .i32⟩
  | 58 => ⟨S550000, .i32⟩
  | 59 => ⟨S550000, .i1⟩
  | 60 => ⟨S_, .i32⟩
  | 61 => ⟨S550000, .i32⟩
  | 62 => ⟨S550000, .i32⟩
  | 63 => ⟨S550000, .i32⟩
  | 64 => ⟨S550000x1, .i32⟩
  | 65 => ⟨S550000, .f32⟩
  | 66 => ⟨S550000, .f32⟩
  | 67 => ⟨S128x128, .f32⟩
  | 68 => ⟨S50000x128, .f32⟩
  | 69 => ⟨S_, .i32⟩
  | 70 => ⟨S550000, .i32⟩
  | 71 => ⟨S550000, .i1⟩
  | 72 => ⟨S_, .i32⟩
  | 73 => ⟨S550000, .i32⟩
  | 74 => ⟨S550000, .i32⟩
  | 75 => ⟨S550000, .i32⟩
  | 76 => ⟨S550000x1, .i32⟩
  | 77 => ⟨S550000x128, .f32⟩
  | 78 => ⟨S550000x1, .f32⟩
  | 79 => ⟨S550000x128, .f32⟩
  | 80 => ⟨S550000x128, .f32⟩
  | 81 => ⟨S_, .f32⟩
  | 82 => ⟨S50000x128, .f32⟩
  | 83 => ⟨S550000x1, .i32⟩
  | 84 => ⟨S50000x128, .f32⟩
  | 85 => ⟨S50000x128, .f32⟩
  | 86 => ⟨S128, .f32⟩
  | 87 => ⟨S128, .f32⟩
  | 88 => ⟨S_, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S128, .f32⟩
  | 102 => ⟨S128, .f32⟩
  | 103 => ⟨S50000x128, .f32⟩
  | 104 => ⟨S128x128, .f32⟩
  | 105 => ⟨S50000x128, .f32⟩
  | 106 => ⟨S_, .i32⟩
  | 107 => ⟨S550000, .i32⟩
  | 108 => ⟨S550000, .i1⟩
  | 109 => ⟨S_, .i32⟩
  | 110 => ⟨S550000, .i32⟩
  | 111 => ⟨S550000, .i32⟩
  | 112 => ⟨S550000, .i32⟩
  | 113 => ⟨S550000x1, .i32⟩
  | 114 => ⟨S550000x128, .f32⟩
  | 115 => ⟨S550000x1, .f32⟩
  | 116 => ⟨S550000x128, .f32⟩
  | 117 => ⟨S550000x128, .f32⟩
  | 118 => ⟨S_, .f32⟩
  | 119 => ⟨S50000x128, .f32⟩
  | 120 => ⟨S550000x1, .i32⟩
  | 121 => ⟨S50000x128, .f32⟩
  | 122 => ⟨S50000x128, .f32⟩
  | 123 => ⟨S128, .f32⟩
  | 124 => ⟨S128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S128, .f32⟩
  | 5 => ⟨S_, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S50000x128, .f32⟩
  | 13 => ⟨S128x128, .f32⟩
  | 14 => ⟨S50000x128, .f32⟩
  | 15 => ⟨S_, .i32⟩
  | 16 => ⟨S550000, .i32⟩
  | 17 => ⟨S550000, .i1⟩
  | 18 => ⟨S_, .i32⟩
  | 19 => ⟨S550000, .i32⟩
  | 20 => ⟨S550000, .i32⟩
  | 21 => ⟨S550000, .i32⟩
  | 22 => ⟨S550000x1, .i32⟩
  | 23 => ⟨S550000x128, .f32⟩
  | 24 => ⟨S550000x1, .f32⟩
  | 25 => ⟨S550000x128, .f32⟩
  | 26 => ⟨S550000x128, .f32⟩
  | 27 => ⟨S_, .f32⟩
  | 28 => ⟨S50000x128, .f32⟩
  | 29 => ⟨S550000x1, .i32⟩
  | 30 => ⟨S50000x128, .f32⟩
  | 31 => ⟨S50000x128, .f32⟩
  | 32 => ⟨S128, .f32⟩
  | 33 => ⟨S128, .f32⟩
  | 34 => ⟨S_, .f32⟩
  | 35 => ⟨S128, .f32⟩
  | 36 => ⟨S128, .f32⟩
  | 37 => ⟨S_, .f32⟩
  | 38 => ⟨S128, .f32⟩
  | 39 => ⟨S128, .f32⟩
  | 40 => ⟨S128, .f32⟩
  | 41 => ⟨S128, .f32⟩
  | 42 => ⟨S_, .f32⟩
  | 43 => ⟨S128, .f32⟩
  | 44 => ⟨S128, .f32⟩
  | 45 => ⟨S128, .f32⟩
  | 46 => ⟨S128, .f32⟩
  | 47 => ⟨S128, .f32⟩
  | 48 => ⟨S128, .f32⟩
  | 49 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128, .f32⟩
  | .local _ .vmem, ⟨44, _⟩ => ⟨S5000x128, .f32⟩
  | .local _ .vmem, ⟨45, _⟩ => ⟨S5000x128, .f32⟩
  | .local _ .vmem, ⟨46, _⟩ => ⟨S128, .f32⟩
  | .local _ .vmem, ⟨47, _⟩ => ⟨S128, .f32⟩
  | .local _ .vmem, ⟨48, _⟩ => ⟨S5000x128, .f32⟩
  | .local _ .vmem, ⟨49, _⟩ => ⟨S5000x128, .f32⟩
  | .local _ .vmem, ⟨50, _⟩ => ⟨S128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v20 : Ref sig .tc := ⟨.hbm, 46, rfl⟩
abbrev main_c : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_7 : Ref sig .tc := ⟨.hbm, 57, rfl⟩
abbrev main_v29 : Ref sig .tc := ⟨.hbm, 58, rfl⟩
abbrev main_v30 : Ref sig .tc := ⟨.hbm, 59, rfl⟩
abbrev main_c_8 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_c_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52_0 : Ref sig .tc := ⟨.hbm, 85, rfl⟩
abbrev main_v52_1 : Ref sig .tc := ⟨.hbm, 86, rfl⟩
abbrev main_v52_2 : Ref sig .tc := ⟨.hbm, 87, rfl⟩
abbrev main_cst_12 : Ref sig .tc := ⟨.hbm, 88, rfl⟩
abbrev main_v53 : Ref sig .tc := ⟨.hbm, 89, rfl⟩
abbrev main_v54 : Ref sig .tc := ⟨.hbm, 90, rfl⟩
abbrev main_cst_13 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_14 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_15 : Ref sig .tc := ⟨.hbm, 106, rfl⟩
abbrev main_v68 : Ref sig .tc := ⟨.hbm, 107, rfl⟩
abbrev main_v69 : Ref sig .tc := ⟨.hbm, 108, rfl⟩
abbrev main_c_16 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_17 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81_0 : Ref sig .tc := ⟨.hbm, 122, rfl⟩
abbrev main_v81_1 : Ref sig .tc := ⟨.hbm, 123, rfl⟩
abbrev main_v81_2 : Ref sig .tc := ⟨.hbm, 124, rfl⟩
abbrev main_cst_18 : Ref sig .tc := ⟨.hbm, 125, rfl⟩
abbrev main_v82 : Ref sig .tc := ⟨.hbm, 126, rfl⟩
abbrev main_v83 : Ref sig .tc := ⟨.hbm, 127, rfl⟩
abbrev main_cst_19 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_20 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_21 : Ref sig .tc := ⟨.hbm, 143, rfl⟩
abbrev main_v97 : Ref sig .tc := ⟨.hbm, 144, rfl⟩
abbrev main_v98 : Ref sig .tc := ⟨.hbm, 145, rfl⟩
abbrev main_c_22 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_23 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110_0 : Ref sig .tc := ⟨.hbm, 159, rfl⟩
abbrev main_v110_1 : Ref sig .tc := ⟨.hbm, 160, rfl⟩
abbrev main_v110_2 : Ref sig .tc := ⟨.hbm, 161, rfl⟩
abbrev main_cst_24 : Ref sig .tc := ⟨.hbm, 162, rfl⟩
abbrev main_v111 : Ref sig .tc := ⟨.hbm, 163, rfl⟩
abbrev main_v112 : Ref sig .tc := ⟨.hbm, 164, rfl⟩
abbrev main_cst_25 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_26 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg4_0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc7_stg3_0 : Ref sig .tc := ⟨.vmem, 46, rfl⟩
abbrev cc7_stg4_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem4_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc7_sem3_0 : DmaSem sig := 46
abbrev cc7_sem4_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S50000 : S_.BroadcastsInDim S50000 (![] : Fin 0 → Fin S50000.rank)
  bcast_S550000_S550000x1_0 : S550000.BroadcastsInDim S550000x1 (![0] : Fin 1 → Fin S550000x1.rank)
  bcast_S_S550000 : S_.BroadcastsInDim S550000 (![] : Fin 0 → Fin S550000.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  shapeCasts_S128_S128 : S128.ShapeCasts S128
  reduces_S5000x128_S128 : S5000x128.Reduces [0] S128
  bcast_S_S128 : S_.BroadcastsInDim S128 (![] : Fin 0 → Fin S128.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S5000x128_S128x128_S5000x128_1_0_0_1_n_n_wf : DotDims.WF S5000x128 S128x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128.size a ≤ S128.size a
  hwx8_1 : ∀ i : grid8.Coords, EltTy.bits .f32 = 32 ∨ (Rect.block (s := S128) S128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52_1) S128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52_2) S128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v80) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81_0) S5000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81_1) S128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81_2) S128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v81_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v109) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v110_0) S5000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v110_1) S128.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v110_2) S128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v110_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v120) S128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v122) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v123) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S1x500000 : Shape := ⟨2, ![1, 500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩

abbrev nBuf : Space → Nat
  | .hbm => 361
  | .vmem => 0
  | .smem => 0
  | _ => 0

abbrev hbmTy0_0 (i : Nat) : BufTy := match i % 128 with
  | 0 => ⟨S50000x128, .f32⟩
  | 1 => ⟨S2x500000, .i32⟩
  | 2 => ⟨S500000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S1x500000, .i32⟩
  | 16 => ⟨S500000, .i32⟩
  | 17 => ⟨S1x500000, .i32⟩
  | 18 => ⟨S500000, .i32⟩
  | 19 => ⟨S128x128, .f32⟩
  | 20 => ⟨S50000x128, .f32⟩
  | 21 => ⟨S50000, .i32⟩
  | 22 => ⟨S550000, .i32⟩
  | 23 => ⟨S550000, .i32⟩
  | 24 => ⟨S_, .f32⟩
  | 25 => ⟨S50000, .f32⟩
  | 26 => ⟨S550000, .f32⟩
  | 27 => ⟨S_, .f32⟩
  | 28 => ⟨S50000, .f32⟩
  | 29 => ⟨S550000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S550000, .i32⟩
  | 51 => ⟨S550000, .i1⟩
  | 52 => ⟨S_, .i32⟩
  | 53 => ⟨S550000, .i32⟩
  | 54 => ⟨S550000, .i32⟩
  | 55 => ⟨S550000, .i32⟩
  | 56 => ⟨S550000x1, .i32⟩
  | 57 => ⟨S550000, .f32⟩
  | 58 => ⟨S550000, .f32⟩
  | 59 => ⟨S_, .i32⟩
  | 60 => ⟨S550000, .i32⟩
  | 61 => ⟨S550000, .i1⟩
  | 62 => ⟨S_, .i32⟩
  | 63 => ⟨S550000, .i32⟩
  | 64 => ⟨S550000, .i32⟩
  | 65 => ⟨S550000, .i32⟩
  | 66 => ⟨S550000x1, .i32⟩
  | 67 => ⟨S550000, .f32⟩
  | 68 => ⟨S550000, .f32⟩
  | 69 => ⟨S_, .i32⟩
  | 70 => ⟨S550000, .i32⟩
  | 71 => ⟨S550000, .i1⟩
  | 72 => ⟨S_, .i32⟩
  | 73 => ⟨S550000, .i32⟩
  | 74 => ⟨S550000, .i32⟩
  | 75 => ⟨S550000, .i32⟩
  | 76 => ⟨S550000x1, .i32⟩
  | 77 => ⟨S550000x128, .f32⟩
  | 78 => ⟨S550000x1, .f32⟩
  | 79 => ⟨S550000x128, .f32⟩
  | 80 => ⟨S550000x128, .f32⟩
  | 81 => ⟨S_, .f32⟩
  | 82 => ⟨S50000x128, .f32⟩
  | 83 => ⟨S550000x1, .i32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S128, .f32⟩
  | 124 => ⟨S128, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S128x128, .f32⟩
  | 6 => ⟨S50000x128, .f32⟩
  | 7 => ⟨S50000, .i32⟩
  | 8 => ⟨S550000, .i32⟩
  | 9 => ⟨S550000, .i32⟩
  | 10 => ⟨S_, .f32⟩
  | 11 => ⟨S50000, .f32⟩
  | 12 => ⟨S550000, .f32⟩
  | 13 => ⟨S_, .f32⟩
  | 14 => ⟨S50000, .f32⟩
  | 15 => ⟨S550000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S550000, .i32⟩
  | 37 => ⟨S550000, .i1⟩
  | 38 => ⟨S_, .i32⟩
  | 39 => ⟨S550000, .i32⟩
  | 40 => ⟨S550000, .i32⟩
  | 41 => ⟨S550000, .i32⟩
  | 42 => ⟨S550000x1, .i32⟩
  | 43 => ⟨S550000, .f32⟩
  | 44 => ⟨S550000, .f32⟩
  | 45 => ⟨S_, .i32⟩
  | 46 => ⟨S550000, .i32⟩
  | 47 => ⟨S550000, .i1⟩
  | 48 => ⟨S_, .i32⟩
  | 49 => ⟨S550000, .i32⟩
  | 50 => ⟨S550000, .i32⟩
  | 51 => ⟨S550000, .i32⟩
  | 52 => ⟨S550000x1, .i32⟩
  | 53 => ⟨S550000, .f32⟩
  | 54 => ⟨S550000, .f32⟩
  | 55 => ⟨S_, .i32⟩
  | 56 => ⟨S550000, .i32⟩
  | 57 => ⟨S550000, .i1⟩
  | 58 => ⟨S_, .i32⟩
  | 59 => ⟨S550000, .i32⟩
  | 60 => ⟨S550000, .i32⟩
  | 61 => ⟨S550000, .i32⟩
  | 62 => ⟨S550000x1, .i32⟩
  | 63 => ⟨S550000x128, .f32⟩
  | 64 => ⟨S550000x1, .f32⟩
  | 65 => ⟨S550000x128, .f32⟩
  | 66 => ⟨S550000x128, .f32⟩
  | 67 => ⟨S_, .f32⟩
  | 68 => ⟨S50000x128, .f32⟩
  | 69 => ⟨S550000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S128, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S128x128, .f32⟩
  | 120 => ⟨S50000x128, .f32⟩
  | 121 => ⟨S50000, .i32⟩
  | 122 => ⟨S550000, .i32⟩
  | 123 => ⟨S550000, .i32⟩
  | 124 => ⟨S_, .f32⟩
  | 125 => ⟨S50000, .f32⟩
  | 126 => ⟨S550000, .f32⟩
  | 127 => ⟨S_, .f32⟩
  | _ => ⟨S50000x128, .f32⟩

abbrev hbmTy0_2 (i : Nat) : BufTy := match i % 128 with
  | 0 => ⟨S50000, .f32⟩
  | 1 => ⟨S550000x1, .i32⟩
  | 2 => ⟨S50000, .f32⟩
  | 3 => ⟨S_, .f32⟩
  | 4 => ⟨S50000, .f32⟩
  | 5 => ⟨S50000, .i1⟩
  | 6 => ⟨S_, .f32⟩
  | 7 => ⟨S_, .f32⟩
  | 8 => ⟨S50000, .f32⟩
  | 9 => ⟨S50000, .f32⟩
  | 10 => ⟨S_, .f32⟩
  | 11 => ⟨S50000, .f32⟩
  | 12 => ⟨S50000, .i1⟩
  | 13 => ⟨S50000, .f32⟩
  | 14 => ⟨S_, .f32⟩
  | 15 => ⟨S50000, .f32⟩
  | 16 => ⟨S50000, .f32⟩
  | 17 => ⟨S_, .f32⟩
  | 18 => ⟨S_, .f32⟩
  | 19 => ⟨S50000, .f32⟩
  | 20 => ⟨S50000, .f32⟩
  | 21 => ⟨S_, .i32⟩
  | 22 => ⟨S550000, .i32⟩
  | 23 => ⟨S550000, .i1⟩
  | 24 => ⟨S_, .i32⟩
  | 25 => ⟨S550000, .i32⟩
  | 26 => ⟨S550000, .i32⟩
  | 27 => ⟨S550000, .i32⟩
  | 28 => ⟨S550000x1, .i32⟩
  | 29 => ⟨S550000, .f32⟩
  | 30 => ⟨S550000, .f32⟩
  | 31 => ⟨S_, .i32⟩
  | 32 => ⟨S550000, .i32⟩
  | 33 => ⟨S550000, .i1⟩
  | 34 => ⟨S_, .i32⟩
  | 35 => ⟨S550000, .i32⟩
  | 36 => ⟨S550000, .i32⟩
  | 37 => ⟨S550000, .i32⟩
  | 38 => ⟨S550000x1, .i32⟩
  | 39 => ⟨S550000, .f32⟩
  | 40 => ⟨S550000, .f32⟩
  | 41 => ⟨S_, .i32⟩
  | 42 => ⟨S550000, .i32⟩
  | 43 => ⟨S550000, .i1⟩
  | 44 => ⟨S_, .i32⟩
  | 45 => ⟨S550000, .i32⟩
  | 46 => ⟨S550000, .i32⟩
  | 47 => ⟨S550000, .i32⟩
  | 48 => ⟨S550000x1, .i32⟩
  | 49 => ⟨S550000x128, .f32⟩
  | 50 => ⟨S550000x1, .f32⟩
  | 51 => ⟨S550000x128, .f32⟩
  | 52 => ⟨S550000x128, .f32⟩
  | 53 => ⟨S_, .f32⟩
  | 54 => ⟨S50000x128, .f32⟩
  | 55 => ⟨S550000x1, .i32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_6 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_c_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call2_cst : Ref sig .tc := ⟨.hbm, 88, rfl⟩
abbrev main_call2_v0 : Ref sig .tc := ⟨.hbm, 89, rfl⟩
abbrev main_v55 : Ref sig .tc := ⟨.hbm, 90, rfl⟩
abbrev main_cst_12 : Ref sig .tc := ⟨.hbm, 91, rfl⟩
abbrev main_v56 : Ref sig .tc := ⟨.hbm, 92, rfl⟩
abbrev main_cst_13 : Ref sig .tc := ⟨.hbm, 93, rfl⟩
abbrev main_v57 : Ref sig .tc := ⟨.hbm, 94, rfl⟩
abbrev main_v58 : Ref sig .tc := ⟨.hbm, 95, rfl⟩
abbrev main_c_14 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_cst_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_v7 : Ref sig .tc := ⟨.hbm, 106, rfl⟩
abbrev main_call3_cst_1 : Ref sig .tc := ⟨.hbm, 107, rfl⟩
abbrev main_call3_v8 : Ref sig .tc := ⟨.hbm, 108, rfl⟩
abbrev main_call3_cst_2 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_cst_3 : Ref sig .tc := ⟨.hbm, 113, rfl⟩
abbrev main_call3_v12 : Ref sig .tc := ⟨.hbm, 114, rfl⟩
abbrev main_call3_cst_4 : Ref sig .tc := ⟨.hbm, 115, rfl⟩
abbrev main_call3_call0_v0 : Ref sig .tc := ⟨.hbm, 116, rfl⟩
abbrev main_call3_call0_v1 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_15 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_16 : Ref sig .tc := ⟨.hbm, 138, rfl⟩
abbrev main_v78 : Ref sig .tc := ⟨.hbm, 139, rfl⟩
abbrev main_v79 : Ref sig .tc := ⟨.hbm, 140, rfl⟩
abbrev main_cst_17 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_18 : Ref sig .tc := ⟨.hbm, 145, rfl⟩
abbrev main_v83 : Ref sig .tc := ⟨.hbm, 146, rfl⟩
abbrev main_v84 : Ref sig .tc := ⟨.hbm, 147, rfl⟩
abbrev main_cst_19 : Ref sig .tc := ⟨.hbm, 148, rfl⟩
abbrev main_call4_v0 : Ref sig .tc := ⟨.hbm, 149, rfl⟩
abbrev main_call4_v1 : Ref sig .tc := ⟨.hbm, 150, rfl⟩
abbrev main_v85 : Ref sig .tc := ⟨.hbm, 151, rfl⟩
abbrev main_cst_20 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_21 : Ref sig .tc := ⟨.hbm, 156, rfl⟩
abbrev main_v89 : Ref sig .tc := ⟨.hbm, 157, rfl⟩
abbrev main_v90 : Ref sig .tc := ⟨.hbm, 158, rfl⟩
abbrev main_cst_22 : Ref sig .tc := ⟨.hbm, 159, rfl⟩
abbrev main_call5_v0 : Ref sig .tc := ⟨.hbm, 160, rfl⟩
abbrev main_call5_v1 : Ref sig .tc := ⟨.hbm, 161, rfl⟩
abbrev main_v91 : Ref sig .tc := ⟨.hbm, 162, rfl⟩
abbrev main_c_23 : Ref sig .tc := ⟨.hbm, 163, rfl⟩
abbrev main_v92 : Ref sig .tc := ⟨.hbm, 164, rfl⟩
abbrev main_v93 : Ref sig .tc := ⟨.hbm, 165, rfl⟩
abbrev main_c_24 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_c_25 : Ref sig .tc := ⟨.hbm, 173, rfl⟩
abbrev main_v100 : Ref sig .tc := ⟨.hbm, 174, rfl⟩
abbrev main_v101 : Ref sig .tc := ⟨.hbm, 175, rfl⟩
abbrev main_c_26 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_c_27 : Ref sig .tc := ⟨.hbm, 183, rfl⟩
abbrev main_v108 : Ref sig .tc := ⟨.hbm, 184, rfl⟩
abbrev main_v109 : Ref sig .tc := ⟨.hbm, 185, rfl⟩
abbrev main_c_28 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_cst_29 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_call6_cst : Ref sig .tc := ⟨.hbm, 202, rfl⟩
abbrev main_call6_v0 : Ref sig .tc := ⟨.hbm, 203, rfl⟩
abbrev main_v124 : Ref sig .tc := ⟨.hbm, 204, rfl⟩
abbrev main_cst_30 : Ref sig .tc := ⟨.hbm, 205, rfl⟩
abbrev main_v125 : Ref sig .tc := ⟨.hbm, 206, rfl⟩
abbrev main_cst_31 : Ref sig .tc := ⟨.hbm, 207, rfl⟩
abbrev main_v126 : Ref sig .tc := ⟨.hbm, 208, rfl⟩
abbrev main_v127 : Ref sig .tc := ⟨.hbm, 209, rfl⟩
abbrev main_c_32 : Ref sig .tc := ⟨.hbm, 210, rfl⟩
abbrev main_call7_cst : Ref sig .tc := ⟨.hbm, 211, rfl⟩
abbrev main_call7_v0 : Ref sig .tc := ⟨.hbm, 212, rfl⟩
abbrev main_call7_v1 : Ref sig .tc := ⟨.hbm, 213, rfl⟩
abbrev main_call7_cst_0 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_call7_v5 : Ref sig .tc := ⟨.hbm, 218, rfl⟩
abbrev main_call7_v6 : Ref sig .tc := ⟨.hbm, 219, rfl⟩
abbrev main_call7_v7 : Ref sig .tc := ⟨.hbm, 220, rfl⟩
abbrev main_call7_cst_1 : Ref sig .tc := ⟨.hbm, 221, rfl⟩
abbrev main_call7_v8 : Ref sig .tc := ⟨.hbm, 222, rfl⟩
abbrev main_call7_cst_2 : Ref sig .tc := ⟨.hbm, 223, rfl⟩
abbrev main_call7_v9 : Ref sig .tc := ⟨.hbm, 224, rfl⟩
abbrev main_call7_v10 : Ref sig .tc := ⟨.hbm, 225, rfl⟩
abbrev main_call7_v11 : Ref sig .tc := ⟨.hbm, 226, rfl⟩
abbrev main_call7_cst_3 : Ref sig .tc := ⟨.hbm, 227, rfl⟩
abbrev main_call7_v12 : Ref sig .tc := ⟨.hbm, 228, rfl⟩
abbrev main_call7_cst_4 : Ref sig .tc := ⟨.hbm, 229, rfl⟩
abbrev main_call7_call0_v0 : Ref sig .tc := ⟨.hbm, 230, rfl⟩
abbrev main_call7_call0_v1 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_cst_33 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_cst_34 : Ref sig .tc := ⟨.hbm, 252, rfl⟩
abbrev main_v147 : Ref sig .tc := ⟨.hbm, 253, rfl⟩
abbrev main_v148 : Ref sig .tc := ⟨.hbm, 254, rfl⟩
abbrev main_cst_35 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_cst_36 : Ref sig .tc := ⟨.hbm, 259, rfl⟩
abbrev main_v152 : Ref sig .tc := ⟨.hbm, 260, rfl⟩
abbrev main_v153 : Ref sig .tc := ⟨.hbm, 261, rfl⟩
abbrev main_cst_37 : Ref sig .tc := ⟨.hbm, 262, rfl⟩
abbrev main_call8_v0 : Ref sig .tc := ⟨.hbm, 263, rfl⟩
abbrev main_call8_v1 : Ref sig .tc := ⟨.hbm, 264, rfl⟩
abbrev main_v154 : Ref sig .tc := ⟨.hbm, 265, rfl⟩
abbrev main_cst_38 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_cst_39 : Ref sig .tc := ⟨.hbm, 270, rfl⟩
abbrev main_v158 : Ref sig .tc := ⟨.hbm, 271, rfl⟩
abbrev main_v159 : Ref sig .tc := ⟨.hbm, 272, rfl⟩
abbrev main_cst_40 : Ref sig .tc := ⟨.hbm, 273, rfl⟩
abbrev main_call9_v0 : Ref sig .tc := ⟨.hbm, 274, rfl⟩
abbrev main_call9_v1 : Ref sig .tc := ⟨.hbm, 275, rfl⟩
abbrev main_v160 : Ref sig .tc := ⟨.hbm, 276, rfl⟩
abbrev main_c_41 : Ref sig .tc := ⟨.hbm, 277, rfl⟩
abbrev main_v161 : Ref sig .tc := ⟨.hbm, 278, rfl⟩
abbrev main_v162 : Ref sig .tc := ⟨.hbm, 279, rfl⟩
abbrev main_c_42 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_c_43 : Ref sig .tc := ⟨.hbm, 287, rfl⟩
abbrev main_v169 : Ref sig .tc := ⟨.hbm, 288, rfl⟩
abbrev main_v170 : Ref sig .tc := ⟨.hbm, 289, rfl⟩
abbrev main_c_44 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_c_45 : Ref sig .tc := ⟨.hbm, 297, rfl⟩
abbrev main_v177 : Ref sig .tc := ⟨.hbm, 298, rfl⟩
abbrev main_v178 : Ref sig .tc := ⟨.hbm, 299, rfl⟩
abbrev main_c_46 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_47 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_call10_cst : Ref sig .tc := ⟨.hbm, 316, rfl⟩
abbrev main_call10_v0 : Ref sig .tc := ⟨.hbm, 317, rfl⟩
abbrev main_v193 : Ref sig .tc := ⟨.hbm, 318, rfl⟩
abbrev main_cst_48 : Ref sig .tc := ⟨.hbm, 319, rfl⟩
abbrev main_v194 : Ref sig .tc := ⟨.hbm, 320, rfl⟩
abbrev main_cst_49 : Ref sig .tc := ⟨.hbm, 321, rfl⟩
abbrev main_v195 : Ref sig .tc := ⟨.hbm, 322, rfl⟩
abbrev main_v196 : Ref sig .tc := ⟨.hbm, 323, rfl⟩
abbrev main_c_50 : Ref sig .tc := ⟨.hbm, 324, rfl⟩
abbrev main_call11_cst : Ref sig .tc := ⟨.hbm, 325, rfl⟩
abbrev main_call11_v0 : Ref sig .tc := ⟨.hbm, 326, rfl⟩
abbrev main_call11_v1 : Ref sig .tc := ⟨.hbm, 327, rfl⟩
abbrev main_call11_cst_0 : Ref sig .tc := ⟨.hbm, 328, rfl⟩
abbrev main_call11_v2 : Ref sig .tc := ⟨.hbm, 329, rfl⟩
abbrev main_call11_v3 : Ref sig .tc := ⟨.hbm, 330, rfl⟩
abbrev main_call11_v4 : Ref sig .tc := ⟨.hbm, 331, rfl⟩
abbrev main_call11_v5 : Ref sig .tc := ⟨.hbm, 332, rfl⟩
abbrev main_call11_v6 : Ref sig .tc := ⟨.hbm, 333, rfl⟩
abbrev main_call11_v7 : Ref sig .tc := ⟨.hbm, 334, rfl⟩
abbrev main_call11_cst_1 : Ref sig .tc := ⟨.hbm, 335, rfl⟩
abbrev main_call11_v8 : Ref sig .tc := ⟨.hbm, 336, rfl⟩
abbrev main_call11_cst_2 : Ref sig .tc := ⟨.hbm, 337, rfl⟩
abbrev main_call11_v9 : Ref sig .tc := ⟨.hbm, 338, rfl⟩
abbrev main_call11_v10 : Ref sig .tc := ⟨.hbm, 339, rfl⟩
abbrev main_call11_v11 : Ref sig .tc := ⟨.hbm, 340, rfl⟩
abbrev main_call11_cst_3 : Ref sig .tc := ⟨.hbm, 341, rfl⟩
abbrev main_call11_v12 : Ref sig .tc := ⟨.hbm, 342, rfl⟩
abbrev main_call11_cst_4 : Ref sig .tc := ⟨.hbm, 343, rfl⟩
abbrev main_call11_call0_v0 : Ref sig .tc := ⟨.hbm, 344, rfl⟩
abbrev main_call11_call0_v1 : Ref sig .tc := ⟨.hbm, 345, rfl⟩
abbrev main_v197 : Ref sig .tc := ⟨.hbm, 346, rfl⟩
abbrev main_v198 : Ref sig .tc := ⟨.hbm, 347, rfl⟩
abbrev main_v199 : Ref sig .tc := ⟨.hbm, 348, rfl⟩
abbrev main_v200 : Ref sig .tc := ⟨.hbm, 349, rfl⟩
abbrev main_cst_51 : Ref sig .tc := ⟨.hbm, 350, rfl⟩
abbrev main_v201 : Ref sig .tc := ⟨.hbm, 351, rfl⟩
abbrev main_v202 : Ref sig .tc := ⟨.hbm, 352, rfl⟩
abbrev main_v203 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  transposes_S128x128_S128x128_1_0 : S128x128.Transposes [1, 0] S128x128
  concatenates_S500000_S50000_S550000_d0 : Shape.Concatenates [S500000, S50000] S550000 0
  bcast_S_S50000 : S_.BroadcastsInDim S50000 (![] : Fin 0 → Fin S50000.rank)
  bcast_S550000_S550000x1_0 : S550000.BroadcastsInDim S550000x1 (![0] : Fin 1 → Fin S550000x1.rank)
  bcast_S_S550000 : S_.BroadcastsInDim S550000 (![] : Fin 0 → Fin S550000.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x128_S128x128_S50000x128_1_0_0_1_n_n_wf : DotDims.WF S50000x128 S128x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

class Facts : Prop extends Facts₀ where

variable [Facts]
-- ==== Proof.RefOps.lean ====
import proofs.«152337_j16226386444398_1_alg».proof.Proof.Gen.ReferenceIdeal
import Idealize.ShloMosaic.Lib.StableHlo.Run
import Idealize.ShloMosaic.Lib.Pipeline.Frame

/-! The reference program's @main as one list of host operations, the outlined functions' operations listed at their
call sites over each call's buffers, and its run: every weakly fair execution terminates with every buffer at the fold
of the operations over the launch contents.

The list is cut into consecutive pieces `c00 … c17`, a new piece wherever a window of @main ends or a stage of the
computation does (the edge-index split; then per layer: the dense product, the normalization, the aggregation, the bias
and positive part, the batch normalization). -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Piece c00: 4 operations of window `main_part0` (P). -/
abbrev c00 : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000 ]

/-- The buffers piece c00 writes. -/
abbrev c00_W : List (Ref sig .tc) := [main_v0, main_v1, main_v2, main_v3]

/-- Piece c01: 2 operations of window `main_part0` (H1). -/
abbrev c01 : List (HloOp τ sig (Elt F)) :=
  [ unary main_arg3 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The buffers piece c01 writes. -/
abbrev c01_W : List (Ref sig .tc) := [main_v4, main_v5]

/-- Piece c02: 48 operations of window `main_part0` (N1). -/
abbrev c02 : List (HloOp τ sig (Elt F)) :=
  [ nullary main_v6 (iotaInDim S50000 32 0),
    binary main_v1 main_v6 main_v7 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    binary main_v3 main_v6 main_v8 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    nullary main_cst (constant S_ .f32 0x3F800000#32),
    unary main_cst main_v9 (broadcastInDim S50000 ![] bcast_S_S50000 : (⟨S_, .f32⟩ : BufTy).Contents (Elt F) → (⟨S50000, .f32⟩ : BufTy).Contents (Elt F)),
    binary main_arg2 main_v9 main_v10 ((fun a b => concatenate S550000 0 [⟨S500000, a⟩, ⟨S50000, b⟩] concatenates_S500000_S50000_S550000_d0) : (⟨S500000, .f32⟩ : BufTy).Contents (Elt F) → (⟨S50000, .f32⟩ : BufTy).Contents (Elt F) → (⟨S550000, .f32⟩ : BufTy).Contents (Elt F)),
    nullary main_cst_0 (constant S_ .f32 0x00000000#32),
    unary main_cst_0 main_v11 (broadcastInDim S50000 ![] bcast_S_S50000 : (⟨S_, .f32⟩ : BufTy).Contents (Elt F) → (⟨S50000, .f32⟩ : BufTy).Contents (Elt F)),
    unary main_v8 main_v12 (broadcastInDim S550000x1 ![0] bcast_S550000_S550000x1_0 : (⟨S550000, .i32⟩ : BufTy).Contents (Elt F) → (⟨S550000x1, .i32⟩ : BufTy).Contents (Elt F)),
    ternary main_v11 main_v12 main_v10 main_v13 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    nullary main_cst_1 (constant S_ .f32 0x00000000#32),
    unary main_cst_1 main_v14 (broadcastInDim S50000 ![] bcast_S_S50000 : (⟨S_, .f32⟩ : BufTy).Contents (Elt F) → (⟨S50000, .f32⟩ : BufTy).Contents (Elt F)),
    binary main_v13 main_v14 main_v15 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    TRef.unary (.of main_cst_2 : TRef sig ⟨S_, .f32⟩) main_call0.v0 id,
    TRef.unary main_call0.v0 main_call0.v1 (broadcastInDim S50000 ![] bcast_S_S50000),
    TRef.ternary (.of main_v15 : TRef sig ⟨S50000, .i1⟩) (.of main_v13 : TRef sig ⟨S50000, .f32⟩) main_call0.v1 main_call0.v2 select,
    nullary main_cst_3 (constant S_ .f32 0x00000000#32),
    unary main_cst_3 main_v17 (broadcastInDim S50000 ![] bcast_S_S50000 : (⟨S_, .f32⟩ : BufTy).Contents (Elt F) → (⟨S50000, .f32⟩ : BufTy).Contents (Elt F)),
    binary main_v13 main_v17 main_v18 (cmpf .ogt : (⟨S50000, .f32⟩ : BufTy).Contents (Elt F) → (⟨S50000, .f32⟩ : BufTy).Contents (Elt F) → (⟨S50000, .i1⟩ : BufTy).Contents (Elt F)),
    unary main_v16 main_v19 (Host.sqrt : (⟨S50000, .f32⟩ : BufTy).Contents (Elt F) → (⟨S50000, .f32⟩ : BufTy).Contents (Elt F)),
    nullary main_cst_4 (constant S_ .f32 0x3F800000#32),
    unary main_cst_4 main_v20 (broadcastInDim S50000 ![] bcast_S_S50000 : (⟨S_, .f32⟩ : BufTy).Contents (Elt F) → (⟨S50000, .f32⟩ : BufTy).Contents (Elt F)),
    binary main_v20 main_v19 main_v21 (Host.divf : (⟨S50000, .f32⟩ : BufTy).Contents (Elt F) → (⟨S50000, .f32⟩ : BufTy).Contents (Elt F) → (⟨S50000, .f32⟩ : BufTy).Contents (Elt F)),
    nullary main_cst_5 (constant S_ .f32 0x00000000#32),
    TRef.unary (.of main_cst_5 : TRef sig ⟨S_, .f32⟩) main_call1.v0 id,
    TRef.unary main_call1.v0 main_call1.v1 (broadcastInDim S50000 ![] bcast_S_S50000),
    TRef.ternary (.of main_v18 : TRef sig ⟨S50000, .i1⟩) (.of main_v21 : TRef sig ⟨S50000, .f32⟩) main_call1.v1 main_call1.v2 select,
    nullary main_c (constantI S_ 32 0#32),
    unary main_c main_v23 (broadcastInDim S550000 ![] bcast_S_S550000 : (⟨S_, .i32⟩ : BufTy).Contents (Elt F) → (⟨S550000, .i32⟩ : BufTy).Contents (Elt F)),
    binary main_v7 main_v23 main_v24 (cmpi .slt : (⟨S550000, .i32⟩ : BufTy).Contents (Elt F) → (⟨S550000, .i32⟩ : BufTy).Contents (Elt F) → (⟨S550000, .i1⟩ : BufTy).Contents (Elt F)),
    nullary main_c_6 (constantI S_ 32 50000#32),
    unary main_c_6 main_v25 (broadcastInDim S550000 ![] bcast_S_S550000 : (⟨S_, .i32⟩ : BufTy).Contents (Elt F) → (⟨S550000, .i32⟩ : BufTy).Contents (Elt F)),
    binary main_v7 main_v25 main_v26 (addi : (⟨S550000, .i32⟩ : BufTy).Contents (Elt F) → (⟨S550000, .i32⟩ : BufTy).Contents (Elt F) → (⟨S550000, .i32⟩ : BufTy).Contents (Elt F)),
    ternary main_v24 main_v26 main_v7 main_v27 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v27 main_v28 (broadcastInDim S550000x1 ![0] bcast_S550000_S550000x1_0 : (⟨S550000, .i32⟩ : BufTy).Contents (Elt F) → (⟨S550000x1, .i32⟩ : BufTy).Contents (Elt F)),
    binary main_v22 main_v28 main_v29 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    binary main_v29 main_v10 main_v30 (mulf : (⟨S550000, .f32⟩ : BufTy).Contents (Elt F) → (⟨S550000, .f32⟩ : BufTy).Contents (Elt F) → (⟨S550000, .f32⟩ : BufTy).Contents (Elt F)),
    nullary main_c_7 (constantI S_ 32 0#32),
    unary main_c_7 main_v31 (broadcastInDim S550000 ![] bcast_S_S550000 : (⟨S_, .i32⟩ : BufTy).Contents (Elt F) → (⟨S550000, .i32⟩ : BufTy).Contents (Elt F)),
    binary main_v8 main_v31 main_v32 (cmpi .slt : (⟨S550000, .i32⟩ : BufTy).Contents (Elt F) → (⟨S550000, .i32⟩ : BufTy).Contents (Elt F) → (⟨S550000, .i1⟩ : BufTy).Contents (Elt F)),
    nullary main_c_8 (constantI S_ 32 50000#32),
    unary main_c_8 main_v33 (broadcastInDim S550000 ![] bcast_S_S550000 : (⟨S_, .i32⟩ : BufTy).Contents (Elt F) → (⟨S550000, .i32⟩ : BufTy).Contents (Elt F)),
    binary main_v8 main_v33 main_v34 (addi : (⟨S550000, .i32⟩ : BufTy).Contents (Elt F) → (⟨S550000, .i32⟩ : BufTy).Contents (Elt F) → (⟨S550000, .i32⟩ : BufTy).Contents (Elt F)),
    ternary main_v32 main_v34 main_v8 main_v35 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v35 main_v36 (broadcastInDim S550000x1 ![0] bcast_S550000_S550000x1_0 : (⟨S550000, .i32⟩ : BufTy).Contents (Elt F) → (⟨S550000x1, .i32⟩ : BufTy).Contents (Elt F)),
    binary main_v22 main_v36 main_v37 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    binary main_v30 main_v37 main_v38 (mulf : (⟨S550000, .f32⟩ : BufTy).Contents (Elt F) → (⟨S550000, .f32⟩ : BufTy).Contents (Elt F) → (⟨S550000, .f32⟩ : BufTy).Contents (Elt F)) ]

/-- The buffers piece c02 writes. -/
abbrev c02_W : List (Ref sig .tc) := [main_v6, main_v7, main_v8, main_cst, main_v9, main_v10, main_cst_0, main_v11, main_v12, main_v13, main_cst_1, main_v14, main_v15, main_cst_2, main_call0_v0, main_call0_v1, main_v16, main_cst_3, main_v17, main_v18, main_v19, main_cst_4, main_v20, main_v21, main_cst_5, main_call1_v0, main_call1_v1, main_v22, main_c, main_v23, main_v24, main_c_6, main_v25, main_v26, main_v27, main_v28, main_v29, main_v30, main_c_7, main_v31, main_v32, main_c_8, main_v33, main_v34, main_v35, main_v36, main_v37, main_v38]

/-- Piece c03: 10 operations of window `main_part0` (A1). -/
abbrev c03 : List (HloOp τ sig (Elt F)) :=
  [ nullary main_c_9 (constantI S_ 32 0#32),
    unary main_c_9 main_v39 (broadcastInDim S550000 ![] bcast_S_S550000 : (⟨S_, .i32⟩ : BufTy).Contents (Elt F) → (⟨S550000, .i32⟩ : BufTy).Contents (Elt F)),
    binary main_v7 main_v39 main_v40 (cmpi .slt : (⟨S550000, .i32⟩ : BufTy).Contents (Elt F) → (⟨S550000, .i32⟩ : BufTy).Contents (Elt F) → (⟨S550000, .i1⟩ : BufTy).Contents (Elt F)),
    nullary main_c_10 (constantI S_ 32 50000#32),
    unary main_c_10 main_v41 (broadcastInDim S550000 ![] bcast_S_S550000 : (⟨S_, .i32⟩ : BufTy).Contents (Elt F) → (⟨S550000, .i32⟩ : BufTy).Contents (Elt F)),
    binary main_v7 main_v41 main_v42 (addi : (⟨S550000, .i32⟩ : BufTy).Contents (Elt F) → (⟨S550000, .i32⟩ : BufTy).Contents (Elt F) → (⟨S550000, .i32⟩ : BufTy).Contents (Elt F)),
    ternary main_v40 main_v42 main_v7 main_v43 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v43 main_v44 (broadcastInDim S550000x1 ![0] bcast_S550000_S550000x1_0 : (⟨S550000, .i32⟩ : BufTy).Contents (Elt F) → (⟨S550000x1, .i32⟩ : BufTy).Contents (Elt F)),
    binary main_v5 main_v44 main_v45 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    unary main_v38 main_v46 (broadcastInDim S550000x1 ![0] bcast_S550000_S550000x1_0 : (⟨S550000, .f32⟩ : BufTy).Contents (Elt F) → (⟨S550000x1, .f32⟩ : BufTy).Contents (Elt F)) ]

/-- The buffers piece c03 writes. -/
abbrev c03_W : List (Ref sig .tc) := [main_c_9, main_v39, main_v40, main_c_10, main_v41, main_v42, main_v43, main_v44, main_v45, main_v46]

/-- Piece c04: 6 operations of window `main_part1` (A1). -/
abbrev c04 : List (HloOp τ sig (Elt F)) :=
  [ unary main_v46 main_v47 (broadcastInDim S550000x128 ![0, 1] bcast_S550000x1_S550000x128_0_1 : (⟨S550000x1, .f32⟩ : BufTy).Contents (Elt F) → (⟨S550000x128, .f32⟩ : BufTy).Contents (Elt F)),
    binary main_v45 main_v47 main_v48 (mulf : (⟨S550000x128, .f32⟩ : BufTy).Contents (Elt F) → (⟨S550000x128, .f32⟩ : BufTy).Contents (Elt F) → (⟨S550000x128, .f32⟩ : BufTy).Contents (Elt F)),
    nullary main_cst_11 (constant S_ .f32 0x00000000#32),
    unary main_cst_11 main_v49 (broadcastInDim S50000x128 ![] bcast_S_S50000x128 : (⟨S_, .f32⟩ : BufTy).Contents (Elt F) → (⟨S50000x128, .f32⟩ : BufTy).Contents (Elt F)),
    unary main_v8 main_v50 (broadcastInDim S550000x1 ![0] bcast_S550000_S550000x1_0 : (⟨S550000, .i32⟩ : BufTy).Contents (Elt F) → (⟨S550000x1, .i32⟩ : BufTy).Contents (Elt F)),
    ternary main_v49 main_v50 main_v48 main_v51 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)) ]

/-- The buffers piece c04 writes. -/
abbrev c04_W : List (Ref sig .tc) := [main_v47, main_v48, main_cst_11, main_v49, main_v50, main_v51]

/-- Piece c05: 6 operations of window `main_part1` (R1). -/
abbrev c05 : List (HloOp τ sig (Elt F)) :=
  [ unary main_arg4 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v54 : TRef sig ⟨S50000x128, .f32⟩) main_call2.v0 main_call2.v1 maximumf ]

/-- The buffers piece c05 writes. -/
abbrev c05_W : List (Ref sig .tc) := [main_v52, main_v53, main_v54, main_call2_cst, main_call2_v0, main_v55]

/-- Piece c06: 42 operations of window `main_part1` (B1). -/
abbrev c06 : List (HloOp τ sig (Elt F)) :=
  [ nullary main_cst_12 (constant S_ .f32 0x00000000#32),
    binary main_v55 main_cst_12 main_v56 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    nullary main_c_14 (constantI S_ 32 0#32),
    TRef.nullary main_call3.cst (constant S_ .f32 0x00000000#32),
    TRef.binary (.of main_v55 : TRef sig ⟨S50000x128, .f32⟩) main_call3.cst main_call3.v0 (fun x v => Host.reduceAdd x v reducesTo_S50000x128_S128_d0 h_S_),
    TRef.unary main_call3.v0 main_call3.v1 (broadcastInDim S1x128 ![1] bcast_S128_S1x128_1),
    TRef.nullary main_call3.cst_0 (constant S_ .f32 0x47435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S50000x128 ![0, 1] bcast_S1x128_S50000x128_0_1),
    TRef.binary (.of main_v55 : TRef sig ⟨S50000x128, .f32⟩) main_call3.v4 main_call3.v5 subf,
    TRef.binary main_call3.v5 main_call3.v5 main_call3.v6 mulf,
    TRef.unary (.of main_c_14 : TRef sig ⟨S_, .i32⟩) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v58 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v55 main_v61 main_v62 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v63 (broadcastInDim S128 ![] bcast_S_S128 : (⟨S_, .f32⟩ : BufTy).Contents (Elt F) → (⟨S128, .f32⟩ : BufTy).Contents (Elt F)),
    binary main_v59 main_v63 main_v64 (addf : (⟨S128, .f32⟩ : BufTy).Contents (Elt F) → (⟨S128, .f32⟩ : BufTy).Contents (Elt F) → (⟨S128, .f32⟩ : BufTy).Contents (Elt F)),
    unary main_v64 main_v65 (Host.sqrt : (⟨S128, .f32⟩ : BufTy).Contents (Elt F) → (⟨S128, .f32⟩ : BufTy).Contents (Elt F)),
    binary main_arg5 main_v65 main_v66 (Host.divf : (⟨S128, .f32⟩ : BufTy).Contents (Elt F) → (⟨S128, .f32⟩ : BufTy).Contents (Elt F) → (⟨S128, .f32⟩ : BufTy).Contents (Elt F)),
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v62 main_v68 main_v69 (mulf : (⟨S50000x128, .f32⟩ : BufTy).Contents (Elt F) → (⟨S50000x128, .f32⟩ : BufTy).Contents (Elt F) → (⟨S50000x128, .f32⟩ : BufTy).Contents (Elt F)),
    unary main_arg6 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)) ]

/-- The buffers piece c06 writes. -/
abbrev c06_W : List (Ref sig .tc) := [main_cst_12, main_v56, main_cst_13, main_v57, main_v58, main_c_14, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v59, main_v60, main_v61, main_v62, main_cst_15, main_v63, main_v64, main_v65, main_v66, main_v67, main_v68, main_v69, main_v70, main_v71, main_v72]

/-- Piece c07: 2 operations of window `main_part1` (H2). -/
abbrev c07 : List (HloOp τ sig (Elt F)) :=
  [ unary main_arg7 main_v73 ((transpose S128x128 [1, 0] · transposes_S128x128_S128x128_1_0) : (⟨S128x128, .f32⟩ : BufTy).Contents (Elt F) → (⟨S128x128, .f32⟩ : BufTy).Contents (Elt F)),
    binary main_v72 main_v73 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The buffers piece c07 writes. -/
abbrev c07_W : List (Ref sig .tc) := [main_v73, main_v74]

/-- Piece c08: 31 operations of window `main_part1` (N2). -/
abbrev c08 : List (HloOp τ sig (Elt F)) :=
  [ nullary main_v75 (iotaInDim S50000 32 0),
    binary main_v1 main_v75 main_v76 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    binary main_v3 main_v75 main_v77 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    nullary main_cst_16 (constant S_ .f32 0x3F800000#32),
    unary main_cst_16 main_v78 (broadcastInDim S50000 ![] bcast_S_S50000 : (⟨S_, .f32⟩ : BufTy).Contents (Elt F) → (⟨S50000, .f32⟩ : BufTy).Contents (Elt F)),
    binary main_arg2 main_v78 main_v79 ((fun a b => concatenate S550000 0 [⟨S500000, a⟩, ⟨S50000, b⟩] concatenates_S500000_S50000_S550000_d0) : (⟨S500000, .f32⟩ : BufTy).Contents (Elt F) → (⟨S50000, .f32⟩ : BufTy).Contents (Elt F) → (⟨S550000, .f32⟩ : BufTy).Contents (Elt F)),
    nullary main_cst_17 (constant S_ .f32 0x00000000#32),
    unary main_cst_17 main_v80 (broadcastInDim S50000 ![] bcast_S_S50000 : (⟨S_, .f32⟩ : BufTy).Contents (Elt F) → (⟨S50000, .f32⟩ : BufTy).Contents (Elt F)),
    unary main_v77 main_v81 (broadcastInDim S550000x1 ![0] bcast_S550000_S550000x1_0 : (⟨S550000, .i32⟩ : BufTy).Contents (Elt F) → (⟨S550000x1, .i32⟩ : BufTy).Contents (Elt F)),
    ternary main_v80 main_v81 main_v79 main_v82 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    nullary main_cst_18 (constant S_ .f32 0x00000000#32),
    unary main_cst_18 main_v83 (broadcastInDim S50000 ![] bcast_S_S50000 : (⟨S_, .f32⟩ : BufTy).Contents (Elt F) → (⟨S50000, .f32⟩ : BufTy).Contents (Elt F)),
    binary main_v82 main_v83 main_v84 (cmpf .ogt : (⟨S50000, .f32⟩ : BufTy).Contents (Elt F) → (⟨S50000, .f32⟩ : BufTy).Contents (Elt F) → (⟨S50000, .i1⟩ : BufTy).Contents (Elt F)),
    nullary main_cst_19 (constant S_ .f32 0x3F800000#32),
    TRef.unary (.of main_cst_19 : TRef sig ⟨S_, .f32⟩) main_call4.v0 id,
    TRef.unary main_call4.v0 main_call4.v1 (broadcastInDim S50000 ![] bcast_S_S50000),
    TRef.ternary (.of main_v84 : TRef sig ⟨S50000, .i1⟩) (.of main_v82 : TRef sig ⟨S50000, .f32⟩) main_call4.v1 main_call4.v2 select,
    nullary main_cst_20 (constant S_ .f32 0x00000000#32),
    unary main_cst_20 main_v86 (broadcastInDim S50000 ![] bcast_S_S50000 : (⟨S_, .f32⟩ : BufTy).Contents (Elt F) → (⟨S50000, .f32⟩ : BufTy).Contents (Elt F)),
    binary main_v82 main_v86 main_v87 (cmpf .ogt : (⟨S50000, .f32⟩ : BufTy).Contents (Elt F) → (⟨S50000, .f32⟩ : BufTy).Contents (Elt F) → (⟨S50000, .i1⟩ : BufTy).Contents (Elt F)),
    unary main_v85 main_v88 (Host.sqrt : (⟨S50000, .f32⟩ : BufTy).Contents (Elt F) → (⟨S50000, .f32⟩ : BufTy).Contents (Elt F)),
    nullary main_cst_21 (constant S_ .f32 0x3F800000#32),
    unary main_cst_21 main_v89 (broadcastInDim S50000 ![] bcast_S_S50000 : (⟨S_, .f32⟩ : BufTy).Contents (Elt F) → (⟨S50000, .f32⟩ : BufTy).Contents (Elt F)),
    binary main_v89 main_v88 main_v90 (Host.divf : (⟨S50000, .f32⟩ : BufTy).Contents (Elt F) → (⟨S50000, .f32⟩ : BufTy).Contents (Elt F) → (⟨S50000, .f32⟩ : BufTy).Contents (Elt F)),
    nullary main_cst_22 (constant S_ .f32 0x00000000#32),
    TRef.unary (.of main_cst_22 : TRef sig ⟨S_, .f32⟩) main_call5.v0 id,
    TRef.unary main_call5.v0 main_call5.v1 (broadcastInDim S50000 ![] bcast_S_S50000),
    TRef.ternary (.of main_v87 : TRef sig ⟨S50000, .i1⟩) (.of main_v90 : TRef sig ⟨S50000, .f32⟩) main_call5.v1 main_call5.v2 select,
    nullary main_c_23 (constantI S_ 32 0#32),
    unary main_c_23 main_v92 (broadcastInDim S550000 ![] bcast_S_S550000 : (⟨S_, .i32⟩ : BufTy).Contents (Elt F) → (⟨S550000, .i32⟩ : BufTy).Contents (Elt F)),
    binary main_v76 main_v92 main_v93 (cmpi .slt : (⟨S550000, .i32⟩ : BufTy).Contents (Elt F) → (⟨S550000, .i32⟩ : BufTy).Contents (Elt F) → (⟨S550000, .i1⟩ : BufTy).Contents (Elt F)) ]

/-- The buffers piece c08 writes. -/
abbrev c08_W : List (Ref sig .tc) := [main_v75, main_v76, main_v77, main_cst_16, main_v78, main_v79, main_cst_17, main_v80, main_v81, main_v82, main_cst_18, main_v83, main_v84, main_cst_19, main_call4_v0, main_call4_v1, main_v85, main_cst_20, main_v86, main_v87, main_v88, main_cst_21, main_v89, main_v90, main_cst_22, main_call5_v0, main_call5_v1, main_v91, main_c_23, main_v92, main_v93]

/-- Piece c09: 17 operations of window `main_part2` (N2). -/
abbrev c09 : List (HloOp τ sig (Elt F)) :=
  [ nullary main_c_24 (constantI S_ 32 50000#32),
    unary main_c_24 main_v94 (broadcastInDim S550000 ![] bcast_S_S550000 : (⟨S_, .i32⟩ : BufTy).Contents (Elt F) → (⟨S550000, .i32⟩ : BufTy).Contents (Elt F)),
    binary main_v76 main_v94 main_v95 (addi : (⟨S550000, .i32⟩ : BufTy).Contents (Elt F) → (⟨S550000, .i32⟩ : BufTy).Contents (Elt F) → (⟨S550000, .i32⟩ : BufTy).Contents (Elt F)),
    ternary main_v93 main_v95 main_v76 main_v96 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v96 main_v97 (broadcastInDim S550000x1 ![0] bcast_S550000_S550000x1_0 : (⟨S550000, .i32⟩ : BufTy).Contents (Elt F) → (⟨S550000x1, .i32⟩ : BufTy).Contents (Elt F)),
    binary main_v91 main_v97 main_v98 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    binary main_v98 main_v79 main_v99 (mulf : (⟨S550000, .f32⟩ : BufTy).Contents (Elt F) → (⟨S550000, .f32⟩ : BufTy).Contents (Elt F) → (⟨S550000, .f32⟩ : BufTy).Contents (Elt F)),
    nullary main_c_25 (constantI S_ 32 0#32),
    unary main_c_25 main_v100 (broadcastInDim S550000 ![] bcast_S_S550000 : (⟨S_, .i32⟩ : BufTy).Contents (Elt F) → (⟨S550000, .i32⟩ : BufTy).Contents (Elt F)),
    binary main_v77 main_v100 main_v101 (cmpi .slt : (⟨S550000, .i32⟩ : BufTy).Contents (Elt F) → (⟨S550000, .i32⟩ : BufTy).Contents (Elt F) → (⟨S550000, .i1⟩ : BufTy).Contents (Elt F)),
    nullary main_c_26 (constantI S_ 32 50000#32),
    unary main_c_26 main_v102 (broadcastInDim S550000 ![] bcast_S_S550000 : (⟨S_, .i32⟩ : BufTy).Contents (Elt F) → (⟨S550000, .i32⟩ : BufTy).Contents (Elt F)),
    binary main_v77 main_v102 main_v103 (addi : (⟨S550000, .i32⟩ : BufTy).Contents (Elt F) → (⟨S550000, .i32⟩ : BufTy).Contents (Elt F) → (⟨S550000, .i32⟩ : BufTy).Contents (Elt F)),
    ternary main_v101 main_v103 main_v77 main_v104 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v104 main_v105 (broadcastInDim S550000x1 ![0] bcast_S550000_S550000x1_0 : (⟨S550000, .i32⟩ : BufTy).Contents (Elt F) → (⟨S550000x1, .i32⟩ : BufTy).Contents (Elt F)),
    binary main_v91 main_v105 main_v106 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    binary main_v99 main_v106 main_v107 (mulf : (⟨S550000, .f32⟩ : BufTy).Contents (Elt F) → (⟨S550000, .f32⟩ : BufTy).Contents (Elt F) → (⟨S550000, .f32⟩ : BufTy).Contents (Elt F)) ]

/-- The buffers piece c09 writes. -/
abbrev c09_W : List (Ref sig .tc) := [main_c_24, main_v94, main_v95, main_v96, main_v97, main_v98, main_v99, main_c_25, main_v100, main_v101, main_c_26, main_v102, main_v103, main_v104, main_v105, main_v106, main_v107]

/-- Piece c10: 16 operations of window `main_part2` (A2). -/
abbrev c10 : List (HloOp τ sig (Elt F)) :=
  [ nullary main_c_27 (constantI S_ 32 0#32),
    unary main_c_27 main_v108 (broadcastInDim S550000 ![] bcast_S_S550000 : (⟨S_, .i32⟩ : BufTy).Contents (Elt F) → (⟨S550000, .i32⟩ : BufTy).Contents (Elt F)),
    binary main_v76 main_v108 main_v109 (cmpi .slt : (⟨S550000, .i32⟩ : BufTy).Contents (Elt F) → (⟨S550000, .i32⟩ : BufTy).Contents (Elt F) → (⟨S550000, .i1⟩ : BufTy).Contents (Elt F)),
    nullary main_c_28 (constantI S_ 32 50000#32),
    unary main_c_28 main_v110 (broadcastInDim S550000 ![] bcast_S_S550000 : (⟨S_, .i32⟩ : BufTy).Contents (Elt F) → (⟨S550000, .i32⟩ : BufTy).Contents (Elt F)),
    binary main_v76 main_v110 main_v111 (addi : (⟨S550000, .i32⟩ : BufTy).Contents (Elt F) → (⟨S550000, .i32⟩ : BufTy).Contents (Elt F) → (⟨S550000, .i32⟩ : BufTy).Contents (Elt F)),
    ternary main_v109 main_v111 main_v76 main_v112 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v112 main_v113 (broadcastInDim S550000x1 ![0] bcast_S550000_S550000x1_0 : (⟨S550000, .i32⟩ : BufTy).Contents (Elt F) → (⟨S550000x1, .i32⟩ : BufTy).Contents (Elt F)),
    binary main_v74 main_v113 main_v114 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    unary main_v107 main_v115 (broadcastInDim S550000x1 ![0] bcast_S550000_S550000x1_0 : (⟨S550000, .f32⟩ : BufTy).Contents (Elt F) → (⟨S550000x1, .f32⟩ : BufTy).Contents (Elt F)),
    unary main_v115 main_v116 (broadcastInDim S550000x128 ![0, 1] bcast_S550000x1_S550000x128_0_1 : (⟨S550000x1, .f32⟩ : BufTy).Contents (Elt F) → (⟨S550000x128, .f32⟩ : BufTy).Contents (Elt F)),
    binary main_v114 main_v116 main_v117 (mulf : (⟨S550000x128, .f32⟩ : BufTy).Contents (Elt F) → (⟨S550000x128, .f32⟩ : BufTy).Contents (Elt F) → (⟨S550000x128, .f32⟩ : BufTy).Contents (Elt F)),
    nullary main_cst_29 (constant S_ .f32 0x00000000#32),
    unary main_cst_29 main_v118 (broadcastInDim S50000x128 ![] bcast_S_S50000x128 : (⟨S_, .f32⟩ : BufTy).Contents (Elt F) → (⟨S50000x128, .f32⟩ : BufTy).Contents (Elt F)),
    unary main_v77 main_v119 (broadcastInDim S550000x1 ![0] bcast_S550000_S550000x1_0 : (⟨S550000, .i32⟩ : BufTy).Contents (Elt F) → (⟨S550000x1, .i32⟩ : BufTy).Contents (Elt F)),
    ternary main_v118 main_v119 main_v117 main_v120 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)) ]

/-- The buffers piece c10 writes. -/
abbrev c10_W : List (Ref sig .tc) := [main_c_27, main_v108, main_v109, main_c_28, main_v110, main_v111, main_v112, main_v113, main_v114, main_v115, main_v116, main_v117, main_cst_29, main_v118, main_v119, main_v120]

/-- Piece c11: 6 operations of window `main_part2` (R2). -/
abbrev c11 : List (HloOp τ sig (Elt F)) :=
  [ unary main_arg8 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v120 main_v122 main_v123 (addf : (⟨S50000x128, .f32⟩ : BufTy).Contents (Elt F) → (⟨S50000x128, .f32⟩ : BufTy).Contents (Elt F) → (⟨S50000x128, .f32⟩ : BufTy).Contents (Elt F)),
    TRef.nullary main_call6.cst (constant S_ .f32 0x00000000#32),
    TRef.unary main_call6.cst main_call6.v0 (broadcastInDim S50000x128 ![] bcast_S_S50000x128),
    TRef.binary (.of main_v123 : TRef sig ⟨S50000x128, .f32⟩) main_call6.v0 main_call6.v1 maximumf ]

/-- The buffers piece c11 writes. -/
abbrev c11_W : List (Ref sig .tc) := [main_v121, main_v122, main_v123, main_call6_cst, main_call6_v0, main_v124]

/-- Piece c12: 42 operations of window `main_part2` (B2). -/
abbrev c12 : List (HloOp τ sig (Elt F)) :=
  [ nullary main_cst_30 (constant S_ .f32 0x00000000#32),
    binary main_v124 main_cst_30 main_v125 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_31 (constant S_ .f32 0x47435000#32),
    unary main_cst_31 main_v126 (broadcastInDim S128 ![] bcast_S_S128 : (⟨S_, .f32⟩ : BufTy).Contents (Elt F) → (⟨S128, .f32⟩ : BufTy).Contents (Elt F)),
    binary main_v125 main_v126 main_v127 (Host.divf : (⟨S128, .f32⟩ : BufTy).Contents (Elt F) → (⟨S128, .f32⟩ : BufTy).Contents (Elt F) → (⟨S128, .f32⟩ : BufTy).Contents (Elt F)),
    nullary main_c_32 (constantI S_ 32 0#32),
    TRef.nullary main_call7.cst (constant S_ .f32 0x00000000#32),
    TRef.binary (.of main_v124 : TRef sig ⟨S50000x128, .f32⟩) main_call7.cst main_call7.v0 (fun x v => Host.reduceAdd x v reducesTo_S50000x128_S128_d0 h_S_),
    TRef.unary main_call7.v0 main_call7.v1 (broadcastInDim S1x128 ![1] bcast_S128_S1x128_1),
    TRef.nullary main_call7.cst_0 (constant S_ .f32 0x47435000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S50000x128 ![0, 1] bcast_S1x128_S50000x128_0_1),
    TRef.binary (.of main_v124 : TRef sig ⟨S50000x128, .f32⟩) main_call7.v4 main_call7.v5 subf,
    TRef.binary main_call7.v5 main_call7.v5 main_call7.v6 mulf,
    TRef.unary (.of main_c_32 : TRef sig ⟨S_, .i32⟩) main_call7.v7 (sitofp .f32),
    TRef.nullary main_call7.cst_1 (constant S_ .f32 0x47435000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S50000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b),
    unary main_v127 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v124 main_v130 main_v131 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v132 (broadcastInDim S128 ![] bcast_S_S128 : (⟨S_, .f32⟩ : BufTy).Contents (Elt F) → (⟨S128, .f32⟩ : BufTy).Contents (Elt F)),
    binary main_v128 main_v132 main_v133 (addf : (⟨S128, .f32⟩ : BufTy).Contents (Elt F) → (⟨S128, .f32⟩ : BufTy).Contents (Elt F) → (⟨S128, .f32⟩ : BufTy).Contents (Elt F)),
    unary main_v133 main_v134 (Host.sqrt : (⟨S128, .f32⟩ : BufTy).Contents (Elt F) → (⟨S128, .f32⟩ : BufTy).Contents (Elt F)),
    binary main_arg9 main_v134 main_v135 (Host.divf : (⟨S128, .f32⟩ : BufTy).Contents (Elt F) → (⟨S128, .f32⟩ : BufTy).Contents (Elt F) → (⟨S128, .f32⟩ : BufTy).Contents (Elt F)),
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v131 main_v137 main_v138 (mulf : (⟨S50000x128, .f32⟩ : BufTy).Contents (Elt F) → (⟨S50000x128, .f32⟩ : BufTy).Contents (Elt F) → (⟨S50000x128, .f32⟩ : BufTy).Contents (Elt F)),
    unary main_arg10 main_v139 (broadcastInDim S1x128 ![1] bcast_S128_S1x128_1 : (⟨S128, .f32⟩ : BufTy).Contents (Elt F) → (⟨S1x128, .f32⟩ : BufTy).Contents (Elt F)),
    unary main_v139 main_v140 (broadcastInDim S50000x128 ![0, 1] bcast_S1x128_S50000x128_0_1 : (⟨S1x128, .f32⟩ : BufTy).Contents (Elt F) → (⟨S50000x128, .f32⟩ : BufTy).Contents (Elt F)),
    binary main_v138 main_v140 main_v141 (addf : (⟨S50000x128, .f32⟩ : BufTy).Contents (Elt F) → (⟨S50000x128, .f32⟩ : BufTy).Contents (Elt F) → (⟨S50000x128, .f32⟩ : BufTy).Contents (Elt F)) ]

/-- The buffers piece c12 writes. -/
abbrev c12_W : List (Ref sig .tc) := [main_cst_30, main_v125, main_cst_31, main_v126, main_v127, main_c_32, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v128, main_v129, main_v130, main_v131, main_cst_33, main_v132, main_v133, main_v134, main_v135, main_v136, main_v137, main_v138, main_v139, main_v140, main_v141]

/-- Piece c13: 2 operations of window `main_part2` (H3). -/
abbrev c13 : List (HloOp τ sig (Elt F)) :=
  [ unary main_arg11 main_v142 ((transpose S128x128 [1, 0] · transposes_S128x128_S128x128_1_0) : (⟨S128x128, .f32⟩ : BufTy).Contents (Elt F) → (⟨S128x128, .f32⟩ : BufTy).Contents (Elt F)),
    binary main_v141 main_v142 main_v143 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The buffers piece c13 writes. -/
abbrev c13_W : List (Ref sig .tc) := [main_v142, main_v143]

/-- Piece c14: 48 operations of window `main_part3` (N3). -/
abbrev c14 : List (HloOp τ sig (Elt F)) :=
  [ nullary main_v144 (iotaInDim S50000 32 0),
    binary main_v1 main_v144 main_v145 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    binary main_v3 main_v144 main_v146 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    nullary main_cst_34 (constant S_ .f32 0x3F800000#32),
    unary main_cst_34 main_v147 (broadcastInDim S50000 ![] bcast_S_S50000 : (⟨S_, .f32⟩ : BufTy).Contents (Elt F) → (⟨S50000, .f32⟩ : BufTy).Contents (Elt F)),
    binary main_arg2 main_v147 main_v148 ((fun a b => concatenate S550000 0 [⟨S500000, a⟩, ⟨S50000, b⟩] concatenates_S500000_S50000_S550000_d0) : (⟨S500000, .f32⟩ : BufTy).Contents (Elt F) → (⟨S50000, .f32⟩ : BufTy).Contents (Elt F) → (⟨S550000, .f32⟩ : BufTy).Contents (Elt F)),
    nullary main_cst_35 (constant S_ .f32 0x00000000#32),
    unary main_cst_35 main_v149 (broadcastInDim S50000 ![] bcast_S_S50000 : (⟨S_, .f32⟩ : BufTy).Contents (Elt F) → (⟨S50000, .f32⟩ : BufTy).Contents (Elt F)),
    unary main_v146 main_v150 (broadcastInDim S550000x1 ![0] bcast_S550000_S550000x1_0 : (⟨S550000, .i32⟩ : BufTy).Contents (Elt F) → (⟨S550000x1, .i32⟩ : BufTy).Contents (Elt F)),
    ternary main_v149 main_v150 main_v148 main_v151 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    nullary main_cst_36 (constant S_ .f32 0x00000000#32),
    unary main_cst_36 main_v152 (broadcastInDim S50000 ![] bcast_S_S50000 : (⟨S_, .f32⟩ : BufTy).Contents (Elt F) → (⟨S50000, .f32⟩ : BufTy).Contents (Elt F)),
    binary main_v151 main_v152 main_v153 (cmpf .ogt : (⟨S50000, .f32⟩ : BufTy).Contents (Elt F) → (⟨S50000, .f32⟩ : BufTy).Contents (Elt F) → (⟨S50000, .i1⟩ : BufTy).Contents (Elt F)),
    nullary main_cst_37 (constant S_ .f32 0x3F800000#32),
    TRef.unary (.of main_cst_37 : TRef sig ⟨S_, .f32⟩) main_call8.v0 id,
    TRef.unary main_call8.v0 main_call8.v1 (broadcastInDim S50000 ![] bcast_S_S50000),
    TRef.ternary (.of main_v153 : TRef sig ⟨S50000, .i1⟩) (.of main_v151 : TRef sig ⟨S50000, .f32⟩) main_call8.v1 main_call8.v2 select,
    nullary main_cst_38 (constant S_ .f32 0x00000000#32),
    unary main_cst_38 main_v155 (broadcastInDim S50000 ![] bcast_S_S50000 : (⟨S_, .f32⟩ : BufTy).Contents (Elt F) → (⟨S50000, .f32⟩ : BufTy).Contents (Elt F)),
    binary main_v151 main_v155 main_v156 (cmpf .ogt : (⟨S50000, .f32⟩ : BufTy).Contents (Elt F) → (⟨S50000, .f32⟩ : BufTy).Contents (Elt F) → (⟨S50000, .i1⟩ : BufTy).Contents (Elt F)),
    unary main_v154 main_v157 (Host.sqrt : (⟨S50000, .f32⟩ : BufTy).Contents (Elt F) → (⟨S50000, .f32⟩ : BufTy).Contents (Elt F)),
    nullary main_cst_39 (constant S_ .f32 0x3F800000#32),
    unary main_cst_39 main_v158 (broadcastInDim S50000 ![] bcast_S_S50000 : (⟨S_, .f32⟩ : BufTy).Contents (Elt F) → (⟨S50000, .f32⟩ : BufTy).Contents (Elt F)),
    binary main_v158 main_v157 main_v159 (Host.divf : (⟨S50000, .f32⟩ : BufTy).Contents (Elt F) → (⟨S50000, .f32⟩ : BufTy).Contents (Elt F) → (⟨S50000, .f32⟩ : BufTy).Contents (Elt F)),
    nullary main_cst_40 (constant S_ .f32 0x00000000#32),
    TRef.unary (.of main_cst_40 : TRef sig ⟨S_, .f32⟩) main_call9.v0 id,
    TRef.unary main_call9.v0 main_call9.v1 (broadcastInDim S50000 ![] bcast_S_S50000),
    TRef.ternary (.of main_v156 : TRef sig ⟨S50000, .i1⟩) (.of main_v159 : TRef sig ⟨S50000, .f32⟩) main_call9.v1 main_call9.v2 select,
    nullary main_c_41 (constantI S_ 32 0#32),
    unary main_c_41 main_v161 (broadcastInDim S550000 ![] bcast_S_S550000 : (⟨S_, .i32⟩ : BufTy).Contents (Elt F) → (⟨S550000, .i32⟩ : BufTy).Contents (Elt F)),
    binary main_v145 main_v161 main_v162 (cmpi .slt : (⟨S550000, .i32⟩ : BufTy).Contents (Elt F) → (⟨S550000, .i32⟩ : BufTy).Contents (Elt F) → (⟨S550000, .i1⟩ : BufTy).Contents (Elt F)),
    nullary main_c_42 (constantI S_ 32 50000#32),
    unary main_c_42 main_v163 (broadcastInDim S550000 ![] bcast_S_S550000 : (⟨S_, .i32⟩ : BufTy).Contents (Elt F) → (⟨S550000, .i32⟩ : BufTy).Contents (Elt F)),
    binary main_v145 main_v163 main_v164 (addi : (⟨S550000, .i32⟩ : BufTy).Contents (Elt F) → (⟨S550000, .i32⟩ : BufTy).Contents (Elt F) → (⟨S550000, .i32⟩ : BufTy).Contents (Elt F)),
    ternary main_v162 main_v164 main_v145 main_v165 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v165 main_v166 (broadcastInDim S550000x1 ![0] bcast_S550000_S550000x1_0 : (⟨S550000, .i32⟩ : BufTy).Contents (Elt F) → (⟨S550000x1, .i32⟩ : BufTy).Contents (Elt F)),
    binary main_v160 main_v166 main_v167 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    binary main_v167 main_v148 main_v168 (mulf : (⟨S550000, .f32⟩ : BufTy).Contents (Elt F) → (⟨S550000, .f32⟩ : BufTy).Contents (Elt F) → (⟨S550000, .f32⟩ : BufTy).Contents (Elt F)),
    nullary main_c_43 (constantI S_ 32 0#32),
    unary main_c_43 main_v169 (broadcastInDim S550000 ![] bcast_S_S550000 : (⟨S_, .i32⟩ : BufTy).Contents (Elt F) → (⟨S550000, .i32⟩ : BufTy).Contents (Elt F)),
    binary main_v146 main_v169 main_v170 (cmpi .slt : (⟨S550000, .i32⟩ : BufTy).Contents (Elt F) → (⟨S550000, .i32⟩ : BufTy).Contents (Elt F) → (⟨S550000, .i1⟩ : BufTy).Contents (Elt F)),
    nullary main_c_44 (constantI S_ 32 50000#32),
    unary main_c_44 main_v171 (broadcastInDim S550000 ![] bcast_S_S550000 : (⟨S_, .i32⟩ : BufTy).Contents (Elt F) → (⟨S550000, .i32⟩ : BufTy).Contents (Elt F)),
    binary main_v146 main_v171 main_v172 (addi : (⟨S550000, .i32⟩ : BufTy).Contents (Elt F) → (⟨S550000, .i32⟩ : BufTy).Contents (Elt F) → (⟨S550000, .i32⟩ : BufTy).Contents (Elt F)),
    ternary main_v170 main_v172 main_v146 main_v173 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v173 main_v174 (broadcastInDim S550000x1 ![0] bcast_S550000_S550000x1_0 : (⟨S550000, .i32⟩ : BufTy).Contents (Elt F) → (⟨S550000x1, .i32⟩ : BufTy).Contents (Elt F)),
    binary main_v160 main_v174 main_v175 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    binary main_v168 main_v175 main_v176 (mulf : (⟨S550000, .f32⟩ : BufTy).Contents (Elt F) → (⟨S550000, .f32⟩ : BufTy).Contents (Elt F) → (⟨S550000, .f32⟩ : BufTy).Contents (Elt F)) ]

/-- The buffers piece c14 writes. -/
abbrev c14_W : List (Ref sig .tc) := [main_v144, main_v145, main_v146, main_cst_34, main_v147, main_v148, main_cst_35, main_v149, main_v150, main_v151, main_cst_36, main_v152, main_v153, main_cst_37, main_call8_v0, main_call8_v1, main_v154, main_cst_38, main_v155, main_v156, main_v157, main_cst_39, main_v158, main_v159, main_cst_40, main_call9_v0, main_call9_v1, main_v160, main_c_41, main_v161, main_v162, main_c_42, main_v163, main_v164, main_v165, main_v166, main_v167, main_v168, main_c_43, main_v169, main_v170, main_c_44, main_v171, main_v172, main_v173, main_v174, main_v175, main_v176]

/-- Piece c15: 16 operations of window `main_part3` (A3). -/
abbrev c15 : List (HloOp τ sig (Elt F)) :=
  [ nullary main_c_45 (constantI S_ 32 0#32),
    unary main_c_45 main_v177 (broadcastInDim S550000 ![] bcast_S_S550000 : (⟨S_, .i32⟩ : BufTy).Contents (Elt F) → (⟨S550000, .i32⟩ : BufTy).Contents (Elt F)),
    binary main_v145 main_v177 main_v178 (cmpi .slt : (⟨S550000, .i32⟩ : BufTy).Contents (Elt F) → (⟨S550000, .i32⟩ : BufTy).Contents (Elt F) → (⟨S550000, .i1⟩ : BufTy).Contents (Elt F)),
    nullary main_c_46 (constantI S_ 32 50000#32),
    unary main_c_46 main_v179 (broadcastInDim S550000 ![] bcast_S_S550000 : (⟨S_, .i32⟩ : BufTy).Contents (Elt F) → (⟨S550000, .i32⟩ : BufTy).Contents (Elt F)),
    binary main_v145 main_v179 main_v180 (addi : (⟨S550000, .i32⟩ : BufTy).Contents (Elt F) → (⟨S550000, .i32⟩ : BufTy).Contents (Elt F) → (⟨S550000, .i32⟩ : BufTy).Contents (Elt F)),
    ternary main_v178 main_v180 main_v145 main_v181 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    unary main_v181 main_v182 (broadcastInDim S550000x1 ![0] bcast_S550000_S550000x1_0 : (⟨S550000, .i32⟩ : BufTy).Contents (Elt F) → (⟨S550000x1, .i32⟩ : BufTy).Contents (Elt F)),
    binary main_v143 main_v182 main_v183 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    unary main_v176 main_v184 (broadcastInDim S550000x1 ![0] bcast_S550000_S550000x1_0 : (⟨S550000, .f32⟩ : BufTy).Contents (Elt F) → (⟨S550000x1, .f32⟩ : BufTy).Contents (Elt F)),
    unary main_v184 main_v185 (broadcastInDim S550000x128 ![0, 1] bcast_S550000x1_S550000x128_0_1 : (⟨S550000x1, .f32⟩ : BufTy).Contents (Elt F) → (⟨S550000x128, .f32⟩ : BufTy).Contents (Elt F)),
    binary main_v183 main_v185 main_v186 (mulf : (⟨S550000x128, .f32⟩ : BufTy).Contents (Elt F) → (⟨S550000x128, .f32⟩ : BufTy).Contents (Elt F) → (⟨S550000x128, .f32⟩ : BufTy).Contents (Elt F)),
    nullary main_cst_47 (constant S_ .f32 0x00000000#32),
    unary main_cst_47 main_v187 (broadcastInDim S50000x128 ![] bcast_S_S50000x128 : (⟨S_, .f32⟩ : BufTy).Contents (Elt F) → (⟨S50000x128, .f32⟩ : BufTy).Contents (Elt F)),
    unary main_v146 main_v188 (broadcastInDim S550000x1 ![0] bcast_S550000_S550000x1_0 : (⟨S550000, .i32⟩ : BufTy).Contents (Elt F) → (⟨S550000x1, .i32⟩ : BufTy).Contents (Elt F)),
    ternary main_v187 main_v188 main_v186 main_v189 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)) ]

/-- The buffers piece c15 writes. -/
abbrev c15_W : List (Ref sig .tc) := [main_c_45, main_v177, main_v178, main_c_46, main_v179, main_v180, main_v181, main_v182, main_v183, main_v184, main_v185, main_v186, main_cst_47, main_v187, main_v188, main_v189]

/-- Piece c16: 6 operations of window `main_part4` (R3). -/
abbrev c16 : List (HloOp τ sig (Elt F)) :=
  [ unary main_arg12 main_v190 (broadcastInDim S1x128 ![1] bcast_S128_S1x128_1 : (⟨S128, .f32⟩ : BufTy).Contents (Elt F) → (⟨S1x128, .f32⟩ : BufTy).Contents (Elt F)),
    unary main_v190 main_v191 (broadcastInDim S50000x128 ![0, 1] bcast_S1x128_S50000x128_0_1 : (⟨S1x128, .f32⟩ : BufTy).Contents (Elt F) → (⟨S50000x128, .f32⟩ : BufTy).Contents (Elt F)),
    binary main_v189 main_v191 main_v192 (addf : (⟨S50000x128, .f32⟩ : BufTy).Contents (Elt F) → (⟨S50000x128, .f32⟩ : BufTy).Contents (Elt F) → (⟨S50000x128, .f32⟩ : BufTy).Contents (Elt F)),
    TRef.nullary main_call10.cst (constant S_ .f32 0x00000000#32),
    TRef.unary main_call10.cst main_call10.v0 (broadcastInDim S50000x128 ![] bcast_S_S50000x128),
    TRef.binary (.of main_v192 : TRef sig ⟨S50000x128, .f32⟩) main_call10.v0 main_call10.v1 maximumf ]

/-- The buffers piece c16 writes. -/
abbrev c16_W : List (Ref sig .tc) := [main_v190, main_v191, main_v192, main_call10_cst, main_call10_v0, main_v193]

/-- Piece c17: 42 operations of window `main_part4` (B3). -/
abbrev c17 : List (HloOp τ sig (Elt F)) :=
  [ nullary main_cst_48 (constant S_ .f32 0x00000000#32),
    binary main_v193 main_cst_48 main_v194 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_49 (constant S_ .f32 0x47435000#32),
    unary main_cst_49 main_v195 (broadcastInDim S128 ![] bcast_S_S128 : (⟨S_, .f32⟩ : BufTy).Contents (Elt F) → (⟨S128, .f32⟩ : BufTy).Contents (Elt F)),
    binary main_v194 main_v195 main_v196 (Host.divf : (⟨S128, .f32⟩ : BufTy).Contents (Elt F) → (⟨S128, .f32⟩ : BufTy).Contents (Elt F) → (⟨S128, .f32⟩ : BufTy).Contents (Elt F)),
    nullary main_c_50 (constantI S_ 32 0#32),
    TRef.nullary main_call11.cst (constant S_ .f32 0x00000000#32),
    TRef.binary (.of main_v193 : TRef sig ⟨S50000x128, .f32⟩) main_call11.cst main_call11.v0 (fun x v => Host.reduceAdd x v reducesTo_S50000x128_S128_d0 h_S_),
    TRef.unary main_call11.v0 main_call11.v1 (broadcastInDim S1x128 ![1] bcast_S128_S1x128_1),
    TRef.nullary main_call11.cst_0 (constant S_ .f32 0x47435000#32),
    TRef.unary main_call11.cst_0 main_call11.v2 (broadcastInDim S1x128 ![] bcast_S_S1x128),
    TRef.binary main_call11.v1 main_call11.v2 main_call11.v3 Host.divf,
    TRef.unary main_call11.v3 main_call11.v4 (broadcastInDim S50000x128 ![0, 1] bcast_S1x128_S50000x128_0_1),
    TRef.binary (.of main_v193 : TRef sig ⟨S50000x128, .f32⟩) main_call11.v4 main_call11.v5 subf,
    TRef.binary main_call11.v5 main_call11.v5 main_call11.v6 mulf,
    TRef.unary (.of main_c_50 : TRef sig ⟨S_, .i32⟩) main_call11.v7 (sitofp .f32),
    TRef.nullary main_call11.cst_1 (constant S_ .f32 0x47435000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S50000x128_S128_d0 h_S_),
    TRef.unary main_call11.v8 main_call11.v10 (broadcastInDim S128 ![] bcast_S_S128),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S128 ![] bcast_S_S128),
    TRef.ternary main_call11.v12 main_call11.v11 main_call11.call0.v1 main_call11.call0.v2 (fun p a b => select (broadcastInDim S128 ![] bcast_S_S128 p) a b),
    unary main_v196 main_v198 (broadcastInDim S1x128 ![1] bcast_S128_S1x128_1 : (⟨S128, .f32⟩ : BufTy).Contents (Elt F) → (⟨S1x128, .f32⟩ : BufTy).Contents (Elt F)),
    unary main_v198 main_v199 (broadcastInDim S50000x128 ![0, 1] bcast_S1x128_S50000x128_0_1 : (⟨S1x128, .f32⟩ : BufTy).Contents (Elt F) → (⟨S50000x128, .f32⟩ : BufTy).Contents (Elt F)),
    binary main_v193 main_v199 main_v200 (subf : (⟨S50000x128, .f32⟩ : BufTy).Contents (Elt F) → (⟨S50000x128, .f32⟩ : BufTy).Contents (Elt F) → (⟨S50000x128, .f32⟩ : BufTy).Contents (Elt F)),
    nullary main_cst_51 (constant S_ .f32 0x3727C5AC#32),
    unary main_cst_51 main_v201 (broadcastInDim S128 ![] bcast_S_S128 : (⟨S_, .f32⟩ : BufTy).Contents (Elt F) → (⟨S128, .f32⟩ : BufTy).Contents (Elt F)),
    binary main_v197 main_v201 main_v202 (addf : (⟨S128, .f32⟩ : BufTy).Contents (Elt F) → (⟨S128, .f32⟩ : BufTy).Contents (Elt F) → (⟨S128, .f32⟩ : BufTy).Contents (Elt F)),
    unary main_v202 main_v203 (Host.sqrt : (⟨S128, .f32⟩ : BufTy).Contents (Elt F) → (⟨S128, .f32⟩ : BufTy).Contents (Elt F)),
    binary main_arg13 main_v203 main_v204 (Host.divf : (⟨S128, .f32⟩ : BufTy).Contents (Elt F) → (⟨S128, .f32⟩ : BufTy).Contents (Elt F) → (⟨S128, .f32⟩ : BufTy).Contents (Elt F)),
    unary main_v204 main_v205 (broadcastInDim S1x128 ![1] bcast_S128_S1x128_1 : (⟨S128, .f32⟩ : BufTy).Contents (Elt F) → (⟨S1x128, .f32⟩ : BufTy).Contents (Elt F)),
    unary main_v205 main_v206 (broadcastInDim S50000x128 ![0, 1] bcast_S1x128_S50000x128_0_1 : (⟨S1x128, .f32⟩ : BufTy).Contents (Elt F) → (⟨S50000x128, .f32⟩ : BufTy).Contents (Elt F)),
    binary main_v200 main_v206 main_v207 (mulf : (⟨S50000x128, .f32⟩ : BufTy).Contents (Elt F) → (⟨S50000x128, .f32⟩ : BufTy).Contents (Elt F) → (⟨S50000x128, .f32⟩ : BufTy).Contents (Elt F)),
    unary main_arg14 main_v208 (broadcastInDim S1x128 ![1] bcast_S128_S1x128_1 : (⟨S128, .f32⟩ : BufTy).Contents (Elt F) → (⟨S1x128, .f32⟩ : BufTy).Contents (Elt F)),
    unary main_v208 main_v209 (broadcastInDim S50000x128 ![0, 1] bcast_S1x128_S50000x128_0_1 : (⟨S1x128, .f32⟩ : BufTy).Contents (Elt F) → (⟨S50000x128, .f32⟩ : BufTy).Contents (Elt F)),
    binary main_v207 main_v209 main_v210 (addf : (⟨S50000x128, .f32⟩ : BufTy).Contents (Elt F) → (⟨S50000x128, .f32⟩ : BufTy).Contents (Elt F) → (⟨S50000x128, .f32⟩ : BufTy).Contents (Elt F)) ]

/-- The buffers piece c17 writes. -/
abbrev c17_W : List (Ref sig .tc) := [main_cst_48, main_v194, main_cst_49, main_v195, main_v196, main_c_50, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v197, main_v198, main_v199, main_v200, main_cst_51, main_v201, main_v202, main_v203, main_v204, main_v205, main_v206, main_v207, main_v208, main_v209, main_v210]

/-- Window `main_part0`'s operations. -/
abbrev ops_main_part0 : List (HloOp τ sig (Elt F)) := c00 ++ (c01 ++ (c02 ++ (c03)))
/-- Window `main_part1`'s operations. -/
abbrev ops_main_part1 : List (HloOp τ sig (Elt F)) := c04 ++ (c05 ++ (c06 ++ (c07 ++ (c08))))
/-- Window `main_part2`'s operations. -/
abbrev ops_main_part2 : List (HloOp τ sig (Elt F)) := c09 ++ (c10 ++ (c11 ++ (c12 ++ (c13))))
/-- Window `main_part3`'s operations. -/
abbrev ops_main_part3 : List (HloOp τ sig (Elt F)) := c14 ++ (c15)
/-- Window `main_part4`'s operations. -/
abbrev ops_main_part4 : List (HloOp τ sig (Elt F)) := c16 ++ (c17)

/-- @main's 346 operations, in order, the calls unfolded. -/
abbrev ops : List (HloOp τ sig (Elt F)) := ops_main_part0 ++ (ops_main_part1 ++ (ops_main_part2 ++ (ops_main_part3 ++ (ops_main_part4))))

set_option maxRecDepth 8192 in
set_option maxHeartbeats 4000000 in
theorem main_part0_eq (c : Dev nD) : main_part0 (F := F) c = seq ops_main_part0 := rfl
set_option maxRecDepth 8192 in
set_option maxHeartbeats 4000000 in
theorem main_part1_eq (c : Dev nD) : main_part1 (F := F) c = seq ops_main_part1 := rfl
set_option maxRecDepth 8192 in
set_option maxHeartbeats 4000000 in
theorem main_part2_eq (c : Dev nD) : main_part2 (F := F) c = seq ops_main_part2 := rfl
set_option maxRecDepth 8192 in
set_option maxHeartbeats 4000000 in
theorem main_part3_eq (c : Dev nD) : main_part3 (F := F) c = seq ops_main_part3 := rfl
set_option maxRecDepth 8192 in
set_option maxHeartbeats 4000000 in
theorem main_part4_eq (c : Dev nD) : main_part4 (F := F) c = seq ops_main_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem c00_sub : (c00 : List (HloOp τ sig (Elt F))).Forall fun op => op.bufs ⊆ tcRefs τ sig :=
  ⟨unary_bufs_sub .., reshape_bufs_sub .., unary_bufs_sub .., reshape_bufs_sub ..⟩
set_option maxRecDepth 8192 in
theorem c01_sub : (c01 : List (HloOp τ sig (Elt F))).Forall fun op => op.bufs ⊆ tcRefs τ sig :=
  ⟨unary_bufs_sub .., binary_bufs_sub ..⟩
set_option maxRecDepth 8192 in
theorem c02_sub : (c02 : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem c03_sub : (c03 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub ..⟩
set_option maxRecDepth 8192 in
theorem c04_sub : (c04 : List (HloOp τ sig (Elt F))).Forall fun op => op.bufs ⊆ tcRefs τ sig :=
  ⟨unary_bufs_sub .., binary_bufs_sub .., nullary_bufs_sub .., unary_bufs_sub .., unary_bufs_sub .., ternary_bufs_sub ..⟩
set_option maxRecDepth 8192 in
theorem c05_sub : (c05 : List (HloOp τ sig (Elt F))).Forall fun op => op.bufs ⊆ tcRefs τ sig :=
  ⟨unary_bufs_sub .., unary_bufs_sub .., binary_bufs_sub .., nullary_bufs_sub .., unary_bufs_sub .., binary_bufs_sub ..⟩
set_option maxRecDepth 8192 in
theorem c06_sub : (c06 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub ..⟩
set_option maxRecDepth 8192 in
theorem c07_sub : (c07 : List (HloOp τ sig (Elt F))).Forall fun op => op.bufs ⊆ tcRefs τ sig :=
  ⟨unary_bufs_sub .., binary_bufs_sub ..⟩
set_option maxRecDepth 8192 in
theorem c08_sub : (c08 : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub ..⟩
set_option maxRecDepth 8192 in
theorem c09_sub : (c09 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem c10_sub : (c10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
set_option maxRecDepth 8192 in
theorem c11_sub : (c11 : List (HloOp τ sig (Elt F))).Forall fun op => op.bufs ⊆ tcRefs τ sig :=
  ⟨unary_bufs_sub .., unary_bufs_sub .., binary_bufs_sub .., nullary_bufs_sub .., unary_bufs_sub .., binary_bufs_sub ..⟩
set_option maxRecDepth 8192 in
theorem c12_sub : (c12 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub ..⟩
set_option maxRecDepth 8192 in
theorem c13_sub : (c13 : List (HloOp τ sig (Elt F))).Forall fun op => op.bufs ⊆ tcRefs τ sig :=
  ⟨unary_bufs_sub .., binary_bufs_sub ..⟩
set_option maxRecDepth 8192 in
theorem c14_sub : (c14 : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem c15_sub : (c15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
set_option maxRecDepth 8192 in
theorem c16_sub : (c16 : List (HloOp τ sig (Elt F))).Forall fun op => op.bufs ⊆ tcRefs τ sig :=
  ⟨unary_bufs_sub .., unary_bufs_sub .., binary_bufs_sub .., nullary_bufs_sub .., unary_bufs_sub .., binary_bufs_sub ..⟩
set_option maxRecDepth 8192 in
theorem c17_sub : (c17 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, ops_main_part0, ops_main_part1, ops_main_part2, ops_main_part3, ops_main_part4, List.mem_append, or_assoc] at h
    rcases h with h | h | h | h | h | h | h | h | h | h | h | h | h | h | h | h | h | h
    exacts [List.forall_iff_forall_mem.mp c00_sub op h, List.forall_iff_forall_mem.mp c01_sub op h, List.forall_iff_forall_mem.mp c02_sub op h, List.forall_iff_forall_mem.mp c03_sub op h, List.forall_iff_forall_mem.mp c04_sub op h, List.forall_iff_forall_mem.mp c05_sub op h, List.forall_iff_forall_mem.mp c06_sub op h, List.forall_iff_forall_mem.mp c07_sub op h, List.forall_iff_forall_mem.mp c08_sub op h, List.forall_iff_forall_mem.mp c09_sub op h, List.forall_iff_forall_mem.mp c10_sub op h, List.forall_iff_forall_mem.mp c11_sub op h, List.forall_iff_forall_mem.mp c12_sub op h, List.forall_iff_forall_mem.mp c13_sub op h, List.forall_iff_forall_mem.mp c14_sub op h, List.forall_iff_forall_mem.mp c15_sub op h, List.forall_iff_forall_mem.mp c16_sub op h, List.forall_iff_forall_mem.mp c17_sub op h]

/-- On every device, for any float values, from any memory with zero counters: every weakly fair execution of @main
    terminates, and every final state has each buffer at the fold of the operations over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.RefSpec.lean ====
import proofs.«152337_j16226386444398_1_alg».proof.Proof.Gen.ReferenceIdeal

/-! The reference program's host terms, stage by stage, as functions of arrays.

Every definition below is the composition of the reference's own operations, in the order the program
applies them: nothing is simplified. A graph-convolution layer is
`bnOf (reluOf (aggOf (hOf x W) (normOf ei ew) (srcOf ei) (dstOf ei)) b) g be`; the network is three of them. -/

noncomputable section

namespace Cert.ReferenceIdeal.RefSpec

open Cert.ReferenceIdeal Cert.ReferenceIdeal.Gen Idealize.ShloMosaic

variable {F : FTy → Type} [FloatOps F]

/-- Row 0 of the edge index, as a vector: the 500000 edge sources. -/
def src500 (ei : (⟨S2x500000, .i32⟩ : BufTy).Contents (Elt F)) : (⟨S500000, .i32⟩ : BufTy).Contents (Elt F) :=
  shapeCast S500000 (extractStridedSlice S1x500000 ![0, 0] ei slices_S2x500000_S1x500000_0_0) shapeCasts_S1x500000_S500000

/-- Row 1 of the edge index, as a vector: the 500000 edge destinations. -/
def dst500 (ei : (⟨S2x500000, .i32⟩ : BufTy).Contents (Elt F)) : (⟨S500000, .i32⟩ : BufTy).Contents (Elt F) :=
  shapeCast S500000 (extractStridedSlice S1x500000 ![1, 0] ei slices_S2x500000_S1x500000_1_0) shapeCasts_S1x500000_S500000

/-- 500000 node indices followed by the 50000 self loops `0, 1, …, 49999`. -/
def withLoops (a : (⟨S500000, .i32⟩ : BufTy).Contents (Elt F)) : (⟨S550000, .i32⟩ : BufTy).Contents (Elt F) :=
  concatenate S550000 0 [⟨S500000, a⟩, ⟨S50000, iotaInDim S50000 32 0⟩] concatenates_S500000_S50000_S550000_d0

/-- The 550000 sources: the edges' then the self loops'. -/
def srcOf (ei : (⟨S2x500000, .i32⟩ : BufTy).Contents (Elt F)) : (⟨S550000, .i32⟩ : BufTy).Contents (Elt F) := withLoops (src500 ei)

/-- The 550000 destinations: the edges' then the self loops'. -/
def dstOf (ei : (⟨S2x500000, .i32⟩ : BufTy).Contents (Elt F)) : (⟨S550000, .i32⟩ : BufTy).Contents (Elt F) := withLoops (dst500 ei)

/-- The 550000 weights: the edges' then `1` for each self loop. -/
def wFull (ew : (⟨S500000, .f32⟩ : BufTy).Contents (Elt F)) : (⟨S550000, .f32⟩ : BufTy).Contents (Elt F) :=
  concatenate S550000 0 [⟨S500000, ew⟩, ⟨S50000, broadcastInDim S50000 ![] bcast_S_S50000 (constant (F := F) S_ .f32 0x3F800000#32)⟩] concatenates_S500000_S50000_S550000_d0

/-- 50000 zeros. -/
def zeros50000 : (⟨S50000, .f32⟩ : BufTy).Contents (Elt F) := broadcastInDim S50000 ![] bcast_S_S50000 (constant (F := F) S_ .f32 0x00000000#32)

/-- 50000 ones. -/
def ones50000 : (⟨S50000, .f32⟩ : BufTy).Contents (Elt F) := broadcastInDim S50000 ![] bcast_S_S50000 (constant (F := F) S_ .f32 0x3F800000#32)

/-- An index vector as a one-column table. -/
def idxCol (i : (⟨S550000, .i32⟩ : BufTy).Contents (Elt F)) : (⟨S550000x1, .i32⟩ : BufTy).Contents (Elt F) :=
  broadcastInDim S550000x1 ![0] bcast_S550000_S550000x1_0 i

/-- The degree of each node: the weights summed by destination, from zero. -/
def degOf (dst : (⟨S550000, .i32⟩ : BufTy).Contents (Elt F)) (w : (⟨S550000, .f32⟩ : BufTy).Contents (Elt F)) : (⟨S50000, .f32⟩ : BufTy).Contents (Elt F) :=
  Host.scatterAdd scatter_S50000_S550000x1_S550000_n_0_0_1 (zeros50000 (F := F)) (idxCol dst) w

/-- `1 / sqrt deg` where `deg > 0` (the square root taken of `deg` there and of `1` elsewhere), else `0`. -/
def dinvOf (deg : (⟨S50000, .f32⟩ : BufTy).Contents (Elt F)) : (⟨S50000, .f32⟩ : BufTy).Contents (Elt F) :=
  select (cmpf .ogt deg (zeros50000 (F := F)))
    (Host.divf (ones50000 (F := F)) (Host.sqrt (select (cmpf .ogt deg (zeros50000 (F := F))) deg (ones50000 (F := F)))))
    (zeros50000 (F := F))

/-- A negative index counted from the end: `i + 50000` where `i < 0`, else `i`. -/
def wrapIdx (i : (⟨S550000, .i32⟩ : BufTy).Contents (Elt F)) : (⟨S550000, .i32⟩ : BufTy).Contents (Elt F) :=
  select (cmpi .slt i (broadcastInDim S550000 ![] bcast_S_S550000 (constantI S_ 32 0#32)))
    (addi i (broadcastInDim S550000 ![] bcast_S_S550000 (constantI S_ 32 50000#32))) i

/-- A vector over the nodes read at 550000 indices. -/
def gather1 (x : (⟨S50000, .f32⟩ : BufTy).Contents (Elt F)) (i : (⟨S550000, .i32⟩ : BufTy).Contents (Elt F)) : (⟨S550000, .f32⟩ : BufTy).Contents (Elt F) :=
  Host.gather gather_S50000_S550000x1_S550000_n_0_n_n_0_1_1 x (idxCol (wrapIdx i))

/-- The symmetric normalization from the index vectors and the weights: `dinv[src] * w * dinv[dst]`. -/
def normFrom (src dst : (⟨S550000, .i32⟩ : BufTy).Contents (Elt F)) (w : (⟨S550000, .f32⟩ : BufTy).Contents (Elt F)) : (⟨S550000, .f32⟩ : BufTy).Contents (Elt F) :=
  mulf (mulf (gather1 (dinvOf (degOf dst w)) src) w) (gather1 (dinvOf (degOf dst w)) dst)

/-- The symmetric normalization of the 550000 weights, from the edge index and the edge weights. -/
def normOf (ei : (⟨S2x500000, .i32⟩ : BufTy).Contents (Elt F)) (ew : (⟨S500000, .f32⟩ : BufTy).Contents (Elt F)) : (⟨S550000, .f32⟩ : BufTy).Contents (Elt F) :=
  normFrom (srcOf ei) (dstOf ei) (wFull (F := F) ew)

/-- The dense layer: `x` times the transpose of `W`. -/
def hOf (x : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none x (transpose S128x128 [1, 0] W transposes_S128x128_S128x128_1_0)

/-- The aggregation: row `src` of `h` times `norm`, for each of the 550000 entries, summed by destination from zero. -/
def aggOf (h : (⟨S50000x128, .f32⟩ : BufTy).Contents (Elt F)) (norm : (⟨S550000, .f32⟩ : BufTy).Contents (Elt F)) (src dst : (⟨S550000, .i32⟩ : BufTy).Contents (Elt F)) : (⟨S50000x128, .f32⟩ : BufTy).Contents (Elt F) :=
  Host.scatterAdd scatter_S50000x128_S550000x1_S550000x128_1_0_0_1
    (broadcastInDim S50000x128 ![] bcast_S_S50000x128 (constant (F := F) S_ .f32 0x00000000#32))
    (idxCol dst)
    (mulf (Host.gather gather_S50000x128_S550000x1_S550000x128_1_0_n_n_0_1_1128 h (idxCol (wrapIdx src)))
      (broadcastInDim S550000x128 ![0, 1] bcast_S550000x1_S550000x128_0_1 (broadcastInDim S550000x1 ![0] bcast_S550000_S550000x1_0 norm)))

/-- A vector of 128 as every row of a 50000 × 128 array. -/
def rowBcast (r : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 r)

/-- The bias added to every row, then the positive part. -/
def reluOf (agg : (⟨S50000x128, .f32⟩ : BufTy).Contents (Elt F)) (b : (⟨S128, .f32⟩ : BufTy).Contents (Elt F)) : (⟨S50000x128, .f32⟩ : BufTy).Contents (Elt F) :=
  maximumf (addf agg (rowBcast b)) (broadcastInDim S50000x128 ![] bcast_S_S50000x128 (constant (F := F) S_ .f32 0x00000000#32))

/-- The column sums, from zero. -/
def colSum (v : (⟨S50000x128, .f32⟩ : BufTy).Contents (Elt F)) : (⟨S128, .f32⟩ : BufTy).Contents (Elt F) :=
  Host.reduceAdd v (constant (F := F) S_ .f32 0x00000000#32) reducesTo_S50000x128_S128_d0 h_S_

/-- The column means: the column sums over 50000. -/
def meanOf (v : (⟨S50000x128, .f32⟩ : BufTy).Contents (Elt F)) : (⟨S128, .f32⟩ : BufTy).Contents (Elt F) :=
  Host.divf (colSum v) (broadcastInDim S128 ![] bcast_S_S128 (constant (F := F) S_ .f32 0x47435000#32))

/-- The column variances as the outlined function computes them, with its correction `0`: the squared deviations from
    the (kept-dimension) mean summed and divided by `50000 - 0`, selected where `50000 - 0 > 0`, a NaN elsewhere. -/
def varOf (v : (⟨S50000x128, .f32⟩ : BufTy).Contents (Elt F)) : (⟨S128, .f32⟩ : BufTy).Contents (Elt F) :=
  select
    (broadcastInDim S128 ![] bcast_S_S128
      (cmpf .ogt (subf (constant (F := F) S_ .f32 0x47435000#32) (sitofp .f32 (constantI S_ 32 0#32))) (constant (F := F) S_ .f32 0x00000000#32)))
    (Host.divf
      (colSum
        (mulf
          (subf v (broadcastInDim S50000x128 ![0, 1] bcast_S1x128_S50000x128_0_1
            (Host.divf (broadcastInDim S1x128 ![1] bcast_S128_S1x128_1 (colSum v))
              (broadcastInDim S1x128 ![] bcast_S_S1x128 (constant (F := F) S_ .f32 0x47435000#32)))))
          (subf v (broadcastInDim S50000x128 ![0, 1] bcast_S1x128_S50000x128_0_1
            (Host.divf (broadcastInDim S1x128 ![1] bcast_S128_S1x128_1 (colSum v))
              (broadcastInDim S1x128 ![] bcast_S_S1x128 (constant (F := F) S_ .f32 0x47435000#32)))))))
      (broadcastInDim S128 ![] bcast_S_S128
        (subf (constant (F := F) S_ .f32 0x47435000#32) (sitofp .f32 (constantI S_ 32 0#32)))))
    (broadcastInDim S128 ![] bcast_S_S128 (constant (F := F) S_ .f32 0x7FC00000#32))

/-- Batch normalization over the 50000 rows: `(v - mean) * (g / sqrt (var + eps)) + be`, column by column. -/
def bnOf (v : (⟨S50000x128, .f32⟩ : BufTy).Contents (Elt F)) (g be : (⟨S128, .f32⟩ : BufTy).Contents (Elt F)) : (⟨S50000x128, .f32⟩ : BufTy).Contents (Elt F) :=
  addf
    (mulf (subf v (rowBcast (meanOf v)))
      (rowBcast (Host.divf g (Host.sqrt (addf (varOf v) (broadcastInDim S128 ![] bcast_S_S128 (constant (F := F) S_ .f32 0x3727C5AC#32)))))))
    (rowBcast be)

/-- One graph-convolution layer. -/
def layer (x : (⟨S50000x128, .f32⟩ : BufTy).Contents (Elt F)) (W : (⟨S128x128, .f32⟩ : BufTy).Contents (Elt F)) (b g be : (⟨S128, .f32⟩ : BufTy).Contents (Elt F))
    (ei : (⟨S2x500000, .i32⟩ : BufTy).Contents (Elt F)) (ew : (⟨S500000, .f32⟩ : BufTy).Contents (Elt F)) : (⟨S50000x128, .f32⟩ : BufTy).Contents (Elt F) :=
  bnOf (reluOf (aggOf (hOf x W) (normOf ei ew) (srcOf ei) (dstOf ei)) b) g be

/-- The network: three layers, each over the same graph; the arguments in the program's order. -/
def out (x : (⟨S50000x128, .f32⟩ : BufTy).Contents (Elt F)) (ei : (⟨S2x500000, .i32⟩ : BufTy).Contents (Elt F)) (ew : (⟨S500000, .f32⟩ : BufTy).Contents (Elt F))
    (W1 : (⟨S128x128, .f32⟩ : BufTy).Contents (Elt F)) (b1 g1 be1 : (⟨S128, .f32⟩ : BufTy).Contents (Elt F))
    (W2 : (⟨S128x128, .f32⟩ : BufTy).Contents (Elt F)) (b2 g2 be2 : (⟨S128, .f32⟩ : BufTy).Contents (Elt F))
    (W3 : (⟨S128x128, .f32⟩ : BufTy).Contents (Elt F)) (b3 g3 be3 : (⟨S128, .f32⟩ : BufTy).Contents (Elt F)) : (⟨S50000x128, .f32⟩ : BufTy).Contents (Elt F) :=
  layer (layer (layer x W1 b1 g1 be1 ei ew) W2 b2 g2 be2 ei ew) W3 b3 g3 be3 ei ew

end Cert.ReferenceIdeal.RefSpec

end
-- ==== Proof.RefValue.lean ====
import proofs.«152337_j16226386444398_1_alg».proof.Proof.RefOps
import proofs.«152337_j16226386444398_1_alg».proof.Proof.RefSpec

/-! The reference's run read back: after the program, the result buffer holds `RefSpec.out` of the arguments' launch
contents, and the arguments are unchanged.

The contents after each piece of the operation list are named (`val0 … val18`); a buffer a piece does not write keeps
its contents through it; each stage's result is its `RefSpec` function of the buffers the stage reads, the operations'
results composed in order; the stages then chain. -/

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.RefRun

variable {F : FTy → Type} [FloatOps F]

/-- The device's buffer contents before the first piece. -/
def val0 (V0 : Valuation τ sig (Elt F)) : Valuation τ sig (Elt F) := V0

set_option maxRecDepth 8192 in
theorem c00_writes : (c00 : List (HloOp τ sig (Elt F))).Forall fun op => op.writes ⊆ (c00_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c00. -/
def val1 (V0 : Valuation τ sig (Elt F)) : Valuation τ sig (Elt F) := after c00 (val0 V0)
/-- A buffer that piece c00 does not write keeps its contents through it. -/
theorem val1_keep (V0 : Valuation τ sig (Elt F)) (r : Ref sig .tc) (h : r ∉ c00_W) :
    val1 V0 (no_index (Proc.devRef .tc r)) = val0 V0 (Proc.devRef .tc r) :=
  after_of_writes_sub c00 _ c00_writes h

set_option maxRecDepth 8192 in
theorem c01_writes : (c01 : List (HloOp τ sig (Elt F))).Forall fun op => op.writes ⊆ (c01_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c01. -/
def val2 (V0 : Valuation τ sig (Elt F)) : Valuation τ sig (Elt F) := after c01 (val1 V0)
/-- A buffer that piece c01 does not write keeps its contents through it. -/
theorem val2_keep (V0 : Valuation τ sig (Elt F)) (r : Ref sig .tc) (h : r ∉ c01_W) :
    val2 V0 (no_index (Proc.devRef .tc r)) = val1 V0 (Proc.devRef .tc r) :=
  after_of_writes_sub c01 _ c01_writes h

set_option maxRecDepth 8192 in
theorem c02_writes : (c02 : List (HloOp τ sig (Elt F))).Forall fun op => op.writes ⊆ (c02_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c02. -/
def val3 (V0 : Valuation τ sig (Elt F)) : Valuation τ sig (Elt F) := after c02 (val2 V0)
/-- A buffer that piece c02 does not write keeps its contents through it. -/
theorem val3_keep (V0 : Valuation τ sig (Elt F)) (r : Ref sig .tc) (h : r ∉ c02_W) :
    val3 V0 (no_index (Proc.devRef .tc r)) = val2 V0 (Proc.devRef .tc r) :=
  after_of_writes_sub c02 _ c02_writes h

set_option maxRecDepth 8192 in
theorem c03_writes : (c03 : List (HloOp τ sig (Elt F))).Forall fun op => op.writes ⊆ (c03_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c03. -/
def val4 (V0 : Valuation τ sig (Elt F)) : Valuation τ sig (Elt F) := after c03 (val3 V0)
/-- A buffer that piece c03 does not write keeps its contents through it. -/
theorem val4_keep (V0 : Valuation τ sig (Elt F)) (r : Ref sig .tc) (h : r ∉ c03_W) :
    val4 V0 (no_index (Proc.devRef .tc r)) = val3 V0 (Proc.devRef .tc r) :=
  after_of_writes_sub c03 _ c03_writes h

set_option maxRecDepth 8192 in
theorem c04_writes : (c04 : List (HloOp τ sig (Elt F))).Forall fun op => op.writes ⊆ (c04_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c04. -/
def val5 (V0 : Valuation τ sig (Elt F)) : Valuation τ sig (Elt F) := after c04 (val4 V0)
/-- A buffer that piece c04 does not write keeps its contents through it. -/
theorem val5_keep (V0 : Valuation τ sig (Elt F)) (r : Ref sig .tc) (h : r ∉ c04_W) :
    val5 V0 (no_index (Proc.devRef .tc r)) = val4 V0 (Proc.devRef .tc r) :=
  after_of_writes_sub c04 _ c04_writes h

set_option maxRecDepth 8192 in
theorem c05_writes : (c05 : List (HloOp τ sig (Elt F))).Forall fun op => op.writes ⊆ (c05_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c05. -/
def val6 (V0 : Valuation τ sig (Elt F)) : Valuation τ sig (Elt F) := after c05 (val5 V0)
/-- A buffer that piece c05 does not write keeps its contents through it. -/
theorem val6_keep (V0 : Valuation τ sig (Elt F)) (r : Ref sig .tc) (h : r ∉ c05_W) :
    val6 V0 (no_index (Proc.devRef .tc r)) = val5 V0 (Proc.devRef .tc r) :=
  after_of_writes_sub c05 _ c05_writes h

set_option maxRecDepth 8192 in
theorem c06_writes : (c06 : List (HloOp τ sig (Elt F))).Forall fun op => op.writes ⊆ (c06_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c06. -/
def val7 (V0 : Valuation τ sig (Elt F)) : Valuation τ sig (Elt F) := after c06 (val6 V0)
/-- A buffer that piece c06 does not write keeps its contents through it. -/
theorem val7_keep (V0 : Valuation τ sig (Elt F)) (r : Ref sig .tc) (h : r ∉ c06_W) :
    val7 V0 (no_index (Proc.devRef .tc r)) = val6 V0 (Proc.devRef .tc r) :=
  after_of_writes_sub c06 _ c06_writes h

set_option maxRecDepth 8192 in
theorem c07_writes : (c07 : List (HloOp τ sig (Elt F))).Forall fun op => op.writes ⊆ (c07_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c07. -/
def val8 (V0 : Valuation τ sig (Elt F)) : Valuation τ sig (Elt F) := after c07 (val7 V0)
/-- A buffer that piece c07 does not write keeps its contents through it. -/
theorem val8_keep (V0 : Valuation τ sig (Elt F)) (r : Ref sig .tc) (h : r ∉ c07_W) :
    val8 V0 (no_index (Proc.devRef .tc r)) = val7 V0 (Proc.devRef .tc r) :=
  after_of_writes_sub c07 _ c07_writes h

set_option maxRecDepth 8192 in
theorem c08_writes : (c08 : List (HloOp τ sig (Elt F))).Forall fun op => op.writes ⊆ (c08_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c08. -/
def val9 (V0 : Valuation τ sig (Elt F)) : Valuation τ sig (Elt F) := after c08 (val8 V0)
/-- A buffer that piece c08 does not write keeps its contents through it. -/
theorem val9_keep (V0 : Valuation τ sig (Elt F)) (r : Ref sig .tc) (h : r ∉ c08_W) :
    val9 V0 (no_index (Proc.devRef .tc r)) = val8 V0 (Proc.devRef .tc r) :=
  after_of_writes_sub c08 _ c08_writes h

set_option maxRecDepth 8192 in
theorem c09_writes : (c09 : List (HloOp τ sig (Elt F))).Forall fun op => op.writes ⊆ (c09_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c09. -/
def val10 (V0 : Valuation τ sig (Elt F)) : Valuation τ sig (Elt F) := after c09 (val9 V0)
/-- A buffer that piece c09 does not write keeps its contents through it. -/
theorem val10_keep (V0 : Valuation τ sig (Elt F)) (r : Ref sig .tc) (h : r ∉ c09_W) :
    val10 V0 (no_index (Proc.devRef .tc r)) = val9 V0 (Proc.devRef .tc r) :=
  after_of_writes_sub c09 _ c09_writes h

set_option maxRecDepth 8192 in
theorem c10_writes : (c10 : List (HloOp τ sig (Elt F))).Forall fun op => op.writes ⊆ (c10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c10. -/
def val11 (V0 : Valuation τ sig (Elt F)) : Valuation τ sig (Elt F) := after c10 (val10 V0)
/-- A buffer that piece c10 does not write keeps its contents through it. -/
theorem val11_keep (V0 : Valuation τ sig (Elt F)) (r : Ref sig .tc) (h : r ∉ c10_W) :
    val11 V0 (no_index (Proc.devRef .tc r)) = val10 V0 (Proc.devRef .tc r) :=
  after_of_writes_sub c10 _ c10_writes h

set_option maxRecDepth 8192 in
theorem c11_writes : (c11 : List (HloOp τ sig (Elt F))).Forall fun op => op.writes ⊆ (c11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c11. -/
def val12 (V0 : Valuation τ sig (Elt F)) : Valuation τ sig (Elt F) := after c11 (val11 V0)
/-- A buffer that piece c11 does not write keeps its contents through it. -/
theorem val12_keep (V0 : Valuation τ sig (Elt F)) (r : Ref sig .tc) (h : r ∉ c11_W) :
    val12 V0 (no_index (Proc.devRef .tc r)) = val11 V0 (Proc.devRef .tc r) :=
  after_of_writes_sub c11 _ c11_writes h

set_option maxRecDepth 8192 in
theorem c12_writes : (c12 : List (HloOp τ sig (Elt F))).Forall fun op => op.writes ⊆ (c12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c12. -/
def val13 (V0 : Valuation τ sig (Elt F)) : Valuation τ sig (Elt F) := after c12 (val12 V0)
/-- A buffer that piece c12 does not write keeps its contents through it. -/
theorem val13_keep (V0 : Valuation τ sig (Elt F)) (r : Ref sig .tc) (h : r ∉ c12_W) :
    val13 V0 (no_index (Proc.devRef .tc r)) = val12 V0 (Proc.devRef .tc r) :=
  after_of_writes_sub c12 _ c12_writes h

set_option maxRecDepth 8192 in
theorem c13_writes : (c13 : List (HloOp τ sig (Elt F))).Forall fun op => op.writes ⊆ (c13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c13. -/
def val14 (V0 : Valuation τ sig (Elt F)) : Valuation τ sig (Elt F) := after c13 (val13 V0)
/-- A buffer that piece c13 does not write keeps its contents through it. -/
theorem val14_keep (V0 : Valuation τ sig (Elt F)) (r : Ref sig .tc) (h : r ∉ c13_W) :
    val14 V0 (no_index (Proc.devRef .tc r)) = val13 V0 (Proc.devRef .tc r) :=
  after_of_writes_sub c13 _ c13_writes h

set_option maxRecDepth 8192 in
theorem c14_writes : (c14 : List (HloOp τ sig (Elt F))).Forall fun op => op.writes ⊆ (c14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c14. -/
def val15 (V0 : Valuation τ sig (Elt F)) : Valuation τ sig (Elt F) := after c14 (val14 V0)
/-- A buffer that piece c14 does not write keeps its contents through it. -/
theorem val15_keep (V0 : Valuation τ sig (Elt F)) (r : Ref sig .tc) (h : r ∉ c14_W) :
    val15 V0 (no_index (Proc.devRef .tc r)) = val14 V0 (Proc.devRef .tc r) :=
  after_of_writes_sub c14 _ c14_writes h

set_option maxRecDepth 8192 in
theorem c15_writes : (c15 : List (HloOp τ sig (Elt F))).Forall fun op => op.writes ⊆ (c15_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c15. -/
def val16 (V0 : Valuation τ sig (Elt F)) : Valuation τ sig (Elt F) := after c15 (val15 V0)
/-- A buffer that piece c15 does not write keeps its contents through it. -/
theorem val16_keep (V0 : Valuation τ sig (Elt F)) (r : Ref sig .tc) (h : r ∉ c15_W) :
    val16 V0 (no_index (Proc.devRef .tc r)) = val15 V0 (Proc.devRef .tc r) :=
  after_of_writes_sub c15 _ c15_writes h

set_option maxRecDepth 8192 in
theorem c16_writes : (c16 : List (HloOp τ sig (Elt F))).Forall fun op => op.writes ⊆ (c16_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c16. -/
def val17 (V0 : Valuation τ sig (Elt F)) : Valuation τ sig (Elt F) := after c16 (val16 V0)
/-- A buffer that piece c16 does not write keeps its contents through it. -/
theorem val17_keep (V0 : Valuation τ sig (Elt F)) (r : Ref sig .tc) (h : r ∉ c16_W) :
    val17 V0 (no_index (Proc.devRef .tc r)) = val16 V0 (Proc.devRef .tc r) :=
  after_of_writes_sub c16 _ c16_writes h

set_option maxRecDepth 8192 in
theorem c17_writes : (c17 : List (HloOp τ sig (Elt F))).Forall fun op => op.writes ⊆ (c17_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's buffer contents after pieces c00 … c17. -/
def val18 (V0 : Valuation τ sig (Elt F)) : Valuation τ sig (Elt F) := after c17 (val17 V0)
/-- A buffer that piece c17 does not write keeps its contents through it. -/
theorem val18_keep (V0 : Valuation τ sig (Elt F)) (r : Ref sig .tc) (h : r ∉ c17_W) :
    val18 V0 (no_index (Proc.devRef .tc r)) = val17 V0 (Proc.devRef .tc r) :=
  after_of_writes_sub c17 _ c17_writes h

attribute [local irreducible] Host.scatterAdd Host.gather Host.reduceAdd Host.divf Host.sqrt concatenate broadcastInDim
  transpose extractStridedSlice shapeCast select cmpf cmpi addi mulf addf subf maximumf constant constantI iotaInDim sitofp

set_option maxRecDepth 16384 in
set_option maxHeartbeats 4000000 in
theorem P_main_v1 (V0 : Valuation τ sig (Elt F)) :
    val1 V0 (no_index (Proc.devRef .tc main_v1)) = RefSpec.src500 (val0 V0 (Proc.devRef .tc main_arg1)) := by
  unfold val1
  simp only [c00]
  after_results_simp
  rfl

set_option maxRecDepth 16384 in
set_option maxHeartbeats 4000000 in
theorem P_main_v3 (V0 : Valuation τ sig (Elt F)) :
    val1 V0 (no_index (Proc.devRef .tc main_v3)) = RefSpec.dst500 (val0 V0 (Proc.devRef .tc main_arg1)) := by
  unfold val1
  simp only [c00]
  after_results_simp
  rfl

set_option maxRecDepth 16384 in
set_option maxHeartbeats 4000000 in
theorem H1_main_v5 (V0 : Valuation τ sig (Elt F)) :
    val2 V0 (no_index (Proc.devRef .tc main_v5)) = RefSpec.hOf (val1 V0 (Proc.devRef .tc main_arg0)) (val1 V0 (Proc.devRef .tc main_arg3)) := by
  unfold val2
  simp only [c01]
  after_results_simp
  rfl

set_option maxRecDepth 16384 in
set_option maxHeartbeats 4000000 in
theorem N1_main_v7 (V0 : Valuation τ sig (Elt F)) :
    val3 V0 (no_index (Proc.devRef .tc main_v7)) = RefSpec.withLoops (val2 V0 (Proc.devRef .tc main_v1)) := by
  unfold val3
  simp only [c02]
  after_results_simp
  rfl

set_option maxRecDepth 16384 in
set_option maxHeartbeats 4000000 in
theorem N1_main_v8 (V0 : Valuation τ sig (Elt F)) :
    val3 V0 (no_index (Proc.devRef .tc main_v8)) = RefSpec.withLoops (val2 V0 (Proc.devRef .tc main_v3)) := by
  unfold val3
  simp only [c02]
  after_results_simp
  rfl

set_option maxRecDepth 16384 in
set_option maxHeartbeats 4000000 in
theorem N1_main_v38 (V0 : Valuation τ sig (Elt F)) :
    val3 V0 (no_index (Proc.devRef .tc main_v38)) = RefSpec.normFrom (RefSpec.withLoops (val2 V0 (Proc.devRef .tc main_v1))) (RefSpec.withLoops (val2 V0 (Proc.devRef .tc main_v3))) (RefSpec.wFull (val2 V0 (Proc.devRef .tc main_arg2))) := by
  unfold val3
  simp only [c02]
  after_results_simp
  rfl

set_option maxRecDepth 16384 in
set_option maxHeartbeats 4000000 in
theorem A1_main_v51 (V0 : Valuation τ sig (Elt F)) :
    val5 V0 (no_index (Proc.devRef .tc main_v51)) = RefSpec.aggOf (val3 V0 (Proc.devRef .tc main_v5)) (val3 V0 (Proc.devRef .tc main_v38)) (val3 V0 (Proc.devRef .tc main_v7)) (val3 V0 (Proc.devRef .tc main_v8)) := by
  unfold val5 val4
  simp only [c03, c04]
  after_results_simp
  rfl

set_option maxRecDepth 16384 in
set_option maxHeartbeats 4000000 in
theorem R1_main_v55 (V0 : Valuation τ sig (Elt F)) :
    val6 V0 (no_index (Proc.devRef .tc main_v55)) = RefSpec.reluOf (val5 V0 (Proc.devRef .tc main_v51)) (val5 V0 (Proc.devRef .tc main_arg4)) := by
  unfold val6
  simp only [c05]
  after_results_simp
  rfl

set_option maxRecDepth 16384 in
set_option maxHeartbeats 4000000 in
theorem B1_main_v72 (V0 : Valuation τ sig (Elt F)) :
    val7 V0 (no_index (Proc.devRef .tc main_v72)) = RefSpec.bnOf (val6 V0 (Proc.devRef .tc main_v55)) (val6 V0 (Proc.devRef .tc main_arg5)) (val6 V0 (Proc.devRef .tc main_arg6)) := by
  unfold val7
  simp only [c06]
  after_results_simp
  rfl

set_option maxRecDepth 16384 in
set_option maxHeartbeats 4000000 in
theorem H2_main_v74 (V0 : Valuation τ sig (Elt F)) :
    val8 V0 (no_index (Proc.devRef .tc main_v74)) = RefSpec.hOf (val7 V0 (Proc.devRef .tc main_v72)) (val7 V0 (Proc.devRef .tc main_arg7)) := by
  unfold val8
  simp only [c07]
  after_results_simp
  rfl

set_option maxRecDepth 16384 in
set_option maxHeartbeats 4000000 in
theorem N2_main_v76 (V0 : Valuation τ sig (Elt F)) :
    val10 V0 (no_index (Proc.devRef .tc main_v76)) = RefSpec.withLoops (val8 V0 (Proc.devRef .tc main_v1)) := by
  unfold val10 val9
  simp only [c08, c09]
  after_results_simp
  rfl

set_option maxRecDepth 16384 in
set_option maxHeartbeats 4000000 in
theorem N2_main_v77 (V0 : Valuation τ sig (Elt F)) :
    val10 V0 (no_index (Proc.devRef .tc main_v77)) = RefSpec.withLoops (val8 V0 (Proc.devRef .tc main_v3)) := by
  unfold val10 val9
  simp only [c08, c09]
  after_results_simp
  rfl

set_option maxRecDepth 16384 in
set_option maxHeartbeats 4000000 in
theorem N2_main_v107 (V0 : Valuation τ sig (Elt F)) :
    val10 V0 (no_index (Proc.devRef .tc main_v107)) = RefSpec.normFrom (RefSpec.withLoops (val8 V0 (Proc.devRef .tc main_v1))) (RefSpec.withLoops (val8 V0 (Proc.devRef .tc main_v3))) (RefSpec.wFull (val8 V0 (Proc.devRef .tc main_arg2))) := by
  unfold val10 val9
  simp only [c08, c09]
  after_results_simp
  rfl

set_option maxRecDepth 16384 in
set_option maxHeartbeats 4000000 in
theorem A2_main_v120 (V0 : Valuation τ sig (Elt F)) :
    val11 V0 (no_index (Proc.devRef .tc main_v120)) = RefSpec.aggOf (val10 V0 (Proc.devRef .tc main_v74)) (val10 V0 (Proc.devRef .tc main_v107)) (val10 V0 (Proc.devRef .tc main_v76)) (val10 V0 (Proc.devRef .tc main_v77)) := by
  unfold val11
  simp only [c10]
  after_results_simp
  rfl

set_option maxRecDepth 16384 in
set_option maxHeartbeats 4000000 in
theorem R2_main_v124 (V0 : Valuation τ sig (Elt F)) :
    val12 V0 (no_index (Proc.devRef .tc main_v124)) = RefSpec.reluOf (val11 V0 (Proc.devRef .tc main_v120)) (val11 V0 (Proc.devRef .tc main_arg8)) := by
  unfold val12
  simp only [c11]
  after_results_simp
  rfl

set_option maxRecDepth 16384 in
set_option maxHeartbeats 4000000 in
theorem B2_main_v141 (V0 : Valuation τ sig (Elt F)) :
    val13 V0 (no_index (Proc.devRef .tc main_v141)) = RefSpec.bnOf (val12 V0 (Proc.devRef .tc main_v124)) (val12 V0 (Proc.devRef .tc main_arg9)) (val12 V0 (Proc.devRef .tc main_arg10)) := by
  unfold val13
  simp only [c12]
  after_results_simp
  rfl

set_option maxRecDepth 16384 in
set_option maxHeartbeats 4000000 in
theorem H3_main_v143 (V0 : Valuation τ sig (Elt F)) :
    val14 V0 (no_index (Proc.devRef .tc main_v143)) = RefSpec.hOf (val13 V0 (Proc.devRef .tc main_v141)) (val13 V0 (Proc.devRef .tc main_arg11)) := by
  unfold val14
  simp only [c13]
  after_results_simp
  rfl

set_option maxRecDepth 16384 in
set_option maxHeartbeats 4000000 in
theorem N3_main_v145 (V0 : Valuation τ sig (Elt F)) :
    val15 V0 (no_index (Proc.devRef .tc main_v145)) = RefSpec.withLoops (val14 V0 (Proc.devRef .tc main_v1)) := by
  unfold val15
  simp only [c14]
  after_results_simp
  rfl

set_option maxRecDepth 16384 in
set_option maxHeartbeats 4000000 in
theorem N3_main_v146 (V0 : Valuation τ sig (Elt F)) :
    val15 V0 (no_index (Proc.devRef .tc main_v146)) = RefSpec.withLoops (val14 V0 (Proc.devRef .tc main_v3)) := by
  unfold val15
  simp only [c14]
  after_results_simp
  rfl

set_option maxRecDepth 16384 in
set_option maxHeartbeats 4000000 in
theorem N3_main_v176 (V0 : Valuation τ sig (Elt F)) :
    val15 V0 (no_index (Proc.devRef .tc main_v176)) = RefSpec.normFrom (RefSpec.withLoops (val14 V0 (Proc.devRef .tc main_v1))) (RefSpec.withLoops (val14 V0 (Proc.devRef .tc main_v3))) (RefSpec.wFull (val14 V0 (Proc.devRef .tc main_arg2))) := by
  unfold val15
  simp only [c14]
  after_results_simp
  rfl

set_option maxRecDepth 16384 in
set_option maxHeartbeats 4000000 in
theorem A3_main_v189 (V0 : Valuation τ sig (Elt F)) :
    val16 V0 (no_index (Proc.devRef .tc main_v189)) = RefSpec.aggOf (val15 V0 (Proc.devRef .tc main_v143)) (val15 V0 (Proc.devRef .tc main_v176)) (val15 V0 (Proc.devRef .tc main_v145)) (val15 V0 (Proc.devRef .tc main_v146)) := by
  unfold val16
  simp only [c15]
  after_results_simp
  rfl

set_option maxRecDepth 16384 in
set_option maxHeartbeats 4000000 in
theorem R3_main_v193 (V0 : Valuation τ sig (Elt F)) :
    val17 V0 (no_index (Proc.devRef .tc main_v193)) = RefSpec.reluOf (val16 V0 (Proc.devRef .tc main_v189)) (val16 V0 (Proc.devRef .tc main_arg12)) := by
  unfold val17
  simp only [c16]
  after_results_simp
  rfl

set_option maxRecDepth 16384 in
set_option maxHeartbeats 4000000 in
theorem B3_main_v210 (V0 : Valuation τ sig (Elt F)) :
    val18 V0 (no_index (Proc.devRef .tc main_v210)) = RefSpec.bnOf (val17 V0 (Proc.devRef .tc main_v193)) (val17 V0 (Proc.devRef .tc main_arg13)) (val17 V0 (Proc.devRef .tc main_arg14)) := by
  unfold val18
  simp only [c17]
  after_results_simp
  rfl

/-- The fold of the whole list is the last of the named contents. -/
theorem after_ops (V0 : Valuation τ sig (Elt F)) : after ops V0 = val18 V0 := by
  simp only [ops, ops_main_part0, ops_main_part1, ops_main_part2, ops_main_part3, ops_main_part4, after_append]
  rfl

set_option maxRecDepth 16384 in
set_option maxHeartbeats 4000000 in
/-- After the program the result buffer holds the network's output of the arguments' contents. -/
theorem out_eq (V0 : Valuation τ sig (Elt F)) :
    after ops V0 (Proc.devRef .tc main_v210) = RefSpec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  rw [after_ops]
  simp (disch := decide) only [B3_main_v210, R3_main_v193, A3_main_v189, N3_main_v176, N3_main_v146, N3_main_v145, H3_main_v143, B2_main_v141, R2_main_v124, A2_main_v120, N2_main_v107, N2_main_v77, N2_main_v76, H2_main_v74, B1_main_v72, R1_main_v55, A1_main_v51, N1_main_v38, N1_main_v8, N1_main_v7, H1_main_v5, P_main_v3, P_main_v1, val18_keep, val17_keep, val16_keep, val15_keep, val14_keep, val13_keep, val12_keep, val11_keep, val10_keep, val9_keep, val8_keep, val7_keep, val6_keep, val5_keep, val4_keep, val3_keep, val2_keep, val1_keep, val0]
  simp only [RefSpec.out, RefSpec.layer, RefSpec.normOf, RefSpec.srcOf, RefSpec.dstOf]

/-- No operation writes `main_arg0`: it keeps its contents. -/
theorem arg0_eq (V0 : Valuation τ sig (Elt F)) : after ops V0 (Proc.devRef .tc main_arg0) = V0 (Proc.devRef .tc main_arg0) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg1`: it keeps its contents. -/
theorem arg1_eq (V0 : Valuation τ sig (Elt F)) : after ops V0 (Proc.devRef .tc main_arg1) = V0 (Proc.devRef .tc main_arg1) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg2`: it keeps its contents. -/
theorem arg2_eq (V0 : Valuation τ sig (Elt F)) : after ops V0 (Proc.devRef .tc main_arg2) = V0 (Proc.devRef .tc main_arg2) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg3`: it keeps its contents. -/
theorem arg3_eq (V0 : Valuation τ sig (Elt F)) : after ops V0 (Proc.devRef .tc main_arg3) = V0 (Proc.devRef .tc main_arg3) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg4`: it keeps its contents. -/
theorem arg4_eq (V0 : Valuation τ sig (Elt F)) : after ops V0 (Proc.devRef .tc main_arg4) = V0 (Proc.devRef .tc main_arg4) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg5`: it keeps its contents. -/
theorem arg5_eq (V0 : Valuation τ sig (Elt F)) : after ops V0 (Proc.devRef .tc main_arg5) = V0 (Proc.devRef .tc main_arg5) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg6`: it keeps its contents. -/
theorem arg6_eq (V0 : Valuation τ sig (Elt F)) : after ops V0 (Proc.devRef .tc main_arg6) = V0 (Proc.devRef .tc main_arg6) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg7`: it keeps its contents. -/
theorem arg7_eq (V0 : Valuation τ sig (Elt F)) : after ops V0 (Proc.devRef .tc main_arg7) = V0 (Proc.devRef .tc main_arg7) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg8`: it keeps its contents. -/
theorem arg8_eq (V0 : Valuation τ sig (Elt F)) : after ops V0 (Proc.devRef .tc main_arg8) = V0 (Proc.devRef .tc main_arg8) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg9`: it keeps its contents. -/
theorem arg9_eq (V0 : Valuation τ sig (Elt F)) : after ops V0 (Proc.devRef .tc main_arg9) = V0 (Proc.devRef .tc main_arg9) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg10`: it keeps its contents. -/
theorem arg10_eq (V0 : Valuation τ sig (Elt F)) : after ops V0 (Proc.devRef .tc main_arg10) = V0 (Proc.devRef .tc main_arg10) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg11`: it keeps its contents. -/
theorem arg11_eq (V0 : Valuation τ sig (Elt F)) : after ops V0 (Proc.devRef .tc main_arg11) = V0 (Proc.devRef .tc main_arg11) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg12`: it keeps its contents. -/
theorem arg12_eq (V0 : Valuation τ sig (Elt F)) : after ops V0 (Proc.devRef .tc main_arg12) = V0 (Proc.devRef .tc main_arg12) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg13`: it keeps its contents. -/
theorem arg13_eq (V0 : Valuation τ sig (Elt F)) : after ops V0 (Proc.devRef .tc main_arg13) = V0 (Proc.devRef .tc main_arg13) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- No operation writes `main_arg14`: it keeps its contents. -/
theorem arg14_eq (V0 : Valuation τ sig (Elt F)) : after ops V0 (Proc.devRef .tc main_arg14) = V0 (Proc.devRef .tc main_arg14) := by
  rw [after_ops]
  simp (disch := decide) only [val18_keep, val17_keep, val16_keep, val15_keep, val14_keep, val13_keep, val12_keep, val11_keep, val10_keep, val9_keep, val8_keep, val7_keep, val6_keep, val5_keep, val4_keep, val3_keep, val2_keep, val1_keep, val0]

/-- On every device, for any float values, from any memory with zero counters: every weakly fair execution of @main
    terminates with the result buffer at the network's output of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v210) = RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v210).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c))⟩)
    (run_all m ρ)

end Cert.ReferenceIdeal.RefValue

end
-- ==== Proof.KernelRun.lean ====
/-
  The idealized kernel's whole run, with the result array named.

  @main is a list of twenty-two segments: fourteen stretches of host operations and nine kernel regions. Running
  them in order from the launch memory, every buffer that outlives a region ends at the contents the last boundary
  holds: a stretch of host operations applies its operations to the contents it finds, and a region leaves each of
  its arrays at what its write-backs leave and every other buffer alone. Read at the end, the result buffer holds
  the last boundary's contents of that buffer, and each argument array holds what it was launched with, since no
  operation and no region writes an argument.
-/
import proofs.«152337_j16226386444398_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the result buffer at the last boundary. -/
abbrev result (c : Dev nD) : Buf (Elt F) ((c : Thread nD τ).loc main_v123) := W22 m ρ c (Proc.devRef .tc main_v123)

set_option backward.isDefEq.respectTransparency.types false in
/-- Every weakly fair execution of @main terminates, nothing faulting; the result buffer ends at the last
    boundary's contents and every argument array as launched. -/
theorem run : θ_run defs (onTc (τ := τ) (main (F := F))) ⟨m, fun _ => 0, ρ⟩ (fun r => ∀ c : Dev nD,
      r.2.mem ((c.tc : Thread nD τ).loc main_v123) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    -- @main is the segments' run
    (fun c Q => by rw [main_run m ρ c])
    -- each of the nine pipelines is entered once
    (by simp only [segs, Pipeline.Seg.pipes_host, Pipeline.Seg.pipes_region, Pipeline.Seg.pipes_nil]; decide)
    -- the cores owe nothing at launch, under the empty level assignment
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the thread state: every buffer that outlives a region held at the boundary's contents
    (T₀ := fun c => iprop(StableHlo.held (c : Thread nD τ) (Pipeline.ucRefs τ sig) (W0 m ρ c) ∗ R c)) (Tₙ := Tₙ m ρ)
    -- each segment is entered from exactly what the one before it left
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- at the end every such buffer is read against the final state
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v123 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c)⟩)

end Cert.KernelIdeal.Run

end
-- ==== Proof.PreStage.lean ====
/-
  The host operations before the first kernel region.

  From the edge index and the edge weights the host forms the 550000 sources and destinations (the edges, then one
  self loop per node), the 550000 weights (the edges', then 1 per self loop), the weighted degree of every node, its
  guarded inverse square root, and the edge normalisation dinv[src] · w · dinv[dst]; it also transposes the first
  weight matrix. The operations are printed as five consecutive lists; each list is read by itself, at any
  contents U of the buffers it finds, and the readings are then chained.
-/
import proofs.«152337_j16226386444398_1_alg».proof.Proof.Gen.KernelIdeal.Launch
import proofs.«152337_j16226386444398_1_alg».proof.Proof.RefSpec
import Idealize.ShloMosaic.Lib.StableHlo.Run
import Idealize.ShloMosaic.PureOps.Ideal

set_option maxHeartbeats 1000000

noncomputable section

namespace Cert.KernelIdeal.PreStage

open Cert.KernelIdeal Cert.KernelIdeal.Gen
open Idealize.ShloMosaic Idealize.ShloMosaic.TcCoe Idealize.SL.Sem Idealize.ShloMosaic.StableHlo

variable (U : Valuation τ sig (Elt Ideal))

/-! ## The first list: sources, destinations, weights, degree -/
theorem h0_src : after hostOps0 U (Proc.devRef .tc main_v5) = Cert.ReferenceIdeal.RefSpec.srcOf (F := Ideal) (U (Proc.devRef .tc main_arg1)) := by
  after_results_simp; rfl
theorem h0_dst : after hostOps0 U (Proc.devRef .tc main_v6) = Cert.ReferenceIdeal.RefSpec.dstOf (F := Ideal) (U (Proc.devRef .tc main_arg1)) := by
  after_results_simp; rfl
theorem h0_w : after hostOps0 U (Proc.devRef .tc main_v8) = Cert.ReferenceIdeal.RefSpec.wFull (F := Ideal) (U (Proc.devRef .tc main_arg2)) := by
  after_results_simp; rfl
theorem h0_deg : after hostOps0 U (Proc.devRef .tc main_v11)
    = Cert.ReferenceIdeal.RefSpec.degOf (F := Ideal) (Cert.ReferenceIdeal.RefSpec.dstOf (U (Proc.devRef .tc main_arg1))) (Cert.ReferenceIdeal.RefSpec.wFull (U (Proc.devRef .tc main_arg2))) := by
  after_results_simp; rfl
theorem h0_pos : @Eq (IVec S50000 1) (after hostOps0 U (Proc.devRef .tc main_v13))
    (cmpf (F := Ideal) (φ := .f32) .ogt (Cert.ReferenceIdeal.RefSpec.degOf (F := Ideal) (Cert.ReferenceIdeal.RefSpec.dstOf (U (Proc.devRef .tc main_arg1))) (Cert.ReferenceIdeal.RefSpec.wFull (U (Proc.devRef .tc main_arg2)))) (Cert.ReferenceIdeal.RefSpec.zeros50000 (F := Ideal))) := by
  after_results_simp; rfl
theorem h0_one : after hostOps0 U (Proc.devRef .tc main_cst_2) = constant (F := Ideal) S_ .f32 0x3F800000#32 := by
  after_results_simp

/-! ## The second list: the degree where positive, else one -/
theorem h1_safe : after hostOps0_1 U (Proc.devRef .tc main_v14)
    = select (U (Proc.devRef .tc main_v13)) (U (Proc.devRef .tc main_v11)) (broadcastInDim S50000 ![] bcast_S_S50000 (U (Proc.devRef .tc main_cst_2))) := by
  simp only [hostOps0_1, StableHlo.TRef.unary, StableHlo.TRef.ternary]
  after_results_simp
  rfl

/-! ## The third list: positivity again, and one over the square root -/
theorem h2_pos : @Eq (IVec S50000 1) (after hostOps0_2 U (Proc.devRef .tc main_v16)) (cmpf (F := Ideal) (φ := .f32) .ogt (U (Proc.devRef .tc main_v11) : FVec Ideal S50000 .f32) (Cert.ReferenceIdeal.RefSpec.zeros50000 (F := Ideal))) := by
  after_results_simp; rfl
theorem h2_rs : @Eq (FVec Ideal S50000 .f32) (after hostOps0_2 U (Proc.devRef .tc main_v19)) (Host.divf (F := Ideal) (Cert.ReferenceIdeal.RefSpec.ones50000 (F := Ideal)) (Host.sqrt (F := Ideal) (U (Proc.devRef .tc main_v14) : FVec Ideal S50000 .f32))) := by
  after_results_simp; rfl
theorem h2_zero : after hostOps0_2 U (Proc.devRef .tc main_cst_5) = constant (F := Ideal) S_ .f32 0x00000000#32 := by
  after_results_simp

/-! ## The fourth list: that quotient where the degree is positive, else zero -/
theorem h3_dinv : after hostOps0_3 U (Proc.devRef .tc main_v20)
    = select (U (Proc.devRef .tc main_v16)) (U (Proc.devRef .tc main_v19)) (broadcastInDim S50000 ![] bcast_S_S50000 (U (Proc.devRef .tc main_cst_5))) := by
  simp only [hostOps0_3, StableHlo.TRef.unary, StableHlo.TRef.ternary]
  after_results_simp
  rfl

/-! ## The fifth list: the edge normalisation and the transposed first weight matrix -/
theorem h4_norm : @Eq (FVec Ideal S550000 .f32) (after hostOps0_4 U (Proc.devRef .tc main_v36))
    (mulf (F := Ideal) (mulf (F := Ideal) (Cert.ReferenceIdeal.RefSpec.gather1 (F := Ideal) (U (Proc.devRef .tc main_v20)) (U (Proc.devRef .tc main_v5))) (U (Proc.devRef .tc main_v8) : FVec Ideal S550000 .f32))
        (Cert.ReferenceIdeal.RefSpec.gather1 (F := Ideal) (U (Proc.devRef .tc main_v20)) (U (Proc.devRef .tc main_v6)))) := by
  after_results_simp; rfl
theorem h4_wt : after hostOps0_4 U (Proc.devRef .tc main_v37)
    = transpose S128x128 [1, 0] (U (Proc.devRef .tc main_arg3)) transposes_S128x128_S128x128_1_0 := by
  after_results_simp

/-! ## What each list leaves alone -/
theorem k1_v5 : after hostOps0_1 U (Proc.devRef .tc main_v5) = U (Proc.devRef .tc main_v5) := by first | after_results_simp | (simp only [hostOps0_1, hostOps0_3, StableHlo.TRef.unary, StableHlo.TRef.ternary]; after_results_simp)
theorem k2_v5 : after hostOps0_2 U (Proc.devRef .tc main_v5) = U (Proc.devRef .tc main_v5) := by first | after_results_simp | (simp only [hostOps0_1, hostOps0_3, StableHlo.TRef.unary, StableHlo.TRef.ternary]; after_results_simp)
theorem k3_v5 : after hostOps0_3 U (Proc.devRef .tc main_v5) = U (Proc.devRef .tc main_v5) := by first | after_results_simp | (simp only [hostOps0_1, hostOps0_3, StableHlo.TRef.unary, StableHlo.TRef.ternary]; after_results_simp)
theorem k4_v5 : after hostOps0_4 U (Proc.devRef .tc main_v5) = U (Proc.devRef .tc main_v5) := by first | after_results_simp | (simp only [hostOps0_1, hostOps0_3, StableHlo.TRef.unary, StableHlo.TRef.ternary]; after_results_simp)
theorem k1_v6 : after hostOps0_1 U (Proc.devRef .tc main_v6) = U (Proc.devRef .tc main_v6) := by first | after_results_simp | (simp only [hostOps0_1, hostOps0_3, StableHlo.TRef.unary, StableHlo.TRef.ternary]; after_results_simp)
theorem k2_v6 : after hostOps0_2 U (Proc.devRef .tc main_v6) = U (Proc.devRef .tc main_v6) := by first | after_results_simp | (simp only [hostOps0_1, hostOps0_3, StableHlo.TRef.unary, StableHlo.TRef.ternary]; after_results_simp)
theorem k3_v6 : after hostOps0_3 U (Proc.devRef .tc main_v6) = U (Proc.devRef .tc main_v6) := by first | after_results_simp | (simp only [hostOps0_1, hostOps0_3, StableHlo.TRef.unary, StableHlo.TRef.ternary]; after_results_simp)
theorem k4_v6 : after hostOps0_4 U (Proc.devRef .tc main_v6) = U (Proc.devRef .tc main_v6) := by first | after_results_simp | (simp only [hostOps0_1, hostOps0_3, StableHlo.TRef.unary, StableHlo.TRef.ternary]; after_results_simp)
theorem k1_v8 : after hostOps0_1 U (Proc.devRef .tc main_v8) = U (Proc.devRef .tc main_v8) := by first | after_results_simp | (simp only [hostOps0_1, hostOps0_3, StableHlo.TRef.unary, StableHlo.TRef.ternary]; after_results_simp)
theorem k2_v8 : after hostOps0_2 U (Proc.devRef .tc main_v8) = U (Proc.devRef .tc main_v8) := by first | after_results_simp | (simp only [hostOps0_1, hostOps0_3, StableHlo.TRef.unary, StableHlo.TRef.ternary]; after_results_simp)
theorem k3_v8 : after hostOps0_3 U (Proc.devRef .tc main_v8) = U (Proc.devRef .tc main_v8) := by first | after_results_simp | (simp only [hostOps0_1, hostOps0_3, StableHlo.TRef.unary, StableHlo.TRef.ternary]; after_results_simp)
theorem k1_v11 : after hostOps0_1 U (Proc.devRef .tc main_v11) = U (Proc.devRef .tc main_v11) := by first | after_results_simp | (simp only [hostOps0_1, hostOps0_3, StableHlo.TRef.unary, StableHlo.TRef.ternary]; after_results_simp)
theorem k0_arg3 : after hostOps0 U (Proc.devRef .tc main_arg3) = U (Proc.devRef .tc main_arg3) := by first | after_results_simp | (simp only [hostOps0_1, hostOps0_3, StableHlo.TRef.unary, StableHlo.TRef.ternary]; after_results_simp)
theorem k1_arg3 : after hostOps0_1 U (Proc.devRef .tc main_arg3) = U (Proc.devRef .tc main_arg3) := by first | after_results_simp | (simp only [hostOps0_1, hostOps0_3, StableHlo.TRef.unary, StableHlo.TRef.ternary]; after_results_simp)
theorem k2_arg3 : after hostOps0_2 U (Proc.devRef .tc main_arg3) = U (Proc.devRef .tc main_arg3) := by first | after_results_simp | (simp only [hostOps0_1, hostOps0_3, StableHlo.TRef.unary, StableHlo.TRef.ternary]; after_results_simp)
theorem k3_arg3 : after hostOps0_3 U (Proc.devRef .tc main_arg3) = U (Proc.devRef .tc main_arg3) := by first | after_results_simp | (simp only [hostOps0_1, hostOps0_3, StableHlo.TRef.unary, StableHlo.TRef.ternary]; after_results_simp)

/-! ## The five lists in a row -/

/-- The buffers' contents after all five lists, from contents V. -/
abbrev run (V : Valuation τ sig (Elt Ideal)) : Valuation τ sig (Elt Ideal) :=
  after hostOps0_4 (after hostOps0_3 (after hostOps0_2 (after hostOps0_1 (after hostOps0 V))))

variable (V : Valuation τ sig (Elt Ideal))

theorem run_src : run V (Proc.devRef .tc main_v5) = Cert.ReferenceIdeal.RefSpec.srcOf (F := Ideal) (V (Proc.devRef .tc main_arg1)) := by
  show after hostOps0_4 _ _ = _
  rw [k4_v5, k3_v5, k2_v5, k1_v5, h0_src]
theorem run_dst : run V (Proc.devRef .tc main_v6) = Cert.ReferenceIdeal.RefSpec.dstOf (F := Ideal) (V (Proc.devRef .tc main_arg1)) := by
  show after hostOps0_4 _ _ = _
  rw [k4_v6, k3_v6, k2_v6, k1_v6, h0_dst]

/-- The guarded inverse square root of the degree, as the five lists compute it. -/
theorem run_norm : run V (Proc.devRef .tc main_v36) = Cert.ReferenceIdeal.RefSpec.normOf (F := Ideal) (V (Proc.devRef .tc main_arg1)) (V (Proc.devRef .tc main_arg2)) := by
  show after hostOps0_4 _ _ = _
  rw [h4_norm, h3_dinv, k3_v5, k3_v6, k3_v8, h2_pos, h2_rs, h2_zero, k2_v5, k2_v6, k2_v8, h1_safe, k1_v5, k1_v6, k1_v8, k1_v11,
    h0_src, h0_dst, h0_w, h0_deg, h0_pos, h0_one]
  rfl
theorem run_wt : run V (Proc.devRef .tc main_v37)
    = transpose S128x128 [1, 0] (V (Proc.devRef .tc main_arg3)) transposes_S128x128_S128x128_1_0 := by
  show after hostOps0_4 _ _ = _
  rw [h4_wt, k3_arg3, k2_arg3, k1_arg3, k0_arg3]
theorem run_arg0 : run V (Proc.devRef .tc main_arg0) = V (Proc.devRef .tc main_arg0) := by
  simp only [run, hostOps0_1, hostOps0_3, StableHlo.TRef.unary, StableHlo.TRef.ternary]
  after_results_simp
theorem run_arg1 : run V (Proc.devRef .tc main_arg1) = V (Proc.devRef .tc main_arg1) := by
  simp only [run, hostOps0_1, hostOps0_3, StableHlo.TRef.unary, StableHlo.TRef.ternary]
  after_results_simp
theorem run_arg2 : run V (Proc.devRef .tc main_arg2) = V (Proc.devRef .tc main_arg2) := by
  simp only [run, hostOps0_1, hostOps0_3, StableHlo.TRef.unary, StableHlo.TRef.ternary]
  after_results_simp
theorem run_arg3 : run V (Proc.devRef .tc main_arg3) = V (Proc.devRef .tc main_arg3) := by
  simp only [run, hostOps0_1, hostOps0_3, StableHlo.TRef.unary, StableHlo.TRef.ternary]
  after_results_simp
theorem run_arg4 : run V (Proc.devRef .tc main_arg4) = V (Proc.devRef .tc main_arg4) := by
  simp only [run, hostOps0_1, hostOps0_3, StableHlo.TRef.unary, StableHlo.TRef.ternary]
  after_results_simp
theorem run_arg5 : run V (Proc.devRef .tc main_arg5) = V (Proc.devRef .tc main_arg5) := by
  simp only [run, hostOps0_1, hostOps0_3, StableHlo.TRef.unary, StableHlo.TRef.ternary]
  after_results_simp
theorem run_arg6 : run V (Proc.devRef .tc main_arg6) = V (Proc.devRef .tc main_arg6) := by
  simp only [run, hostOps0_1, hostOps0_3, StableHlo.TRef.unary, StableHlo.TRef.ternary]
  after_results_simp
theorem run_arg7 : run V (Proc.devRef .tc main_arg7) = V (Proc.devRef .tc main_arg7) := by
  simp only [run, hostOps0_1, hostOps0_3, StableHlo.TRef.unary, StableHlo.TRef.ternary]
  after_results_simp
theorem run_arg8 : run V (Proc.devRef .tc main_arg8) = V (Proc.devRef .tc main_arg8) := by
  simp only [run, hostOps0_1, hostOps0_3, StableHlo.TRef.unary, StableHlo.TRef.ternary]
  after_results_simp
theorem run_arg9 : run V (Proc.devRef .tc main_arg9) = V (Proc.devRef .tc main_arg9) := by
  simp only [run, hostOps0_1, hostOps0_3, StableHlo.TRef.unary, StableHlo.TRef.ternary]
  after_results_simp
theorem run_arg10 : run V (Proc.devRef .tc main_arg10) = V (Proc.devRef .tc main_arg10) := by
  simp only [run, hostOps0_1, hostOps0_3, StableHlo.TRef.unary, StableHlo.TRef.ternary]
  after_results_simp
theorem run_arg11 : run V (Proc.devRef .tc main_arg11) = V (Proc.devRef .tc main_arg11) := by
  simp only [run, hostOps0_1, hostOps0_3, StableHlo.TRef.unary, StableHlo.TRef.ternary]
  after_results_simp
theorem run_arg12 : run V (Proc.devRef .tc main_arg12) = V (Proc.devRef .tc main_arg12) := by
  simp only [run, hostOps0_1, hostOps0_3, StableHlo.TRef.unary, StableHlo.TRef.ternary]
  after_results_simp
theorem run_arg13 : run V (Proc.devRef .tc main_arg13) = V (Proc.devRef .tc main_arg13) := by
  simp only [run, hostOps0_1, hostOps0_3, StableHlo.TRef.unary, StableHlo.TRef.ternary]
  after_results_simp
theorem run_arg14 : run V (Proc.devRef .tc main_arg14) = V (Proc.devRef .tc main_arg14) := by
  simp only [run, hostOps0_1, hostOps0_3, StableHlo.TRef.unary, StableHlo.TRef.ternary]
  after_results_simp

end Cert.KernelIdeal.PreStage

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.MatBlock.lean ====
/-
  One row block of the product.

  The matmul kernel's body takes a block of 5000 rows of the left factor and the whole 128 × 128 right factor and
  stores their product accumulated into zero. A change of float format is the identity on extended reals, and a
  shape cast to the same shape moves nothing, so entry (p, q) of what the body stores is the sum over k of
  block[p, k] · w[k, q]. If the block is rows r0 … r0 + 4999 of a 50000-row array x, that entry is entry
  (r0 + p, q) of the whole product x · w.
-/
import proofs.«152337_j16226386444398_1_alg».proof.Proof.Gen.KernelIdeal.Skeleton
import proofs.«152337_j16226386444398_1_alg».proof.Proof.LibDotRows
import Idealize.ShloMosaic.Lib.Pipeline.Value

noncomputable section

namespace Cert.KernelIdeal.MatBlock

open Cert.KernelIdeal Cert.KernelIdeal.Gen
open Idealize.ShloMosaic Idealize.ShloMosaic.ValueIdx

/-- The whole product of a 50000 × 128 array by a 128 × 128 array, as the host's dot_general states it. -/
abbrev prod (x : FVec Ideal ⟨2, ![50000, 128]⟩ .f32) (w : FVec Ideal ⟨2, ![128, 128]⟩ .f32) : FVec Ideal ⟨2, ![50000, 128]⟩ .f32 :=
  Host.dotGeneral (F := Ideal) (DotDims.plain 50000 128 128) none x w

/-- Entry (p, q) of the body's stored value on a row block that starts at row r0 of x is entry (r0 + p, q) of x · w. -/
theorem pay0_rows (x : FVec Ideal ⟨2, ![50000, 128]⟩ .f32) (w : FVec Ideal ⟨2, ![128, 128]⟩ .f32)
    (x0 : Vec Ideal S5000x128 .f32) (x1 : Vec Ideal S128x128 .f32) (r0 : Nat) (p : Fin 5000) (q : Fin 128)
    (hp : r0 + p.val < 50000) (hx : ∀ k : Fin 128, x0 (ix2 p k) = x (ix2 ⟨r0 + p.val, hp⟩ k)) (hw : x1 = w) :
    k0_pay1 (F := Ideal) x0 x1 (ix2 p q) = prod x w (ix2 ⟨r0 + p.val, hp⟩ q) := by
  subst hw
  unfold k0_pay1
  rw [shapeCast_self]
  exact Cert.Lib.DotRows.matmul_rows (M := 50000) (K := 128) (N := 128) (B := 5000) x x1 x0 r0 p q hp hx

/-- Entry (p, q) of the body's stored value on a row block that starts at row r0 of x is entry (r0 + p, q) of x · w. -/
theorem pay3_rows (x : FVec Ideal ⟨2, ![50000, 128]⟩ .f32) (w : FVec Ideal ⟨2, ![128, 128]⟩ .f32)
    (x0 : Vec Ideal S5000x128 .f32) (x1 : Vec Ideal S128x128 .f32) (r0 : Nat) (p : Fin 5000) (q : Fin 128)
    (hp : r0 + p.val < 50000) (hx : ∀ k : Fin 128, x0 (ix2 p k) = x (ix2 ⟨r0 + p.val, hp⟩ k)) (hw : x1 = w) :
    k3_pay1 (F := Ideal) x0 x1 (ix2 p q) = prod x w (ix2 ⟨r0 + p.val, hp⟩ q) := by
  subst hw
  unfold k3_pay1
  rw [shapeCast_self, shapeCast_self]
  exact Cert.Lib.DotRows.matmul_rows (M := 50000) (K := 128) (N := 128) (B := 5000) x x1 x0 r0 p q hp hx

/-- Entry (p, q) of the body's stored value on a row block that starts at row r0 of x is entry (r0 + p, q) of x · w. -/
theorem pay6_rows (x : FVec Ideal ⟨2, ![50000, 128]⟩ .f32) (w : FVec Ideal ⟨2, ![128, 128]⟩ .f32)
    (x0 : Vec Ideal S5000x128 .f32) (x1 : Vec Ideal S128x128 .f32) (r0 : Nat) (p : Fin 5000) (q : Fin 128)
    (hp : r0 + p.val < 50000) (hx : ∀ k : Fin 128, x0 (ix2 p k) = x (ix2 ⟨r0 + p.val, hp⟩ k)) (hw : x1 = w) :
    k6_pay1 (F := Ideal) x0 x1 (ix2 p q) = prod x w (ix2 ⟨r0 + p.val, hp⟩ q) := by
  subst hw
  unfold k6_pay1
  rw [shapeCast_self, shapeCast_self]
  exact Cert.Lib.DotRows.matmul_rows (M := 50000) (K := 128) (N := 128) (B := 5000) x x1 x0 r0 p q hp hx

end Cert.KernelIdeal.MatBlock

end
-- ==== Proof.MatRegion0.lean ====
/-
  The matmul region's array.

  The region runs the matmul body at ten grid points. Point t takes rows 5000·t … 5000·t + 4999 of the left factor
  and the whole right factor, and writes its product block back to the same rows of the output. So what point t
  writes back is block t of the whole product, the ten blocks cover all 50000 rows, and the output array ends
  holding the whole product of the two arrays the region found.
-/
import proofs.«152337_j16226386444398_1_alg».proof.Proof.Gen.KernelIdeal.Frame
import proofs.«152337_j16226386444398_1_alg».proof.Proof.MatBlock
import Idealize.ShloMosaic.Lib.Pipeline.Value

set_option maxRecDepth 16384

noncomputable section

namespace Cert.KernelIdeal.Mat0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's and the output's row block is the point's number,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The two arrays the region finds. -/
abbrev lhs (c : Dev nD) : FVec Ideal ⟨2, ![50000, 128]⟩ .f32 := V c (Pipeline.arrRef spec0 0)
abbrev rhs (c : Dev nD) : FVec Ideal ⟨2, ![128, 128]⟩ .f32 := V c (Pipeline.arrRef spec0 1)

/-- What point t writes back is block t of the whole product. -/
theorem flushed_eq (c : Dev nD) (t : Fin cfg0.N) :
    (dat0 V c).flushed 2 t = ((cfg0.win 2).blk t).view.read (Elt Ideal) (MatBlock.prod (lhs V c) (rhs V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5, e6⟩ := idx_facts t
  funext j
  obtain ⟨p, q, rfl⟩ : ∃ (p : Fin 5000) (q : Fin 128), j = ix2 p q := ⟨j 0, j 1, eq_ix2 j⟩
  have hp : t.val * 5000 + p.val < 50000 := by have := p.isLt; omega
  refine (MatBlock.pay0_rows (lhs V c) (rhs V c) (iblk0 V c 0 t) (iblk0 V c 1 t) (t.val * 5000) p q hp ?_ ?_).trans ?_
  · intro kk
    show lhs V c (((cfg0.win 0).blk t).view.emb (ix2 p kk)) = lhs V c (ix2 ⟨t.val * 5000 + p.val, hp⟩ kk)
    refine congrArg (lhs V c) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * kk.val = kk.val; omega
  · funext y
    show rhs V c (((cfg0.win 1).blk t).view.emb y) = rhs V c y
    refine congrArg (rhs V c) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show MatBlock.prod (lhs V c) (rhs V c) (ix2 ⟨t.val * 5000 + p.val, hp⟩ q)
      = MatBlock.prod (lhs V c) (rhs V c) (((cfg0.win 2).blk t).view.emb (ix2 p q))
    refine congrArg (MatBlock.prod (lhs V c) (rhs V c)) (funext fun a => Fin.ext ?_)
    match a with
    | ⟨0, _⟩ => show t.val * 5000 + p.val = win0_2.index t (0 : Fin 2) * 5000 + 1 * p.val; omega
    | ⟨1, _⟩ => show q.val = win0_2.index t (1 : Fin 2) * 128 + 1 * q.val; omega

/-- An index of the output array is in point t's block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v38).slice (win0_2.rect t)).set ↔ _
  rw [View.set_slice_whole, Rect.mem_set_unit]
  exact Iff.rfl

/-- Every row lies in the block of the point numbered row / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < 10; omega⟩
  obtain ⟨e0, e1, e2, e3, e4, e5, e6⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole product of the two arrays the region found. -/
theorem final (c : Dev nD) : (dat0 V c).arrAt 2 cfg0.N = MatBlock.prod (lhs V c) (rhs V c) :=
  (dat0 V c).arrAt_eq_of_cover 2 (MatBlock.prod (lhs V c) (rhs V c)) (fun t _ => flushed_eq V c t) (cover)

end Cert.KernelIdeal.Mat0

end
-- ==== Proof.Reduce1Pieces.lean ====
import proofs.«152337_j16226386444398_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

/-! # What each control case of the bias + relu + column-sums body leaves in its three outputs

The body adds the bias row to its block of rows, clamps below at zero, stores that block, and adds the block's
column sums and column sums of squares into two running rows. At the first grid point (case A) the running rows
are first set to zero; at the later points (case B) they are what the point before left. Each lemma below reads
one output's staging contents back as the arithmetic term of the body's loads. -/

namespace Cert.KernelIdeal.Reduce1

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- Case B, the row block: the clamped biased block. -/
theorem out_B_2 (c : Dev nD) (i : grid1.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond1_0 i) (x0 : Vec F S5000x128 .f32) (x1 : Vec F S128 .f32) (xo3 xo4 : Vec F S128 .f32) :
    out1_B_2 c i a1 h1 a2 h2 a3 h3 a4 h4 a5 h5 hc x0 x1 xo3 xo4 = k1_pay3 x1 x0 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero hz2]
  simp only [View.readAt_eq_ld, h1.read_unread, h2.read_unread, View.ld_unit_zero (S := S5000x128) hz2,
    View.ld_unit_zero (S := S128) hz1]

/-- Case B, the running column sums: the previous row plus this block's column sums. -/
theorem out_B_3 (c : Dev nD) (i : grid1.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond1_0 i) (x0 : Vec F S5000x128 .f32) (x1 : Vec F S128 .f32) (xo3 xo4 : Vec F S128 .f32) :
    out1_B_3 c i a1 h1 a2 h2 a3 h3 a4 h4 a5 h5 hc x0 x1 xo3 xo4 = k1_pay4 x1 x0 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero hz1]
  simp only [View.readAt_eq_ld, h1.read_unread, h2.read_unread, h4.read_unread, h5.read_unread,
    View.ld_unit_zero (S := S5000x128) hz2, View.ld_unit_zero (S := S128) hz1]

/-- Case B, the running column sums of squares. -/
theorem out_B_4 (c : Dev nD) (i : grid1.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond1_0 i) (x0 : Vec F S5000x128 .f32) (x1 : Vec F S128 .f32) (xo3 xo4 : Vec F S128 .f32) :
    out1_B_4 c i a1 h1 a2 h2 a3 h3 a4 h4 a5 h5 hc x0 x1 xo3 xo4 = k1_pay5 x1 x0 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero hz1]
  simp only [View.readAt_eq_ld, h1.read_unread, h2.read_unread, h4.read_unread, h5.read_unread,
    View.ld_unit_zero (S := S5000x128) hz2, View.ld_unit_zero (S := S128) hz1]

/-- Case A, the row block: the clamped biased block. -/
theorem out_A_2 (c : Dev nD) (i : grid1.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond1_0 i) (x0 : Vec F S5000x128 .f32) (x1 : Vec F S128 .f32) :
    out1_A_2 c i a1 h1 a2 h2 a3 h3 a4 h4 a5 h5 hc x0 x1 = k1_pay3 x1 x0 := by
  unfold out1_A_2
  rw [View.read_writes_eq_canon _ _ _ (cover1_A_2 c i a1 h1 a2 h2 a3 h3 a4 h4 a5 h5 hc x0 x1)]
  unfold kernelRun1_A
  dsimp only
  rw [View.canon_unit_zero hz2]
  simp only [View.readAt_eq_ld, h1.read_unread, h2.read_unread, View.ld_unit_zero (S := S5000x128) hz2,
    View.ld_unit_zero (S := S128) hz1]

/-- Case A, the running column sums: the zero row, read back, plus this block's column sums. -/
theorem out_A_3 (c : Dev nD) (i : grid1.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond1_0 i) (x0 : Vec F S5000x128 .f32) (x1 : Vec F S128 .f32) :
    out1_A_3 c i a1 h1 a2 h2 a3 h3 a4 h4 a5 h5 hc x0 x1 = k1_pay4 x1 x0 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S128) hz1, View.readCov_unit_zero (S := S128) _ hz1]
  simp only [View.readAt_eq_ld, h1.read_unread, h2.read_unread, View.ld_unit_zero (S := S5000x128) hz2,
    View.ld_unit_zero (S := S128) hz1]

/-- Case A, the running column sums of squares: the zero row, read back, plus this block's. -/
theorem out_A_4 (c : Dev nD) (i : grid1.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond1_0 i) (x0 : Vec F S5000x128 .f32) (x1 : Vec F S128 .f32) :
    out1_A_4 c i a1 h1 a2 h2 a3 h3 a4 h4 a5 h5 hc x0 x1 = k1_pay5 x1 x0 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S128) hz1, View.readCov_unit_zero (S := S128) _ hz1]
  simp only [View.readAt_eq_ld, h1.read_unread, h2.read_unread, View.ld_unit_zero (S := S5000x128) hz2,
    View.ld_unit_zero (S := S128) hz1]

end Cert.KernelIdeal.Reduce1

end
-- ==== Proof.Reduce1Payload.lean ====
import proofs.«152337_j16226386444398_1_alg».proof.Proof.Gen.KernelIdeal.Skeleton
import Idealize.ShloMosaic.Lib.ValueLayout
import Idealize.ShloMosaic.PureOps.Ideal.Laws

noncomputable section

open Idealize.ShloMosaic Idealize.ShloMosaic.ValueIdx
open scoped BigOperators

/-! # The bias + relu + column-sums body's arithmetic, read at one entry over the extended reals

The stored row block at row `r`, column `q` is `max (x r q + b q) 0`; the running column sums at column `q` are the
row before plus the block's column sum of those entries (of their squares, for the second running row); the rows
the first grid point starts from are zero. -/

namespace Cert.KernelIdeal.Reduce1

open Cert.KernelIdeal Cert.KernelIdeal.Gen

/-- Putting coordinate `k` back on the reduced row axis over column `q` gives entry `(k, q)`. -/
theorem lift_eq (q : Fin 128) (k : Fin 5000) :
    (reduces_S5000x128_S128.lift (ix1 q) k : S5000x128.Idx) = ix2 k q := by
  funext a
  match a with
  | ⟨0, _⟩ => exact Fin.ext rfl
  | ⟨1, _⟩ => exact Fin.ext rfl

/-- The stored block at `(r, q)`: the entry plus the bias of its column, clamped below at zero. -/
theorem pay3_apply (v3 : Vec Ideal S128 .f32) (v6 : Vec Ideal S5000x128 .f32) (r : Fin 5000) (q : Fin 128) :
    k1_pay3 (F := Ideal) v3 v6 (ix2 r q) = max (v6 (ix2 r q) + v3 (ix1 q)) 0 := by
  unfold k1_pay3
  show max (shapeCast S5000x128 v6 shapeCasts_S5000x128_S5000x128 (ix2 r q)
      + broadcastTo S5000x128 (shapeCast S1x128 v3 shapeCasts_S128_S1x128) broadcasts_S1x128_S5000x128 (ix2 r q))
    (Ideal.ofBits .f32 0x00000000#32) = _
  rw [shapeCast_self, broadcastTo_1b_ab_apply, shapeCast_a_1a_apply, Ideal.ofBits_zero_f32]

/-- The running column sums at column `q`: the row before plus the block's column sum. -/
theorem pay4_apply (v3 : Vec Ideal S128 .f32) (v6 : Vec Ideal S5000x128 .f32) (v12 : Vec Ideal S128 .f32) (q : Fin 128) :
    k1_pay4 (F := Ideal) v3 v6 v12 (ix1 q) = v12 (ix1 q) + ∑ r : Fin 5000, max (v6 (ix2 r q) + v3 (ix1 q)) 0 := by
  unfold k1_pay4
  show shapeCast S128 v12 shapeCasts_S128_S128 (ix1 q)
    + multiReduction .add [0] S128 (k1_pay3 (F := Ideal) v3 v6) 0x00000000#32 reduces_S5000x128_S128 (.inl rfl) rfl (ix1 q) = _
  rw [shapeCast_self]
  refine congrArg (fun z => v12 (ix1 q) + z) ?_
  refine (Ideal.multiReduction_add_single (k1_pay3 (F := Ideal) v3 v6) 0x00000000#32 reduces_S5000x128_S128 (.inl rfl) rfl (ix1 q)).trans ?_
  show (∑ k : Fin 5000, k1_pay3 (F := Ideal) v3 v6 (reduces_S5000x128_S128.lift (ix1 q) k)) = _
  refine Finset.sum_congr rfl fun k _ => ?_
  rw [lift_eq]
  exact pay3_apply v3 v6 k q

/-- The running column sums of squares at column `q`: the row before plus the block's column sum of squares. -/
theorem pay5_apply (v3 : Vec Ideal S128 .f32) (v6 : Vec Ideal S5000x128 .f32) (v17 : Vec Ideal S128 .f32) (q : Fin 128) :
    k1_pay5 (F := Ideal) v3 v6 v17 (ix1 q)
      = v17 (ix1 q) + ∑ r : Fin 5000, max (v6 (ix2 r q) + v3 (ix1 q)) 0 * max (v6 (ix2 r q) + v3 (ix1 q)) 0 := by
  unfold k1_pay5
  show shapeCast S128 v17 shapeCasts_S128_S128 (ix1 q)
    + multiReduction .add [0] S128 (mulf (k1_pay3 (F := Ideal) v3 v6) (k1_pay3 (F := Ideal) v3 v6)) 0x00000000#32
        reduces_S5000x128_S128 (.inl rfl) rfl (ix1 q) = _
  rw [shapeCast_self]
  refine congrArg (fun z => v17 (ix1 q) + z) ?_
  refine (Ideal.multiReduction_add_single (mulf (k1_pay3 (F := Ideal) v3 v6) (k1_pay3 (F := Ideal) v3 v6)) 0x00000000#32
    reduces_S5000x128_S128 (.inl rfl) rfl (ix1 q)).trans ?_
  show (∑ k : Fin 5000, k1_pay3 (F := Ideal) v3 v6 (reduces_S5000x128_S128.lift (ix1 q) k)
    * k1_pay3 (F := Ideal) v3 v6 (reduces_S5000x128_S128.lift (ix1 q) k)) = _
  refine Finset.sum_congr rfl fun k _ => ?_
  rw [lift_eq, pay3_apply v3 v6 k q]

/-- The first grid point's starting rows are zero. -/
theorem pay1_apply (q : Fin 128) : k1_pay1 (F := Ideal) (ix1 q) = 0 := by
  unfold k1_pay1
  show Ideal.ofBits .f32 0x00000000#32 = 0
  exact Ideal.ofBits_zero_f32

theorem pay2_apply (q : Fin 128) : k1_pay2 (F := Ideal) (ix1 q) = 0 := by
  unfold k1_pay2
  show Ideal.ofBits .f32 0x00000000#32 = 0
  exact Ideal.ofBits_zero_f32

end Cert.KernelIdeal.Reduce1

end
-- ==== Proof.Reduce1Acc.lean ====
import proofs.«152337_j16226386444398_1_alg».proof.Proof.Reduce1Pieces
import proofs.«152337_j16226386444398_1_alg».proof.Proof.Reduce1Payload

noncomputable section

open Idealize.ShloMosaic Idealize.ShloMosaic.TcCoe Idealize.SL.Sem Idealize.ShloMosaic.ValueIdx
open Idealize.ShloMosaic.Pipeline (Dat)
open scoped BigOperators

/-! # What the three outputs' staging buffers hold after each grid point

Grid point `t` reads rows `5000 t … 5000 t + 4999` of the row array and the whole bias row. After it the row
block's buffer holds those rows biased and clamped at zero; the two running rows hold, column by column, the sums
(and sums of squares) of the clamped entries of all rows read so far: blocks `0 … t`. -/

namespace Cert.KernelIdeal.Reduce1

open Cert.KernelIdeal Cert.KernelIdeal.Gen

variable (V : (c : Dev nD) → (b : Ref sig .tc) → Buf (Elt Ideal) ((c : Thread nD τ).loc b))

/-- The row array and the bias row as the region finds them. -/
abbrev aggOf (c : Dev nD) : S50000x128.Idx → EReal := V c (Pipeline.arrRef spec1 0)
abbrev biasOf (c : Dev nD) : S128.Idx → EReal := V c (Pipeline.arrRef spec1 1)

/-- One clamped entry: row `r`, column `q`. -/
def reluAt (c : Dev nD) (r : Fin 50000) (q : Fin 128) : EReal := max (aggOf V c (ix2 r q) + biasOf V c (ix1 q)) 0

/-- Row `r` of row block `s` (blocks of 5000 rows; taken modulo the row count so that it is defined for every `s`). -/
def rowAt (s : ℕ) (r : Fin 5000) : Fin 50000 := ⟨(5000 * s + r.val) % 50000, Nat.mod_lt _ (by decide)⟩

/-- Row block `s`'s column sums of the clamped entries, and of their squares. -/
def blockSum (c : Dev nD) (s : ℕ) (q : Fin 128) : EReal := ∑ r : Fin 5000, reluAt V c (rowAt s r) q
def blockSq (c : Dev nD) (s : ℕ) (q : Fin 128) : EReal := ∑ r : Fin 5000, reluAt V c (rowAt s r) q * reluAt V c (rowAt s r) q

/-- The block index maps, decided over the ten grid points: point `t` reads row block `t`, every column; the bias
    row's one block. -/
theorem idx_facts0 : ∀ t : Fin cfg1.N, win1_0.index t 0 = t.val ∧ win1_0.index t 1 = 0 :=
  (by decide +kernel : ∀ t : Fin grid1.N, win1_0.index t 0 = t.val ∧ win1_0.index t 1 = 0)
theorem idx_facts1 : ∀ t : Fin cfg1.N, win1_1.index t 0 = 0 :=
  (by decide +kernel : ∀ t : Fin grid1.N, win1_1.index t 0 = 0)

/-- Point `t`'s block of the row array at `(r, q)` is row `5000 t + r`, column `q`. -/
theorem iblk0_apply (c : Dev nD) (t : Fin cfg1.N) (r : Fin 5000) (q : Fin 128) :
    (iblk1 V c 0 t : Vec Ideal S5000x128 .f32) (ix2 r q) = aggOf V c (ix2 (rowAt t.val r) q) := by
  have hN : t.val < 10 := lt_of_lt_of_eq t.isLt (show cfg1.N = 10 from N_1)
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * r.val = (5000 * t.val + r.val) % 50000; rw [(idx_facts0 t).1]; omega
  | ⟨1, _⟩ => show win1_0.index t 1 * 128 + 1 * q.val = q.val; rw [(idx_facts0 t).2]; omega

/-- Every point's block of the bias row is the bias row. -/
theorem iblk1_apply (c : Dev nD) (t : Fin cfg1.N) (q : Fin 128) :
    (iblk1 V c 1 t : Vec Ideal S128 .f32) (ix1 q) = biasOf V c (ix1 q) := by
  unfold iblk1
  rw [View.read_apply]
  show V c (Pipeline.arrRef spec1 1) _ = V c (Pipeline.arrRef spec1 1) _
  congr 1
  funext a
  apply Fin.ext
  match a with
  | ⟨0, _⟩ => show win1_1.index t 0 * 128 + 1 * q.val = q.val; rw [idx_facts1 t]; omega

/-- The clamped entry computed from a block of rows `x0` that is row block `s` and a row `x1` that is the bias row. -/
theorem block_entry (c : Dev nD) (s : ℕ) (x0 : Vec Ideal S5000x128 .f32) (x1 : Vec Ideal S128 .f32)
    (h0 : ∀ (r : Fin 5000) (q : Fin 128), x0 (ix2 r q) = aggOf V c (ix2 (rowAt s r) q))
    (h1 : ∀ q : Fin 128, x1 (ix1 q) = biasOf V c (ix1 q)) (r : Fin 5000) (q : Fin 128) :
    max (x0 (ix2 r q) + x1 (ix1 q)) 0 = reluAt V c (rowAt s r) q := by
  rw [h0, h1]
  rfl

/-- One step of the running column sums: what was there plus row block `s`'s column sums. -/
theorem step_sum (c : Dev nD) (s : ℕ) (x0 : Vec Ideal S5000x128 .f32) (x1 : Vec Ideal S128 .f32) (acc : Vec Ideal S128 .f32)
    (h0 : ∀ (r : Fin 5000) (q : Fin 128), x0 (ix2 r q) = aggOf V c (ix2 (rowAt s r) q))
    (h1 : ∀ q : Fin 128, x1 (ix1 q) = biasOf V c (ix1 q)) (q : Fin 128) (A : EReal) (hacc : acc (ix1 q) = A) :
    k1_pay4 (F := Ideal) x1 x0 acc (ix1 q) = A + blockSum V c s q := by
  rw [pay4_apply, hacc]
  exact congrArg (fun z => A + z) (Finset.sum_congr rfl fun r _ => block_entry V c s x0 x1 h0 h1 r q)

/-- One step of the running column sums of squares. -/
theorem step_sq (c : Dev nD) (s : ℕ) (x0 : Vec Ideal S5000x128 .f32) (x1 : Vec Ideal S128 .f32) (acc : Vec Ideal S128 .f32)
    (h0 : ∀ (r : Fin 5000) (q : Fin 128), x0 (ix2 r q) = aggOf V c (ix2 (rowAt s r) q))
    (h1 : ∀ q : Fin 128, x1 (ix1 q) = biasOf V c (ix1 q)) (q : Fin 128) (A : EReal) (hacc : acc (ix1 q) = A) :
    k1_pay5 (F := Ideal) x1 x0 acc (ix1 q) = A + blockSq V c s q := by
  rw [pay5_apply, hacc]
  exact congrArg (fun z => A + z) (Finset.sum_congr rfl fun r _ => by rw [block_entry V c s x0 x1 h0 h1 r q])

/-- After point `t` the row block's buffer holds the clamped entries of row block `t` (both control cases). -/
theorem relu_at (c : Dev nD) (t : Fin cfg1.N) (r : Fin 5000) (q : Fin 128) :
    ((outsAt1 V c t.val t.isLt).1 : Vec Ideal S5000x128 .f32) (ix2 r q) = reluAt V c (rowAt t.val r) q := by
  by_cases h0 : t.val % 10 = 0
  · rw [outsAt1_A V c t h0]
    dsimp only
    rw [out_A_2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t), pay3_apply]
    exact block_entry V c t.val (iblk1 V c 0 t) (iblk1 V c 1 t) (iblk0_apply V c t) (iblk1_apply V c t) r q
  · rw [outsAt1_B V c t h0]
    dsimp only
    rw [out_B_2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
      (outsAt1 V c (t.val - 1) (Nat.lt_of_le_of_lt (Nat.sub_le _ _) t.isLt)).2.1
      (outsAt1 V c (t.val - 1) (Nat.lt_of_le_of_lt (Nat.sub_le _ _) t.isLt)).2.2, pay3_apply]
    exact block_entry V c t.val (iblk1 V c 0 t) (iblk1 V c 1 t) (iblk0_apply V c t) (iblk1_apply V c t) r q

/-- After point `n` the running rows hold the column sums, and sums of squares, of row blocks `0 … n`: the first
    point starts from zero, every later one adds its block's to what the point before left. -/
theorem sums_at (c : Dev nD) : ∀ (n : ℕ) (hn : n < cfg1.N) (q : Fin 128),
    ((outsAt1 V c n hn).2.1 : Vec Ideal S128 .f32) (ix1 q) = ∑ s ∈ Finset.range (n + 1), blockSum V c s q
    ∧ ((outsAt1 V c n hn).2.2 : Vec Ideal S128 .f32) (ix1 q) = ∑ s ∈ Finset.range (n + 1), blockSq V c s q
  | 0, hn, q => by
    rw [outsAt1_A V c ⟨0, hn⟩ rfl]
    dsimp only
    rw [out_A_3 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr rfl) (iblk1 V c 0 ⟨0, hn⟩) (iblk1 V c 1 ⟨0, hn⟩),
      out_A_4 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr rfl) (iblk1 V c 0 ⟨0, hn⟩) (iblk1 V c 1 ⟨0, hn⟩),
      Finset.sum_range_one, Finset.sum_range_one]
    refine ⟨?_, ?_⟩
    · refine (step_sum V c 0 (iblk1 V c 0 ⟨0, hn⟩) (iblk1 V c 1 ⟨0, hn⟩) (k1_pay1 (F := Ideal)) (iblk0_apply V c ⟨0, hn⟩) (iblk1_apply V c ⟨0, hn⟩) q 0
        (pay1_apply q)).trans ?_
      exact zero_add _
    · refine (step_sq V c 0 (iblk1 V c 0 ⟨0, hn⟩) (iblk1 V c 1 ⟨0, hn⟩) (k1_pay2 (F := Ideal)) (iblk0_apply V c ⟨0, hn⟩) (iblk1_apply V c ⟨0, hn⟩) q 0
        (pay2_apply q)).trans ?_
      exact zero_add _
  | n + 1, hn, q => by
    have hN : cfg1.N = 10 := N_1
    have hB : ¬(⟨n + 1, hn⟩ : Fin cfg1.N).val % 10 = 0 := by dsimp only; omega
    have ih : ((outsAt1 V c (n + 1 - 1) (Nat.lt_of_le_of_lt (Nat.sub_le _ _) hn)).2.1 : Vec Ideal S128 .f32) (ix1 q) = ∑ s ∈ Finset.range (n + 1), blockSum V c s q
        ∧ ((outsAt1 V c (n + 1 - 1) (Nat.lt_of_le_of_lt (Nat.sub_le _ _) hn)).2.2 : Vec Ideal S128 .f32) (ix1 q) = ∑ s ∈ Finset.range (n + 1), blockSq V c s q :=
      sums_at c n (Nat.lt_of_succ_lt hn) q
    rw [outsAt1_B V c ⟨n + 1, hn⟩ hB]
    dsimp only
    rw [out_B_3 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h)) (iblk1 V c 0 ⟨n + 1, hn⟩) (iblk1 V c 1 ⟨n + 1, hn⟩)
        (outsAt1 V c (n + 1 - 1) (Nat.lt_of_le_of_lt (Nat.sub_le _ _) hn)).2.1 (outsAt1 V c (n + 1 - 1) (Nat.lt_of_le_of_lt (Nat.sub_le _ _) hn)).2.2,
      out_B_4 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h)) (iblk1 V c 0 ⟨n + 1, hn⟩) (iblk1 V c 1 ⟨n + 1, hn⟩)
        (outsAt1 V c (n + 1 - 1) (Nat.lt_of_le_of_lt (Nat.sub_le _ _) hn)).2.1 (outsAt1 V c (n + 1 - 1) (Nat.lt_of_le_of_lt (Nat.sub_le _ _) hn)).2.2,
      Finset.sum_range_succ _ (n + 1), Finset.sum_range_succ _ (n + 1)]
    exact ⟨step_sum V c (n + 1) (iblk1 V c 0 ⟨n + 1, hn⟩) (iblk1 V c 1 ⟨n + 1, hn⟩) (outsAt1 V c (n + 1 - 1) (Nat.lt_of_le_of_lt (Nat.sub_le _ _) hn)).2.1
        (iblk0_apply V c ⟨n + 1, hn⟩) (iblk1_apply V c ⟨n + 1, hn⟩) q _ ih.1,
      step_sq V c (n + 1) (iblk1 V c 0 ⟨n + 1, hn⟩) (iblk1 V c 1 ⟨n + 1, hn⟩) (outsAt1 V c (n + 1 - 1) (Nat.lt_of_le_of_lt (Nat.sub_le _ _) hn)).2.2
        (iblk0_apply V c ⟨n + 1, hn⟩) (iblk1_apply V c ⟨n + 1, hn⟩) q _ ih.2⟩

end Cert.KernelIdeal.Reduce1

end
-- ==== Proof.Reduce1Final.lean ====
import proofs.«152337_j16226386444398_1_alg».proof.Proof.Reduce1Acc

noncomputable section

open Idealize.ShloMosaic Idealize.ShloMosaic.TcCoe Idealize.SL.Sem Idealize.ShloMosaic.ValueIdx
open Idealize.ShloMosaic.Pipeline (Dat)
open scoped BigOperators

/-! # The three result arrays after the region

The row-block output is written back at every grid point, block `t` of the array by point `t`: the array ends
holding every row biased and clamped at zero. The two running rows are written back once, after the last point:
they end holding, per column, the sum (and the sum of squares) of the clamped entries over all 50000 rows — the ten
blocks' sums regrouped into one sum over the rows, by commutativity and associativity of addition alone. -/

namespace Cert.KernelIdeal.Reduce1

open Cert.KernelIdeal Cert.KernelIdeal.Gen

variable (V : (c : Dev nD) → (b : Ref sig .tc) → Buf (Elt Ideal) ((c : Thread nD τ).loc b))

/-- Ten blocks of 5000 rows are the 50000 rows: a sum over blocks of sums over a block's rows is the sum over rows. -/
theorem sum_blocks {M : Type*} [AddCommMonoid M] (f : Fin 50000 → M) :
    ∑ s ∈ Finset.range 10, ∑ r : Fin 5000, f (rowAt s r) = ∑ x : Fin 50000, f x := by
  refine (Finset.sum_range (fun s => ∑ r : Fin 5000, f (rowAt s r))).trans ?_
  refine (Fintype.sum_prod_type' (fun (s : Fin 10) (r : Fin 5000) => f (rowAt s.val r))).symm.trans ?_
  exact Fintype.sum_equiv (finProdFinEquiv : Fin 10 × Fin 5000 ≃ Fin 50000) _ _ fun p =>
    congrArg f (Fin.ext (by
      show (5000 * p.1.val + p.2.val) % 50000 = p.2.val + 5000 * p.1.val
      have h1 := p.1.isLt; have h2 := p.2.isLt; omega))

/-- The arrays the three outputs end holding. -/
def reluArr (c : Dev nD) : S50000x128.Idx → EReal := fun i => reluAt V c (i 0) (i 1)
def sumArr (c : Dev nD) : S128.Idx → EReal := fun i => ∑ r : Fin 50000, reluAt V c r (i 0)
def sqArr (c : Dev nD) : S128.Idx → EReal := fun i => ∑ r : Fin 50000, reluAt V c r (i 0) * reluAt V c r (i 0)

/-- The outputs' block index maps, decided over the ten grid points. -/
theorem idx_facts2 : ∀ t : Fin cfg1.N, win1_2.index t 0 = t.val ∧ win1_2.index t 1 = 0 :=
  (by decide +kernel : ∀ t : Fin grid1.N, win1_2.index t 0 = t.val ∧ win1_2.index t 1 = 0)
theorem idx_facts3 : ∀ t : Fin cfg1.N, win1_3.index t 0 = 0 :=
  (by decide +kernel : ∀ t : Fin grid1.N, win1_3.index t 0 = 0)
theorem idx_facts4 : ∀ t : Fin cfg1.N, win1_4.index t 0 = 0 :=
  (by decide +kernel : ∀ t : Fin grid1.N, win1_4.index t 0 = 0)

/-! ## The clamped rows -/

/-- What point `t` writes back of the row-block output is block `t` of the clamped array. -/
theorem flushed2_eq (c : Dev nD) (t : Fin cfg1.N) :
    (dat1 V c).flushed 2 t = ((cfg1.win 2).blk t).view.read (Elt Ideal) (reluArr V c) := by
  have hN : t.val < 10 := lt_of_lt_of_eq t.isLt (show cfg1.N = 10 from N_1)
  show (cfg1.win 2).cut (grid1.coords t) ((dat1 V c).after 2 t) = _
  rw [after1_2]
  funext j
  obtain ⟨r, q, rfl⟩ : ∃ (r : Fin 5000) (q : Fin 128), j = ix2 r q := ⟨j 0, j 1, eq_ix2 j⟩
  rw [View.read_apply]
  refine (relu_at V c t r q).trans ?_
  show reluArr V c (ix2 (rowAt t.val r) q) = reluArr V c _
  congr 1
  funext a
  apply Fin.ext
  match a with
  | ⟨0, _⟩ => show (5000 * t.val + r.val) % 50000 = win1_2.index t 0 * 5000 + 1 * r.val; rw [(idx_facts2 t).1]; omega
  | ⟨1, _⟩ => show q.val = win1_2.index t 1 * 128 + 1 * q.val; rw [(idx_facts2 t).2]; omega

/-- An index of the array is in point `t`'s block iff each coordinate is in the block's range on its axis. -/
theorem mem_blk2 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v52_0).slice (win1_2.rect t)).set ↔ _
  rw [View.set_slice_whole, Rect.mem_set_unit]
  exact Iff.rfl

/-- Row `r` lies in the block of point `r / 5000`. -/
theorem cover2 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_2 _, ?_⟩
  rw [mem_blk2]
  intro a
  match a with
  | ⟨0, _⟩ =>
    show win1_2.index ⟨(i 0).val / 5000, _⟩ 0 * 5000 ≤ (i 0).val ∧ (i 0).val < win1_2.index ⟨(i 0).val / 5000, _⟩ 0 * 5000 + 5000
    rw [(idx_facts2 _).1]; dsimp only; omega
  | ⟨1, _⟩ =>
    show win1_2.index ⟨(i 0).val / 5000, _⟩ 1 * 128 ≤ (i 1).val ∧ (i 1).val < win1_2.index ⟨(i 0).val / 5000, _⟩ 1 * 128 + 128
    rw [(idx_facts2 _).2]; omega

/-- The row-block output's array after the region. -/
theorem relu_arr (c : Dev nD) : (dat1 V c).arrAt 2 cfg1.N = reluArr V c :=
  (dat1 V c).arrAt_eq_of_cover 2 (reluArr V c) (fun t _ => flushed2_eq V c t) cover2

/-- Entry `(r, q)` of the row-block output's array after the region: the entry of the row array plus the bias of its
    column, clamped below at zero. -/
theorem relu_final (c : Dev nD) (r : Fin 50000) (q : Fin 128) :
    @Eq EReal ((dat1 V c).arrAt 2 cfg1.N (ix2 r q)) (max (aggOf V c (ix2 r q) + biasOf V c (ix1 q)) 0) :=
  congrFun (relu_arr V c) (ix2 r q)

/-! ## The column sums and the column sums of squares -/

/-- The ten blocks' column sums are the column sums over all rows. -/
theorem total_sum (c : Dev nD) (q : Fin 128) :
    ∑ s ∈ Finset.range (9 + 1), blockSum V c s q = sumArr V c (ix1 q) :=
  sum_blocks (fun r => reluAt V c r q)
theorem total_sq (c : Dev nD) (q : Fin 128) :
    ∑ s ∈ Finset.range (9 + 1), blockSq V c s q = sqArr V c (ix1 q) :=
  sum_blocks (fun r => reluAt V c r q * reluAt V c r q)

/-- The running rows' one block is the whole row. -/
theorem emb3 (t : Fin cfg1.N) (q : Fin 128) : ((cfg1.win 3).blk t).view.emb (ix1 q) = ix1 q := by
  funext a
  apply Fin.ext
  match a with
  | ⟨0, _⟩ => show win1_3.index t 0 * 128 + 1 * q.val = q.val; rw [idx_facts3 t]; omega
theorem emb4 (t : Fin cfg1.N) (q : Fin 128) : ((cfg1.win 4).blk t).view.emb (ix1 q) = ix1 q := by
  funext a
  apply Fin.ext
  match a with
  | ⟨0, _⟩ => show win1_4.index t 0 * 128 + 1 * q.val = q.val; rw [idx_facts4 t]; omega

/-- Reading any row through a running row's block reads the row. -/
theorem read3 (t : Fin cfg1.N) (G : S128.Idx → EReal) (q : Fin 128) :
    ((cfg1.win 3).blk t).view.read (Elt Ideal) G (ix1 q) = G (ix1 q) := by
  rw [View.read_apply, emb3]
  rfl
theorem read4 (t : Fin cfg1.N) (G : S128.Idx → EReal) (q : Fin 128) :
    ((cfg1.win 4).blk t).view.read (Elt Ideal) G (ix1 q) = G (ix1 q) := by
  rw [View.read_apply, emb4]
  rfl

/-- The one write-back of the running column sums, after the last point, writes the column sums over all rows. -/
theorem flushed3_eq (c : Dev nD) (t : Fin cfg1.N) (hf : (cfg1.win 3).flush t = true) :
    (dat1 V c).flushed 3 t = ((cfg1.win 3).blk t).view.read (Elt Ideal) (sumArr V c) := by
  have hN : cfg1.N = 10 := N_1
  have h9 : t.val = 9 := by have := (flush1_3 t).mp hf; have := t.isLt; omega
  show (cfg1.win 3).cut (grid1.coords t) ((dat1 V c).after 3 t) = _
  rw [after1_3]
  funext j
  obtain ⟨q, rfl⟩ : ∃ q : Fin 128, j = ix1 q := ⟨j 0, eq_ix1 j⟩
  refine Eq.trans ?_ (read3 t (sumArr V c) q).symm
  refine ((sums_at V c t.val t.isLt q).1).trans ?_
  rw [h9]
  exact total_sum V c q

theorem flushed4_eq (c : Dev nD) (t : Fin cfg1.N) (hf : (cfg1.win 4).flush t = true) :
    (dat1 V c).flushed 4 t = ((cfg1.win 4).blk t).view.read (Elt Ideal) (sqArr V c) := by
  have hN : cfg1.N = 10 := N_1
  have h9 : t.val = 9 := by have := (flush1_4 t).mp hf; have := t.isLt; omega
  show (cfg1.win 4).cut (grid1.coords t) ((dat1 V c).after 4 t) = _
  rw [after1_4]
  funext j
  obtain ⟨q, rfl⟩ : ∃ q : Fin 128, j = ix1 q := ⟨j 0, eq_ix1 j⟩
  refine Eq.trans ?_ (read4 t (sqArr V c) q).symm
  refine ((sums_at V c t.val t.isLt q).2).trans ?_
  rw [h9]
  exact total_sq V c q

/-- The last point's block of a running row covers the row. -/
theorem cover3 (i : S128.Idx) :
    ∃ t : Fin cfg1.N, (cfg1.win 3).flush t = true ∧ i ∈ ((cfg1.win 3).blk t).view.set := by
  have hi0 : (i 0).val < 128 := (i 0).isLt
  refine ⟨t1_9, (flush1_3 t1_9).mpr rfl, ?_⟩
  show i ∈ ((View.whole main_v52_1).slice (win1_3.rect t1_9)).set
  rw [View.set_slice_whole, Rect.mem_set_unit]
  intro a
  match a with
  | ⟨0, _⟩ =>
    show win1_3.index t1_9 0 * 128 ≤ (i 0).val ∧ (i 0).val < win1_3.index t1_9 0 * 128 + 128
    rw [idx_facts3 t1_9]; omega
theorem cover4 (i : S128.Idx) :
    ∃ t : Fin cfg1.N, (cfg1.win 4).flush t = true ∧ i ∈ ((cfg1.win 4).blk t).view.set := by
  have hi0 : (i 0).val < 128 := (i 0).isLt
  refine ⟨t1_9, (flush1_4 t1_9).mpr rfl, ?_⟩
  show i ∈ ((View.whole main_v52_2).slice (win1_4.rect t1_9)).set
  rw [View.set_slice_whole, Rect.mem_set_unit]
  intro a
  match a with
  | ⟨0, _⟩ =>
    show win1_4.index t1_9 0 * 128 ≤ (i 0).val ∧ (i 0).val < win1_4.index t1_9 0 * 128 + 128
    rw [idx_facts4 t1_9]; omega

/-- The running rows' arrays after the region. -/
theorem sum_arr (c : Dev nD) : (dat1 V c).arrAt 3 cfg1.N = sumArr V c :=
  (dat1 V c).arrAt_eq_of_cover 3 (sumArr V c) (flushed3_eq V c) cover3
theorem sq_arr (c : Dev nD) : (dat1 V c).arrAt 4 cfg1.N = sqArr V c :=
  (dat1 V c).arrAt_eq_of_cover 4 (sqArr V c) (flushed4_eq V c) cover4

/-- Column `q` of the column-sums output after the region: the sum over all rows of the clamped entries. -/
theorem sum_final (c : Dev nD) (q : Fin 128) :
    @Eq EReal ((dat1 V c).arrAt 3 cfg1.N (ix1 q))
      (∑ r : Fin 50000, max (aggOf V c (ix2 r q) + biasOf V c (ix1 q)) 0) :=
  congrFun (sum_arr V c) (ix1 q)

/-- Column `q` of the sums-of-squares output after the region. -/
theorem sq_final (c : Dev nD) (q : Fin 128) :
    @Eq EReal ((dat1 V c).arrAt 4 cfg1.N (ix1 q))
      (∑ r : Fin 50000, max (aggOf V c (ix2 r q) + biasOf V c (ix1 q)) 0 * max (aggOf V c (ix2 r q) + biasOf V c (ix1 q)) 0) :=
  congrFun (sq_arr V c) (ix1 q)

end Cert.KernelIdeal.Reduce1

end
-- ==== Proof.AffBlock.lean ====
/-
  One row block of the affine map.

  The affine kernel's body takes a block of 5000 rows v and two vectors of length 128, a scale and a shift, recasts
  each vector as a 1 × 128 row, repeats that row down the 5000 rows, and stores v · scale + shift. Entry (p, q) of
  what it stores is v[p, q] · scale[q] + shift[q].
-/
import proofs.«152337_j16226386444398_1_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.AffBlock

open Cert.KernelIdeal Cert.KernelIdeal.Gen
open Idealize.ShloMosaic Idealize.ShloMosaic.ValueIdx

/-- A vector of length 128 recast as a row and repeated down 5000 rows reads, at (p, q), the vector at q. -/
theorem row_bcast (v : Vec Ideal S128 .f32) (p : Fin 5000) (q : Fin 128) :
    broadcastTo S5000x128 (shapeCast S1x128 (shapeCast S128 v shapeCasts_S128_S128) shapeCasts_S128_S1x128) broadcasts_S1x128_S5000x128 (ix2 p q)
      = v (ix1 q) := by
  rw [shapeCast_self]
  exact (broadcastTo_1b_ab_apply (a := 5000) (b := 128) _ broadcasts_S1x128_S5000x128 p q).trans
    (shapeCast_a_1a_apply (a := 128) v shapeCasts_S128_S1x128 (0 : Fin 1) q)

/-- Entry (p, q) of the affine body's stored value. -/
theorem pay2_apply (v : Vec Ideal S5000x128 .f32) (sc sh : Vec Ideal S128 .f32) (p : Fin 5000) (q : Fin 128) :
    k2_pay1 (F := Ideal) sc sh v (ix2 p q) = v (ix2 p q) * sc (ix1 q) + sh (ix1 q) := by
  unfold k2_pay1
  rw [addf_apply, mulf_apply, row_bcast sc p q, row_bcast sh p q, shapeCast_self]

/-- Entry (p, q) of the affine body's stored value. -/
theorem pay5_apply (v : Vec Ideal S5000x128 .f32) (sc sh : Vec Ideal S128 .f32) (p : Fin 5000) (q : Fin 128) :
    k5_pay1 (F := Ideal) sc sh v (ix2 p q) = v (ix2 p q) * sc (ix1 q) + sh (ix1 q) := by
  unfold k5_pay1
  rw [addf_apply, mulf_apply, row_bcast sc p q, row_bcast sh p q, shapeCast_self]

/-- Entry (p, q) of the affine body's stored value. -/
theorem pay8_apply (v : Vec Ideal S5000x128 .f32) (sc sh : Vec Ideal S128 .f32) (p : Fin 5000) (q : Fin 128) :
    k8_pay1 (F := Ideal) sc sh v (ix2 p q) = v (ix2 p q) * sc (ix1 q) + sh (ix1 q) := by
  unfold k8_pay1
  rw [addf_apply, mulf_apply, row_bcast sc p q, row_bcast sh p q, shapeCast_self]

end Cert.KernelIdeal.AffBlock

end
-- ==== Proof.AffRegion2.lean ====
/-
  The affine region's array.

  The region runs the affine body at ten grid points. Point t takes rows 5000·t … 5000·t + 4999 of the values and the
  whole scale and shift vectors, and writes values · scale + shift back to the same rows of the output. The ten
  blocks cover all 50000 rows, so the output array ends holding, at (r, q), values[r, q] · scale[q] + shift[q] of the
  arrays the region found.
-/
import proofs.«152337_j16226386444398_1_alg».proof.Proof.Gen.KernelIdeal.Frame
import proofs.«152337_j16226386444398_1_alg».proof.Proof.AffBlock
import Idealize.ShloMosaic.Lib.Pipeline.Value

set_option maxRecDepth 16384

noncomputable section

namespace Cert.KernelIdeal.Aff2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid. -/
theorem idx_facts : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = t.val ∧ win2_3.index t (1 : Fin 2) = 0 ∧ t.val < 10 :=
  (by decide +kernel : ∀ t : Fin grid2.N, _)

/-- The three arrays the region finds. -/
abbrev vals (c : Dev nD) : FVec Ideal ⟨2, ![50000, 128]⟩ .f32 := V c (Pipeline.arrRef spec2 0)
abbrev scale (c : Dev nD) : FVec Ideal ⟨1, ![128]⟩ .f32 := V c (Pipeline.arrRef spec2 1)
abbrev shift (c : Dev nD) : FVec Ideal ⟨1, ![128]⟩ .f32 := V c (Pipeline.arrRef spec2 2)

/-- The whole output: values · scale + shift, column by column. -/
def G (c : Dev nD) : FVec Ideal ⟨2, ![50000, 128]⟩ .f32 :=
  fun i => vals V c i * scale V c (ix1 (i 1)) + shift V c (ix1 (i 1))

theorem G_apply (c : Dev nD) (r : Fin 50000) (q : Fin 128) :
    G V c (ix2 r q) = vals V c (ix2 r q) * scale V c (ix1 q) + shift V c (ix1 q) := rfl

/-- What point t writes back is block t of the whole output. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  have hp : t.val * 5000 + p.val < 50000 := by have := p.isLt; omega
  refine (AffBlock.pay2_apply (iblk2 V c 0 t) (iblk2 V c 1 t) (iblk2 V c 2 t) p q).trans ?_
  have h0 : ((cfg2.win 0).blk t).view.emb (ix2 p q) = ix2 ⟨t.val * 5000 + p.val, hp⟩ q := by
    funext a; apply Fin.ext
    match a with
    | ⟨0, _⟩ => show win2_0.index t (0 : Fin 2) * 5000 + 1 * p.val = t.val * 5000 + p.val; omega
    | ⟨1, _⟩ => show win2_0.index t (1 : Fin 2) * 128 + 1 * q.val = q.val; omega
  have h1 : ((cfg2.win 1).blk t).view.emb (ix1 q) = ix1 q := by
    funext a; apply Fin.ext
    match a with
    | ⟨0, _⟩ => show win2_1.index t (0 : Fin 1) * 128 + 1 * q.val = q.val; omega
  have h2 : ((cfg2.win 2).blk t).view.emb (ix1 q) = ix1 q := by
    funext a; apply Fin.ext
    match a with
    | ⟨0, _⟩ => show win2_2.index t (0 : Fin 1) * 128 + 1 * q.val = q.val; omega
  have h3 : ((cfg2.win 3).blk t).view.emb (ix2 p q) = ix2 ⟨t.val * 5000 + p.val, hp⟩ q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show vals V c (((cfg2.win 0).blk t).view.emb (ix2 p q)) * scale V c (((cfg2.win 1).blk t).view.emb (ix1 q))
      + shift V c (((cfg2.win 2).blk t).view.emb (ix1 q)) = G V c (((cfg2.win 3).blk t).view.emb (ix2 p q))
  rw [h0, h1, h2, h3, G_apply]

/-- An index of the output array is in point t's block iff each coordinate is in the block's range. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v65).slice (win2_3.rect t)).set ↔ _
  rw [View.set_slice_whole, Rect.mem_set_unit]
  exact Iff.rfl

/-- Every row lies in the block of the point numbered row / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, by show (i 0).val / 5000 < 10; omega⟩
  obtain ⟨e0, e1, e2, e3, e4, e5, e6⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region. -/
theorem final (c : Dev nD) : (dat2 V c).arrAt 3 cfg2.N = G V c :=
  (dat2 V c).arrAt_eq_of_cover 3 (G V c) (fun t _ => flushed_eq V c t) (cover)

end Cert.KernelIdeal.Aff2

end
-- ==== Proof.KHost.lean ====
/-
  The host operations between the kernel regions of a layer.

  After the matmul region the host gathers the rows of the product by source, scales row e by the edge
  normalisation norm[e], and adds the rows up by destination into zeros; before layers 2 and 3 it transposes the
  layer's weight matrix. Each stretch is read at any contents V of the buffers it finds.
-/
import proofs.«152337_j16226386444398_1_alg».proof.Proof.Gen.KernelIdeal.Launch
import proofs.«152337_j16226386444398_1_alg».proof.Proof.RefSpec
import Idealize.ShloMosaic.Lib.StableHlo.Run
import Idealize.ShloMosaic.PureOps.Ideal

set_option maxHeartbeats 1000000

noncomputable section

namespace Cert.KernelIdeal.KHost

open Cert.KernelIdeal Cert.KernelIdeal.Gen
open Idealize.ShloMosaic Idealize.ShloMosaic.TcCoe Idealize.SL.Sem Idealize.ShloMosaic.StableHlo

variable (V : Valuation τ sig (Elt Ideal))

/-- Layer 1: the aggregated rows. -/
theorem agg1_eq : after hostOps1 V (Proc.devRef .tc main_v51)
    = Cert.ReferenceIdeal.RefSpec.aggOf (F := Ideal) (V (Proc.devRef .tc main_v38)) (V (Proc.devRef .tc main_v36)) (V (Proc.devRef .tc main_v5)) (V (Proc.devRef .tc main_v6)) := by
  after_results_simp
  rfl

/-- Layer 2: the aggregated rows. -/
theorem agg2_eq : after hostOps4 V (Proc.devRef .tc main_v80)
    = Cert.ReferenceIdeal.RefSpec.aggOf (F := Ideal) (V (Proc.devRef .tc main_v67)) (V (Proc.devRef .tc main_v36)) (V (Proc.devRef .tc main_v5)) (V (Proc.devRef .tc main_v6)) := by
  after_results_simp
  rfl

/-- Layer 3: the aggregated rows. -/
theorem agg3_eq : after hostOps7 V (Proc.devRef .tc main_v109)
    = Cert.ReferenceIdeal.RefSpec.aggOf (F := Ideal) (V (Proc.devRef .tc main_v96)) (V (Proc.devRef .tc main_v36)) (V (Proc.devRef .tc main_v5)) (V (Proc.devRef .tc main_v6)) := by
  after_results_simp
  rfl

/-- Layer 2: the transposed weight matrix. -/
theorem wt2_eq : after hostOps3 V (Proc.devRef .tc main_v66)
    = transpose S128x128 [1, 0] (V (Proc.devRef .tc main_arg7)) transposes_S128x128_S128x128_1_0 := by
  after_results_simp

/-- Layer 3: the transposed weight matrix. -/
theorem wt3_eq : after hostOps6 V (Proc.devRef .tc main_v95)
    = transpose S128x128 [1, 0] (V (Proc.devRef .tc main_arg11)) transposes_S128x128_S128x128_1_0 := by
  after_results_simp

end Cert.KernelIdeal.KHost

end
-- ==== Proof.LibColReduce.lean ====
/-
  Sums down the columns of a two-axis array, and a row vector broadcast to every row, read at an index.

  For an array x : [R, C] reduced along its first axis, over the extended reals, the host's sum from zero at column q
  is the plain sum over the rows, Σ_k x (k, q). A vector r : [C] broadcast first to [1, C] and then to [R, C] reads
  r q at every (i, q); a scalar broadcast to any shape reads its one value everywhere.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib.ColReduce

open Idealize.ShloMosaic Idealize.ShloMosaic.ValueIdx

variable {R C : Nat}

/-- The reduced index q with row k put back is (k, q). -/
theorem lift_col (h : (⟨2, ![R, C]⟩ : Shape).Reduces [0] (⟨1, ![C]⟩ : Shape)) (q : Fin C)
    (k : Fin ((⟨2, ![R, C]⟩ : Shape).size 0)) : h.lift (ix1 q) k = ix2 (⟨k.val, k.isLt⟩ : Fin R) q := by
  funext c; apply Fin.ext
  fin_cases c <;> rfl

/-- The host's sum along axis 0 from zero, at column q. -/
theorem hostReduceAdd_col (x : FVec Ideal ⟨2, ![R, C]⟩ .f32) (init : (⟨0, ![]⟩ : Shape).Idx → Ideal .f32)
    (hinit : ∀ i, init i = 0)
    (h' : (⟨2, ![R, C]⟩ : Shape).ReducesTo [0] (⟨1, ![C]⟩ : Shape)) (h : (⟨2, ![R, C]⟩ : Shape).Reduces [0] (⟨1, ![C]⟩ : Shape))
    (hu : 0 < (⟨0, ![]⟩ : Shape).numel) (q : Fin C) :
    Host.reduceAdd (F := Ideal) x init h' hu (ix1 q) = ∑ k : Fin R, x (ix2 k q) := by
  show Ideal.hostReduceAdd h' x (init (Shape.Idx.first hu)) (ix1 q) = _
  rw [Ideal.hostReduceAdd_single h' h, hinit, zero_add]
  refine Finset.sum_congr rfl fun k _ => ?_
  exact congrArg x (lift_col h q k)

/-- A scalar broadcast to any shape reads its one value. -/
theorem bcast_scalar_apply {α : Type} {s : Shape} (hb : (⟨0, ![]⟩ : Shape).BroadcastsInDim s (![] : Fin 0 → Fin s.rank))
    (x : (⟨0, ![]⟩ : Shape).Idx → α) (j : s.Idx) : broadcastInDim s ![] hb x j = x ix0 := by
  unfold broadcastInDim
  exact congrArg x (funext fun a => a.elim0)

/-- A vector broadcast to one row reads its entry. -/
theorem bcast_row1_apply {α : Type} (r : (⟨1, ![C]⟩ : Shape).Idx → α)
    (hb : (⟨1, ![C]⟩ : Shape).BroadcastsInDim (⟨2, ![1, C]⟩ : Shape) (![1] : Fin 1 → Fin 2)) (z : Fin 1) (q : Fin C) :
    broadcastInDim (⟨2, ![1, C]⟩ : Shape) ![1] hb r (ix2 z q) = r (ix1 q) := by
  refine broadcastInDim_apply _ hb r _ (ix1 q) fun a => ?_
  fin_cases a
  show q.val = if C = 1 then 0 else q.val
  split_ifs with hC
  · have := q.isLt; omega
  · rfl

/-- One row broadcast to R rows reads the row's entry. -/
theorem bcast_rows_apply {α : Type} (X : (⟨2, ![1, C]⟩ : Shape).Idx → α)
    (hb : (⟨2, ![1, C]⟩ : Shape).BroadcastsInDim (⟨2, ![R, C]⟩ : Shape) (![0, 1] : Fin 2 → Fin 2)) (i : Fin R) (q : Fin C) :
    broadcastInDim (⟨2, ![R, C]⟩ : Shape) ![0, 1] hb X (ix2 i q) = X (ix2 (0 : Fin 1) q) := by
  refine broadcastInDim_apply _ hb X _ (ix2 (0 : Fin 1) q) fun a => ?_
  fin_cases a
  · rfl
  · show q.val = if C = 1 then 0 else q.val
    split_ifs with hC
    · have := q.isLt; omega
    · rfl

/-- A vector as every row of an [R, C] array reads its entry at the column. -/
theorem rowBcast_apply {α : Type} (r : (⟨1, ![C]⟩ : Shape).Idx → α)
    (hb1 : (⟨1, ![C]⟩ : Shape).BroadcastsInDim (⟨2, ![1, C]⟩ : Shape) (![1] : Fin 1 → Fin 2))
    (hb2 : (⟨2, ![1, C]⟩ : Shape).BroadcastsInDim (⟨2, ![R, C]⟩ : Shape) (![0, 1] : Fin 2 → Fin 2)) (i : Fin R) (q : Fin C) :
    broadcastInDim (⟨2, ![R, C]⟩ : Shape) ![0, 1] hb2 (broadcastInDim (⟨2, ![1, C]⟩ : Shape) ![1] hb1 r) (ix2 i q)
      = r (ix1 q) := by
  rw [bcast_rows_apply _ hb2 i q, bcast_row1_apply r hb1 0 q]

end Cert.Lib.ColReduce

end
-- ==== Proof.KStats.lean ====
/-
  The batch statistics as the kernel's host side computes them.

  From the column sums s and the column sums of squares ss of the 50000 rows, the host forms, per column,
  mean = s / 50000, the variance as ss / 50000 − mean², scale = g / sqrt(variance + eps) and shift = be − mean · scale.
-/
import proofs.«152337_j16226386444398_1_alg».proof.Proof.Gen.KernelIdeal.Launch
import proofs.«152337_j16226386444398_1_alg».proof.Proof.LibColReduce
import Idealize.ShloMosaic.Lib.StableHlo.Run
import Idealize.ShloMosaic.Lib.ValueIdx
import Idealize.ShloMosaic.PureOps.Ideal

noncomputable section

namespace Cert.KernelIdeal.KStats

open Cert.KernelIdeal Cert.KernelIdeal.Gen
open Idealize.ShloMosaic Idealize.ShloMosaic.TcCoe Idealize.ShloMosaic.ValueIdx Idealize.SL.Sem Idealize.ShloMosaic.StableHlo

/-- A column total divided by the number of rows. -/
def kMean (s : FVec Ideal S128 .f32) : FVec Ideal S128 .f32 :=
  Host.divf s (broadcastInDim S128 ![] bcast_S_S128 (constant (F := Ideal) S_ .f32 0x47435000#32))

/-- g / sqrt(ss / n − mean² + eps). -/
def kScale (s ss g : FVec Ideal S128 .f32) : FVec Ideal S128 .f32 :=
  Host.divf g (Host.sqrt (addf (subf (kMean ss) (mulf (kMean s) (kMean s))) (broadcastInDim S128 ![] bcast_S_S128 (constant (F := Ideal) S_ .f32 0x3727C5AC#32))))

/-- be − mean · scale. -/
def kShift (s ss g be : FVec Ideal S128 .f32) : FVec Ideal S128 .f32 := subf be (mulf (kMean s) (kScale s ss g))

theorem kMean_apply (s : FVec Ideal S128 .f32) (q : Fin 128) :
    kMean s (ix1 q) = Ideal.div (s (ix1 q)) (Ideal.ofBits .f32 0x47435000#32) := by
  show Ideal.div (s (ix1 q)) (broadcastInDim S128 ![] bcast_S_S128 (constant (F := Ideal) S_ .f32 0x47435000#32) (ix1 q)) = _
  rw [Cert.Lib.ColReduce.bcast_scalar_apply]; rfl

theorem kScale_apply (s ss g : FVec Ideal S128 .f32) (q : Fin 128) :
    kScale s ss g (ix1 q) = Ideal.div (g (ix1 q)) (Ideal.sqrt
      (Ideal.div (ss (ix1 q)) (Ideal.ofBits .f32 0x47435000#32)
        - Ideal.div (s (ix1 q)) (Ideal.ofBits .f32 0x47435000#32) * Ideal.div (s (ix1 q)) (Ideal.ofBits .f32 0x47435000#32)
        + Ideal.ofBits .f32 0x3727C5AC#32)) := by
  show Ideal.div (g (ix1 q)) (Ideal.sqrt (kMean ss (ix1 q) - kMean s (ix1 q) * kMean s (ix1 q)
    + broadcastInDim S128 ![] bcast_S_S128 (constant (F := Ideal) S_ .f32 0x3727C5AC#32) (ix1 q))) = _
  rw [kMean_apply, kMean_apply, Cert.Lib.ColReduce.bcast_scalar_apply]; rfl

theorem kShift_apply (s ss g be : FVec Ideal S128 .f32) (q : Fin 128) :
    kShift s ss g be (ix1 q) = be (ix1 q) - Ideal.div (s (ix1 q)) (Ideal.ofBits .f32 0x47435000#32) * kScale s ss g (ix1 q) := by
  show be (ix1 q) - kMean s (ix1 q) * kScale s ss g (ix1 q) = _
  rw [kMean_apply]

/-- Layer 1: after the statistics stretch the scale buffer holds the scale of the two totals and g. -/
theorem scale1_eq (V : Valuation τ sig (Elt Ideal)) :
    after hostOps2 V (Proc.devRef .tc main_v62) = kScale (V (Proc.devRef .tc main_v52_1)) (V (Proc.devRef .tc main_v52_2)) (V (Proc.devRef .tc main_arg5)) := by
  after_results_simp
  rfl
theorem shift1_eq (V : Valuation τ sig (Elt Ideal)) :
    after hostOps2 V (Proc.devRef .tc main_v64) = kShift (V (Proc.devRef .tc main_v52_1)) (V (Proc.devRef .tc main_v52_2)) (V (Proc.devRef .tc main_arg5)) (V (Proc.devRef .tc main_arg6)) := by
  after_results_simp
  rfl
/-- The stretch writes neither the values buffer … -/
theorem vals1_keep (V : Valuation τ sig (Elt Ideal)) : after hostOps2 V (Proc.devRef .tc main_v52_0) = V (Proc.devRef .tc main_v52_0) := by
  after_results_simp

/-- Layer 2: after the statistics stretch the scale buffer holds the scale of the two totals and g. -/
theorem scale2_eq (V : Valuation τ sig (Elt Ideal)) :
    after hostOps5 V (Proc.devRef .tc main_v91) = kScale (V (Proc.devRef .tc main_v81_1)) (V (Proc.devRef .tc main_v81_2)) (V (Proc.devRef .tc main_arg9)) := by
  after_results_simp
  rfl
theorem shift2_eq (V : Valuation τ sig (Elt Ideal)) :
    after hostOps5 V (Proc.devRef .tc main_v93) = kShift (V (Proc.devRef .tc main_v81_1)) (V (Proc.devRef .tc main_v81_2)) (V (Proc.devRef .tc main_arg9)) (V (Proc.devRef .tc main_arg10)) := by
  after_results_simp
  rfl
/-- The stretch writes neither the values buffer … -/
theorem vals2_keep (V : Valuation τ sig (Elt Ideal)) : after hostOps5 V (Proc.devRef .tc main_v81_0) = V (Proc.devRef .tc main_v81_0) := by
  after_results_simp

/-- Layer 3: after the statistics stretch the scale buffer holds the scale of the two totals and g. -/
theorem scale3_eq (V : Valuation τ sig (Elt Ideal)) :
    after hostOps8 V (Proc.devRef .tc main_v120) = kScale (V (Proc.devRef .tc main_v110_1)) (V (Proc.devRef .tc main_v110_2)) (V (Proc.devRef .tc main_arg13)) := by
  after_results_simp
  rfl
theorem shift3_eq (V : Valuation τ sig (Elt Ideal)) :
    after hostOps8 V (Proc.devRef .tc main_v122) = kShift (V (Proc.devRef .tc main_v110_1)) (V (Proc.devRef .tc main_v110_2)) (V (Proc.devRef .tc main_arg13)) (V (Proc.devRef .tc main_arg14)) := by
  after_results_simp
  rfl
/-- The stretch writes neither the values buffer … -/
theorem vals3_keep (V : Valuation τ sig (Elt Ideal)) : after hostOps8 V (Proc.devRef .tc main_v110_0) = V (Proc.devRef .tc main_v110_0) := by
  after_results_simp

end Cert.KernelIdeal.KStats

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibBatchNorm.lean ====
/-
  Batch normalisation over the extended reals, when every entry is a real number.

  For real entries x_1, …, x_n (n > 0), a real gain g, a real offset b and a positive real ε, put
      m  = (Σ_j x_j) / n                      the mean,
      v  = (Σ_j x_j · x_j) / n − m · m          the variance from the first two moments,
      v' = (Σ_j (x_j − m) · (x_j − m)) / n      the variance from the centred entries.
  Over ℝ, expanding the square and using Σ_j x_j = n · m gives v = v'; and v' ≥ 0, so v' + ε > 0, its square
  root is a positive real and s = g / √(v' + ε) is a real. Hence the two ways of normalising,
      x_i · s + (b − m · s)      and      (x_i − m) · s + b ,
  agree (distribute the product), and the common value is a real number.

  The division and the square root below are the ones on the extended reals with their conventions at 0, at
  the infinities and at the negatives (Ideal.div, Ideal.sqrt); on the arguments that occur here (a nonzero
  real divisor, a nonnegative real radicand) they are the real operations, which is what makes the identities
  above available. (Over the extended reals in general they fail: ∞ − ∞ and 0 · ∞ are not cancellable.)

  Also here: closure of "is a real number" under subtraction, negation, maximum, division by a nonzero real,
  the square root of a nonnegative real, and the reciprocal square root of a positive real, as they read on
  the extended reals; and the selection "if d > 0 then 1 / √(if d > 0 then d else 1) else 0" is a real.
-/
import Mathlib
import Idealize.ShloMosaic.PureOps.Ideal
import Idealize.ShloMosaic.PureOps.Ideal.Laws
import proofs.«152337_j16226386444398_1_alg».proof.Proof.LibRealSum

noncomputable section

open scoped BigOperators
open Idealize.ShloMosaic
open Cert.LibRealSum

namespace Cert.Lib.BatchNorm

/-! ### Closure of "is a real number" -/

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_neg {x : EReal} (hx : IsReal x) : IsReal (-x) := by
  obtain ⟨a, rfl⟩ := hx; exact ⟨-a, (EReal.coe_neg a).symm⟩

theorem isReal_max {x y : EReal} (hx : IsReal x) (hy : IsReal y) : IsReal (max x y) := by
  obtain ⟨a, rfl⟩ := hx; obtain ⟨b, rfl⟩ := hy; exact ⟨max a b, (EReal.coe_strictMono.monotone.map_max).symm⟩

/-- The maximum of a real with 0 is a nonnegative real. -/
theorem isReal_max_zero {x : EReal} (hx : IsReal x) : IsReal (max x 0) := isReal_max hx isReal_zero

theorem isReal_ne_top {x : EReal} (hx : IsReal x) : x ≠ ⊤ := by
  obtain ⟨a, rfl⟩ := hx; exact EReal.coe_ne_top a

theorem isReal_ne_bot {x : EReal} (hx : IsReal x) : x ≠ ⊥ := by
  obtain ⟨a, rfl⟩ := hx; exact EReal.coe_ne_bot a

/-- The quotient of two reals with a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

theorem isReal_div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a b hb⟩

/-- The square root of a nonnegative real is the real square root. -/
theorem sqrt_coe_of_nonneg (r : ℝ) (h : 0 ≤ r) : Ideal.sqrt (r : EReal) = ((Real.sqrt r : ℝ) : EReal) := by
  rw [Ideal.sqrt_coe, if_neg (not_lt.mpr h)]

theorem isReal_sqrt {x : EReal} (hx : IsReal x) (h0 : 0 ≤ x) : IsReal (Ideal.sqrt x) := by
  obtain ⟨a, rfl⟩ := hx
  exact ⟨Real.sqrt a, sqrt_coe_of_nonneg a (by exact_mod_cast h0)⟩

/-- The square root of a positive real is a positive real. -/
theorem sqrt_pos_of_pos {x : EReal} (hx : IsReal x) (h0 : 0 < x) : IsReal (Ideal.sqrt x) ∧ 0 < Ideal.sqrt x := by
  obtain ⟨a, rfl⟩ := hx
  have ha : 0 < a := by exact_mod_cast h0
  refine ⟨⟨Real.sqrt a, sqrt_coe_of_nonneg a ha.le⟩, ?_⟩
  rw [sqrt_coe_of_nonneg a ha.le]
  exact_mod_cast Real.sqrt_pos.mpr ha

/-- 1 / √d for a positive real d is the real 1 / √d. -/
theorem one_div_sqrt_coe (d : ℝ) (hd : 0 < d) :
    Ideal.div 1 (Ideal.sqrt (d : EReal)) = ((1 / Real.sqrt d : ℝ) : EReal) := by
  rw [sqrt_coe_of_nonneg d hd.le, ← EReal.coe_one, div_coe_coe 1 _ (Real.sqrt_pos.mpr hd).ne']

theorem isReal_one_div_sqrt {x : EReal} (hx : IsReal x) (h0 : 0 < x) : IsReal (Ideal.div 1 (Ideal.sqrt x)) := by
  obtain ⟨a, rfl⟩ := hx
  exact ⟨_, one_div_sqrt_coe a (by exact_mod_cast h0)⟩

/-- g / √d for a real g and a positive real d is the real g / √d. -/
theorem div_sqrt_coe (g d : ℝ) (hd : 0 < d) :
    Ideal.div (g : EReal) (Ideal.sqrt (d : EReal)) = ((g / Real.sqrt d : ℝ) : EReal) := by
  rw [sqrt_coe_of_nonneg d hd.le, div_coe_coe g _ (Real.sqrt_pos.mpr hd).ne']

/-! ### The variance identity over ℝ -/

/-- Σ (a_j − m)² = Σ a_j² − n · m² when m is the mean; divided by n. -/
theorem var_moments_eq_centred {n : ℕ} (hn : 0 < n) (a : Fin n → ℝ) :
    (∑ j, a j * a j) / (n : ℝ) - (∑ j, a j) / (n : ℝ) * ((∑ j, a j) / (n : ℝ))
      = (∑ j, (a j - (∑ k, a k) / (n : ℝ)) * (a j - (∑ k, a k) / (n : ℝ))) / (n : ℝ) := by
  have hn' : (n : ℝ) ≠ 0 := by exact_mod_cast hn.ne'
  set m : ℝ := (∑ k, a k) / (n : ℝ) with hm
  have hA : ∑ k, a k = (n : ℝ) * m := by rw [hm]; field_simp
  have hexp : ∀ j, (a j - m) * (a j - m) = a j * a j - 2 * m * a j + m * m := fun j => by ring
  have hsum : ∑ j, (a j - m) * (a j - m) = (∑ j, a j * a j) - 2 * m * (∑ j, a j) + (n : ℝ) * (m * m) := by
    simp only [hexp, Finset.sum_add_distrib, Finset.sum_sub_distrib, ← Finset.mul_sum, Finset.sum_const,
      Finset.card_univ, Fintype.card_fin, nsmul_eq_mul]
    ring
  rw [hsum, hA]
  field_simp
  ring

theorem var_centred_nonneg {n : ℕ} (a : Fin n → ℝ) (m : ℝ) : 0 ≤ (∑ j, (a j - m) * (a j - m)) / (n : ℝ) :=
  div_nonneg (Finset.sum_nonneg fun j _ => mul_self_nonneg _) (Nat.cast_nonneg n)

/-! ### The same on the extended reals -/

section
variable {n : ℕ} (hn : 0 < n) (x : Fin n → EReal) (hx : ∀ j, IsReal (x j)) {N : EReal} (hN : N = ((n : ℝ) : EReal))
include hn hx hN

/-- The mean of real entries is the real mean. -/
theorem mean_eq (a : Fin n → ℝ) (ha : ∀ j, x j = (a j : EReal)) :
    Ideal.div (∑ j, x j) N = (((∑ j, a j) / (n : ℝ) : ℝ) : EReal) := by
  have hn' : (n : ℝ) ≠ 0 := by exact_mod_cast hn.ne'
  simp only [ha, hN, ← coe_finset_sum, div_coe_coe _ _ hn']

theorem isReal_mean : IsReal (Ideal.div (∑ j, x j) N) := by
  choose a ha using hx
  exact ⟨_, mean_eq hn x (fun j => ⟨a j, ha j⟩) hN a ha⟩

/-- THE VARIANCE IDENTITY: from the moments, and from the centred entries. -/
theorem varMoments_eq_varCentred :
    Ideal.div (∑ j, x j * x j) N - Ideal.div (∑ j, x j) N * Ideal.div (∑ j, x j) N
      = Ideal.div (∑ j, (x j - Ideal.div (∑ k, x k) N) * (x j - Ideal.div (∑ k, x k) N)) N := by
  have hn' : (n : ℝ) ≠ 0 := by exact_mod_cast hn.ne'
  choose a ha using hx
  rw [mean_eq hn x (fun j => ⟨a j, ha j⟩) hN a ha]
  simp only [ha, hN, ← EReal.coe_mul, ← EReal.coe_sub, ← coe_finset_sum, div_coe_coe _ _ hn']
  exact congrArg _ (var_moments_eq_centred hn a)

/-- The centred variance is a nonnegative real. -/
theorem varCentred_real_nonneg :
    ∃ v : ℝ, 0 ≤ v ∧
      Ideal.div (∑ j, (x j - Ideal.div (∑ k, x k) N) * (x j - Ideal.div (∑ k, x k) N)) N = (v : EReal) := by
  have hn' : (n : ℝ) ≠ 0 := by exact_mod_cast hn.ne'
  choose a ha using hx
  refine ⟨_, var_centred_nonneg a ((∑ k, a k) / (n : ℝ)), ?_⟩
  rw [mean_eq hn x (fun j => ⟨a j, ha j⟩) hN a ha]
  simp only [ha, hN, ← EReal.coe_mul, ← EReal.coe_sub, ← coe_finset_sum, div_coe_coe _ _ hn']

end

/-! ### The scale, the two normalisations, and their agreement -/

section
variable {n : ℕ} (hn : 0 < n) (x : Fin n → EReal) (hx : ∀ j, IsReal (x j)) {N g be eps : EReal}
  (hN : N = ((n : ℝ) : EReal)) (hg : IsReal g) (hbe : IsReal be) (heps : ∃ e : ℝ, 0 < e ∧ eps = (e : EReal))
include hn hx hN heps

/-- The centred variance plus ε is a positive real. -/
theorem varCentred_add_eps_pos :
    ∃ w : ℝ, 0 < w ∧
      Ideal.div (∑ j, (x j - Ideal.div (∑ k, x k) N) * (x j - Ideal.div (∑ k, x k) N)) N + eps = (w : EReal) := by
  obtain ⟨v, hv0, hv⟩ := varCentred_real_nonneg hn x hx hN
  obtain ⟨e, he0, rfl⟩ := heps
  exact ⟨v + e, by linarith, by rw [hv, ← EReal.coe_add]⟩

include hg

/-- The scale g / √(v' + ε), with v' the centred variance, is a real. -/
theorem isReal_scale :
    IsReal (Ideal.div g (Ideal.sqrt
      (Ideal.div (∑ j, (x j - Ideal.div (∑ k, x k) N) * (x j - Ideal.div (∑ k, x k) N)) N + eps))) := by
  obtain ⟨w, hw0, hw⟩ := varCentred_add_eps_pos hn x hx hN heps
  obtain ⟨g', rfl⟩ := hg
  rw [hw, div_sqrt_coe g' w hw0]
  exact ⟨_, rfl⟩

/-- The scale g / √(v + ε), with v the variance from the moments, is the same real. -/
theorem isReal_scale_moments :
    IsReal (Ideal.div g (Ideal.sqrt
      (Ideal.div (∑ j, x j * x j) N - Ideal.div (∑ j, x j) N * Ideal.div (∑ j, x j) N + eps))) := by
  rw [varMoments_eq_varCentred hn x hx hN]
  exact isReal_scale hn x hx hN hg heps

include hbe

/-- The shift b − m · s, with s the scale from the moments, is a real. -/
theorem isReal_shift_moments :
    IsReal (be - Ideal.div (∑ j, x j) N * Ideal.div g (Ideal.sqrt
      (Ideal.div (∑ j, x j * x j) N - Ideal.div (∑ j, x j) N * Ideal.div (∑ j, x j) N + eps))) :=
  isReal_sub hbe ((isReal_mean hn x hx hN).mul (isReal_scale_moments hn x hx hN hg heps))

/-- The normalised entry (x_i − m) · s + b, with s the scale from the centred variance, is a real. -/
theorem isReal_refOut (i : Fin n) :
    IsReal ((x i - Ideal.div (∑ j, x j) N) * Ideal.div g (Ideal.sqrt
      (Ideal.div (∑ j, (x j - Ideal.div (∑ k, x k) N) * (x j - Ideal.div (∑ k, x k) N)) N + eps)) + be) :=
  ((isReal_sub (hx i) (isReal_mean hn x hx hN)).mul (isReal_scale hn x hx hN hg heps)).add hbe

end

/-- Distributing the product, for real numbers: x · s + (b − m · s) = (x − m) · s + b. -/
theorem affine_eq {xi s b m : EReal} (hxi : IsReal xi) (hs : IsReal s) (hb : IsReal b) (hm : IsReal m) :
    xi * s + (b - m * s) = (xi - m) * s + b := by
  obtain ⟨xi', rfl⟩ := hxi; obtain ⟨s', rfl⟩ := hs; obtain ⟨b', rfl⟩ := hb; obtain ⟨m', rfl⟩ := hm
  simp only [← EReal.coe_mul, ← EReal.coe_sub, ← EReal.coe_add]
  exact congrArg _ (by ring)

/-- THE THEOREM. For real entries, a real gain and offset and a positive real ε, the normalisation by scale and
    shift from the moments, x_i · s + (b − m · s) with s = g / √((Σ x_j · x_j)/n − m · m + ε), is the normalisation
    of the centred entry, (x_i − m) · s' + b with s' = g / √((Σ (x_j − m) · (x_j − m))/n + ε). -/
theorem kernel_eq_ref {n : ℕ} (hn : 0 < n) (x : Fin n → EReal) (hx : ∀ j, IsReal (x j)) {N g be eps : EReal}
    (hN : N = ((n : ℝ) : EReal)) (hg : IsReal g) (hbe : IsReal be) (heps : ∃ e : ℝ, 0 < e ∧ eps = (e : EReal))
    (i : Fin n) :
    x i * Ideal.div g (Ideal.sqrt
        (Ideal.div (∑ j, x j * x j) N - Ideal.div (∑ j, x j) N * Ideal.div (∑ j, x j) N + eps))
      + (be - Ideal.div (∑ j, x j) N * Ideal.div g (Ideal.sqrt
        (Ideal.div (∑ j, x j * x j) N - Ideal.div (∑ j, x j) N * Ideal.div (∑ j, x j) N + eps)))
    = (x i - Ideal.div (∑ j, x j) N) * Ideal.div g (Ideal.sqrt
        (Ideal.div (∑ j, (x j - Ideal.div (∑ k, x k) N) * (x j - Ideal.div (∑ k, x k) N)) N + eps)) + be := by
  rw [varMoments_eq_varCentred hn x hx hN]
  exact affine_eq (hx i) (isReal_scale hn x hx hN hg heps) hbe (isReal_mean hn x hx hN)

/-! ### The guarded reciprocal square root -/

theorem cmp_ogt_zero_of_pos {d : EReal} (h : 0 < d) : Ideal.cmp .ogt d 0 = 1#1 := by
  simp [Ideal.cmp, h]

theorem cmp_ogt_zero_of_not_pos {d : EReal} (h : ¬ 0 < d) : Ideal.cmp .ogt d 0 = 0#1 := by
  simp [Ideal.cmp, h]

/-- "if d > 0 then 1 / √(if d > 0 then d else 1) else 0" for a real d is a nonnegative real: the inner
    selection is a positive real in both cases. -/
theorem guarded_rsqrt_real_nonneg {d : EReal} (hd : IsReal d) :
    ∃ r : ℝ, 0 ≤ r ∧
      Scalar.select (Ideal.cmp .ogt d 0)
        (Ideal.div 1 (Ideal.sqrt (Scalar.select (Ideal.cmp .ogt d 0) d 1))) 0 = (r : EReal) := by
  obtain ⟨a, rfl⟩ := hd
  by_cases h : (0 : EReal) < (a : EReal)
  · have ha : 0 < a := by exact_mod_cast h
    rw [cmp_ogt_zero_of_pos h]
    refine ⟨1 / Real.sqrt a, by positivity, ?_⟩
    simp only [Scalar.select, if_true]
    exact one_div_sqrt_coe a ha
  · rw [cmp_ogt_zero_of_not_pos h]
    refine ⟨0, le_refl _, ?_⟩
    simp [Scalar.select]

theorem isReal_guarded_rsqrt {d : EReal} (hd : IsReal d) :
    IsReal (Scalar.select (Ideal.cmp .ogt d 0)
      (Ideal.div 1 (Ideal.sqrt (Scalar.select (Ideal.cmp .ogt d 0) d 1))) 0) := by
  obtain ⟨r, _, hr⟩ := guarded_rsqrt_real_nonneg hd
  exact ⟨r, hr⟩

end Cert.Lib.BatchNorm

end
-- ==== Proof.LibF32Consts.lean ====
/-
  The extended reals that a few 32-bit floating-point patterns denote:
      0x3F800000 is 1,   0x47435000 is 50000 (= 1.52587890625 · 2^15),   0x3727C5AC is a positive real
      (10995116 · 2^(-40), the format's nearest value to 10^(-5)).
  Also: the integer 0 read as a real is 0, and a real minus that 0 is itself; the real 50000 exceeds 0.
-/
import Mathlib
import Idealize.ShloMosaic.PureOps.Ideal
import Idealize.ShloMosaic.PureOps.Ideal.Laws

noncomputable section

open Idealize.ShloMosaic

namespace Cert.Lib.F32Consts

theorem ofBits_one : Ideal.ofBits .f32 0x3F800000#32 = 1 := by
  simp [Ideal.ofBits, Ideal.ieee, -EReal.coe_mul]; norm_num

theorem ofBits_50000 : Ideal.ofBits .f32 0x47435000#32 = (((50000 : ℕ) : ℝ) : EReal) := by
  simp [Ideal.ofBits, Ideal.ieee, -EReal.coe_mul]; norm_num

theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The signed 32-bit integer 0 read as a real number. -/
theorem sitofp_zero : ((((0#32 : BitVec 32).toInt : ℝ)) : EReal) = 0 := by simp

theorem coe_sub_zero (a : ℝ) : (a : EReal) - 0 = (a : EReal) := sub_zero _

theorem zero_lt_50000 : (0 : EReal) < (((50000 : ℕ) : ℝ) : EReal) := by
  exact_mod_cast (by norm_num : (0 : ℝ) < ((50000 : ℕ) : ℝ))

theorem coe_50000_ne_zero : (((50000 : ℕ) : ℝ) : EReal) ≠ 0 := zero_lt_50000.ne'

/-- 50000 minus the integer 0 read as a real is 50000. -/
theorem n_sub_sitofp_zero :
    Ideal.ofBits .f32 0x47435000#32 - ((((0#32 : BitVec 32).toInt : ℝ)) : EReal) = (((50000 : ℕ) : ℝ) : EReal) := by
  rw [sitofp_zero, ofBits_50000, sub_zero]

/-- The comparison "50000 − 0 > 0" is true. -/
theorem cmp_n_sub_zero_gt_zero :
    Ideal.cmp .ogt (Ideal.ofBits .f32 0x47435000#32 - ((((0#32 : BitVec 32).toInt : ℝ)) : EReal))
      (Ideal.ofBits .f32 0x00000000#32) = 1#1 := by
  rw [n_sub_sitofp_zero, Ideal.ofBits_zero_f32]
  simp [Ideal.cmp, zero_lt_50000]

end Cert.Lib.F32Consts

end
-- ==== Proof.BnRead.lean ====
/-
  The reference's batch normalisation read at an index.

  Column by column: the mean is the column's sum over 50000; the variance is the sum of the squared deviations from
  that mean over 50000 − 0, selected because 50000 − 0 > 0 (the other branch is never read); the result at (r, q) is
  (v(r, q) − mean_q) · (g_q / √(var_q + ε)) + be_q. When v, g and be are real at every index, so is the result.
-/
import proofs.«152337_j16226386444398_1_alg».proof.Proof.RefSpec
import proofs.«152337_j16226386444398_1_alg».proof.Proof.LibBatchNorm
import proofs.«152337_j16226386444398_1_alg».proof.Proof.LibColReduce
import proofs.«152337_j16226386444398_1_alg».proof.Proof.LibF32Consts

noncomputable section

open scoped BigOperators

namespace Cert.ReferenceIdeal.BnRead

open Cert.ReferenceIdeal Cert.ReferenceIdeal.Gen Idealize.ShloMosaic Idealize.ShloMosaic.ValueIdx
open Cert.LibRealSum Cert.Lib.ColReduce Cert.Lib.F32Consts

theorem reduces_col : S50000x128.Reduces [0] S128 := by decide

/-- A column's sum. -/
theorem colSum_apply (v : FVec Ideal S50000x128 .f32) (q : Fin 128) :
    RefSpec.colSum (F := Ideal) v (ix1 q) = ∑ j : Fin 50000, v (ix2 j q) :=
  hostReduceAdd_col v _ (fun _ => Ideal.ofBits_zero_f32) reducesTo_S50000x128_S128_d0 reduces_col h_S_ q

/-- A column's mean. -/
theorem meanOf_apply (v : FVec Ideal S50000x128 .f32) (q : Fin 128) :
    RefSpec.meanOf (F := Ideal) v (ix1 q)
      = Ideal.div (∑ j : Fin 50000, v (ix2 j q)) (Ideal.ofBits .f32 0x47435000#32) := by
  show Ideal.div (RefSpec.colSum (F := Ideal) v (ix1 q)) _ = _
  rw [colSum_apply]
  rfl

/-- A vector as every row, at (r, q). -/
theorem rowBcast_apply' (w : FVec Ideal S128 .f32) (r : Fin 50000) (q : Fin 128) :
    RefSpec.rowBcast (F := Ideal) w (ix2 r q) = w (ix1 q) :=
  rowBcast_apply w bcast_S128_S1x128_1 bcast_S1x128_S50000x128_0_1 r q

/-- The mean kept as one row and broadcast to every row, at (j, q). -/
theorem keptMean_apply (v : FVec Ideal S50000x128 .f32) (j : Fin 50000) (q : Fin 128) :
    broadcastInDim S50000x128 ![0, 1] bcast_S1x128_S50000x128_0_1
        (Host.divf (broadcastInDim S1x128 ![1] bcast_S128_S1x128_1 (RefSpec.colSum (F := Ideal) v))
          (broadcastInDim S1x128 ![] bcast_S_S1x128 (constant (F := Ideal) S_ .f32 0x47435000#32))) (ix2 j q)
      = Ideal.div (∑ k : Fin 50000, v (ix2 k q)) (Ideal.ofBits .f32 0x47435000#32) := by
  refine (bcast_rows_apply _ bcast_S1x128_S50000x128_0_1 j q).trans ?_
  show Ideal.div (broadcastInDim S1x128 ![1] bcast_S128_S1x128_1 (RefSpec.colSum (F := Ideal) v) (ix2 (0 : Fin 1) q)) _ = _
  rw [bcast_row1_apply _ bcast_S128_S1x128_1 0 q, colSum_apply]
  rfl

/-- A column's variance: the centred squares summed and divided by 50000. -/
theorem varOf_apply (v : FVec Ideal S50000x128 .f32) (q : Fin 128) :
    RefSpec.varOf (F := Ideal) v (ix1 q)
      = Ideal.div (∑ j : Fin 50000,
            (v (ix2 j q) - Ideal.div (∑ k : Fin 50000, v (ix2 k q)) (Ideal.ofBits .f32 0x47435000#32))
              * (v (ix2 j q) - Ideal.div (∑ k : Fin 50000, v (ix2 k q)) (Ideal.ofBits .f32 0x47435000#32)))
          (Ideal.ofBits .f32 0x47435000#32) := by
  unfold RefSpec.varOf
  show Scalar.select
      (Ideal.cmp .ogt (Ideal.ofBits .f32 0x47435000#32 - ((((0#32 : BitVec 32).toInt : ℝ)) : EReal))
        (Ideal.ofBits .f32 0x00000000#32))
      (Ideal.div (RefSpec.colSum (F := Ideal) _ (ix1 q))
        (Ideal.ofBits .f32 0x47435000#32 - ((((0#32 : BitVec 32).toInt : ℝ)) : EReal))) _ = _
  rw [cmp_n_sub_zero_gt_zero, n_sub_sitofp_zero, ← ofBits_50000, colSum_apply]
  show Ideal.div (∑ j : Fin 50000, _) _ = _
  simp only [Scalar.select, if_true]
  refine congrArg (fun s => Ideal.div s (Ideal.ofBits .f32 0x47435000#32)) (Finset.sum_congr rfl fun j _ => ?_)
  show (v (ix2 j q) - _) * (v (ix2 j q) - _) = _
  rw [keptMean_apply]

/-- THE READING. The batch normalisation at (r, q): the centred entry times g_q / √(var_q + ε), plus be_q, with the
    column's mean and centred variance spelled as sums over the 50000 rows. -/
theorem bnOf_apply (v : FVec Ideal S50000x128 .f32) (g be : FVec Ideal S128 .f32) (r : Fin 50000) (q : Fin 128) :
    RefSpec.bnOf (F := Ideal) v g be (ix2 r q)
      = (v (ix2 r q) - Ideal.div (∑ j : Fin 50000, v (ix2 j q)) (Ideal.ofBits .f32 0x47435000#32))
          * Ideal.div (g (ix1 q)) (Ideal.sqrt
              (Ideal.div (∑ j : Fin 50000,
                  (v (ix2 j q) - Ideal.div (∑ k : Fin 50000, v (ix2 k q)) (Ideal.ofBits .f32 0x47435000#32))
                    * (v (ix2 j q) - Ideal.div (∑ k : Fin 50000, v (ix2 k q)) (Ideal.ofBits .f32 0x47435000#32)))
                (Ideal.ofBits .f32 0x47435000#32)
              + Ideal.ofBits .f32 0x3727C5AC#32))
        + be (ix1 q) := by
  unfold RefSpec.bnOf
  show (v (ix2 r q) - RefSpec.rowBcast (F := Ideal) (RefSpec.meanOf (F := Ideal) v) (ix2 r q))
      * RefSpec.rowBcast (F := Ideal) (Host.divf g (Host.sqrt (addf (RefSpec.varOf (F := Ideal) v)
          (broadcastInDim S128 ![] bcast_S_S128 (constant (F := Ideal) S_ .f32 0x3727C5AC#32))))) (ix2 r q)
      + RefSpec.rowBcast (F := Ideal) be (ix2 r q) = _
  rw [rowBcast_apply', rowBcast_apply', rowBcast_apply', meanOf_apply]
  show (_ - _) * Ideal.div (g (ix1 q)) (Ideal.sqrt (RefSpec.varOf (F := Ideal) v (ix1 q) + Ideal.ofBits .f32 0x3727C5AC#32))
      + _ = _
  rw [varOf_apply]

/-- With real entries, gains and offsets, every entry of the batch normalisation is a real number. -/
theorem bnOf_real (v : FVec Ideal S50000x128 .f32) (g be : FVec Ideal S128 .f32) (hv : ∀ i, IsReal (v i))
    (hg : ∀ i, IsReal (g i)) (hbe : ∀ i, IsReal (be i)) (i : S50000x128.Idx) :
    IsReal (RefSpec.bnOf (F := Ideal) v g be i) := by
  obtain ⟨r, q, rfl⟩ : ∃ (r : Fin 50000) (q : Fin 128), i = ix2 r q := ⟨i 0, i 1, eq_ix2 i⟩
  rw [bnOf_apply]
  exact Cert.Lib.BatchNorm.isReal_refOut (n := 50000) (by norm_num) (fun j => v (ix2 j q)) (fun j => hv _)
    ofBits_50000 (hg _) (hbe _) ofBits_eps_pos r

end Cert.ReferenceIdeal.BnRead

end
-- ==== Proof.LayerBridge.lean ====
/-
  One layer's batch normalisation, the kernel's way and the reference's way.

  Let v[r, q] = max(agg[r, q] + b[q], 0) over 50000 rows and 128 columns, every entry a real number. The kernel
  forms, per column q, the totals s = Σ_r v and ss = Σ_r v², then mean = s / n, scale = g / sqrt(ss / n − mean² + eps),
  shift = be − mean · scale, and returns v · scale + shift. The reference returns (v − mean) · (g / sqrt(var + eps)) + be
  with var = Σ_r (v − mean)² / n. Over the reals ss / n − mean² is that same variance, it is non-negative, so the
  square root is of a positive real, and the two expressions are one real number.
-/
import proofs.«152337_j16226386444398_1_alg».proof.Proof.RefSpec
import proofs.«152337_j16226386444398_1_alg».proof.Proof.BnRead
import proofs.«152337_j16226386444398_1_alg».proof.Proof.KStats
import proofs.«152337_j16226386444398_1_alg».proof.Proof.LibBatchNorm
import proofs.«152337_j16226386444398_1_alg».proof.Proof.LibF32Consts
import proofs.«152337_j16226386444398_1_alg».proof.Proof.LibColReduce
import proofs.«152337_j16226386444398_1_alg».proof.Proof.LibRealSum
import Idealize.ShloMosaic.Lib.ValueIdx
import Idealize.ShloMosaic.PureOps.Ideal

noncomputable section

namespace Cert.LayerBridge

open Cert.ReferenceIdeal Idealize.ShloMosaic Idealize.ShloMosaic.ValueIdx Cert.LibRealSum
open Cert.KernelIdeal.KStats (kScale kShift kScale_apply kShift_apply)

/-- The reference's relu stage at an entry: max(agg + b, 0). -/
theorem reluOf_apply (agg : FVec Ideal S50000x128 .f32) (b : FVec Ideal S128 .f32) (r : Fin 50000) (q : Fin 128) :
    RefSpec.reluOf (F := Ideal) agg b (ix2 r q) = max (agg (ix2 r q) + b (ix1 q)) 0 := by
  unfold RefSpec.reluOf
  rw [maximumf_apply, addf_apply, BnRead.rowBcast_apply', Cert.Lib.ColReduce.bcast_scalar_apply, constant_apply,
    Ideal.ofBits_zero_f32]

/-- With real agg and b, every entry of the relu stage is real. -/
theorem reluOf_real (agg : FVec Ideal S50000x128 .f32) (b : FVec Ideal S128 .f32)
    (hagg : ∀ i, IsReal (agg i)) (hb : ∀ i, IsReal (b i)) (i : S50000x128.Idx) : IsReal (RefSpec.reluOf (F := Ideal) agg b i) := by
  obtain ⟨r, q, rfl⟩ : ∃ (r : Fin 50000) (q : Fin 128), i = ix2 r q := ⟨i 0, i 1, eq_ix2 i⟩
  rw [reluOf_apply]
  exact Cert.Lib.BatchNorm.isReal_max_zero ((hagg _).add (hb _))

/-- THE LAYER'S LAW. Values, totals and totals of squares that read as the relu stage, its column sums and the
    column sums of its squares: the kernel's affine output is the reference's batch normalisation. -/
theorem affine_eq_bn (agg : FVec Ideal S50000x128 .f32) (b g be : FVec Ideal S128 .f32)
    (hagg : ∀ i, IsReal (agg i)) (hb : ∀ i, IsReal (b i)) (hg : ∀ i, IsReal (g i)) (hbe : ∀ i, IsReal (be i))
    (vals : FVec Ideal S50000x128 .f32) (s ss : FVec Ideal S128 .f32)
    (hvals : ∀ (r : Fin 50000) (q : Fin 128), vals (ix2 r q) = max (agg (ix2 r q) + b (ix1 q)) 0)
    (hs : ∀ q : Fin 128, s (ix1 q) = ∑ r : Fin 50000, max (agg (ix2 r q) + b (ix1 q)) 0)
    (hss : ∀ q : Fin 128, ss (ix1 q) = ∑ r : Fin 50000, max (agg (ix2 r q) + b (ix1 q)) 0 * max (agg (ix2 r q) + b (ix1 q)) 0)
    (r : Fin 50000) (q : Fin 128) :
    vals (ix2 r q) * kScale s ss g (ix1 q) + kShift s ss g be (ix1 q)
      = RefSpec.bnOf (F := Ideal) (RefSpec.reluOf (F := Ideal) agg b) g be (ix2 r q) := by
  rw [BnRead.bnOf_apply, kShift_apply, kScale_apply, hvals, hs, hss]
  simp only [reluOf_apply]
  exact Cert.Lib.BatchNorm.kernel_eq_ref (n := 50000) (by norm_num) (fun j => max (agg (ix2 j q) + b (ix1 q)) 0)
    (fun j => Cert.Lib.BatchNorm.isReal_max_zero ((hagg _).add (hb _))) Cert.Lib.F32Consts.ofBits_50000 (hg _) (hbe _)
    Cert.Lib.F32Consts.ofBits_eps_pos r

end Cert.LayerBridge

end
-- ==== Proof.Layer1.lean ====
/-
  Layer 1 of the kernel, boundary by boundary.

  The layer is entered with its input array X, its transposed weight matrix WT, the edge normalisation, the sources
  and destinations, and its bias, gain and offset vectors in known buffers. The matmul region leaves X · WT; the host
  gathers, scales and adds up its rows by destination; the reducing region leaves max(agg + b, 0) with its column
  sums and column sums of squares; the host forms scale and shift from the two totals; the affine region leaves
  values · scale + shift. With every aggregated entry, bias, gain and offset a real number this is the reference's batch
  normalisation of the rectified aggregate.
-/
import proofs.«152337_j16226386444398_1_alg».proof.Proof.Gen.KernelIdeal.Frame
import proofs.«152337_j16226386444398_1_alg».proof.Proof.MatRegion0
import proofs.«152337_j16226386444398_1_alg».proof.Proof.Reduce1Final
import proofs.«152337_j16226386444398_1_alg».proof.Proof.AffRegion2
import proofs.«152337_j16226386444398_1_alg».proof.Proof.KHost
import proofs.«152337_j16226386444398_1_alg».proof.Proof.KStats
import proofs.«152337_j16226386444398_1_alg».proof.Proof.LayerBridge

set_option maxRecDepth 16384
set_option maxHeartbeats 1000000

noncomputable section

namespace Cert.KernelIdeal.Layer1

open Cert.KernelIdeal Cert.KernelIdeal.Gen
open Idealize.ShloMosaic Idealize.ShloMosaic.TcCoe Idealize.ShloMosaic.ValueIdx Idealize.SL.Sem Idealize.ShloMosaic.StableHlo
open Cert.LibRealSum

variable (m : (ℓ : Loc nD τ sig) → Buf (Elt Ideal) ℓ) (ρ : Dev nD → PrngReg) (c : Dev nD)

/-- From the layer's entry to its exit: the output buffer holds the batch normalisation of the rectified aggregate. -/
theorem out_eq (X : FVec Ideal S50000x128 .f32) (WT : FVec Ideal S128x128 .f32) (NORM : (⟨S550000, .f32⟩ : BufTy).Contents (Elt Ideal)) (SRC DST : (⟨S550000, .i32⟩ : BufTy).Contents (Elt Ideal)) (Bv G BE : FVec Ideal S128 .f32)
    (hin : @Eq (FVec Ideal S50000x128 .f32) (W5 m ρ c (Proc.devRef .tc main_arg0)) X) (hwt : @Eq (FVec Ideal S128x128 .f32) (W5 m ρ c (Proc.devRef .tc main_v37)) WT)
    (hnorm : @Eq ((⟨S550000, .f32⟩ : BufTy).Contents (Elt Ideal)) (W5 m ρ c (Proc.devRef .tc main_v36)) NORM) (hsrc : @Eq ((⟨S550000, .i32⟩ : BufTy).Contents (Elt Ideal)) (W5 m ρ c (Proc.devRef .tc main_v5)) SRC) (hdst : @Eq ((⟨S550000, .i32⟩ : BufTy).Contents (Elt Ideal)) (W5 m ρ c (Proc.devRef .tc main_v6)) DST)
    (hb : @Eq (FVec Ideal S128 .f32) (W5 m ρ c (Proc.devRef .tc main_arg4)) Bv) (hg : @Eq (FVec Ideal S128 .f32) (W5 m ρ c (Proc.devRef .tc main_arg5)) G) (hbe : @Eq (FVec Ideal S128 .f32) (W5 m ρ c (Proc.devRef .tc main_arg6)) BE)
    (hagg : ∀ i, IsReal ((Cert.ReferenceIdeal.RefSpec.aggOf (F := Ideal) (MatBlock.prod X WT) NORM SRC DST) i)) (hBv : ∀ i, IsReal (Bv i)) (hG : ∀ i, IsReal (G i)) (hBE : ∀ i, IsReal (BE i)) :
    @Eq (FVec Ideal S50000x128 .f32) (W10 m ρ c (Proc.devRef .tc main_v65)) (Cert.ReferenceIdeal.RefSpec.bnOf (F := Ideal) (Cert.ReferenceIdeal.RefSpec.reluOf (F := Ideal) (Cert.ReferenceIdeal.RefSpec.aggOf (F := Ideal) (MatBlock.prod X WT) NORM SRC DST) Bv) G BE) := by
  -- the matmul region: the product, everything else kept
  have h1 : @Eq (FVec Ideal S50000x128 .f32) (W6 m ρ c (Proc.devRef .tc main_v38)) (MatBlock.prod X WT) := by
    refine (show @Eq (FVec Ideal S50000x128 .f32) (W6 m ρ c (Proc.devRef .tc main_v38)) ((dat0 (V5 m ρ) c).arrAt 2 cfg0.N) from W6_arr m ρ c 2).trans ?_
    rw [Mat0.final]
    show MatBlock.prod (W5 m ρ c (Proc.devRef .tc main_arg0)) (W5 m ρ c (Proc.devRef .tc main_v37)) = _
    rw [hin, hwt]
  have n1 : @Eq ((⟨S550000, .f32⟩ : BufTy).Contents (Elt Ideal)) (W6 m ρ c (Proc.devRef .tc main_v36)) NORM := (W6_of_ne m ρ c main_v36 (by decide)).trans hnorm
  have s1 : @Eq ((⟨S550000, .i32⟩ : BufTy).Contents (Elt Ideal)) (W6 m ρ c (Proc.devRef .tc main_v5)) SRC := (W6_of_ne m ρ c main_v5 (by decide)).trans hsrc
  have d1 : @Eq ((⟨S550000, .i32⟩ : BufTy).Contents (Elt Ideal)) (W6 m ρ c (Proc.devRef .tc main_v6)) DST := (W6_of_ne m ρ c main_v6 (by decide)).trans hdst
  have b1 : @Eq (FVec Ideal S128 .f32) (W6 m ρ c (Proc.devRef .tc main_arg4)) Bv := (W6_of_ne m ρ c main_arg4 (by decide)).trans hb
  have g1 : @Eq (FVec Ideal S128 .f32) (W6 m ρ c (Proc.devRef .tc main_arg5)) G := (W6_of_ne m ρ c main_arg5 (by decide)).trans hg
  have e1 : @Eq (FVec Ideal S128 .f32) (W6 m ρ c (Proc.devRef .tc main_arg6)) BE := (W6_of_ne m ρ c main_arg6 (by decide)).trans hbe
  -- the gather, scale and scatter-add
  have h2 : @Eq (FVec Ideal S50000x128 .f32) (W7 m ρ c (Proc.devRef .tc main_v51)) (Cert.ReferenceIdeal.RefSpec.aggOf (F := Ideal) (MatBlock.prod X WT) NORM SRC DST) := by
    refine (KHost.agg1_eq (W6 m ρ c)).trans ?_
    rw [h1, n1, s1, d1]
  have b2 : @Eq (FVec Ideal S128 .f32) (W7 m ρ c (Proc.devRef .tc main_arg4)) Bv :=
    (show W7 m ρ c (Proc.devRef .tc main_arg4) = W6 m ρ c (Proc.devRef .tc main_arg4) from by show after hostOps1 (W6 m ρ c) _ = _; after_results_simp).trans b1
  have g2 : @Eq (FVec Ideal S128 .f32) (W7 m ρ c (Proc.devRef .tc main_arg5)) G :=
    (show W7 m ρ c (Proc.devRef .tc main_arg5) = W6 m ρ c (Proc.devRef .tc main_arg5) from by show after hostOps1 (W6 m ρ c) _ = _; after_results_simp).trans g1
  have e2 : @Eq (FVec Ideal S128 .f32) (W7 m ρ c (Proc.devRef .tc main_arg6)) BE :=
    (show W7 m ρ c (Proc.devRef .tc main_arg6) = W6 m ρ c (Proc.devRef .tc main_arg6) from by show after hostOps1 (W6 m ρ c) _ = _; after_results_simp).trans e1
  -- the reducing region: the rectified values, their column sums, the column sums of their squares
  have v3 : ∀ (r : Fin 50000) (q : Fin 128), @Eq EReal ((W8 m ρ c (Proc.devRef .tc main_v52_0) : FVec Ideal S50000x128 .f32) (ix2 r q)) (max ((Cert.ReferenceIdeal.RefSpec.aggOf (F := Ideal) (MatBlock.prod X WT) NORM SRC DST) (ix2 r q) + Bv (ix1 q)) 0) := by
    intro r q
    have hA : @Eq (S50000x128.Idx → EReal) (Reduce1.aggOf (V7 m ρ) c) (Cert.ReferenceIdeal.RefSpec.aggOf (F := Ideal) (MatBlock.prod X WT) NORM SRC DST) := h2
    have hB : @Eq (S128.Idx → EReal) (Reduce1.biasOf (V7 m ρ) c) Bv := b2
    have hr := Reduce1.relu_final (V7 m ρ) c r q
    rw [hA, hB] at hr
    exact (congrFun (show @Eq (FVec Ideal S50000x128 .f32) (W8 m ρ c (Proc.devRef .tc main_v52_0)) ((dat1 (V7 m ρ) c).arrAt 2 cfg1.N) from W8_arr m ρ c 2) (ix2 r q)).trans hr
  have s3 : ∀ q : Fin 128, @Eq EReal ((W8 m ρ c (Proc.devRef .tc main_v52_1) : FVec Ideal S128 .f32) (ix1 q)) (∑ r : Fin 50000, max ((Cert.ReferenceIdeal.RefSpec.aggOf (F := Ideal) (MatBlock.prod X WT) NORM SRC DST) (ix2 r q) + Bv (ix1 q)) 0) := by
    intro q
    have hA : @Eq (S50000x128.Idx → EReal) (Reduce1.aggOf (V7 m ρ) c) (Cert.ReferenceIdeal.RefSpec.aggOf (F := Ideal) (MatBlock.prod X WT) NORM SRC DST) := h2
    have hB : @Eq (S128.Idx → EReal) (Reduce1.biasOf (V7 m ρ) c) Bv := b2
    have hr := Reduce1.sum_final (V7 m ρ) c q
    rw [hA, hB] at hr
    exact (congrFun (show @Eq (FVec Ideal S128 .f32) (W8 m ρ c (Proc.devRef .tc main_v52_1)) ((dat1 (V7 m ρ) c).arrAt 3 cfg1.N) from W8_arr m ρ c 3) (ix1 q)).trans hr
  have q3 : ∀ q : Fin 128, @Eq EReal ((W8 m ρ c (Proc.devRef .tc main_v52_2) : FVec Ideal S128 .f32) (ix1 q))
      (∑ r : Fin 50000, max ((Cert.ReferenceIdeal.RefSpec.aggOf (F := Ideal) (MatBlock.prod X WT) NORM SRC DST) (ix2 r q) + Bv (ix1 q)) 0 * max ((Cert.ReferenceIdeal.RefSpec.aggOf (F := Ideal) (MatBlock.prod X WT) NORM SRC DST) (ix2 r q) + Bv (ix1 q)) 0) := by
    intro q
    have hA : @Eq (S50000x128.Idx → EReal) (Reduce1.aggOf (V7 m ρ) c) (Cert.ReferenceIdeal.RefSpec.aggOf (F := Ideal) (MatBlock.prod X WT) NORM SRC DST) := h2
    have hB : @Eq (S128.Idx → EReal) (Reduce1.biasOf (V7 m ρ) c) Bv := b2
    have hr := Reduce1.sq_final (V7 m ρ) c q
    rw [hA, hB] at hr
    exact (congrFun (show @Eq (FVec Ideal S128 .f32) (W8 m ρ c (Proc.devRef .tc main_v52_2)) ((dat1 (V7 m ρ) c).arrAt 4 cfg1.N) from W8_arr m ρ c 4) (ix1 q)).trans hr
  have g3 : @Eq (FVec Ideal S128 .f32) (W8 m ρ c (Proc.devRef .tc main_arg5)) G := (W8_of_ne m ρ c main_arg5 (by decide)).trans g2
  have e3 : @Eq (FVec Ideal S128 .f32) (W8 m ρ c (Proc.devRef .tc main_arg6)) BE := (W8_of_ne m ρ c main_arg6 (by decide)).trans e2
  -- the statistics stretch: scale and shift; the values kept
  have c4 : @Eq (FVec Ideal S128 .f32) (W9 m ρ c (Proc.devRef .tc main_v62)) (KStats.kScale (W8 m ρ c (Proc.devRef .tc main_v52_1)) (W8 m ρ c (Proc.devRef .tc main_v52_2)) G) := by
    refine (KStats.scale1_eq (W8 m ρ c)).trans ?_
    rw [g3]
  have f4 : @Eq (FVec Ideal S128 .f32) (W9 m ρ c (Proc.devRef .tc main_v64)) (KStats.kShift (W8 m ρ c (Proc.devRef .tc main_v52_1)) (W8 m ρ c (Proc.devRef .tc main_v52_2)) G BE) := by
    refine (KStats.shift1_eq (W8 m ρ c)).trans ?_
    rw [g3, e3]
  have v4 : @Eq (FVec Ideal S50000x128 .f32) (W9 m ρ c (Proc.devRef .tc main_v52_0)) (W8 m ρ c (Proc.devRef .tc main_v52_0)) := KStats.vals1_keep (W8 m ρ c)
  -- the affine region
  refine (show @Eq (FVec Ideal S50000x128 .f32) (W10 m ρ c (Proc.devRef .tc main_v65)) ((dat2 (V9 m ρ) c).arrAt 3 cfg2.N) from W10_arr m ρ c 3).trans ?_
  rw [Aff2.final]
  funext i
  obtain ⟨r, q, rfl⟩ : ∃ (r : Fin 50000) (q : Fin 128), i = ix2 r q := ⟨i 0, i 1, eq_ix2 i⟩
  rw [Aff2.G_apply]
  have hv : @Eq (FVec Ideal S50000x128 .f32) (Aff2.vals (V9 m ρ) c) (W8 m ρ c (Proc.devRef .tc main_v52_0)) := v4
  have hc : @Eq (FVec Ideal S128 .f32) (Aff2.scale (V9 m ρ) c) (KStats.kScale (W8 m ρ c (Proc.devRef .tc main_v52_1)) (W8 m ρ c (Proc.devRef .tc main_v52_2)) G) := c4
  have hf : @Eq (FVec Ideal S128 .f32) (Aff2.shift (V9 m ρ) c) (KStats.kShift (W8 m ρ c (Proc.devRef .tc main_v52_1)) (W8 m ρ c (Proc.devRef .tc main_v52_2)) G BE) := f4
  rw [hv, hc, hf]
  exact Cert.LayerBridge.affine_eq_bn (Cert.ReferenceIdeal.RefSpec.aggOf (F := Ideal) (MatBlock.prod X WT) NORM SRC DST) Bv G BE hagg hBv hG hBE (W8 m ρ c (Proc.devRef .tc main_v52_0)) (W8 m ρ c (Proc.devRef .tc main_v52_1)) (W8 m ρ c (Proc.devRef .tc main_v52_2)) v3 s3 q3 r q

end Cert.KernelIdeal.Layer1

end
-- ==== Proof.MatRegion3.lean ====
/-
  The matmul region's array.

  The region runs the matmul body at ten grid points. Point t takes rows 5000·t … 5000·t + 4999 of the left factor
  and the whole right factor, and writes its product block back to the same rows of the output. So what point t
  writes back is block t of the whole product, the ten blocks cover all 50000 rows, and the output array ends
  holding the whole product of the two arrays the region found.
-/
import proofs.«152337_j16226386444398_1_alg».proof.Proof.Gen.KernelIdeal.Frame
import proofs.«152337_j16226386444398_1_alg».proof.Proof.MatBlock
import Idealize.ShloMosaic.Lib.Pipeline.Value

set_option maxRecDepth 16384

noncomputable section

namespace Cert.KernelIdeal.Mat3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's and the output's row block is the point's number,
    every other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- The two arrays the region finds. -/
abbrev lhs (c : Dev nD) : FVec Ideal ⟨2, ![50000, 128]⟩ .f32 := V c (Pipeline.arrRef spec3 0)
abbrev rhs (c : Dev nD) : FVec Ideal ⟨2, ![128, 128]⟩ .f32 := V c (Pipeline.arrRef spec3 1)

/-- What point t writes back is block t of the whole product. -/
theorem flushed_eq (c : Dev nD) (t : Fin cfg3.N) :
    (dat3 V c).flushed 2 t = ((cfg3.win 2).blk t).view.read (Elt Ideal) (MatBlock.prod (lhs V c) (rhs V c)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5, e6⟩ := idx_facts t
  funext j
  obtain ⟨p, q, rfl⟩ : ∃ (p : Fin 5000) (q : Fin 128), j = ix2 p q := ⟨j 0, j 1, eq_ix2 j⟩
  have hp : t.val * 5000 + p.val < 50000 := by have := p.isLt; omega
  refine (MatBlock.pay3_rows (lhs V c) (rhs V c) (iblk3 V c 0 t) (iblk3 V c 1 t) (t.val * 5000) p q hp ?_ ?_).trans ?_
  · intro kk
    show lhs V c (((cfg3.win 0).blk t).view.emb (ix2 p kk)) = lhs V c (ix2 ⟨t.val * 5000 + p.val, hp⟩ kk)
    refine congrArg (lhs V c) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * kk.val = kk.val; omega
  · funext y
    show rhs V c (((cfg3.win 1).blk t).view.emb y) = rhs V c y
    refine congrArg (rhs V c) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · show MatBlock.prod (lhs V c) (rhs V c) (ix2 ⟨t.val * 5000 + p.val, hp⟩ q)
      = MatBlock.prod (lhs V c) (rhs V c) (((cfg3.win 2).blk t).view.emb (ix2 p q))
    refine congrArg (MatBlock.prod (lhs V c) (rhs V c)) (funext fun a => Fin.ext ?_)
    match a with
    | ⟨0, _⟩ => show t.val * 5000 + p.val = win3_2.index t (0 : Fin 2) * 5000 + 1 * p.val; omega
    | ⟨1, _⟩ => show q.val = win3_2.index t (1 : Fin 2) * 128 + 1 * q.val; omega

/-- An index of the output array is in point t's block iff each coordinate is in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v67).slice (win3_2.rect t)).set ↔ _
  rw [View.set_slice_whole, Rect.mem_set_unit]
  exact Iff.rfl

/-- Every row lies in the block of the point numbered row / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by show (i 0).val / 5000 < 10; omega⟩
  obtain ⟨e0, e1, e2, e3, e4, e5, e6⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the whole product of the two arrays the region found. -/
theorem final (c : Dev nD) : (dat3 V c).arrAt 2 cfg3.N = MatBlock.prod (lhs V c) (rhs V c) :=
  (dat3 V c).arrAt_eq_of_cover 2 (MatBlock.prod (lhs V c) (rhs V c)) (fun t _ => flushed_eq V c t) (cover)

end Cert.KernelIdeal.Mat3

end
-- ==== Proof.Reduce4Pieces.lean ====
import proofs.«152337_j16226386444398_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

/-! # What each control case of the bias + relu + column-sums body leaves in its three outputs

The body adds the bias row to its block of rows, clamps below at zero, stores that block, and adds the block's
column sums and column sums of squares into two running rows. At the first grid point (case A) the running rows
are first set to zero; at the later points (case B) they are what the point before left. Each lemma below reads
one output's staging contents back as the arithmetic term of the body's loads. -/

namespace Cert.KernelIdeal.Reduce4

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- Case B, the row block: the clamped biased block. -/
theorem out_B_2 (c : Dev nD) (i : grid4.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond4_0 i) (x0 : Vec F S5000x128 .f32) (x1 : Vec F S128 .f32) (xo3 xo4 : Vec F S128 .f32) :
    out4_B_2 c i a1 h1 a2 h2 a3 h3 a4 h4 a5 h5 hc x0 x1 xo3 xo4 = k4_pay3 x1 x0 := by
  unfold out4_B_2
  rw [View.read_writes_eq_canon _ _ _ (cover4_B_2 c i a1 h1 a2 h2 a3 h3 a4 h4 a5 h5 hc x0 x1 xo3 xo4)]
  unfold kernelRun4_B
  dsimp only
  rw [View.canon_unit_zero hz2]
  simp only [View.readAt_eq_ld, h1.read_unread, h2.read_unread, View.ld_unit_zero (S := S5000x128) hz2,
    View.ld_unit_zero (S := S128) hz1]

/-- Case B, the running column sums: the previous row plus this block's column sums. -/
theorem out_B_3 (c : Dev nD) (i : grid4.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond4_0 i) (x0 : Vec F S5000x128 .f32) (x1 : Vec F S128 .f32) (xo3 xo4 : Vec F S128 .f32) :
    out4_B_3 c i a1 h1 a2 h2 a3 h3 a4 h4 a5 h5 hc x0 x1 xo3 xo4 = k4_pay4 x1 x0 xo3 := by
  unfold out4_B_3
  rw [View.read_writes_eq_canon _ _ _ (cover4_B_3 c i a1 h1 a2 h2 a3 h3 a4 h4 a5 h5 hc x0 x1 xo3 xo4)]
  unfold kernelRun4_B
  dsimp only
  rw [View.canon_unit_zero hz1]
  simp only [View.readAt_eq_ld, h1.read_unread, h2.read_unread, h4.read_unread, h5.read_unread,
    View.ld_unit_zero (S := S5000x128) hz2, View.ld_unit_zero (S := S128) hz1]

/-- Case B, the running column sums of squares. -/
theorem out_B_4 (c : Dev nD) (i : grid4.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond4_0 i) (x0 : Vec F S5000x128 .f32) (x1 : Vec F S128 .f32) (xo3 xo4 : Vec F S128 .f32) :
    out4_B_4 c i a1 h1 a2 h2 a3 h3 a4 h4 a5 h5 hc x0 x1 xo3 xo4 = k4_pay5 x1 x0 xo4 := by
  unfold out4_B_4
  rw [View.read_writes_eq_canon _ _ _ (cover4_B_4 c i a1 h1 a2 h2 a3 h3 a4 h4 a5 h5 hc x0 x1 xo3 xo4)]
  unfold kernelRun4_B
  dsimp only
  rw [View.canon_unit_zero hz1]
  simp only [View.readAt_eq_ld, h1.read_unread, h2.read_unread, h4.read_unread, h5.read_unread,
    View.ld_unit_zero (S := S5000x128) hz2, View.ld_unit_zero (S := S128) hz1]

/-- Case A, the row block: the clamped biased block. -/
theorem out_A_2 (c : Dev nD) (i : grid4.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond4_0 i) (x0 : Vec F S5000x128 .f32) (x1 : Vec F S128 .f32) :
    out4_A_2 c i a1 h1 a2 h2 a3 h3 a4 h4 a5 h5 hc x0 x1 = k4_pay3 x1 x0 := by
  unfold out4_A_2
  rw [View.read_writes_eq_canon _ _ _ (cover4_A_2 c i a1 h1 a2 h2 a3 h3 a4 h4 a5 h5 hc x0 x1)]
  unfold kernelRun4_A
  dsimp only
  rw [View.canon_unit_zero hz2]
  simp only [View.readAt_eq_ld, h1.read_unread, h2.read_unread, View.ld_unit_zero (S := S5000x128) hz2,
    View.ld_unit_zero (S := S128) hz1]

/-- Case A, the running column sums: the zero row, read back, plus this block's column sums. -/
theorem out_A_3 (c : Dev nD) (i : grid4.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond4_0 i) (x0 : Vec F S5000x128 .f32) (x1 : Vec F S128 .f32) :
    out4_A_3 c i a1 h1 a2 h2 a3 h3 a4 h4 a5 h5 hc x0 x1 = k4_pay4 x1 x0 k4_pay1 := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S128) hz1, View.readCov_unit_zero (S := S128) _ hz1]
  simp only [View.readAt_eq_ld, h1.read_unread, h2.read_unread, View.ld_unit_zero (S := S5000x128) hz2,
    View.ld_unit_zero (S := S128) hz1]

/-- Case A, the running column sums of squares: the zero row, read back, plus this block's. -/
theorem out_A_4 (c : Dev nD) (i : grid4.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond4_0 i) (x0 : Vec F S5000x128 .f32) (x1 : Vec F S128 .f32) :
    out4_A_4 c i a1 h1 a2 h2 a3 h3 a4 h4 a5 h5 hc x0 x1 = k4_pay5 x1 x0 k4_pay2 := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S128) hz1, View.readCov_unit_zero (S := S128) _ hz1]
  simp only [View.readAt_eq_ld, h1.read_unread, h2.read_unread, View.ld_unit_zero (S := S5000x128) hz2,
    View.ld_unit_zero (S := S128) hz1]

end Cert.KernelIdeal.Reduce4

end
-- ==== Proof.Reduce4Payload.lean ====
import proofs.«152337_j16226386444398_1_alg».proof.Proof.Gen.KernelIdeal.Skeleton
import Idealize.ShloMosaic.Lib.ValueLayout
import Idealize.ShloMosaic.PureOps.Ideal.Laws

noncomputable section

open Idealize.ShloMosaic Idealize.ShloMosaic.ValueIdx
open scoped BigOperators

/-! # The bias + relu + column-sums body's arithmetic, read at one entry over the extended reals

The stored row block at row `r`, column `q` is `max (x r q + b q) 0`; the running column sums at column `q` are the
row before plus the block's column sum of those entries (of their squares, for the second running row); the rows
the first grid point starts from are zero. -/

namespace Cert.KernelIdeal.Reduce4

open Cert.KernelIdeal Cert.KernelIdeal.Gen

/-- Putting coordinate `k` back on the reduced row axis over column `q` gives entry `(k, q)`. -/
theorem lift_eq (q : Fin 128) (k : Fin 5000) :
    (reduces_S5000x128_S128.lift (ix1 q) k : S5000x128.Idx) = ix2 k q := by
  funext a
  match a with
  | ⟨0, _⟩ => exact Fin.ext rfl
  | ⟨1, _⟩ => exact Fin.ext rfl

/-- The stored block at `(r, q)`: the entry plus the bias of its column, clamped below at zero. -/
theorem pay3_apply (v3 : Vec Ideal S128 .f32) (v6 : Vec Ideal S5000x128 .f32) (r : Fin 5000) (q : Fin 128) :
    k4_pay3 (F := Ideal) v3 v6 (ix2 r q) = max (v6 (ix2 r q) + v3 (ix1 q)) 0 := by
  unfold k4_pay3
  show max (shapeCast S5000x128 v6 shapeCasts_S5000x128_S5000x128 (ix2 r q)
      + broadcastTo S5000x128 (shapeCast S1x128 v3 shapeCasts_S128_S1x128) broadcasts_S1x128_S5000x128 (ix2 r q))
    (Ideal.ofBits .f32 0x00000000#32) = _
  rw [shapeCast_self, broadcastTo_1b_ab_apply, shapeCast_a_1a_apply, Ideal.ofBits_zero_f32]

/-- The running column sums at column `q`: the row before plus the block's column sum. -/
theorem pay4_apply (v3 : Vec Ideal S128 .f32) (v6 : Vec Ideal S5000x128 .f32) (v12 : Vec Ideal S128 .f32) (q : Fin 128) :
    k4_pay4 (F := Ideal) v3 v6 v12 (ix1 q) = v12 (ix1 q) + ∑ r : Fin 5000, max (v6 (ix2 r q) + v3 (ix1 q)) 0 := by
  unfold k4_pay4
  show shapeCast S128 v12 shapeCasts_S128_S128 (ix1 q)
    + multiReduction .add [0] S128 (k4_pay3 (F := Ideal) v3 v6) 0x00000000#32 reduces_S5000x128_S128 (.inl rfl) rfl (ix1 q) = _
  rw [shapeCast_self]
  refine congrArg (fun z => v12 (ix1 q) + z) ?_
  refine (Ideal.multiReduction_add_single (k4_pay3 (F := Ideal) v3 v6) 0x00000000#32 reduces_S5000x128_S128 (.inl rfl) rfl (ix1 q)).trans ?_
  show (∑ k : Fin 5000, k4_pay3 (F := Ideal) v3 v6 (reduces_S5000x128_S128.lift (ix1 q) k)) = _
  refine Finset.sum_congr rfl fun k _ => ?_
  rw [lift_eq]
  exact pay3_apply v3 v6 k q

/-- The running column sums of squares at column `q`: the row before plus the block's column sum of squares. -/
theorem pay5_apply (v3 : Vec Ideal S128 .f32) (v6 : Vec Ideal S5000x128 .f32) (v17 : Vec Ideal S128 .f32) (q : Fin 128) :
    k4_pay5 (F := Ideal) v3 v6 v17 (ix1 q)
      = v17 (ix1 q) + ∑ r : Fin 5000, max (v6 (ix2 r q) + v3 (ix1 q)) 0 * max (v6 (ix2 r q) + v3 (ix1 q)) 0 := by
  unfold k4_pay5
  show shapeCast S128 v17 shapeCasts_S128_S128 (ix1 q)
    + multiReduction .add [0] S128 (mulf (k4_pay3 (F := Ideal) v3 v6) (k4_pay3 (F := Ideal) v3 v6)) 0x00000000#32
        reduces_S5000x128_S128 (.inl rfl) rfl (ix1 q) = _
  rw [shapeCast_self]
  refine congrArg (fun z => v17 (ix1 q) + z) ?_
  refine (Ideal.multiReduction_add_single (mulf (k4_pay3 (F := Ideal) v3 v6) (k4_pay3 (F := Ideal) v3 v6)) 0x00000000#32
    reduces_S5000x128_S128 (.inl rfl) rfl (ix1 q)).trans ?_
  show (∑ k : Fin 5000, k4_pay3 (F := Ideal) v3 v6 (reduces_S5000x128_S128.lift (ix1 q) k)
    * k4_pay3 (F := Ideal) v3 v6 (reduces_S5000x128_S128.lift (ix1 q) k)) = _
  refine Finset.sum_congr rfl fun k _ => ?_
  rw [lift_eq, pay3_apply v3 v6 k q]

/-- The first grid point's starting rows are zero. -/
theorem pay1_apply (q : Fin 128) : k4_pay1 (F := Ideal) (ix1 q) = 0 := by
  unfold k4_pay1
  show Ideal.ofBits .f32 0x00000000#32 = 0
  exact Ideal.ofBits_zero_f32

theorem pay2_apply (q : Fin 128) : k4_pay2 (F := Ideal) (ix1 q) = 0 := by
  unfold k4_pay2
  show Ideal.ofBits .f32 0x00000000#32 = 0
  exact Ideal.ofBits_zero_f32

end Cert.KernelIdeal.Reduce4

end
-- ==== Proof.Reduce4Acc.lean ====
import proofs.«152337_j16226386444398_1_alg».proof.Proof.Reduce4Pieces
import proofs.«152337_j16226386444398_1_alg».proof.Proof.Reduce4Payload

noncomputable section

open Idealize.ShloMosaic Idealize.ShloMosaic.TcCoe Idealize.SL.Sem Idealize.ShloMosaic.ValueIdx
open Idealize.ShloMosaic.Pipeline (Dat)
open scoped BigOperators

/-! # What the three outputs' staging buffers hold after each grid point

Grid point `t` reads rows `5000 t … 5000 t + 4999` of the row array and the whole bias row. After it the row
block's buffer holds those rows biased and clamped at zero; the two running rows hold, column by column, the sums
(and sums of squares) of the clamped entries of all rows read so far: blocks `0 … t`. -/

namespace Cert.KernelIdeal.Reduce4

open Cert.KernelIdeal Cert.KernelIdeal.Gen

variable (V : (c : Dev nD) → (b : Ref sig .tc) → Buf (Elt Ideal) ((c : Thread nD τ).loc b))

/-- The row array and the bias row as the region finds them. -/
abbrev aggOf (c : Dev nD) : S50000x128.Idx → EReal := V c (Pipeline.arrRef spec4 0)
abbrev biasOf (c : Dev nD) : S128.Idx → EReal := V c (Pipeline.arrRef spec4 1)

/-- One clamped entry: row `r`, column `q`. -/
def reluAt (c : Dev nD) (r : Fin 50000) (q : Fin 128) : EReal := max (aggOf V c (ix2 r q) + biasOf V c (ix1 q)) 0

/-- Row `r` of row block `s` (blocks of 5000 rows; taken modulo the row count so that it is defined for every `s`). -/
def rowAt (s : ℕ) (r : Fin 5000) : Fin 50000 := ⟨(5000 * s + r.val) % 50000, Nat.mod_lt _ (by decide)⟩

/-- Row block `s`'s column sums of the clamped entries, and of their squares. -/
def blockSum (c : Dev nD) (s : ℕ) (q : Fin 128) : EReal := ∑ r : Fin 5000, reluAt V c (rowAt s r) q
def blockSq (c : Dev nD) (s : ℕ) (q : Fin 128) : EReal := ∑ r : Fin 5000, reluAt V c (rowAt s r) q * reluAt V c (rowAt s r) q

/-- The block index maps, decided over the ten grid points: point `t` reads row block `t`, every column; the bias
    row's one block. -/
theorem idx_facts0 : ∀ t : Fin cfg4.N, win4_0.index t 0 = t.val ∧ win4_0.index t 1 = 0 :=
  (by decide +kernel : ∀ t : Fin grid4.N, win4_0.index t 0 = t.val ∧ win4_0.index t 1 = 0)
theorem idx_facts1 : ∀ t : Fin cfg4.N, win4_1.index t 0 = 0 :=
  (by decide +kernel : ∀ t : Fin grid4.N, win4_1.index t 0 = 0)

/-- Point `t`'s block of the row array at `(r, q)` is row `5000 t + r`, column `q`. -/
theorem iblk0_apply (c : Dev nD) (t : Fin cfg4.N) (r : Fin 5000) (q : Fin 128) :
    (iblk4 V c 0 t : Vec Ideal S5000x128 .f32) (ix2 r q) = aggOf V c (ix2 (rowAt t.val r) q) := by
  have hN : t.val < 10 := lt_of_lt_of_eq t.isLt (show cfg4.N = 10 from N_4)
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * r.val = (5000 * t.val + r.val) % 50000; rw [(idx_facts0 t).1]; omega
  | ⟨1, _⟩ => show win4_0.index t 1 * 128 + 1 * q.val = q.val; rw [(idx_facts0 t).2]; omega

/-- Every point's block of the bias row is the bias row. -/
theorem iblk1_apply (c : Dev nD) (t : Fin cfg4.N) (q : Fin 128) :
    (iblk4 V c 1 t : Vec Ideal S128 .f32) (ix1 q) = biasOf V c (ix1 q) := by
  unfold iblk4
  rw [View.read_apply]
  show V c (Pipeline.arrRef spec4 1) _ = V c (Pipeline.arrRef spec4 1) _
  congr 1
  funext a
  apply Fin.ext
  match a with
  | ⟨0, _⟩ => show win4_1.index t 0 * 128 + 1 * q.val = q.val; rw [idx_facts1 t]; omega

/-- The clamped entry computed from a block of rows `x0` that is row block `s` and a row `x1` that is the bias row. -/
theorem block_entry (c : Dev nD) (s : ℕ) (x0 : Vec Ideal S5000x128 .f32) (x1 : Vec Ideal S128 .f32)
    (h0 : ∀ (r : Fin 5000) (q : Fin 128), x0 (ix2 r q) = aggOf V c (ix2 (rowAt s r) q))
    (h1 : ∀ q : Fin 128, x1 (ix1 q) = biasOf V c (ix1 q)) (r : Fin 5000) (q : Fin 128) :
    max (x0 (ix2 r q) + x1 (ix1 q)) 0 = reluAt V c (rowAt s r) q := by
  rw [h0, h1]
  rfl

/-- One step of the running column sums: what was there plus row block `s`'s column sums. -/
theorem step_sum (c : Dev nD) (s : ℕ) (x0 : Vec Ideal S5000x128 .f32) (x1 : Vec Ideal S128 .f32) (acc : Vec Ideal S128 .f32)
    (h0 : ∀ (r : Fin 5000) (q : Fin 128), x0 (ix2 r q) = aggOf V c (ix2 (rowAt s r) q))
    (h1 : ∀ q : Fin 128, x1 (ix1 q) = biasOf V c (ix1 q)) (q : Fin 128) (A : EReal) (hacc : acc (ix1 q) = A) :
    k4_pay4 (F := Ideal) x1 x0 acc (ix1 q) = A + blockSum V c s q := by
  rw [pay4_apply, hacc]
  exact congrArg (fun z => A + z) (Finset.sum_congr rfl fun r _ => block_entry V c s x0 x1 h0 h1 r q)

/-- One step of the running column sums of squares. -/
theorem step_sq (c : Dev nD) (s : ℕ) (x0 : Vec Ideal S5000x128 .f32) (x1 : Vec Ideal S128 .f32) (acc : Vec Ideal S128 .f32)
    (h0 : ∀ (r : Fin 5000) (q : Fin 128), x0 (ix2 r q) = aggOf V c (ix2 (rowAt s r) q))
    (h1 : ∀ q : Fin 128, x1 (ix1 q) = biasOf V c (ix1 q)) (q : Fin 128) (A : EReal) (hacc : acc (ix1 q) = A) :
    k4_pay5 (F := Ideal) x1 x0 acc (ix1 q) = A + blockSq V c s q := by
  rw [pay5_apply, hacc]
  exact congrArg (fun z => A + z) (Finset.sum_congr rfl fun r _ => by rw [block_entry V c s x0 x1 h0 h1 r q])

/-- After point `t` the row block's buffer holds the clamped entries of row block `t` (both control cases). -/
theorem relu_at (c : Dev nD) (t : Fin cfg4.N) (r : Fin 5000) (q : Fin 128) :
    ((outsAt4 V c t.val t.isLt).1 : Vec Ideal S5000x128 .f32) (ix2 r q) = reluAt V c (rowAt t.val r) q := by
  by_cases h0 : t.val % 10 = 0
  · rw [outsAt4_A V c t h0]
    dsimp only
    rw [out_A_2 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t), pay3_apply]
    exact block_entry V c t.val (iblk4 V c 0 t) (iblk4 V c 1 t) (iblk0_apply V c t) (iblk1_apply V c t) r q
  · rw [outsAt4_B V c t h0]
    dsimp only
    rw [out_B_2 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t)
      (outsAt4 V c (t.val - 1) (Nat.lt_of_le_of_lt (Nat.sub_le _ _) t.isLt)).2.1
      (outsAt4 V c (t.val - 1) (Nat.lt_of_le_of_lt (Nat.sub_le _ _) t.isLt)).2.2, pay3_apply]
    exact block_entry V c t.val (iblk4 V c 0 t) (iblk4 V c 1 t) (iblk0_apply V c t) (iblk1_apply V c t) r q

/-- After point `n` the running rows hold the column sums, and sums of squares, of row blocks `0 … n`: the first
    point starts from zero, every later one adds its block's to what the point before left. -/
theorem sums_at (c : Dev nD) : ∀ (n : ℕ) (hn : n < cfg4.N) (q : Fin 128),
    ((outsAt4 V c n hn).2.1 : Vec Ideal S128 .f32) (ix1 q) = ∑ s ∈ Finset.range (n + 1), blockSum V c s q
    ∧ ((outsAt4 V c n hn).2.2 : Vec Ideal S128 .f32) (ix1 q) = ∑ s ∈ Finset.range (n + 1), blockSq V c s q
  | 0, hn, q => by
    rw [outsAt4_A V c ⟨0, hn⟩ rfl]
    dsimp only
    rw [out_A_3 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr rfl) (iblk4 V c 0 ⟨0, hn⟩) (iblk4 V c 1 ⟨0, hn⟩),
      out_A_4 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr rfl) (iblk4 V c 0 ⟨0, hn⟩) (iblk4 V c 1 ⟨0, hn⟩),
      Finset.sum_range_one, Finset.sum_range_one]
    refine ⟨?_, ?_⟩
    · refine (step_sum V c 0 (iblk4 V c 0 ⟨0, hn⟩) (iblk4 V c 1 ⟨0, hn⟩) (k4_pay1 (F := Ideal)) (iblk0_apply V c ⟨0, hn⟩) (iblk1_apply V c ⟨0, hn⟩) q 0
        (pay1_apply q)).trans ?_
      exact zero_add _
    · refine (step_sq V c 0 (iblk4 V c 0 ⟨0, hn⟩) (iblk4 V c 1 ⟨0, hn⟩) (k4_pay2 (F := Ideal)) (iblk0_apply V c ⟨0, hn⟩) (iblk1_apply V c ⟨0, hn⟩) q 0
        (pay2_apply q)).trans ?_
      exact zero_add _
  | n + 1, hn, q => by
    have hN : cfg4.N = 10 := N_4
    have hB : ¬(⟨n + 1, hn⟩ : Fin cfg4.N).val % 10 = 0 := by dsimp only; omega
    have ih : ((outsAt4 V c (n + 1 - 1) (Nat.lt_of_le_of_lt (Nat.sub_le _ _) hn)).2.1 : Vec Ideal S128 .f32) (ix1 q) = ∑ s ∈ Finset.range (n + 1), blockSum V c s q
        ∧ ((outsAt4 V c (n + 1 - 1) (Nat.lt_of_le_of_lt (Nat.sub_le _ _) hn)).2.2 : Vec Ideal S128 .f32) (ix1 q) = ∑ s ∈ Finset.range (n + 1), blockSq V c s q :=
      sums_at c n (Nat.lt_of_succ_lt hn) q
    rw [outsAt4_B V c ⟨n + 1, hn⟩ hB]
    dsimp only
    rw [out_B_3 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => hB ((hcond4_0 ⟨n + 1, hn⟩).mp h)) (iblk4 V c 0 ⟨n + 1, hn⟩) (iblk4 V c 1 ⟨n + 1, hn⟩)
        (outsAt4 V c (n + 1 - 1) (Nat.lt_of_le_of_lt (Nat.sub_le _ _) hn)).2.1 (outsAt4 V c (n + 1 - 1) (Nat.lt_of_le_of_lt (Nat.sub_le _ _) hn)).2.2,
      out_B_4 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => hB ((hcond4_0 ⟨n + 1, hn⟩).mp h)) (iblk4 V c 0 ⟨n + 1, hn⟩) (iblk4 V c 1 ⟨n + 1, hn⟩)
        (outsAt4 V c (n + 1 - 1) (Nat.lt_of_le_of_lt (Nat.sub_le _ _) hn)).2.1 (outsAt4 V c (n + 1 - 1) (Nat.lt_of_le_of_lt (Nat.sub_le _ _) hn)).2.2,
      Finset.sum_range_succ _ (n + 1), Finset.sum_range_succ _ (n + 1)]
    exact ⟨step_sum V c (n + 1) (iblk4 V c 0 ⟨n + 1, hn⟩) (iblk4 V c 1 ⟨n + 1, hn⟩) (outsAt4 V c (n + 1 - 1) (Nat.lt_of_le_of_lt (Nat.sub_le _ _) hn)).2.1
        (iblk0_apply V c ⟨n + 1, hn⟩) (iblk1_apply V c ⟨n + 1, hn⟩) q _ ih.1,
      step_sq V c (n + 1) (iblk4 V c 0 ⟨n + 1, hn⟩) (iblk4 V c 1 ⟨n + 1, hn⟩) (outsAt4 V c (n + 1 - 1) (Nat.lt_of_le_of_lt (Nat.sub_le _ _) hn)).2.2
        (iblk0_apply V c ⟨n + 1, hn⟩) (iblk1_apply V c ⟨n + 1, hn⟩) q _ ih.2⟩

end Cert.KernelIdeal.Reduce4

end
-- ==== Proof.Reduce4Final.lean ====
import proofs.«152337_j16226386444398_1_alg».proof.Proof.Reduce4Acc

noncomputable section

open Idealize.ShloMosaic Idealize.ShloMosaic.TcCoe Idealize.SL.Sem Idealize.ShloMosaic.ValueIdx
open Idealize.ShloMosaic.Pipeline (Dat)
open scoped BigOperators

/-! # The three result arrays after the region

The row-block output is written back at every grid point, block `t` of the array by point `t`: the array ends
holding every row biased and clamped at zero. The two running rows are written back once, after the last point:
they end holding, per column, the sum (and the sum of squares) of the clamped entries over all 50000 rows — the ten
blocks' sums regrouped into one sum over the rows, by commutativity and associativity of addition alone. -/

namespace Cert.KernelIdeal.Reduce4

open Cert.KernelIdeal Cert.KernelIdeal.Gen

variable (V : (c : Dev nD) → (b : Ref sig .tc) → Buf (Elt Ideal) ((c : Thread nD τ).loc b))

/-- Ten blocks of 5000 rows are the 50000 rows: a sum over blocks of sums over a block's rows is the sum over rows. -/
theorem sum_blocks {M : Type*} [AddCommMonoid M] (f : Fin 50000 → M) :
    ∑ s ∈ Finset.range 10, ∑ r : Fin 5000, f (rowAt s r) = ∑ x : Fin 50000, f x := by
  refine (Finset.sum_range (fun s => ∑ r : Fin 5000, f (rowAt s r))).trans ?_
  refine (Fintype.sum_prod_type' (fun (s : Fin 10) (r : Fin 5000) => f (rowAt s.val r))).symm.trans ?_
  exact Fintype.sum_equiv (finProdFinEquiv : Fin 10 × Fin 5000 ≃ Fin 50000) _ _ fun p =>
    congrArg f (Fin.ext (by
      show (5000 * p.1.val + p.2.val) % 50000 = p.2.val + 5000 * p.1.val
      have h1 := p.1.isLt; have h2 := p.2.isLt; omega))

/-- The arrays the three outputs end holding. -/
def reluArr (c : Dev nD) : S50000x128.Idx → EReal := fun i => reluAt V c (i 0) (i 1)
def sumArr (c : Dev nD) : S128.Idx → EReal := fun i => ∑ r : Fin 50000, reluAt V c r (i 0)
def sqArr (c : Dev nD) : S128.Idx → EReal := fun i => ∑ r : Fin 50000, reluAt V c r (i 0) * reluAt V c r (i 0)

/-- The outputs' block index maps, decided over the ten grid points. -/
theorem idx_facts2 : ∀ t : Fin cfg4.N, win4_2.index t 0 = t.val ∧ win4_2.index t 1 = 0 :=
  (by decide +kernel : ∀ t : Fin grid4.N, win4_2.index t 0 = t.val ∧ win4_2.index t 1 = 0)
theorem idx_facts3 : ∀ t : Fin cfg4.N, win4_3.index t 0 = 0 :=
  (by decide +kernel : ∀ t : Fin grid4.N, win4_3.index t 0 = 0)
theorem idx_facts4 : ∀ t : Fin cfg4.N, win4_4.index t 0 = 0 :=
  (by decide +kernel : ∀ t : Fin grid4.N, win4_4.index t 0 = 0)

/-! ## The clamped rows -/

/-- What point `t` writes back of the row-block output is block `t` of the clamped array. -/
theorem flushed2_eq (c : Dev nD) (t : Fin cfg4.N) :
    (dat4 V c).flushed 2 t = ((cfg4.win 2).blk t).view.read (Elt Ideal) (reluArr V c) := by
  have hN : t.val < 10 := lt_of_lt_of_eq t.isLt (show cfg4.N = 10 from N_4)
  show (cfg4.win 2).cut (grid4.coords t) ((dat4 V c).after 2 t) = _
  rw [after4_2]
  funext j
  obtain ⟨r, q, rfl⟩ : ∃ (r : Fin 5000) (q : Fin 128), j = ix2 r q := ⟨j 0, j 1, eq_ix2 j⟩
  rw [View.read_apply]
  refine (relu_at V c t r q).trans ?_
  show reluArr V c (ix2 (rowAt t.val r) q) = reluArr V c _
  congr 1
  funext a
  apply Fin.ext
  match a with
  | ⟨0, _⟩ => show (5000 * t.val + r.val) % 50000 = win4_2.index t 0 * 5000 + 1 * r.val; rw [(idx_facts2 t).1]; omega
  | ⟨1, _⟩ => show q.val = win4_2.index t 1 * 128 + 1 * q.val; rw [(idx_facts2 t).2]; omega

/-- An index of the array is in point `t`'s block iff each coordinate is in the block's range on its axis. -/
theorem mem_blk2 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v81_0).slice (win4_2.rect t)).set ↔ _
  rw [View.set_slice_whole, Rect.mem_set_unit]
  exact Iff.rfl

/-- Row `r` lies in the block of point `r / 5000`. -/
theorem cover2 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_2 _, ?_⟩
  rw [mem_blk2]
  intro a
  match a with
  | ⟨0, _⟩ =>
    show win4_2.index ⟨(i 0).val / 5000, _⟩ 0 * 5000 ≤ (i 0).val ∧ (i 0).val < win4_2.index ⟨(i 0).val / 5000, _⟩ 0 * 5000 + 5000
    rw [(idx_facts2 _).1]; dsimp only; omega
  | ⟨1, _⟩ =>
    show win4_2.index ⟨(i 0).val / 5000, _⟩ 1 * 128 ≤ (i 1).val ∧ (i 1).val < win4_2.index ⟨(i 0).val / 5000, _⟩ 1 * 128 + 128
    rw [(idx_facts2 _).2]; omega

/-- The row-block output's array after the region. -/
theorem relu_arr (c : Dev nD) : (dat4 V c).arrAt 2 cfg4.N = reluArr V c :=
  (dat4 V c).arrAt_eq_of_cover 2 (reluArr V c) (fun t _ => flushed2_eq V c t) cover2

/-- Entry `(r, q)` of the row-block output's array after the region: the entry of the row array plus the bias of its
    column, clamped below at zero. -/
theorem relu_final (c : Dev nD) (r : Fin 50000) (q : Fin 128) :
    @Eq EReal ((dat4 V c).arrAt 2 cfg4.N (ix2 r q)) (max (aggOf V c (ix2 r q) + biasOf V c (ix1 q)) 0) :=
  congrFun (relu_arr V c) (ix2 r q)

/-! ## The column sums and the column sums of squares -/

/-- The ten blocks' column sums are the column sums over all rows. -/
theorem total_sum (c : Dev nD) (q : Fin 128) :
    ∑ s ∈ Finset.range (9 + 1), blockSum V c s q = sumArr V c (ix1 q) :=
  sum_blocks (fun r => reluAt V c r q)
theorem total_sq (c : Dev nD) (q : Fin 128) :
    ∑ s ∈ Finset.range (9 + 1), blockSq V c s q = sqArr V c (ix1 q) :=
  sum_blocks (fun r => reluAt V c r q * reluAt V c r q)

/-- The running rows' one block is the whole row. -/
theorem emb3 (t : Fin cfg4.N) (q : Fin 128) : ((cfg4.win 3).blk t).view.emb (ix1 q) = ix1 q := by
  funext a
  apply Fin.ext
  match a with
  | ⟨0, _⟩ => show win4_3.index t 0 * 128 + 1 * q.val = q.val; rw [idx_facts3 t]; omega
theorem emb4 (t : Fin cfg4.N) (q : Fin 128) : ((cfg4.win 4).blk t).view.emb (ix1 q) = ix1 q := by
  funext a
  apply Fin.ext
  match a with
  | ⟨0, _⟩ => show win4_4.index t 0 * 128 + 1 * q.val = q.val; rw [idx_facts4 t]; omega

/-- Reading any row through a running row's block reads the row. -/
theorem read3 (t : Fin cfg4.N) (G : S128.Idx → EReal) (q : Fin 128) :
    ((cfg4.win 3).blk t).view.read (Elt Ideal) G (ix1 q) = G (ix1 q) := by
  rw [View.read_apply, emb3]
  rfl
theorem read4 (t : Fin cfg4.N) (G : S128.Idx → EReal) (q : Fin 128) :
    ((cfg4.win 4).blk t).view.read (Elt Ideal) G (ix1 q) = G (ix1 q) := by
  rw [View.read_apply, emb4]
  rfl

/-- The one write-back of the running column sums, after the last point, writes the column sums over all rows. -/
theorem flushed3_eq (c : Dev nD) (t : Fin cfg4.N) (hf : (cfg4.win 3).flush t = true) :
    (dat4 V c).flushed 3 t = ((cfg4.win 3).blk t).view.read (Elt Ideal) (sumArr V c) := by
  have hN : cfg4.N = 10 := N_4
  have h9 : t.val = 9 := by have := (flush4_3 t).mp hf; have := t.isLt; omega
  show (cfg4.win 3).cut (grid4.coords t) ((dat4 V c).after 3 t) = _
  rw [after4_3]
  funext j
  obtain ⟨q, rfl⟩ : ∃ q : Fin 128, j = ix1 q := ⟨j 0, eq_ix1 j⟩
  refine Eq.trans ?_ (read3 t (sumArr V c) q).symm
  refine ((sums_at V c t.val t.isLt q).1).trans ?_
  rw [h9]
  exact total_sum V c q

theorem flushed4_eq (c : Dev nD) (t : Fin cfg4.N) (hf : (cfg4.win 4).flush t = true) :
    (dat4 V c).flushed 4 t = ((cfg4.win 4).blk t).view.read (Elt Ideal) (sqArr V c) := by
  have hN : cfg4.N = 10 := N_4
  have h9 : t.val = 9 := by have := (flush4_4 t).mp hf; have := t.isLt; omega
  show (cfg4.win 4).cut (grid4.coords t) ((dat4 V c).after 4 t) = _
  rw [after4_4]
  funext j
  obtain ⟨q, rfl⟩ : ∃ q : Fin 128, j = ix1 q := ⟨j 0, eq_ix1 j⟩
  refine Eq.trans ?_ (read4 t (sqArr V c) q).symm
  refine ((sums_at V c t.val t.isLt q).2).trans ?_
  rw [h9]
  exact total_sq V c q

/-- The last point's block of a running row covers the row. -/
theorem cover3 (i : S128.Idx) :
    ∃ t : Fin cfg4.N, (cfg4.win 3).flush t = true ∧ i ∈ ((cfg4.win 3).blk t).view.set := by
  have hi0 : (i 0).val < 128 := (i 0).isLt
  refine ⟨t4_9, (flush4_3 t4_9).mpr rfl, ?_⟩
  show i ∈ ((View.whole main_v81_1).slice (win4_3.rect t4_9)).set
  rw [View.set_slice_whole, Rect.mem_set_unit]
  intro a
  match a with
  | ⟨0, _⟩ =>
    show win4_3.index t4_9 0 * 128 ≤ (i 0).val ∧ (i 0).val < win4_3.index t4_9 0 * 128 + 128
    rw [idx_facts3 t4_9]; omega
theorem cover4 (i : S128.Idx) :
    ∃ t : Fin cfg4.N, (cfg4.win 4).flush t = true ∧ i ∈ ((cfg4.win 4).blk t).view.set := by
  have hi0 : (i 0).val < 128 := (i 0).isLt
  refine ⟨t4_9, (flush4_4 t4_9).mpr rfl, ?_⟩
  show i ∈ ((View.whole main_v81_2).slice (win4_4.rect t4_9)).set
  rw [View.set_slice_whole, Rect.mem_set_unit]
  intro a
  match a with
  | ⟨0, _⟩ =>
    show win4_4.index t4_9 0 * 128 ≤ (i 0).val ∧ (i 0).val < win4_4.index t4_9 0 * 128 + 128
    rw [idx_facts4 t4_9]; omega

/-- The running rows' arrays after the region. -/
theorem sum_arr (c : Dev nD) : (dat4 V c).arrAt 3 cfg4.N = sumArr V c :=
  (dat4 V c).arrAt_eq_of_cover 3 (sumArr V c) (flushed3_eq V c) cover3
theorem sq_arr (c : Dev nD) : (dat4 V c).arrAt 4 cfg4.N = sqArr V c :=
  (dat4 V c).arrAt_eq_of_cover 4 (sqArr V c) (flushed4_eq V c) cover4

/-- Column `q` of the column-sums output after the region: the sum over all rows of the clamped entries. -/
theorem sum_final (c : Dev nD) (q : Fin 128) :
    @Eq EReal ((dat4 V c).arrAt 3 cfg4.N (ix1 q))
      (∑ r : Fin 50000, max (aggOf V c (ix2 r q) + biasOf V c (ix1 q)) 0) :=
  congrFun (sum_arr V c) (ix1 q)

/-- Column `q` of the sums-of-squares output after the region. -/
theorem sq_final (c : Dev nD) (q : Fin 128) :
    @Eq EReal ((dat4 V c).arrAt 4 cfg4.N (ix1 q))
      (∑ r : Fin 50000, max (aggOf V c (ix2 r q) + biasOf V c (ix1 q)) 0 * max (aggOf V c (ix2 r q) + biasOf V c (ix1 q)) 0) :=
  congrFun (sq_arr V c) (ix1 q)

end Cert.KernelIdeal.Reduce4

end
-- ==== Proof.AffRegion5.lean ====
/-
  The affine region's array.

  The region runs the affine body at ten grid points. Point t takes rows 5000·t … 5000·t + 4999 of the values and the
  whole scale and shift vectors, and writes values · scale + shift back to the same rows of the output. The ten
  blocks cover all 50000 rows, so the output array ends holding, at (r, q), values[r, q] · scale[q] + shift[q] of the
  arrays the region found.
-/
import proofs.«152337_j16226386444398_1_alg».proof.Proof.Gen.KernelIdeal.Frame
import proofs.«152337_j16226386444398_1_alg».proof.Proof.AffBlock
import Idealize.ShloMosaic.Lib.Pipeline.Value

set_option maxRecDepth 16384

noncomputable section

namespace Cert.KernelIdeal.Aff5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid. -/
theorem idx_facts : ∀ t : Fin cfg5.N, win5_0.index t (0 : Fin 2) = t.val ∧ win5_0.index t (1 : Fin 2) = 0
    ∧ win5_1.index t (0 : Fin 1) = 0 ∧ win5_2.index t (0 : Fin 1) = 0
    ∧ win5_3.index t (0 : Fin 2) = t.val ∧ win5_3.index t (1 : Fin 2) = 0 ∧ t.val < 10 :=
  (by decide +kernel : ∀ t : Fin grid5.N, _)

/-- The three arrays the region finds. -/
abbrev vals (c : Dev nD) : FVec Ideal ⟨2, ![50000, 128]⟩ .f32 := V c (Pipeline.arrRef spec5 0)
abbrev scale (c : Dev nD) : FVec Ideal ⟨1, ![128]⟩ .f32 := V c (Pipeline.arrRef spec5 1)
abbrev shift (c : Dev nD) : FVec Ideal ⟨1, ![128]⟩ .f32 := V c (Pipeline.arrRef spec5 2)

/-- The whole output: values · scale + shift, column by column. -/
def G (c : Dev nD) : FVec Ideal ⟨2, ![50000, 128]⟩ .f32 :=
  fun i => vals V c i * scale V c (ix1 (i 1)) + shift V c (ix1 (i 1))

theorem G_apply (c : Dev nD) (r : Fin 50000) (q : Fin 128) :
    G V c (ix2 r q) = vals V c (ix2 r q) * scale V c (ix1 q) + shift V c (ix1 q) := rfl

/-- What point t writes back is block t of the whole output. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  have hp : t.val * 5000 + p.val < 50000 := by have := p.isLt; omega
  refine (AffBlock.pay5_apply (iblk5 V c 0 t) (iblk5 V c 1 t) (iblk5 V c 2 t) p q).trans ?_
  have h0 : ((cfg5.win 0).blk t).view.emb (ix2 p q) = ix2 ⟨t.val * 5000 + p.val, hp⟩ q := by
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  have h1 : ((cfg5.win 1).blk t).view.emb (ix1 q) = ix1 q := by
    funext a; apply Fin.ext
    match a with
    | ⟨0, _⟩ => show win5_1.index t (0 : Fin 1) * 128 + 1 * q.val = q.val; omega
  have h2 : ((cfg5.win 2).blk t).view.emb (ix1 q) = ix1 q := by
    funext a; apply Fin.ext
    match a with
    | ⟨0, _⟩ => show win5_2.index t (0 : Fin 1) * 128 + 1 * q.val = q.val; omega
  have h3 : ((cfg5.win 3).blk t).view.emb (ix2 p q) = ix2 ⟨t.val * 5000 + p.val, hp⟩ q := by
    funext a; apply Fin.ext
    match a with
    | ⟨0, _⟩ => show win5_3.index t (0 : Fin 2) * 5000 + 1 * p.val = t.val * 5000 + p.val; omega
    | ⟨1, _⟩ => show win5_3.index t (1 : Fin 2) * 128 + 1 * q.val = q.val; omega
  show vals V c (((cfg5.win 0).blk t).view.emb (ix2 p q)) * scale V c (((cfg5.win 1).blk t).view.emb (ix1 q))
      + shift V c (((cfg5.win 2).blk t).view.emb (ix1 q)) = G V c (((cfg5.win 3).blk t).view.emb (ix2 p q))
  rw [h0, h1, h2, h3, G_apply]

/-- An index of the output array is in point t's block iff each coordinate is in the block's range. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v94).slice (win5_3.rect t)).set ↔ _
  rw [View.set_slice_whole, Rect.mem_set_unit]
  exact Iff.rfl

/-- Every row lies in the block of the point numbered row / 5000. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  let t : Fin cfg5.N := ⟨(i 0).val / 5000, by show (i 0).val / 5000 < 10; omega⟩
  obtain ⟨e0, e1, e2, e3, e4, e5, e6⟩ := idx_facts t
  have ht : t.val = (i 0).val / 5000 := rfl
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the region. -/
theorem final (c : Dev nD) : (dat5 V c).arrAt 3 cfg5.N = G V c :=
  (dat5 V c).arrAt_eq_of_cover 3 (G V c) (fun t _ => flushed_eq V c t) (cover)

end Cert.KernelIdeal.Aff5

end
-- ==== Proof.Layer2.lean ====
/-
  Layer 2 of the kernel, boundary by boundary.

  The layer is entered with its input array X, its transposed weight matrix WT, the edge normalisation, the sources
  and destinations, and its bias, gain and offset vectors in known buffers. The matmul region leaves X · WT; the host
  gathers, scales and adds up its rows by destination; the reducing region leaves max(agg + b, 0) with its column
  sums and column sums of squares; the host forms scale and shift from the two totals; the affine region leaves
  values · scale + shift. With every aggregated entry, bias, gain and offset a real number this is the reference's batch
  normalisation of the rectified aggregate.
-/
import proofs.«152337_j16226386444398_1_alg».proof.Proof.Gen.KernelIdeal.Frame
import proofs.«152337_j16226386444398_1_alg».proof.Proof.MatRegion3
import proofs.«152337_j16226386444398_1_alg».proof.Proof.Reduce4Final
import proofs.«152337_j16226386444398_1_alg».proof.Proof.AffRegion5
import proofs.«152337_j16226386444398_1_alg».proof.Proof.KHost
import proofs.«152337_j16226386444398_1_alg».proof.Proof.KStats
import proofs.«152337_j16226386444398_1_alg».proof.Proof.LayerBridge

set_option maxRecDepth 16384
set_option maxHeartbeats 1000000

noncomputable section

namespace Cert.KernelIdeal.Layer2

open Cert.KernelIdeal Cert.KernelIdeal.Gen
open Idealize.ShloMosaic Idealize.ShloMosaic.TcCoe Idealize.ShloMosaic.ValueIdx Idealize.SL.Sem Idealize.ShloMosaic.StableHlo
open Cert.LibRealSum

variable (m : (ℓ : Loc nD τ sig) → Buf (Elt Ideal) ℓ) (ρ : Dev nD → PrngReg) (c : Dev nD)

/-- From the layer's entry to its exit: the output buffer holds the batch normalisation of the rectified aggregate. -/
theorem out_eq (X : FVec Ideal S50000x128 .f32) (WT : FVec Ideal S128x128 .f32) (NORM : (⟨S550000, .f32⟩ : BufTy).Contents (Elt Ideal)) (SRC DST : (⟨S550000, .i32⟩ : BufTy).Contents (Elt Ideal)) (Bv G BE : FVec Ideal S128 .f32)
    (hin : @Eq (FVec Ideal S50000x128 .f32) (W11 m ρ c (Proc.devRef .tc main_v65)) X) (hwt : @Eq (FVec Ideal S128x128 .f32) (W11 m ρ c (Proc.devRef .tc main_v66)) WT)
    (hnorm : @Eq ((⟨S550000, .f32⟩ : BufTy).Contents (Elt Ideal)) (W11 m ρ c (Proc.devRef .tc main_v36)) NORM) (hsrc : @Eq ((⟨S550000, .i32⟩ : BufTy).Contents (Elt Ideal)) (W11 m ρ c (Proc.devRef .tc main_v5)) SRC) (hdst : @Eq ((⟨S550000, .i32⟩ : BufTy).Contents (Elt Ideal)) (W11 m ρ c (Proc.devRef .tc main_v6)) DST)
    (hb : @Eq (FVec Ideal S128 .f32) (W11 m ρ c (Proc.devRef .tc main_arg8)) Bv) (hg : @Eq (FVec Ideal S128 .f32) (W11 m ρ c (Proc.devRef .tc main_arg9)) G) (hbe : @Eq (FVec Ideal S128 .f32) (W11 m ρ c (Proc.devRef .tc main_arg10)) BE)
    (hagg : ∀ i, IsReal ((Cert.ReferenceIdeal.RefSpec.aggOf (F := Ideal) (MatBlock.prod X WT) NORM SRC DST) i)) (hBv : ∀ i, IsReal (Bv i)) (hG : ∀ i, IsReal (G i)) (hBE : ∀ i, IsReal (BE i)) :
    @Eq (FVec Ideal S50000x128 .f32) (W16 m ρ c (Proc.devRef .tc main_v94)) (Cert.ReferenceIdeal.RefSpec.bnOf (F := Ideal) (Cert.ReferenceIdeal.RefSpec.reluOf (F := Ideal) (Cert.ReferenceIdeal.RefSpec.aggOf (F := Ideal) (MatBlock.prod X WT) NORM SRC DST) Bv) G BE) := by
  -- the matmul region: the product, everything else kept
  have h1 : @Eq (FVec Ideal S50000x128 .f32) (W12 m ρ c (Proc.devRef .tc main_v67)) (MatBlock.prod X WT) := by
    refine (show @Eq (FVec Ideal S50000x128 .f32) (W12 m ρ c (Proc.devRef .tc main_v67)) ((dat3 (V11 m ρ) c).arrAt 2 cfg3.N) from W12_arr m ρ c 2).trans ?_
    rw [Mat3.final]
    show MatBlock.prod (W11 m ρ c (Proc.devRef .tc main_v65)) (W11 m ρ c (Proc.devRef .tc main_v66)) = _
    rw [hin, hwt]
  have n1 : @Eq ((⟨S550000, .f32⟩ : BufTy).Contents (Elt Ideal)) (W12 m ρ c (Proc.devRef .tc main_v36)) NORM := (W12_of_ne m ρ c main_v36 (by decide)).trans hnorm
  have s1 : @Eq ((⟨S550000, .i32⟩ : BufTy).Contents (Elt Ideal)) (W12 m ρ c (Proc.devRef .tc main_v5)) SRC := (W12_of_ne m ρ c main_v5 (by decide)).trans hsrc
  have d1 : @Eq ((⟨S550000, .i32⟩ : BufTy).Contents (Elt Ideal)) (W12 m ρ c (Proc.devRef .tc main_v6)) DST := (W12_of_ne m ρ c main_v6 (by decide)).trans hdst
  have b1 : @Eq (FVec Ideal S128 .f32) (W12 m ρ c (Proc.devRef .tc main_arg8)) Bv := (W12_of_ne m ρ c main_arg8 (by decide)).trans hb
  have g1 : @Eq (FVec Ideal S128 .f32) (W12 m ρ c (Proc.devRef .tc main_arg9)) G := (W12_of_ne m ρ c main_arg9 (by decide)).trans hg
  have e1 : @Eq (FVec Ideal S128 .f32) (W12 m ρ c (Proc.devRef .tc main_arg10)) BE := (W12_of_ne m ρ c main_arg10 (by decide)).trans hbe
  -- the gather, scale and scatter-add
  have h2 : @Eq (FVec Ideal S50000x128 .f32) (W13 m ρ c (Proc.devRef .tc main_v80)) (Cert.ReferenceIdeal.RefSpec.aggOf (F := Ideal) (MatBlock.prod X WT) NORM SRC DST) := by
    refine (KHost.agg2_eq (W12 m ρ c)).trans ?_
    rw [h1, n1, s1, d1]
  have b2 : @Eq (FVec Ideal S128 .f32) (W13 m ρ c (Proc.devRef .tc main_arg8)) Bv :=
    (show W13 m ρ c (Proc.devRef .tc main_arg8) = W12 m ρ c (Proc.devRef .tc main_arg8) from by show after hostOps4 (W12 m ρ c) _ = _; after_results_simp).trans b1
  have g2 : @Eq (FVec Ideal S128 .f32) (W13 m ρ c (Proc.devRef .tc main_arg9)) G :=
    (show W13 m ρ c (Proc.devRef .tc main_arg9) = W12 m ρ c (Proc.devRef .tc main_arg9) from by show after hostOps4 (W12 m ρ c) _ = _; after_results_simp).trans g1
  have e2 : @Eq (FVec Ideal S128 .f32) (W13 m ρ c (Proc.devRef .tc main_arg10)) BE :=
    (show W13 m ρ c (Proc.devRef .tc main_arg10) = W12 m ρ c (Proc.devRef .tc main_arg10) from by show after hostOps4 (W12 m ρ c) _ = _; after_results_simp).trans e1
  -- the reducing region: the rectified values, their column sums, the column sums of their squares
  have v3 : ∀ (r : Fin 50000) (q : Fin 128), @Eq EReal ((W14 m ρ c (Proc.devRef .tc main_v81_0) : FVec Ideal S50000x128 .f32) (ix2 r q)) (max ((Cert.ReferenceIdeal.RefSpec.aggOf (F := Ideal) (MatBlock.prod X WT) NORM SRC DST) (ix2 r q) + Bv (ix1 q)) 0) := by
    intro r q
    have hA : @Eq (S50000x128.Idx → EReal) (Reduce4.aggOf (V13 m ρ) c) (Cert.ReferenceIdeal.RefSpec.aggOf (F := Ideal) (MatBlock.prod X WT) NORM SRC DST) := h2
    have hB : @Eq (S128.Idx → EReal) (Reduce4.biasOf (V13 m ρ) c) Bv := b2
    have hr := Reduce4.relu_final (V13 m ρ) c r q
    rw [hA, hB] at hr
    exact (congrFun (show @Eq (FVec Ideal S50000x128 .f32) (W14 m ρ c (Proc.devRef .tc main_v81_0)) ((dat4 (V13 m ρ) c).arrAt 2 cfg4.N) from W14_arr m ρ c 2) (ix2 r q)).trans hr
  have s3 : ∀ q : Fin 128, @Eq EReal ((W14 m ρ c (Proc.devRef .tc main_v81_1) : FVec Ideal S128 .f32) (ix1 q)) (∑ r : Fin 50000, max ((Cert.ReferenceIdeal.RefSpec.aggOf (F := Ideal) (MatBlock.prod X WT) NORM SRC DST) (ix2 r q) + Bv (ix1 q)) 0) := by
    intro q
    have hA : @Eq (S50000x128.Idx → EReal) (Reduce4.aggOf (V13 m ρ) c) (Cert.ReferenceIdeal.RefSpec.aggOf (F := Ideal) (MatBlock.prod X WT) NORM SRC DST) := h2
    have hB : @Eq (S128.Idx → EReal) (Reduce4.biasOf (V13 m ρ) c) Bv := b2
    have hr := Reduce4.sum_final (V13 m ρ) c q
    rw [hA, hB] at hr
    exact (congrFun (show @Eq (FVec Ideal S128 .f32) (W14 m ρ c (Proc.devRef .tc main_v81_1)) ((dat4 (V13 m ρ) c).arrAt 3 cfg4.N) from W14_arr m ρ c 3) (ix1 q)).trans hr
  have q3 : ∀ q : Fin 128, @Eq EReal ((W14 m ρ c (Proc.devRef .tc main_v81_2) : FVec Ideal S128 .f32) (ix1 q))
      (∑ r : Fin 50000, max ((Cert.ReferenceIdeal.RefSpec.aggOf (F := Ideal) (MatBlock.prod X WT) NORM SRC DST) (ix2 r q) + Bv (ix1 q)) 0 * max ((Cert.ReferenceIdeal.RefSpec.aggOf (F := Ideal) (MatBlock.prod X WT) NORM SRC DST) (ix2 r q) + Bv (ix1 q)) 0) := by
    intro q
    have hA : @Eq (S50000x128.Idx → EReal) (Reduce4.aggOf (V13 m ρ) c) (Cert.ReferenceIdeal.RefSpec.aggOf (F := Ideal) (MatBlock.prod X WT) NORM SRC DST) := h2
    have hB : @Eq (S128.Idx → EReal) (Reduce4.biasOf (V13 m ρ) c) Bv := b2
    have hr := Reduce4.sq_final (V13 m ρ) c q
    rw [hA, hB] at hr
    exact (congrFun (show @Eq (FVec Ideal S128 .f32) (W14 m ρ c (Proc.devRef .tc main_v81_2)) ((dat4 (V13 m ρ) c).arrAt 4 cfg4.N) from W14_arr m ρ c 4) (ix1 q)).trans hr
  have g3 : @Eq (FVec Ideal S128 .f32) (W14 m ρ c (Proc.devRef .tc main_arg9)) G := (W14_of_ne m ρ c main_arg9 (by decide)).trans g2
  have e3 : @Eq (FVec Ideal S128 .f32) (W14 m ρ c (Proc.devRef .tc main_arg10)) BE := (W14_of_ne m ρ c main_arg10 (by decide)).trans e2
  -- the statistics stretch: scale and shift; the values kept
  have c4 : @Eq (FVec Ideal S128 .f32) (W15 m ρ c (Proc.devRef .tc main_v91)) (KStats.kScale (W14 m ρ c (Proc.devRef .tc main_v81_1)) (W14 m ρ c (Proc.devRef .tc main_v81_2)) G) := by
    refine (KStats.scale2_eq (W14 m ρ c)).trans ?_
    rw [g3]
  have f4 : @Eq (FVec Ideal S128 .f32) (W15 m ρ c (Proc.devRef .tc main_v93)) (KStats.kShift (W14 m ρ c (Proc.devRef .tc main_v81_1)) (W14 m ρ c (Proc.devRef .tc main_v81_2)) G BE) := by
    refine (KStats.shift2_eq (W14 m ρ c)).trans ?_
    rw [g3, e3]
  have v4 : @Eq (FVec Ideal S50000x128 .f32) (W15 m ρ c (Proc.devRef .tc main_v81_0)) (W14 m ρ c (Proc.devRef .tc main_v81_0)) := KStats.vals2_keep (W14 m ρ c)
  -- the affine region
  refine (show @Eq (FVec Ideal S50000x128 .f32) (W16 m ρ c (Proc.devRef .tc main_v94)) ((dat5 (V15 m ρ) c).arrAt 3 cfg5.N) from W16_arr m ρ c 3).trans ?_
  rw [Aff5.final]
  funext i
  obtain ⟨r, q, rfl⟩ : ∃ (r : Fin 50000) (q : Fin 128), i = ix2 r q := ⟨i 0, i 1, eq_ix2 i⟩
  rw [Aff5.G_apply]
  have hv : @Eq (FVec Ideal S50000x128 .f32) (Aff5.vals (V15 m ρ) c) (W14 m ρ c (Proc.devRef .tc main_v81_0)) := v4
  have hc : @Eq (FVec Ideal S128 .f32) (Aff5.scale (V15 m ρ) c) (KStats.kScale (W14 m ρ c (Proc.devRef .tc main_v81_1)) (W14 m ρ c (Proc.devRef .tc main_v81_2)) G) := c4
  have hf : @Eq (FVec Ideal S128 .f32) (Aff5.shift (V15 m ρ) c) (KStats.kShift (W14 m ρ c (Proc.devRef .tc main_v81_1)) (W14 m ρ c (Proc.devRef .tc main_v81_2)) G BE) := f4
  rw [hv, hc, hf]
  exact Cert.LayerBridge.affine_eq_bn (Cert.ReferenceIdeal.RefSpec.aggOf (F := Ideal) (MatBlock.prod X WT) NORM SRC DST) Bv G BE hagg hBv hG hBE (W14 m ρ c (Proc.devRef .tc main_v81_0)) (W14 m ρ c (Proc.devRef .tc main_v81_1)) (W14 m ρ c (Proc.devRef .tc main_v81_2)) v3 s3 q3 r q

end Cert.KernelIdeal.Layer2

end
-- ==== Proof.MatRegion6.lean ====
/-
  The matmul region's array.

  The region runs the matmul body at ten grid points. Point t takes rows 5000·t … 5000·t + 4999 of the left factor
  and the whole right factor, and writes its product block back to the same rows of the output. So what point t
  writes back is block t of the whole product, the ten blocks cover all 50000 rows, and the output array ends
  holding the whole product of the two arrays the region found.
-/
import proofs.«152337_j16226386444398_1_alg».proof.Proof.Gen.KernelIdeal.Frame
import proofs.«152337_j16226386444398_1_alg».proof.Proof.MatBlock
import Idealize.ShloMosaic.Lib.Pipeline.Value

set_option maxRecDepth 16384

noncomputable section

namespace Cert.KernelIdeal.Mat6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's and the output's row block is the point's number,
    every other block index is zero. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 ∧ t.val < 10 :=
  (by decide +kernel : ∀ t : Fin grid6.N, _)

/-- The two arrays the region finds. -/
abbrev lhs (c : Dev nD) : FVec Ideal ⟨2, ![50000, 128]⟩ .f32 := V c (Pipeline.arrRef spec6 0)
abbrev rhs (c : Dev nD) : FVec Ideal ⟨2, ![128, 128]⟩ .f32 := V c (Pipeline.arrRef spec6 1)

/-- What point t writes back is block t of the whole product. -/
theorem flushed_eq (c : Dev nD) (t : Fin cfg6.N) :
    (dat6 V c).flushed 2 t = ((cfg6.win 2).blk t).view.read (Elt Ideal) (MatBlock.prod (lhs V c) (rhs V c)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  obtain ⟨e0, e1, e2, e3, e4, e5, e6⟩ := idx_facts t
  funext j
  obtain ⟨p, q, rfl⟩ : ∃ (p : Fin 5000) (q : Fin 128), j = ix2 p q := ⟨j 0, j 1, eq_ix2 j⟩
  have hp : t.val * 5000 + p.val < 50000 := by have := p.isLt; omega
  refine (MatBlock.pay6_rows (lhs V c) (rhs V c) (iblk6 V c 0 t) (iblk6 V c 1 t) (t.val * 5000) p q hp ?_ ?_).trans ?_
  · intro kk
    show lhs V c (((cfg6.win 0).blk t).view.emb (ix2 p kk)) = lhs V c (ix2 ⟨t.val * 5000 + p.val, hp⟩ kk)
    refine congrArg (lhs V c) (funext fun a => Fin.ext ?_)
    match a with
    | ⟨0, _⟩ => show win6_0.index t (0 : Fin 2) * 5000 + 1 * p.val = t.val * 5000 + p.val; omega
    | ⟨1, _⟩ => show win6_0.index t (1 : Fin 2) * 128 + 1 * kk.val = kk.val; omega
  · funext y
    show rhs V c (((cfg6.win 1).blk t).view.emb y) = rhs V c y
    refine congrArg (rhs V c) (funext fun a => Fin.ext ?_)
    match a with
    | ⟨0, _⟩ => show win6_1.index t (0 : Fin 2) * 128 + 1 * (y 0).val = (y 0).val; omega
    | ⟨1, _⟩ => show win6_1.index t (1 : Fin 2) * 128 + 1 * (y 1).val = (y 1).val; omega
  · show MatBlock.prod (lhs V c) (rhs V c) (ix2 ⟨t.val * 5000 + p.val, hp⟩ q)
      = MatBlock.prod (lhs V c) (rhs V c) (((cfg6.win 2).blk t).view.emb (ix2 p q))
    refine congrArg (MatBlock.prod (lhs V c) (rhs V c)) (funext fun a => Fin.ext ?_)
    match a with
    | ⟨0, _⟩ => show t.val * 5000 + p.val = win6_2.index t (0 : Fin 2) * 5000 + 1 * p.val; omega
    | ⟨1, _⟩ => show q.val = win6_2.index t (1 : Fin 2) * 128 + 1 * q.val; omega

/-- An index of the output array is in point t's block iff each coordinate is in the block's range. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v96).slice (win6_2.rect t)).set ↔ _
  rw [View.set_slice_whole, Rect.mem_set_unit]
  exact Iff.rfl

/-- Every row lies in the block of the point numbered row / 5000. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  let t : Fin cfg6.N := ⟨(i 0).val / 5000, by show (i 0).val / 5000 < 10; omega⟩
  obtain ⟨e0, e1, e2, e3, e4, e5, e6⟩ := idx_facts t
  have ht : t.val = (i 0).val / 5000 := rfl
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: the whole product of the two arrays the region found. -/
theorem final (c : Dev nD) : (dat6 V c).arrAt 2 cfg6.N = MatBlock.prod (lhs V c) (rhs V c) :=
  (dat6 V c).arrAt_eq_of_cover 2 (MatBlock.prod (lhs V c) (rhs V c)) (fun t _ => flushed_eq V c t) (cover)

end Cert.KernelIdeal.Mat6

end
-- ==== Proof.Reduce7Pieces.lean ====
import proofs.«152337_j16226386444398_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

/-! # What each control case of the bias + relu + column-sums body leaves in its three outputs

The body adds the bias row to its block of rows, clamps below at zero, stores that block, and adds the block's
column sums and column sums of squares into two running rows. At the first grid point (case A) the running rows
are first set to zero; at the later points (case B) they are what the point before left. Each lemma below reads
one output's staging contents back as the arithmetic term of the body's loads. -/

namespace Cert.KernelIdeal.Reduce7

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- Case B, the row block: the clamped biased block. -/
theorem out_B_2 (c : Dev nD) (i : grid7.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond7_0 i) (x0 : Vec F S5000x128 .f32) (x1 : Vec F S128 .f32) (xo3 xo4 : Vec F S128 .f32) :
    out7_B_2 c i a1 h1 a2 h2 a3 h3 a4 h4 a5 h5 hc x0 x1 xo3 xo4 = k7_pay3 x1 x0 := by
  unfold out7_B_2
  rw [View.read_writes_eq_canon _ _ _ (cover7_B_2 c i a1 h1 a2 h2 a3 h3 a4 h4 a5 h5 hc x0 x1 xo3 xo4)]
  unfold kernelRun7_B
  dsimp only
  rw [View.canon_unit_zero hz2]
  simp only [View.readAt_eq_ld, h1.read_unread, h2.read_unread, View.ld_unit_zero (S := S5000x128) hz2,
    View.ld_unit_zero (S := S128) hz1]

/-- Case B, the running column sums: the previous row plus this block's column sums. -/
theorem out_B_3 (c : Dev nD) (i : grid7.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond7_0 i) (x0 : Vec F S5000x128 .f32) (x1 : Vec F S128 .f32) (xo3 xo4 : Vec F S128 .f32) :
    out7_B_3 c i a1 h1 a2 h2 a3 h3 a4 h4 a5 h5 hc x0 x1 xo3 xo4 = k7_pay4 x1 x0 xo3 := by
  unfold out7_B_3
  rw [View.read_writes_eq_canon _ _ _ (cover7_B_3 c i a1 h1 a2 h2 a3 h3 a4 h4 a5 h5 hc x0 x1 xo3 xo4)]
  unfold kernelRun7_B
  dsimp only
  rw [View.canon_unit_zero hz1]
  simp only [View.readAt_eq_ld, h1.read_unread, h2.read_unread, h4.read_unread, h5.read_unread,
    View.ld_unit_zero (S := S5000x128) hz2, View.ld_unit_zero (S := S128) hz1]

/-- Case B, the running column sums of squares. -/
theorem out_B_4 (c : Dev nD) (i : grid7.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : ¬cond7_0 i) (x0 : Vec F S5000x128 .f32) (x1 : Vec F S128 .f32) (xo3 xo4 : Vec F S128 .f32) :
    out7_B_4 c i a1 h1 a2 h2 a3 h3 a4 h4 a5 h5 hc x0 x1 xo3 xo4 = k7_pay5 x1 x0 xo4 := by
  unfold out7_B_4
  rw [View.read_writes_eq_canon _ _ _ (cover7_B_4 c i a1 h1 a2 h2 a3 h3 a4 h4 a5 h5 hc x0 x1 xo3 xo4)]
  unfold kernelRun7_B
  dsimp only
  rw [View.canon_unit_zero hz1]
  simp only [View.readAt_eq_ld, h1.read_unread, h2.read_unread, h4.read_unread, h5.read_unread,
    View.ld_unit_zero (S := S5000x128) hz2, View.ld_unit_zero (S := S128) hz1]

/-- Case A, the row block: the clamped biased block. -/
theorem out_A_2 (c : Dev nD) (i : grid7.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond7_0 i) (x0 : Vec F S5000x128 .f32) (x1 : Vec F S128 .f32) :
    out7_A_2 c i a1 h1 a2 h2 a3 h3 a4 h4 a5 h5 hc x0 x1 = k7_pay3 x1 x0 := by
  unfold out7_A_2
  rw [View.read_writes_eq_canon _ _ _ (cover7_A_2 c i a1 h1 a2 h2 a3 h3 a4 h4 a5 h5 hc x0 x1)]
  unfold kernelRun7_A
  dsimp only
  rw [View.canon_unit_zero hz2]
  simp only [View.readAt_eq_ld, h1.read_unread, h2.read_unread, View.ld_unit_zero (S := S5000x128) hz2,
    View.ld_unit_zero (S := S128) hz1]

/-- Case A, the running column sums: the zero row, read back, plus this block's column sums. -/
theorem out_A_3 (c : Dev nD) (i : grid7.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond7_0 i) (x0 : Vec F S5000x128 .f32) (x1 : Vec F S128 .f32) :
    out7_A_3 c i a1 h1 a2 h2 a3 h3 a4 h4 a5 h5 hc x0 x1 = k7_pay4 x1 x0 k7_pay1 := by
  unfold out7_A_3
  rw [View.read_writes_eq_canon _ _ _ (cover7_A_3 c i a1 h1 a2 h2 a3 h3 a4 h4 a5 h5 hc x0 x1)]
  unfold kernelRun7_A
  dsimp only
  sl_unfold_words
  rw [View.canon_cons_unit_zero (S := S128) hz1, View.readCov_unit_zero (S := S128) _ hz1]
  simp only [View.readAt_eq_ld, h1.read_unread, h2.read_unread, View.ld_unit_zero (S := S5000x128) hz2,
    View.ld_unit_zero (S := S128) hz1]

/-- Case A, the running column sums of squares: the zero row, read back, plus this block's. -/
theorem out_A_4 (c : Dev nD) (i : grid7.Coords) (a1 : Memref sig .tc .vmem S5000x128 .f32) (h1 : a1.IsWhole)
    (a2 : Memref sig .tc .vmem S128 .f32) (h2 : a2.IsWhole) (a3 : Memref sig .tc .vmem S5000x128 .f32) (h3 : a3.IsWhole)
    (a4 : Memref sig .tc .vmem S128 .f32) (h4 : a4.IsWhole) (a5 : Memref sig .tc .vmem S128 .f32) (h5 : a5.IsWhole)
    (hc : cond7_0 i) (x0 : Vec F S5000x128 .f32) (x1 : Vec F S128 .f32) :
    out7_A_4 c i a1 h1 a2 h2 a3 h3 a4 h4 a5 h5 hc x0 x1 = k7_pay5 x1 x0 k7_pay2 := by
  unfold out7_A_4
  rw [View.read_writes_eq_canon _ _ _ (cover7_A_4 c i a1 h1 a2 h2 a3 h3 a4 h4 a5 h5 hc x0 x1)]
  unfold kernelRun7_A
  dsimp only
  sl_unfold_words
  rw [View.canon_cons_unit_zero (S := S128) hz1, View.readCov_unit_zero (S := S128) _ hz1]
  simp only [View.readAt_eq_ld, h1.read_unread, h2.read_unread, View.ld_unit_zero (S := S5000x128) hz2,
    View.ld_unit_zero (S := S128) hz1]

end Cert.KernelIdeal.Reduce7

end
-- ==== Proof.Reduce7Payload.lean ====
import proofs.«152337_j16226386444398_1_alg».proof.Proof.Gen.KernelIdeal.Skeleton
import Idealize.ShloMosaic.Lib.ValueLayout
import Idealize.ShloMosaic.PureOps.Ideal.Laws

noncomputable section

open Idealize.ShloMosaic Idealize.ShloMosaic.ValueIdx
open scoped BigOperators

/-! # The bias + relu + column-sums body's arithmetic, read at one entry over the extended reals

The stored row block at row `r`, column `q` is `max (x r q + b q) 0`; the running column sums at column `q` are the
row before plus the block's column sum of those entries (of their squares, for the second running row); the rows
the first grid point starts from are zero. -/

namespace Cert.KernelIdeal.Reduce7

open Cert.KernelIdeal Cert.KernelIdeal.Gen

/-- Putting coordinate `k` back on the reduced row axis over column `q` gives entry `(k, q)`. -/
theorem lift_eq (q : Fin 128) (k : Fin 5000) :
    (reduces_S5000x128_S128.lift (ix1 q) k : S5000x128.Idx) = ix2 k q := by
  funext a
  match a with
  | ⟨0, _⟩ => exact Fin.ext rfl
  | ⟨1, _⟩ => exact Fin.ext rfl

/-- The stored block at `(r, q)`: the entry plus the bias of its column, clamped below at zero. -/
theorem pay3_apply (v3 : Vec Ideal S128 .f32) (v6 : Vec Ideal S5000x128 .f32) (r : Fin 5000) (q : Fin 128) :
    k7_pay3 (F := Ideal) v3 v6 (ix2 r q) = max (v6 (ix2 r q) + v3 (ix1 q)) 0 := by
  unfold k7_pay3
  show max (shapeCast S5000x128 v6 shapeCasts_S5000x128_S5000x128 (ix2 r q)
      + broadcastTo S5000x128 (shapeCast S1x128 v3 shapeCasts_S128_S1x128) broadcasts_S1x128_S5000x128 (ix2 r q))
    (Ideal.ofBits .f32 0x00000000#32) = _
  rw [shapeCast_self, broadcastTo_1b_ab_apply, shapeCast_a_1a_apply, Ideal.ofBits_zero_f32]

/-- The running column sums at column `q`: the row before plus the block's column sum. -/
theorem pay4_apply (v3 : Vec Ideal S128 .f32) (v6 : Vec Ideal S5000x128 .f32) (v12 : Vec Ideal S128 .f32) (q : Fin 128) :
    k7_pay4 (F := Ideal) v3 v6 v12 (ix1 q) = v12 (ix1 q) + ∑ r : Fin 5000, max (v6 (ix2 r q) + v3 (ix1 q)) 0 := by
  unfold k7_pay4
  show shapeCast S128 v12 shapeCasts_S128_S128 (ix1 q)
    + multiReduction .add [0] S128 (k7_pay3 (F := Ideal) v3 v6) 0x00000000#32 reduces_S5000x128_S128 (.inl rfl) rfl (ix1 q) = _
  rw [shapeCast_self]
  refine congrArg (fun z => v12 (ix1 q) + z) ?_
  refine (Ideal.multiReduction_add_single (k7_pay3 (F := Ideal) v3 v6) 0x00000000#32 reduces_S5000x128_S128 (.inl rfl) rfl (ix1 q)).trans ?_
  show (∑ k : Fin 5000, k7_pay3 (F := Ideal) v3 v6 (reduces_S5000x128_S128.lift (ix1 q) k)) = _
  refine Finset.sum_congr rfl fun k _ => ?_
  rw [lift_eq]
  exact pay3_apply v3 v6 k q

/-- The running column sums of squares at column `q`: the row before plus the block's column sum of squares. -/
theorem pay5_apply (v3 : Vec Ideal S128 .f32) (v6 : Vec Ideal S5000x128 .f32) (v17 : Vec Ideal S128 .f32) (q : Fin 128) :
    k7_pay5 (F := Ideal) v3 v6 v17 (ix1 q)
      = v17 (ix1 q) + ∑ r : Fin 5000, max (v6 (ix2 r q) + v3 (ix1 q)) 0 * max (v6 (ix2 r q) + v3 (ix1 q)) 0 := by
  unfold k7_pay5
  show shapeCast S128 v17 shapeCasts_S128_S128 (ix1 q)
    + multiReduction .add [0] S128 (mulf (k7_pay3 (F := Ideal) v3 v6) (k7_pay3 (F := Ideal) v3 v6)) 0x00000000#32
        reduces_S5000x128_S128 (.inl rfl) rfl (ix1 q) = _
  rw [shapeCast_self]
  refine congrArg (fun z => v17 (ix1 q) + z) ?_
  refine (Ideal.multiReduction_add_single (mulf (k7_pay3 (F := Ideal) v3 v6) (k7_pay3 (F := Ideal) v3 v6)) 0x00000000#32
    reduces_S5000x128_S128 (.inl rfl) rfl (ix1 q)).trans ?_
  show (∑ k : Fin 5000, k7_pay3 (F := Ideal) v3 v6 (reduces_S5000x128_S128.lift (ix1 q) k)
    * k7_pay3 (F := Ideal) v3 v6 (reduces_S5000x128_S128.lift (ix1 q) k)) = _
  refine Finset.sum_congr rfl fun k _ => ?_
  rw [lift_eq, pay3_apply v3 v6 k q]

/-- The first grid point's starting rows are zero. -/
theorem pay1_apply (q : Fin 128) : k7_pay1 (F := Ideal) (ix1 q) = 0 := by
  unfold k7_pay1
  show Ideal.ofBits .f32 0x00000000#32 = 0
  exact Ideal.ofBits_zero_f32

theorem pay2_apply (q : Fin 128) : k7_pay2 (F := Ideal) (ix1 q) = 0 := by
  unfold k7_pay2
  show Ideal.ofBits .f32 0x00000000#32 = 0
  exact Ideal.ofBits_zero_f32

end Cert.KernelIdeal.Reduce7

end
-- ==== Proof.Reduce7Acc.lean ====
import proofs.«152337_j16226386444398_1_alg».proof.Proof.Reduce7Pieces
import proofs.«152337_j16226386444398_1_alg».proof.Proof.Reduce7Payload

noncomputable section

open Idealize.ShloMosaic Idealize.ShloMosaic.TcCoe Idealize.SL.Sem Idealize.ShloMosaic.ValueIdx
open Idealize.ShloMosaic.Pipeline (Dat)
open scoped BigOperators

/-! # What the three outputs' staging buffers hold after each grid point

Grid point `t` reads rows `5000 t … 5000 t + 4999` of the row array and the whole bias row. After it the row
block's buffer holds those rows biased and clamped at zero; the two running rows hold, column by column, the sums
(and sums of squares) of the clamped entries of all rows read so far: blocks `0 … t`. -/

namespace Cert.KernelIdeal.Reduce7

open Cert.KernelIdeal Cert.KernelIdeal.Gen

variable (V : (c : Dev nD) → (b : Ref sig .tc) → Buf (Elt Ideal) ((c : Thread nD τ).loc b))

/-- The row array and the bias row as the region finds them. -/
abbrev aggOf (c : Dev nD) : S50000x128.Idx → EReal := V c (Pipeline.arrRef spec7 0)
abbrev biasOf (c : Dev nD) : S128.Idx → EReal := V c (Pipeline.arrRef spec7 1)

/-- One clamped entry: row `r`, column `q`. -/
def reluAt (c : Dev nD) (r : Fin 50000) (q : Fin 128) : EReal := max (aggOf V c (ix2 r q) + biasOf V c (ix1 q)) 0

/-- Row `r` of row block `s` (blocks of 5000 rows; taken modulo the row count so that it is defined for every `s`). -/
def rowAt (s : ℕ) (r : Fin 5000) : Fin 50000 := ⟨(5000 * s + r.val) % 50000, Nat.mod_lt _ (by decide)⟩

/-- Row block `s`'s column sums of the clamped entries, and of their squares. -/
def blockSum (c : Dev nD) (s : ℕ) (q : Fin 128) : EReal := ∑ r : Fin 5000, reluAt V c (rowAt s r) q
def blockSq (c : Dev nD) (s : ℕ) (q : Fin 128) : EReal := ∑ r : Fin 5000, reluAt V c (rowAt s r) q * reluAt V c (rowAt s r) q

/-- The block index maps, decided over the ten grid points: point `t` reads row block `t`, every column; the bias
    row's one block. -/
theorem idx_facts0 : ∀ t : Fin cfg7.N, win7_0.index t 0 = t.val ∧ win7_0.index t 1 = 0 :=
  (by decide +kernel : ∀ t : Fin grid7.N, win7_0.index t 0 = t.val ∧ win7_0.index t 1 = 0)
theorem idx_facts1 : ∀ t : Fin cfg7.N, win7_1.index t 0 = 0 :=
  (by decide +kernel : ∀ t : Fin grid7.N, win7_1.index t 0 = 0)

/-- Point `t`'s block of the row array at `(r, q)` is row `5000 t + r`, column `q`. -/
theorem iblk0_apply (c : Dev nD) (t : Fin cfg7.N) (r : Fin 5000) (q : Fin 128) :
    (iblk7 V c 0 t : Vec Ideal S5000x128 .f32) (ix2 r q) = aggOf V c (ix2 (rowAt t.val r) q) := by
  have hN : t.val < 10 := lt_of_lt_of_eq t.isLt (show cfg7.N = 10 from N_7)
  unfold iblk7
  rw [View.read_apply]
  show V c (Pipeline.arrRef spec7 0) _ = V c (Pipeline.arrRef spec7 0) _
  congr 1
  funext a
  apply Fin.ext
  match a with
  | ⟨0, _⟩ => show win7_0.index t 0 * 5000 + 1 * r.val = (5000 * t.val + r.val) % 50000; rw [(idx_facts0 t).1]; omega
  | ⟨1, _⟩ => show win7_0.index t 1 * 128 + 1 * q.val = q.val; rw [(idx_facts0 t).2]; omega

/-- Every point's block of the bias row is the bias row. -/
theorem iblk1_apply (c : Dev nD) (t : Fin cfg7.N) (q : Fin 128) :
    (iblk7 V c 1 t : Vec Ideal S128 .f32) (ix1 q) = biasOf V c (ix1 q) := by
  unfold iblk7
  rw [View.read_apply]
  show V c (Pipeline.arrRef spec7 1) _ = V c (Pipeline.arrRef spec7 1) _
  congr 1
  funext a
  apply Fin.ext
  match a with
  | ⟨0, _⟩ => show win7_1.index t 0 * 128 + 1 * q.val = q.val; rw [idx_facts1 t]; omega

/-- The clamped entry computed from a block of rows `x0` that is row block `s` and a row `x1` that is the bias row. -/
theorem block_entry (c : Dev nD) (s : ℕ) (x0 : Vec Ideal S5000x128 .f32) (x1 : Vec Ideal S128 .f32)
    (h0 : ∀ (r : Fin 5000) (q : Fin 128), x0 (ix2 r q) = aggOf V c (ix2 (rowAt s r) q))
    (h1 : ∀ q : Fin 128, x1 (ix1 q) = biasOf V c (ix1 q)) (r : Fin 5000) (q : Fin 128) :
    max (x0 (ix2 r q) + x1 (ix1 q)) 0 = reluAt V c (rowAt s r) q := by
  rw [h0, h1]
  rfl

/-- One step of the running column sums: what was there plus row block `s`'s column sums. -/
theorem step_sum (c : Dev nD) (s : ℕ) (x0 : Vec Ideal S5000x128 .f32) (x1 : Vec Ideal S128 .f32) (acc : Vec Ideal S128 .f32)
    (h0 : ∀ (r : Fin 5000) (q : Fin 128), x0 (ix2 r q) = aggOf V c (ix2 (rowAt s r) q))
    (h1 : ∀ q : Fin 128, x1 (ix1 q) = biasOf V c (ix1 q)) (q : Fin 128) (A : EReal) (hacc : acc (ix1 q) = A) :
    k7_pay4 (F := Ideal) x1 x0 acc (ix1 q) = A + blockSum V c s q := by
  rw [pay4_apply, hacc]
  exact congrArg (fun z => A + z) (Finset.sum_congr rfl fun r _ => block_entry V c s x0 x1 h0 h1 r q)

/-- One step of the running column sums of squares. -/
theorem step_sq (c : Dev nD) (s : ℕ) (x0 : Vec Ideal S5000x128 .f32) (x1 : Vec Ideal S128 .f32) (acc : Vec Ideal S128 .f32)
    (h0 : ∀ (r : Fin 5000) (q : Fin 128), x0 (ix2 r q) = aggOf V c (ix2 (rowAt s r) q))
    (h1 : ∀ q : Fin 128, x1 (ix1 q) = biasOf V c (ix1 q)) (q : Fin 128) (A : EReal) (hacc : acc (ix1 q) = A) :
    k7_pay5 (F := Ideal) x1 x0 acc (ix1 q) = A + blockSq V c s q := by
  rw [pay5_apply, hacc]
  exact congrArg (fun z => A + z) (Finset.sum_congr rfl fun r _ => by rw [block_entry V c s x0 x1 h0 h1 r q])

/-- After point `t` the row block's buffer holds the clamped entries of row block `t` (both control cases). -/
theorem relu_at (c : Dev nD) (t : Fin cfg7.N) (r : Fin 5000) (q : Fin 128) :
    ((outsAt7 V c t.val t.isLt).1 : Vec Ideal S5000x128 .f32) (ix2 r q) = reluAt V c (rowAt t.val r) q := by
  by_cases h0 : t.val % 10 = 0
  · rw [outsAt7_A V c t h0]
    dsimp only
    rw [out_A_2 (F := Ideal) c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t), pay3_apply]
    exact block_entry V c t.val (iblk7 V c 0 t) (iblk7 V c 1 t) (iblk0_apply V c t) (iblk1_apply V c t) r q
  · rw [outsAt7_B V c t h0]
    dsimp only
    rw [out_B_2 (F := Ideal) c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t)
      (outsAt7 V c (t.val - 1) (Nat.lt_of_le_of_lt (Nat.sub_le _ _) t.isLt)).2.1
      (outsAt7 V c (t.val - 1) (Nat.lt_of_le_of_lt (Nat.sub_le _ _) t.isLt)).2.2, pay3_apply]
    exact block_entry V c t.val (iblk7 V c 0 t) (iblk7 V c 1 t) (iblk0_apply V c t) (iblk1_apply V c t) r q

/-- After point `n` the running rows hold the column sums, and sums of squares, of row blocks `0 … n`: the first
    point starts from zero, every later one adds its block's to what the point before left. -/
theorem sums_at (c : Dev nD) : ∀ (n : ℕ) (hn : n < cfg7.N) (q : Fin 128),
    ((outsAt7 V c n hn).2.1 : Vec Ideal S128 .f32) (ix1 q) = ∑ s ∈ Finset.range (n + 1), blockSum V c s q
    ∧ ((outsAt7 V c n hn).2.2 : Vec Ideal S128 .f32) (ix1 q) = ∑ s ∈ Finset.range (n + 1), blockSq V c s q
  | 0, hn, q => by
    rw [outsAt7_A V c ⟨0, hn⟩ rfl]
    dsimp only
    rw [out_A_3 (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr rfl) (iblk7 V c 0 ⟨0, hn⟩) (iblk7 V c 1 ⟨0, hn⟩),
      out_A_4 (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr rfl) (iblk7 V c 0 ⟨0, hn⟩) (iblk7 V c 1 ⟨0, hn⟩),
      Finset.sum_range_one, Finset.sum_range_one]
    refine ⟨?_, ?_⟩
    · refine (step_sum V c 0 (iblk7 V c 0 ⟨0, hn⟩) (iblk7 V c 1 ⟨0, hn⟩) (k7_pay1 (F := Ideal)) (iblk0_apply V c ⟨0, hn⟩) (iblk1_apply V c ⟨0, hn⟩) q 0
        (pay1_apply q)).trans ?_
      exact zero_add _
    · refine (step_sq V c 0 (iblk7 V c 0 ⟨0, hn⟩) (iblk7 V c 1 ⟨0, hn⟩) (k7_pay2 (F := Ideal)) (iblk0_apply V c ⟨0, hn⟩) (iblk1_apply V c ⟨0, hn⟩) q 0
        (pay2_apply q)).trans ?_
      exact zero_add _
  | n + 1, hn, q => by
    have hN : cfg7.N = 10 := N_7
    have hB : ¬(⟨n + 1, hn⟩ : Fin cfg7.N).val % 10 = 0 := by dsimp only; omega
    have ih : ((outsAt7 V c (n + 1 - 1) (Nat.lt_of_le_of_lt (Nat.sub_le _ _) hn)).2.1 : Vec Ideal S128 .f32) (ix1 q) = ∑ s ∈ Finset.range (n + 1), blockSum V c s q
        ∧ ((outsAt7 V c (n + 1 - 1) (Nat.lt_of_le_of_lt (Nat.sub_le _ _) hn)).2.2 : Vec Ideal S128 .f32) (ix1 q) = ∑ s ∈ Finset.range (n + 1), blockSq V c s q :=
      sums_at c n (Nat.lt_of_succ_lt hn) q
    rw [outsAt7_B V c ⟨n + 1, hn⟩ hB]
    dsimp only
    rw [out_B_3 (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => hB ((hcond7_0 ⟨n + 1, hn⟩).mp h)) (iblk7 V c 0 ⟨n + 1, hn⟩) (iblk7 V c 1 ⟨n + 1, hn⟩)
        (outsAt7 V c (n + 1 - 1) (Nat.lt_of_le_of_lt (Nat.sub_le _ _) hn)).2.1 (outsAt7 V c (n + 1 - 1) (Nat.lt_of_le_of_lt (Nat.sub_le _ _) hn)).2.2,
      out_B_4 (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => hB ((hcond7_0 ⟨n + 1, hn⟩).mp h)) (iblk7 V c 0 ⟨n + 1, hn⟩) (iblk7 V c 1 ⟨n + 1, hn⟩)
        (outsAt7 V c (n + 1 - 1) (Nat.lt_of_le_of_lt (Nat.sub_le _ _) hn)).2.1 (outsAt7 V c (n + 1 - 1) (Nat.lt_of_le_of_lt (Nat.sub_le _ _) hn)).2.2,
      Finset.sum_range_succ _ (n + 1), Finset.sum_range_succ _ (n + 1)]
    exact ⟨step_sum V c (n + 1) (iblk7 V c 0 ⟨n + 1, hn⟩) (iblk7 V c 1 ⟨n + 1, hn⟩) (outsAt7 V c (n + 1 - 1) (Nat.lt_of_le_of_lt (Nat.sub_le _ _) hn)).2.1
        (iblk0_apply V c ⟨n + 1, hn⟩) (iblk1_apply V c ⟨n + 1, hn⟩) q _ ih.1,
      step_sq V c (n + 1) (iblk7 V c 0 ⟨n + 1, hn⟩) (iblk7 V c 1 ⟨n + 1, hn⟩) (outsAt7 V c (n + 1 - 1) (Nat.lt_of_le_of_lt (Nat.sub_le _ _) hn)).2.2
        (iblk0_apply V c ⟨n + 1, hn⟩) (iblk1_apply V c ⟨n + 1, hn⟩) q _ ih.2⟩

end Cert.KernelIdeal.Reduce7

end
-- ==== Proof.Reduce7Final.lean ====
import proofs.«152337_j16226386444398_1_alg».proof.Proof.Reduce7Acc

noncomputable section

open Idealize.ShloMosaic Idealize.ShloMosaic.TcCoe Idealize.SL.Sem Idealize.ShloMosaic.ValueIdx
open Idealize.ShloMosaic.Pipeline (Dat)
open scoped BigOperators

/-! # The three result arrays after the region

The row-block output is written back at every grid point, block `t` of the array by point `t`: the array ends
holding every row biased and clamped at zero. The two running rows are written back once, after the last point:
they end holding, per column, the sum (and the sum of squares) of the clamped entries over all 50000 rows — the ten
blocks' sums regrouped into one sum over the rows, by commutativity and associativity of addition alone. -/

namespace Cert.KernelIdeal.Reduce7

open Cert.KernelIdeal Cert.KernelIdeal.Gen

variable (V : (c : Dev nD) → (b : Ref sig .tc) → Buf (Elt Ideal) ((c : Thread nD τ).loc b))

/-- Ten blocks of 5000 rows are the 50000 rows: a sum over blocks of sums over a block's rows is the sum over rows. -/
theorem sum_blocks {M : Type*} [AddCommMonoid M] (f : Fin 50000 → M) :
    ∑ s ∈ Finset.range 10, ∑ r : Fin 5000, f (rowAt s r) = ∑ x : Fin 50000, f x := by
  refine (Finset.sum_range (fun s => ∑ r : Fin 5000, f (rowAt s r))).trans ?_
  refine (Fintype.sum_prod_type' (fun (s : Fin 10) (r : Fin 5000) => f (rowAt s.val r))).symm.trans ?_
  exact Fintype.sum_equiv (finProdFinEquiv : Fin 10 × Fin 5000 ≃ Fin 50000) _ _ fun p =>
    congrArg f (Fin.ext (by
      show (5000 * p.1.val + p.2.val) % 50000 = p.2.val + 5000 * p.1.val
      have h1 := p.1.isLt; have h2 := p.2.isLt; omega))

/-- The arrays the three outputs end holding. -/
def reluArr (c : Dev nD) : S50000x128.Idx → EReal := fun i => reluAt V c (i 0) (i 1)
def sumArr (c : Dev nD) : S128.Idx → EReal := fun i => ∑ r : Fin 50000, reluAt V c r (i 0)
def sqArr (c : Dev nD) : S128.Idx → EReal := fun i => ∑ r : Fin 50000, reluAt V c r (i 0) * reluAt V c r (i 0)

/-- The outputs' block index maps, decided over the ten grid points. -/
theorem idx_facts2 : ∀ t : Fin cfg7.N, win7_2.index t 0 = t.val ∧ win7_2.index t 1 = 0 :=
  (by decide +kernel : ∀ t : Fin grid7.N, win7_2.index t 0 = t.val ∧ win7_2.index t 1 = 0)
theorem idx_facts3 : ∀ t : Fin cfg7.N, win7_3.index t 0 = 0 :=
  (by decide +kernel : ∀ t : Fin grid7.N, win7_3.index t 0 = 0)
theorem idx_facts4 : ∀ t : Fin cfg7.N, win7_4.index t 0 = 0 :=
  (by decide +kernel : ∀ t : Fin grid7.N, win7_4.index t 0 = 0)

/-! ## The clamped rows -/

/-- What point `t` writes back of the row-block output is block `t` of the clamped array. -/
theorem flushed2_eq (c : Dev nD) (t : Fin cfg7.N) :
    (dat7 V c).flushed 2 t = ((cfg7.win 2).blk t).view.read (Elt Ideal) (reluArr V c) := by
  have hN : t.val < 10 := lt_of_lt_of_eq t.isLt (show cfg7.N = 10 from N_7)
  show (cfg7.win 2).cut (grid7.coords t) ((dat7 V c).after 2 t) = _
  rw [after7_2]
  funext j
  obtain ⟨r, q, rfl⟩ : ∃ (r : Fin 5000) (q : Fin 128), j = ix2 r q := ⟨j 0, j 1, eq_ix2 j⟩
  rw [View.read_apply]
  refine (relu_at V c t r q).trans ?_
  show reluArr V c (ix2 (rowAt t.val r) q) = reluArr V c _
  congr 1
  funext a
  apply Fin.ext
  match a with
  | ⟨0, _⟩ => show (5000 * t.val + r.val) % 50000 = win7_2.index t 0 * 5000 + 1 * r.val; rw [(idx_facts2 t).1]; omega
  | ⟨1, _⟩ => show q.val = win7_2.index t 1 * 128 + 1 * q.val; rw [(idx_facts2 t).2]; omega

/-- An index of the array is in point `t`'s block iff each coordinate is in the block's range on its axis. -/
theorem mem_blk2 (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v110_0).slice (win7_2.rect t)).set ↔ _
  rw [View.set_slice_whole, Rect.mem_set_unit]
  exact Iff.rfl

/-- Row `r` lies in the block of point `r / 5000`. -/
theorem cover2 (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 10 := N_7
  refine ⟨⟨(i 0).val / 5000, by rw [hN]; omega⟩, flush7_2 _, ?_⟩
  rw [mem_blk2]
  intro a
  match a with
  | ⟨0, _⟩ =>
    show win7_2.index ⟨(i 0).val / 5000, _⟩ 0 * 5000 ≤ (i 0).val ∧ (i 0).val < win7_2.index ⟨(i 0).val / 5000, _⟩ 0 * 5000 + 5000
    rw [(idx_facts2 _).1]; dsimp only; omega
  | ⟨1, _⟩ =>
    show win7_2.index ⟨(i 0).val / 5000, _⟩ 1 * 128 ≤ (i 1).val ∧ (i 1).val < win7_2.index ⟨(i 0).val / 5000, _⟩ 1 * 128 + 128
    rw [(idx_facts2 _).2]; omega

/-- The row-block output's array after the region. -/
theorem relu_arr (c : Dev nD) : (dat7 V c).arrAt 2 cfg7.N = reluArr V c :=
  (dat7 V c).arrAt_eq_of_cover 2 (reluArr V c) (fun t _ => flushed2_eq V c t) cover2

/-- Entry `(r, q)` of the row-block output's array after the region: the entry of the row array plus the bias of its
    column, clamped below at zero. -/
theorem relu_final (c : Dev nD) (r : Fin 50000) (q : Fin 128) :
    @Eq EReal ((dat7 V c).arrAt 2 cfg7.N (ix2 r q)) (max (aggOf V c (ix2 r q) + biasOf V c (ix1 q)) 0) :=
  congrFun (relu_arr V c) (ix2 r q)

/-! ## The column sums and the column sums of squares -/

/-- The ten blocks' column sums are the column sums over all rows. -/
theorem total_sum (c : Dev nD) (q : Fin 128) :
    ∑ s ∈ Finset.range (9 + 1), blockSum V c s q = sumArr V c (ix1 q) :=
  sum_blocks (fun r => reluAt V c r q)
theorem total_sq (c : Dev nD) (q : Fin 128) :
    ∑ s ∈ Finset.range (9 + 1), blockSq V c s q = sqArr V c (ix1 q) :=
  sum_blocks (fun r => reluAt V c r q * reluAt V c r q)

/-- The running rows' one block is the whole row. -/
theorem emb3 (t : Fin cfg7.N) (q : Fin 128) : ((cfg7.win 3).blk t).view.emb (ix1 q) = ix1 q := by
  funext a
  apply Fin.ext
  match a with
  | ⟨0, _⟩ => show win7_3.index t 0 * 128 + 1 * q.val = q.val; rw [idx_facts3 t]; omega
theorem emb4 (t : Fin cfg7.N) (q : Fin 128) : ((cfg7.win 4).blk t).view.emb (ix1 q) = ix1 q := by
  funext a
  apply Fin.ext
  match a with
  | ⟨0, _⟩ => show win7_4.index t 0 * 128 + 1 * q.val = q.val; rw [idx_facts4 t]; omega

/-- Reading any row through a running row's block reads the row. -/
theorem read3 (t : Fin cfg7.N) (G : S128.Idx → EReal) (q : Fin 128) :
    ((cfg7.win 3).blk t).view.read (Elt Ideal) G (ix1 q) = G (ix1 q) := by
  rw [View.read_apply, emb3]
  rfl
theorem read4 (t : Fin cfg7.N) (G : S128.Idx → EReal) (q : Fin 128) :
    ((cfg7.win 4).blk t).view.read (Elt Ideal) G (ix1 q) = G (ix1 q) := by
  rw [View.read_apply, emb4]
  rfl

/-- The one write-back of the running column sums, after the last point, writes the column sums over all rows. -/
theorem flushed3_eq (c : Dev nD) (t : Fin cfg7.N) (hf : (cfg7.win 3).flush t = true) :
    (dat7 V c).flushed 3 t = ((cfg7.win 3).blk t).view.read (Elt Ideal) (sumArr V c) := by
  have hN : cfg7.N = 10 := N_7
  have h9 : t.val = 9 := by have := (flush7_3 t).mp hf; have := t.isLt; omega
  show (cfg7.win 3).cut (grid7.coords t) ((dat7 V c).after 3 t) = _
  rw [after7_3]
  funext j
  obtain ⟨q, rfl⟩ : ∃ q : Fin 128, j = ix1 q := ⟨j 0, eq_ix1 j⟩
  refine Eq.trans ?_ (read3 t (sumArr V c) q).symm
  refine ((sums_at V c t.val t.isLt q).1).trans ?_
  rw [h9]
  exact total_sum V c q

theorem flushed4_eq (c : Dev nD) (t : Fin cfg7.N) (hf : (cfg7.win 4).flush t = true) :
    (dat7 V c).flushed 4 t = ((cfg7.win 4).blk t).view.read (Elt Ideal) (sqArr V c) := by
  have hN : cfg7.N = 10 := N_7
  have h9 : t.val = 9 := by have := (flush7_4 t).mp hf; have := t.isLt; omega
  show (cfg7.win 4).cut (grid7.coords t) ((dat7 V c).after 4 t) = _
  rw [after7_4]
  funext j
  obtain ⟨q, rfl⟩ : ∃ q : Fin 128, j = ix1 q := ⟨j 0, eq_ix1 j⟩
  refine Eq.trans ?_ (read4 t (sqArr V c) q).symm
  refine ((sums_at V c t.val t.isLt q).2).trans ?_
  rw [h9]
  exact total_sq V c q

/-- The last point's block of a running row covers the row. -/
theorem cover3 (i : S128.Idx) :
    ∃ t : Fin cfg7.N, (cfg7.win 3).flush t = true ∧ i ∈ ((cfg7.win 3).blk t).view.set := by
  have hi0 : (i 0).val < 128 := (i 0).isLt
  refine ⟨t7_9, (flush7_3 t7_9).mpr rfl, ?_⟩
  show i ∈ ((View.whole main_v110_1).slice (win7_3.rect t7_9)).set
  rw [View.set_slice_whole, Rect.mem_set_unit]
  intro a
  match a with
  | ⟨0, _⟩ =>
    show win7_3.index t7_9 0 * 128 ≤ (i 0).val ∧ (i 0).val < win7_3.index t7_9 0 * 128 + 128
    rw [idx_facts3 t7_9]; omega
theorem cover4 (i : S128.Idx) :
    ∃ t : Fin cfg7.N, (cfg7.win 4).flush t = true ∧ i ∈ ((cfg7.win 4).blk t).view.set := by
  have hi0 : (i 0).val < 128 := (i 0).isLt
  refine ⟨t7_9, (flush7_4 t7_9).mpr rfl, ?_⟩
  show i ∈ ((View.whole main_v110_2).slice (win7_4.rect t7_9)).set
  rw [View.set_slice_whole, Rect.mem_set_unit]
  intro a
  match a with
  | ⟨0, _⟩ =>
    show win7_4.index t7_9 0 * 128 ≤ (i 0).val ∧ (i 0).val < win7_4.index t7_9 0 * 128 + 128
    rw [idx_facts4 t7_9]; omega

/-- The running rows' arrays after the region. -/
theorem sum_arr (c : Dev nD) : (dat7 V c).arrAt 3 cfg7.N = sumArr V c :=
  (dat7 V c).arrAt_eq_of_cover 3 (sumArr V c) (flushed3_eq V c) cover3
theorem sq_arr (c : Dev nD) : (dat7 V c).arrAt 4 cfg7.N = sqArr V c :=
  (dat7 V c).arrAt_eq_of_cover 4 (sqArr V c) (flushed4_eq V c) cover4

/-- Column `q` of the column-sums output after the region: the sum over all rows of the clamped entries. -/
theorem sum_final (c : Dev nD) (q : Fin 128) :
    @Eq EReal ((dat7 V c).arrAt 3 cfg7.N (ix1 q))
      (∑ r : Fin 50000, max (aggOf V c (ix2 r q) + biasOf V c (ix1 q)) 0) :=
  congrFun (sum_arr V c) (ix1 q)

/-- Column `q` of the sums-of-squares output after the region. -/
theorem sq_final (c : Dev nD) (q : Fin 128) :
    @Eq EReal ((dat7 V c).arrAt 4 cfg7.N (ix1 q))
      (∑ r : Fin 50000, max (aggOf V c (ix2 r q) + biasOf V c (ix1 q)) 0 * max (aggOf V c (ix2 r q) + biasOf V c (ix1 q)) 0) :=
  congrFun (sq_arr V c) (ix1 q)

end Cert.KernelIdeal.Reduce7

end
-- ==== Proof.AffRegion8.lean ====
/-
  The affine region's array.

  The region runs the affine body at ten grid points. Point t takes rows 5000·t … 5000·t + 4999 of the values and the
  whole scale and shift vectors, and writes values · scale + shift back to the same rows of the output. The ten
  blocks cover all 50000 rows, so the output array ends holding, at (r, q), values[r, q] · scale[q] + shift[q] of the
  arrays the region found.
-/
import proofs.«152337_j16226386444398_1_alg».proof.Proof.Gen.KernelIdeal.Frame
import proofs.«152337_j16226386444398_1_alg».proof.Proof.AffBlock
import Idealize.ShloMosaic.Lib.Pipeline.Value

set_option maxRecDepth 16384

noncomputable section

namespace Cert.KernelIdeal.Aff8

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid. -/
theorem idx_facts : ∀ t : Fin cfg8.N, win8_0.index t (0 : Fin 2) = t.val ∧ win8_0.index t (1 : Fin 2) = 0
    ∧ win8_1.index t (0 : Fin 1) = 0 ∧ win8_2.index t (0 : Fin 1) = 0
    ∧ win8_3.index t (0 : Fin 2) = t.val ∧ win8_3.index t (1 : Fin 2) = 0 ∧ t.val < 10 :=
  (by decide +kernel : ∀ t : Fin grid8.N, _)

/-- The three arrays the region finds. -/
abbrev vals (c : Dev nD) : FVec Ideal ⟨2, ![50000, 128]⟩ .f32 := V c (Pipeline.arrRef spec8 0)
abbrev scale (c : Dev nD) : FVec Ideal ⟨1, ![128]⟩ .f32 := V c (Pipeline.arrRef spec8 1)
abbrev shift (c : Dev nD) : FVec Ideal ⟨1, ![128]⟩ .f32 := V c (Pipeline.arrRef spec8 2)

/-- The whole output: values · scale + shift, column by column. -/
def G (c : Dev nD) : FVec Ideal ⟨2, ![50000, 128]⟩ .f32 :=
  fun i => vals V c i * scale V c (ix1 (i 1)) + shift V c (ix1 (i 1))

theorem G_apply (c : Dev nD) (r : Fin 50000) (q : Fin 128) :
    G V c (ix2 r q) = vals V c (ix2 r q) * scale V c (ix1 q) + shift V c (ix1 q) := rfl

/-- What point t writes back is block t of the whole output. -/
theorem flushed_eq (c : Dev nD) (t : Fin cfg8.N) :
    (dat8 V c).flushed 3 t = ((cfg8.win 3).blk t).view.read (Elt Ideal) (G V c) := by
  show (cfg8.win 3).cut (grid8.coords t) ((dat8 V c).after 3 t) = _
  rw [after8_3]
  unfold out8_3
  rw [View.canon_unit_zero hz2]
  simp only [View.ld_unit_zero (S := S5000x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  have hp : t.val * 5000 + p.val < 50000 := by have := p.isLt; omega
  refine (AffBlock.pay8_apply (iblk8 V c 0 t) (iblk8 V c 1 t) (iblk8 V c 2 t) p q).trans ?_
  have h0 : ((cfg8.win 0).blk t).view.emb (ix2 p q) = ix2 ⟨t.val * 5000 + p.val, hp⟩ q := by
    funext a; apply Fin.ext
    match a with
    | ⟨0, _⟩ => show win8_0.index t (0 : Fin 2) * 5000 + 1 * p.val = t.val * 5000 + p.val; omega
    | ⟨1, _⟩ => show win8_0.index t (1 : Fin 2) * 128 + 1 * q.val = q.val; omega
  have h1 : ((cfg8.win 1).blk t).view.emb (ix1 q) = ix1 q := by
    funext a; apply Fin.ext
    match a with
    | ⟨0, _⟩ => show win8_1.index t (0 : Fin 1) * 128 + 1 * q.val = q.val; omega
  have h2 : ((cfg8.win 2).blk t).view.emb (ix1 q) = ix1 q := by
    funext a; apply Fin.ext
    match a with
    | ⟨0, _⟩ => show win8_2.index t (0 : Fin 1) * 128 + 1 * q.val = q.val; omega
  have h3 : ((cfg8.win 3).blk t).view.emb (ix2 p q) = ix2 ⟨t.val * 5000 + p.val, hp⟩ q := by
    funext a; apply Fin.ext
    match a with
    | ⟨0, _⟩ => show win8_3.index t (0 : Fin 2) * 5000 + 1 * p.val = t.val * 5000 + p.val; omega
    | ⟨1, _⟩ => show win8_3.index t (1 : Fin 2) * 128 + 1 * q.val = q.val; omega
  show vals V c (((cfg8.win 0).blk t).view.emb (ix2 p q)) * scale V c (((cfg8.win 1).blk t).view.emb (ix1 q))
      + shift V c (((cfg8.win 2).blk t).view.emb (ix1 q)) = G V c (((cfg8.win 3).blk t).view.emb (ix2 p q))
  rw [h0, h1, h2, h3, G_apply]

/-- An index of the output array is in point t's block iff each coordinate is in the block's range. -/
theorem mem_blk (t : Fin cfg8.N) (i : S50000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v123).slice (win8_3.rect t)).set ↔ _
  rw [View.set_slice_whole, Rect.mem_set_unit]
  exact Iff.rfl

/-- Every row lies in the block of the point numbered row / 5000. -/
theorem cover (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  let t : Fin cfg8.N := ⟨(i 0).val / 5000, by show (i 0).val / 5000 < 10; omega⟩
  obtain ⟨e0, e1, e2, e3, e4, e5, e6⟩ := idx_facts t
  have ht : t.val = (i 0).val / 5000 := rfl
  refine ⟨t, flush8_3 t, ?_⟩
  rw [mem_blk]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 128 ≤ (i 1).val ∧ (i 1).val < win8_3.index t (1 : Fin 2) * 128 + 128; omega

/-- The output array after the region. -/
theorem final (c : Dev nD) : (dat8 V c).arrAt 3 cfg8.N = G V c :=
  (dat8 V c).arrAt_eq_of_cover 3 (G V c) (fun t _ => flushed_eq V c t) (cover)

end Cert.KernelIdeal.Aff8

end
-- ==== Proof.Layer3.lean ====
/-
  Layer 3 of the kernel, boundary by boundary.

  The layer is entered with its input array X, its transposed weight matrix WT, the edge normalisation, the sources
  and destinations, and its bias, gain and offset vectors in known buffers. The matmul region leaves X · WT; the host
  gathers, scales and adds up its rows by destination; the reducing region leaves max(agg + b, 0) with its column
  sums and column sums of squares; the host forms scale and shift from the two totals; the affine region leaves
  values · scale + shift. With every aggregated entry, bias, gain and offset a real number this is the reference's batch
  normalisation of the rectified aggregate.
-/
import proofs.«152337_j16226386444398_1_alg».proof.Proof.Gen.KernelIdeal.Frame
import proofs.«152337_j16226386444398_1_alg».proof.Proof.MatRegion6
import proofs.«152337_j16226386444398_1_alg».proof.Proof.Reduce7Final
import proofs.«152337_j16226386444398_1_alg».proof.Proof.AffRegion8
import proofs.«152337_j16226386444398_1_alg».proof.Proof.KHost
import proofs.«152337_j16226386444398_1_alg».proof.Proof.KStats
import proofs.«152337_j16226386444398_1_alg».proof.Proof.LayerBridge

set_option maxRecDepth 16384
set_option maxHeartbeats 1000000

noncomputable section

namespace Cert.KernelIdeal.Layer3

open Cert.KernelIdeal Cert.KernelIdeal.Gen
open Idealize.ShloMosaic Idealize.ShloMosaic.TcCoe Idealize.ShloMosaic.ValueIdx Idealize.SL.Sem Idealize.ShloMosaic.StableHlo
open Cert.LibRealSum

variable (m : (ℓ : Loc nD τ sig) → Buf (Elt Ideal) ℓ) (ρ : Dev nD → PrngReg) (c : Dev nD)

/-- From the layer's entry to its exit: the output buffer holds the batch normalisation of the rectified aggregate. -/
theorem out_eq (X : FVec Ideal S50000x128 .f32) (WT : FVec Ideal S128x128 .f32) (NORM : (⟨S550000, .f32⟩ : BufTy).Contents (Elt Ideal)) (SRC DST : (⟨S550000, .i32⟩ : BufTy).Contents (Elt Ideal)) (Bv G BE : FVec Ideal S128 .f32)
    (hin : @Eq (FVec Ideal S50000x128 .f32) (W17 m ρ c (Proc.devRef .tc main_v94)) X) (hwt : @Eq (FVec Ideal S128x128 .f32) (W17 m ρ c (Proc.devRef .tc main_v95)) WT)
    (hnorm : @Eq ((⟨S550000, .f32⟩ : BufTy).Contents (Elt Ideal)) (W17 m ρ c (Proc.devRef .tc main_v36)) NORM) (hsrc : @Eq ((⟨S550000, .i32⟩ : BufTy).Contents (Elt Ideal)) (W17 m ρ c (Proc.devRef .tc main_v5)) SRC) (hdst : @Eq ((⟨S550000, .i32⟩ : BufTy).Contents (Elt Ideal)) (W17 m ρ c (Proc.devRef .tc main_v6)) DST)
    (hb : @Eq (FVec Ideal S128 .f32) (W17 m ρ c (Proc.devRef .tc main_arg12)) Bv) (hg : @Eq (FVec Ideal S128 .f32) (W17 m ρ c (Proc.devRef .tc main_arg13)) G) (hbe : @Eq (FVec Ideal S128 .f32) (W17 m ρ c (Proc.devRef .tc main_arg14)) BE)
    (hagg : ∀ i, IsReal ((Cert.ReferenceIdeal.RefSpec.aggOf (F := Ideal) (MatBlock.prod X WT) NORM SRC DST) i)) (hBv : ∀ i, IsReal (Bv i)) (hG : ∀ i, IsReal (G i)) (hBE : ∀ i, IsReal (BE i)) :
    @Eq (FVec Ideal S50000x128 .f32) (W22 m ρ c (Proc.devRef .tc main_v123)) (Cert.ReferenceIdeal.RefSpec.bnOf (F := Ideal) (Cert.ReferenceIdeal.RefSpec.reluOf (F := Ideal) (Cert.ReferenceIdeal.RefSpec.aggOf (F := Ideal) (MatBlock.prod X WT) NORM SRC DST) Bv) G BE) := by
  -- the matmul region: the product, everything else kept
  have h1 : @Eq (FVec Ideal S50000x128 .f32) (W18 m ρ c (Proc.devRef .tc main_v96)) (MatBlock.prod X WT) := by
    refine (show @Eq (FVec Ideal S50000x128 .f32) (W18 m ρ c (Proc.devRef .tc main_v96)) ((dat6 (V17 m ρ) c).arrAt 2 cfg6.N) from W18_arr m ρ c 2).trans ?_
    rw [Mat6.final]
    show MatBlock.prod (W17 m ρ c (Proc.devRef .tc main_v94)) (W17 m ρ c (Proc.devRef .tc main_v95)) = _
    rw [hin, hwt]
  have n1 : @Eq ((⟨S550000, .f32⟩ : BufTy).Contents (Elt Ideal)) (W18 m ρ c (Proc.devRef .tc main_v36)) NORM := (W18_of_ne m ρ c main_v36 (by decide)).trans hnorm
  have s1 : @Eq ((⟨S550000, .i32⟩ : BufTy).Contents (Elt Ideal)) (W18 m ρ c (Proc.devRef .tc main_v5)) SRC := (W18_of_ne m ρ c main_v5 (by decide)).trans hsrc
  have d1 : @Eq ((⟨S550000, .i32⟩ : BufTy).Contents (Elt Ideal)) (W18 m ρ c (Proc.devRef .tc main_v6)) DST := (W18_of_ne m ρ c main_v6 (by decide)).trans hdst
  have b1 : @Eq (FVec Ideal S128 .f32) (W18 m ρ c (Proc.devRef .tc main_arg12)) Bv := (W18_of_ne m ρ c main_arg12 (by decide)).trans hb
  have g1 : @Eq (FVec Ideal S128 .f32) (W18 m ρ c (Proc.devRef .tc main_arg13)) G := (W18_of_ne m ρ c main_arg13 (by decide)).trans hg
  have e1 : @Eq (FVec Ideal S128 .f32) (W18 m ρ c (Proc.devRef .tc main_arg14)) BE := (W18_of_ne m ρ c main_arg14 (by decide)).trans hbe
  -- the gather, scale and scatter-add
  have h2 : @Eq (FVec Ideal S50000x128 .f32) (W19 m ρ c (Proc.devRef .tc main_v109)) (Cert.ReferenceIdeal.RefSpec.aggOf (F := Ideal) (MatBlock.prod X WT) NORM SRC DST) := by
    refine (KHost.agg3_eq (W18 m ρ c)).trans ?_
    rw [h1, n1, s1, d1]
  have b2 : @Eq (FVec Ideal S128 .f32) (W19 m ρ c (Proc.devRef .tc main_arg12)) Bv :=
    (show W19 m ρ c (Proc.devRef .tc main_arg12) = W18 m ρ c (Proc.devRef .tc main_arg12) from by show after hostOps7 (W18 m ρ c) _ = _; after_results_simp).trans b1
  have g2 : @Eq (FVec Ideal S128 .f32) (W19 m ρ c (Proc.devRef .tc main_arg13)) G :=
    (show W19 m ρ c (Proc.devRef .tc main_arg13) = W18 m ρ c (Proc.devRef .tc main_arg13) from by show after hostOps7 (W18 m ρ c) _ = _; after_results_simp).trans g1
  have e2 : @Eq (FVec Ideal S128 .f32) (W19 m ρ c (Proc.devRef .tc main_arg14)) BE :=
    (show W19 m ρ c (Proc.devRef .tc main_arg14) = W18 m ρ c (Proc.devRef .tc main_arg14) from by show after hostOps7 (W18 m ρ c) _ = _; after_results_simp).trans e1
  -- the reducing region: the rectified values, their column sums, the column sums of their squares
  have v3 : ∀ (r : Fin 50000) (q : Fin 128), @Eq EReal ((W20 m ρ c (Proc.devRef .tc main_v110_0) : FVec Ideal S50000x128 .f32) (ix2 r q)) (max ((Cert.ReferenceIdeal.RefSpec.aggOf (F := Ideal) (MatBlock.prod X WT) NORM SRC DST) (ix2 r q) + Bv (ix1 q)) 0) := by
    intro r q
    have hA : @Eq (S50000x128.Idx → EReal) (Reduce7.aggOf (V19 m ρ) c) (Cert.ReferenceIdeal.RefSpec.aggOf (F := Ideal) (MatBlock.prod X WT) NORM SRC DST) := h2
    have hB : @Eq (S128.Idx → EReal) (Reduce7.biasOf (V19 m ρ) c) Bv := b2
    have hr := Reduce7.relu_final (V19 m ρ) c r q
    rw [hA, hB] at hr
    exact (congrFun (show @Eq (FVec Ideal S50000x128 .f32) (W20 m ρ c (Proc.devRef .tc main_v110_0)) ((dat7 (V19 m ρ) c).arrAt 2 cfg7.N) from W20_arr m ρ c 2) (ix2 r q)).trans hr
  have s3 : ∀ q : Fin 128, @Eq EReal ((W20 m ρ c (Proc.devRef .tc main_v110_1) : FVec Ideal S128 .f32) (ix1 q)) (∑ r : Fin 50000, max ((Cert.ReferenceIdeal.RefSpec.aggOf (F := Ideal) (MatBlock.prod X WT) NORM SRC DST) (ix2 r q) + Bv (ix1 q)) 0) := by
    intro q
    have hA : @Eq (S50000x128.Idx → EReal) (Reduce7.aggOf (V19 m ρ) c) (Cert.ReferenceIdeal.RefSpec.aggOf (F := Ideal) (MatBlock.prod X WT) NORM SRC DST) := h2
    have hB : @Eq (S128.Idx → EReal) (Reduce7.biasOf (V19 m ρ) c) Bv := b2
    have hr := Reduce7.sum_final (V19 m ρ) c q
    rw [hA, hB] at hr
    exact (congrFun (show @Eq (FVec Ideal S128 .f32) (W20 m ρ c (Proc.devRef .tc main_v110_1)) ((dat7 (V19 m ρ) c).arrAt 3 cfg7.N) from W20_arr m ρ c 3) (ix1 q)).trans hr
  have q3 : ∀ q : Fin 128, @Eq EReal ((W20 m ρ c (Proc.devRef .tc main_v110_2) : FVec Ideal S128 .f32) (ix1 q))
      (∑ r : Fin 50000, max ((Cert.ReferenceIdeal.RefSpec.aggOf (F := Ideal) (MatBlock.prod X WT) NORM SRC DST) (ix2 r q) + Bv (ix1 q)) 0 * max ((Cert.ReferenceIdeal.RefSpec.aggOf (F := Ideal) (MatBlock.prod X WT) NORM SRC DST) (ix2 r q) + Bv (ix1 q)) 0) := by
    intro q
    have hA : @Eq (S50000x128.Idx → EReal) (Reduce7.aggOf (V19 m ρ) c) (Cert.ReferenceIdeal.RefSpec.aggOf (F := Ideal) (MatBlock.prod X WT) NORM SRC DST) := h2
    have hB : @Eq (S128.Idx → EReal) (Reduce7.biasOf (V19 m ρ) c) Bv := b2
    have hr := Reduce7.sq_final (V19 m ρ) c q
    rw [hA, hB] at hr
    exact (congrFun (show @Eq (FVec Ideal S128 .f32) (W20 m ρ c (Proc.devRef .tc main_v110_2)) ((dat7 (V19 m ρ) c).arrAt 4 cfg7.N) from W20_arr m ρ c 4) (ix1 q)).trans hr
  have g3 : @Eq (FVec Ideal S128 .f32) (W20 m ρ c (Proc.devRef .tc main_arg13)) G := (W20_of_ne m ρ c main_arg13 (by decide)).trans g2
  have e3 : @Eq (FVec Ideal S128 .f32) (W20 m ρ c (Proc.devRef .tc main_arg14)) BE := (W20_of_ne m ρ c main_arg14 (by decide)).trans e2
  -- the statistics stretch: scale and shift; the values kept
  have c4 : @Eq (FVec Ideal S128 .f32) (W21 m ρ c (Proc.devRef .tc main_v120)) (KStats.kScale (W20 m ρ c (Proc.devRef .tc main_v110_1)) (W20 m ρ c (Proc.devRef .tc main_v110_2)) G) := by
    refine (KStats.scale3_eq (W20 m ρ c)).trans ?_
    rw [g3]
  have f4 : @Eq (FVec Ideal S128 .f32) (W21 m ρ c (Proc.devRef .tc main_v122)) (KStats.kShift (W20 m ρ c (Proc.devRef .tc main_v110_1)) (W20 m ρ c (Proc.devRef .tc main_v110_2)) G BE) := by
    refine (KStats.shift3_eq (W20 m ρ c)).trans ?_
    rw [g3, e3]
  have v4 : @Eq (FVec Ideal S50000x128 .f32) (W21 m ρ c (Proc.devRef .tc main_v110_0)) (W20 m ρ c (Proc.devRef .tc main_v110_0)) := KStats.vals3_keep (W20 m ρ c)
  -- the affine region
  refine (show @Eq (FVec Ideal S50000x128 .f32) (W22 m ρ c (Proc.devRef .tc main_v123)) ((dat8 (V21 m ρ) c).arrAt 3 cfg8.N) from W22_arr m ρ c 3).trans ?_
  rw [Aff8.final]
  funext i
  obtain ⟨r, q, rfl⟩ : ∃ (r : Fin 50000) (q : Fin 128), i = ix2 r q := ⟨i 0, i 1, eq_ix2 i⟩
  rw [Aff8.G_apply]
  have hv : @Eq (FVec Ideal S50000x128 .f32) (Aff8.vals (V21 m ρ) c) (W20 m ρ c (Proc.devRef .tc main_v110_0)) := v4
  have hc : @Eq (FVec Ideal S128 .f32) (Aff8.scale (V21 m ρ) c) (KStats.kScale (W20 m ρ c (Proc.devRef .tc main_v110_1)) (W20 m ρ c (Proc.devRef .tc main_v110_2)) G) := c4
  have hf : @Eq (FVec Ideal S128 .f32) (Aff8.shift (V21 m ρ) c) (KStats.kShift (W20 m ρ c (Proc.devRef .tc main_v110_1)) (W20 m ρ c (Proc.devRef .tc main_v110_2)) G BE) := f4
  rw [hv, hc, hf]
  exact Cert.LayerBridge.affine_eq_bn (Cert.ReferenceIdeal.RefSpec.aggOf (F := Ideal) (MatBlock.prod X WT) NORM SRC DST) Bv G BE hagg hBv hG hBE (W20 m ρ c (Proc.devRef .tc main_v110_0)) (W20 m ρ c (Proc.devRef .tc main_v110_1)) (W20 m ρ c (Proc.devRef .tc main_v110_2)) v3 s3 q3 r q

end Cert.KernelIdeal.Layer3

end
-- ==== Proof.KeepA.lean ====
/-
  Buffers that a stretch of the run leaves alone. A kernel region writes only its own output arrays, and a stretch of host
  operations writes only its own results; so the edge normalisation, the sources, the destinations and the later layers'
  parameter arrays hold, at a later boundary, what they held at an earlier one.
-/
import proofs.«152337_j16226386444398_1_alg».proof.Proof.Gen.KernelIdeal.Frame
import Idealize.ShloMosaic.Lib.StableHlo.Run
import Idealize.ShloMosaic.PureOps.Ideal

set_option maxRecDepth 16384
set_option maxHeartbeats 1000000

noncomputable section

namespace Cert.KernelIdeal.KeepA

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem v36_5_11 : @Eq (FVec Ideal S550000 .f32) (W11 m ρ c (Proc.devRef .tc main_v36)) (W5 m ρ c (Proc.devRef .tc main_v36)) :=
  ((show @Eq (FVec Ideal S550000 .f32) (W11 m ρ c (Proc.devRef .tc main_v36)) (W10 m ρ c (Proc.devRef .tc main_v36)) from by show after hostOps3 (W10 m ρ c) _ = _; after_results_simp)).trans (((W10_of_ne m ρ c main_v36 (by decide))).trans (((show @Eq (FVec Ideal S550000 .f32) (W9 m ρ c (Proc.devRef .tc main_v36)) (W8 m ρ c (Proc.devRef .tc main_v36)) from by show after hostOps2 (W8 m ρ c) _ = _; after_results_simp)).trans (((W8_of_ne m ρ c main_v36 (by decide))).trans (((show @Eq (FVec Ideal S550000 .f32) (W7 m ρ c (Proc.devRef .tc main_v36)) (W6 m ρ c (Proc.devRef .tc main_v36)) from by show after hostOps1 (W6 m ρ c) _ = _; after_results_simp)).trans ((W6_of_ne m ρ c main_v36 (by decide)))))))
theorem v36_11_17 : @Eq (FVec Ideal S550000 .f32) (W17 m ρ c (Proc.devRef .tc main_v36)) (W11 m ρ c (Proc.devRef .tc main_v36)) :=
  ((show @Eq (FVec Ideal S550000 .f32) (W17 m ρ c (Proc.devRef .tc main_v36)) (W16 m ρ c (Proc.devRef .tc main_v36)) from by show after hostOps6 (W16 m ρ c) _ = _; after_results_simp)).trans (((W16_of_ne m ρ c main_v36 (by decide))).trans (((show @Eq (FVec Ideal S550000 .f32) (W15 m ρ c (Proc.devRef .tc main_v36)) (W14 m ρ c (Proc.devRef .tc main_v36)) from by show after hostOps5 (W14 m ρ c) _ = _; after_results_simp)).trans (((W14_of_ne m ρ c main_v36 (by decide))).trans (((show @Eq (FVec Ideal S550000 .f32) (W13 m ρ c (Proc.devRef .tc main_v36)) (W12 m ρ c (Proc.devRef .tc main_v36)) from by show after hostOps4 (W12 m ρ c) _ = _; after_results_simp)).trans ((W12_of_ne m ρ c main_v36 (by decide)))))))
theorem v5_5_11 : @Eq (IVec S550000 32) (W11 m ρ c (Proc.devRef .tc main_v5)) (W5 m ρ c (Proc.devRef .tc main_v5)) :=
  ((show @Eq (IVec S550000 32) (W11 m ρ c (Proc.devRef .tc main_v5)) (W10 m ρ c (Proc.devRef .tc main_v5)) from by show after hostOps3 (W10 m ρ c) _ = _; after_results_simp)).trans (((W10_of_ne m ρ c main_v5 (by decide))).trans (((show @Eq (IVec S550000 32) (W9 m ρ c (Proc.devRef .tc main_v5)) (W8 m ρ c (Proc.devRef .tc main_v5)) from by show after hostOps2 (W8 m ρ c) _ = _; after_results_simp)).trans (((W8_of_ne m ρ c main_v5 (by decide))).trans (((show @Eq (IVec S550000 32) (W7 m ρ c (Proc.devRef .tc main_v5)) (W6 m ρ c (Proc.devRef .tc main_v5)) from by show after hostOps1 (W6 m ρ c) _ = _; after_results_simp)).trans ((W6_of_ne m ρ c main_v5 (by decide)))))))
theorem v5_11_17 : @Eq (IVec S550000 32) (W17 m ρ c (Proc.devRef .tc main_v5)) (W11 m ρ c (Proc.devRef .tc main_v5)) :=
  ((show @Eq (IVec S550000 32) (W17 m ρ c (Proc.devRef .tc main_v5)) (W16 m ρ c (Proc.devRef .tc main_v5)) from by show after hostOps6 (W16 m ρ c) _ = _; after_results_simp)).trans (((W16_of_ne m ρ c main_v5 (by decide))).trans (((show @Eq (IVec S550000 32) (W15 m ρ c (Proc.devRef .tc main_v5)) (W14 m ρ c (Proc.devRef .tc main_v5)) from by show after hostOps5 (W14 m ρ c) _ = _; after_results_simp)).trans (((W14_of_ne m ρ c main_v5 (by decide))).trans (((show @Eq (IVec S550000 32) (W13 m ρ c (Proc.devRef .tc main_v5)) (W12 m ρ c (Proc.devRef .tc main_v5)) from by show after hostOps4 (W12 m ρ c) _ = _; after_results_simp)).trans ((W12_of_ne m ρ c main_v5 (by decide)))))))
theorem v6_5_11 : @Eq (IVec S550000 32) (W11 m ρ c (Proc.devRef .tc main_v6)) (W5 m ρ c (Proc.devRef .tc main_v6)) :=
  ((show @Eq (IVec S550000 32) (W11 m ρ c (Proc.devRef .tc main_v6)) (W10 m ρ c (Proc.devRef .tc main_v6)) from by show after hostOps3 (W10 m ρ c) _ = _; after_results_simp)).trans (((W10_of_ne m ρ c main_v6 (by decide))).trans (((show @Eq (IVec S550000 32) (W9 m ρ c (Proc.devRef .tc main_v6)) (W8 m ρ c (Proc.devRef .tc main_v6)) from by show after hostOps2 (W8 m ρ c) _ = _; after_results_simp)).trans (((W8_of_ne m ρ c main_v6 (by decide))).trans (((show @Eq (IVec S550000 32) (W7 m ρ c (Proc.devRef .tc main_v6)) (W6 m ρ c (Proc.devRef .tc main_v6)) from by show after hostOps1 (W6 m ρ c) _ = _; after_results_simp)).trans ((W6_of_ne m ρ c main_v6 (by decide)))))))
theorem v6_11_17 : @Eq (IVec S550000 32) (W17 m ρ c (Proc.devRef .tc main_v6)) (W11 m ρ c (Proc.devRef .tc main_v6)) :=
  ((show @Eq (IVec S550000 32) (W17 m ρ c (Proc.devRef .tc main_v6)) (W16 m ρ c (Proc.devRef .tc main_v6)) from by show after hostOps6 (W16 m ρ c) _ = _; after_results_simp)).trans (((W16_of_ne m ρ c main_v6 (by decide))).trans (((show @Eq (IVec S550000 32) (W15 m ρ c (Proc.devRef .tc main_v6)) (W14 m ρ c (Proc.devRef .tc main_v6)) from by show after hostOps5 (W14 m ρ c) _ = _; after_results_simp)).trans (((W14_of_ne m ρ c main_v6 (by decide))).trans (((show @Eq (IVec S550000 32) (W13 m ρ c (Proc.devRef .tc main_v6)) (W12 m ρ c (Proc.devRef .tc main_v6)) from by show after hostOps4 (W12 m ρ c) _ = _; after_results_simp)).trans ((W12_of_ne m ρ c main_v6 (by decide)))))))

end Cert.KernelIdeal.KeepA

end
-- ==== Proof.KeepB.lean ====
/-
  Buffers that a stretch of the run leaves alone. A kernel region writes only its own output arrays, and a stretch of host
  operations writes only its own results; so the edge normalisation, the sources, the destinations and the later layers'
  parameter arrays hold, at a later boundary, what they held at an earlier one.
-/
import proofs.«152337_j16226386444398_1_alg».proof.Proof.Gen.KernelIdeal.Frame
import Idealize.ShloMosaic.Lib.StableHlo.Run
import Idealize.ShloMosaic.PureOps.Ideal

set_option maxRecDepth 16384
set_option maxHeartbeats 1000000

noncomputable section

namespace Cert.KernelIdeal.KeepB

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem arg7_5_10 : @Eq (FVec Ideal S128x128 .f32) (W10 m ρ c (Proc.devRef .tc main_arg7)) (W5 m ρ c (Proc.devRef .tc main_arg7)) :=
  ((W10_of_ne m ρ c main_arg7 (by decide))).trans (((show @Eq (FVec Ideal S128x128 .f32) (W9 m ρ c (Proc.devRef .tc main_arg7)) (W8 m ρ c (Proc.devRef .tc main_arg7)) from by show after hostOps2 (W8 m ρ c) _ = _; after_results_simp)).trans (((W8_of_ne m ρ c main_arg7 (by decide))).trans (((show @Eq (FVec Ideal S128x128 .f32) (W7 m ρ c (Proc.devRef .tc main_arg7)) (W6 m ρ c (Proc.devRef .tc main_arg7)) from by show after hostOps1 (W6 m ρ c) _ = _; after_results_simp)).trans ((W6_of_ne m ρ c main_arg7 (by decide))))))
theorem arg8_5_11 : @Eq (FVec Ideal S128 .f32) (W11 m ρ c (Proc.devRef .tc main_arg8)) (W5 m ρ c (Proc.devRef .tc main_arg8)) :=
  ((show @Eq (FVec Ideal S128 .f32) (W11 m ρ c (Proc.devRef .tc main_arg8)) (W10 m ρ c (Proc.devRef .tc main_arg8)) from by show after hostOps3 (W10 m ρ c) _ = _; after_results_simp)).trans (((W10_of_ne m ρ c main_arg8 (by decide))).trans (((show @Eq (FVec Ideal S128 .f32) (W9 m ρ c (Proc.devRef .tc main_arg8)) (W8 m ρ c (Proc.devRef .tc main_arg8)) from by show after hostOps2 (W8 m ρ c) _ = _; after_results_simp)).trans (((W8_of_ne m ρ c main_arg8 (by decide))).trans (((show @Eq (FVec Ideal S128 .f32) (W7 m ρ c (Proc.devRef .tc main_arg8)) (W6 m ρ c (Proc.devRef .tc main_arg8)) from by show after hostOps1 (W6 m ρ c) _ = _; after_results_simp)).trans ((W6_of_ne m ρ c main_arg8 (by decide)))))))
theorem arg9_5_11 : @Eq (FVec Ideal S128 .f32) (W11 m ρ c (Proc.devRef .tc main_arg9)) (W5 m ρ c (Proc.devRef .tc main_arg9)) :=
  ((show @Eq (FVec Ideal S128 .f32) (W11 m ρ c (Proc.devRef .tc main_arg9)) (W10 m ρ c (Proc.devRef .tc main_arg9)) from by show after hostOps3 (W10 m ρ c) _ = _; after_results_simp)).trans (((W10_of_ne m ρ c main_arg9 (by decide))).trans (((show @Eq (FVec Ideal S128 .f32) (W9 m ρ c (Proc.devRef .tc main_arg9)) (W8 m ρ c (Proc.devRef .tc main_arg9)) from by show after hostOps2 (W8 m ρ c) _ = _; after_results_simp)).trans (((W8_of_ne m ρ c main_arg9 (by decide))).trans (((show @Eq (FVec Ideal S128 .f32) (W7 m ρ c (Proc.devRef .tc main_arg9)) (W6 m ρ c (Proc.devRef .tc main_arg9)) from by show after hostOps1 (W6 m ρ c) _ = _; after_results_simp)).trans ((W6_of_ne m ρ c main_arg9 (by decide)))))))
theorem arg10_5_11 : @Eq (FVec Ideal S128 .f32) (W11 m ρ c (Proc.devRef .tc main_arg10)) (W5 m ρ c (Proc.devRef .tc main_arg10)) :=
  ((show @Eq (FVec Ideal S128 .f32) (W11 m ρ c (Proc.devRef .tc main_arg10)) (W10 m ρ c (Proc.devRef .tc main_arg10)) from by show after hostOps3 (W10 m ρ c) _ = _; after_results_simp)).trans (((W10_of_ne m ρ c main_arg10 (by decide))).trans (((show @Eq (FVec Ideal S128 .f32) (W9 m ρ c (Proc.devRef .tc main_arg10)) (W8 m ρ c (Proc.devRef .tc main_arg10)) from by show after hostOps2 (W8 m ρ c) _ = _; after_results_simp)).trans (((W8_of_ne m ρ c main_arg10 (by decide))).trans (((show @Eq (FVec Ideal S128 .f32) (W7 m ρ c (Proc.devRef .tc main_arg10)) (W6 m ρ c (Proc.devRef .tc main_arg10)) from by show after hostOps1 (W6 m ρ c) _ = _; after_results_simp)).trans ((W6_of_ne m ρ c main_arg10 (by decide)))))))

end Cert.KernelIdeal.KeepB

end
-- ==== Proof.KeepC.lean ====
/-
  Buffers that a stretch of the run leaves alone. A kernel region writes only its own output arrays, and a stretch of host
  operations writes only its own results; so the edge normalisation, the sources, the destinations and the later layers'
  parameter arrays hold, at a later boundary, what they held at an earlier one.
-/
import proofs.«152337_j16226386444398_1_alg».proof.Proof.Gen.KernelIdeal.Frame
import Idealize.ShloMosaic.Lib.StableHlo.Run
import Idealize.ShloMosaic.PureOps.Ideal

set_option maxRecDepth 16384
set_option maxHeartbeats 1000000

noncomputable section

namespace Cert.KernelIdeal.KeepC

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem arg11_5_16 : @Eq (FVec Ideal S128x128 .f32) (W16 m ρ c (Proc.devRef .tc main_arg11)) (W5 m ρ c (Proc.devRef .tc main_arg11)) :=
  ((W16_of_ne m ρ c main_arg11 (by decide))).trans (((show @Eq (FVec Ideal S128x128 .f32) (W15 m ρ c (Proc.devRef .tc main_arg11)) (W14 m ρ c (Proc.devRef .tc main_arg11)) from by show after hostOps5 (W14 m ρ c) _ = _; after_results_simp)).trans (((W14_of_ne m ρ c main_arg11 (by decide))).trans (((show @Eq (FVec Ideal S128x128 .f32) (W13 m ρ c (Proc.devRef .tc main_arg11)) (W12 m ρ c (Proc.devRef .tc main_arg11)) from by show after hostOps4 (W12 m ρ c) _ = _; after_results_simp)).trans (((W12_of_ne m ρ c main_arg11 (by decide))).trans (((show @Eq (FVec Ideal S128x128 .f32) (W11 m ρ c (Proc.devRef .tc main_arg11)) (W10 m ρ c (Proc.devRef .tc main_arg11)) from by show after hostOps3 (W10 m ρ c) _ = _; after_results_simp)).trans (((W10_of_ne m ρ c main_arg11 (by decide))).trans (((show @Eq (FVec Ideal S128x128 .f32) (W9 m ρ c (Proc.devRef .tc main_arg11)) (W8 m ρ c (Proc.devRef .tc main_arg11)) from by show after hostOps2 (W8 m ρ c) _ = _; after_results_simp)).trans (((W8_of_ne m ρ c main_arg11 (by decide))).trans (((show @Eq (FVec Ideal S128x128 .f32) (W7 m ρ c (Proc.devRef .tc main_arg11)) (W6 m ρ c (Proc.devRef .tc main_arg11)) from by show after hostOps1 (W6 m ρ c) _ = _; after_results_simp)).trans ((W6_of_ne m ρ c main_arg11 (by decide))))))))))))
theorem arg12_5_17 : @Eq (FVec Ideal S128 .f32) (W17 m ρ c (Proc.devRef .tc main_arg12)) (W5 m ρ c (Proc.devRef .tc main_arg12)) :=
  ((show @Eq (FVec Ideal S128 .f32) (W17 m ρ c (Proc.devRef .tc main_arg12)) (W16 m ρ c (Proc.devRef .tc main_arg12)) from by show after hostOps6 (W16 m ρ c) _ = _; after_results_simp)).trans (((W16_of_ne m ρ c main_arg12 (by decide))).trans (((show @Eq (FVec Ideal S128 .f32) (W15 m ρ c (Proc.devRef .tc main_arg12)) (W14 m ρ c (Proc.devRef .tc main_arg12)) from by show after hostOps5 (W14 m ρ c) _ = _; after_results_simp)).trans (((W14_of_ne m ρ c main_arg12 (by decide))).trans (((show @Eq (FVec Ideal S128 .f32) (W13 m ρ c (Proc.devRef .tc main_arg12)) (W12 m ρ c (Proc.devRef .tc main_arg12)) from by show after hostOps4 (W12 m ρ c) _ = _; after_results_simp)).trans (((W12_of_ne m ρ c main_arg12 (by decide))).trans (((show @Eq (FVec Ideal S128 .f32) (W11 m ρ c (Proc.devRef .tc main_arg12)) (W10 m ρ c (Proc.devRef .tc main_arg12)) from by show after hostOps3 (W10 m ρ c) _ = _; after_results_simp)).trans (((W10_of_ne m ρ c main_arg12 (by decide))).trans (((show @Eq (FVec Ideal S128 .f32) (W9 m ρ c (Proc.devRef .tc main_arg12)) (W8 m ρ c (Proc.devRef .tc main_arg12)) from by show after hostOps2 (W8 m ρ c) _ = _; after_results_simp)).trans (((W8_of_ne m ρ c main_arg12 (by decide))).trans (((show @Eq (FVec Ideal S128 .f32) (W7 m ρ c (Proc.devRef .tc main_arg12)) (W6 m ρ c (Proc.devRef .tc main_arg12)) from by show after hostOps1 (W6 m ρ c) _ = _; after_results_simp)).trans ((W6_of_ne m ρ c main_arg12 (by decide)))))))))))))
theorem arg13_5_17 : @Eq (FVec Ideal S128 .f32) (W17 m ρ c (Proc.devRef .tc main_arg13)) (W5 m ρ c (Proc.devRef .tc main_arg13)) :=
  ((show @Eq (FVec Ideal S128 .f32) (W17 m ρ c (Proc.devRef .tc main_arg13)) (W16 m ρ c (Proc.devRef .tc main_arg13)) from by show after hostOps6 (W16 m ρ c) _ = _; after_results_simp)).trans (((W16_of_ne m ρ c main_arg13 (by decide))).trans (((show @Eq (FVec Ideal S128 .f32) (W15 m ρ c (Proc.devRef .tc main_arg13)) (W14 m ρ c (Proc.devRef .tc main_arg13)) from by show after hostOps5 (W14 m ρ c) _ = _; after_results_simp)).trans (((W14_of_ne m ρ c main_arg13 (by decide))).trans (((show @Eq (FVec Ideal S128 .f32) (W13 m ρ c (Proc.devRef .tc main_arg13)) (W12 m ρ c (Proc.devRef .tc main_arg13)) from by show after hostOps4 (W12 m ρ c) _ = _; after_results_simp)).trans (((W12_of_ne m ρ c main_arg13 (by decide))).trans (((show @Eq (FVec Ideal S128 .f32) (W11 m ρ c (Proc.devRef .tc main_arg13)) (W10 m ρ c (Proc.devRef .tc main_arg13)) from by show after hostOps3 (W10 m ρ c) _ = _; after_results_simp)).trans (((W10_of_ne m ρ c main_arg13 (by decide))).trans (((show @Eq (FVec Ideal S128 .f32) (W9 m ρ c (Proc.devRef .tc main_arg13)) (W8 m ρ c (Proc.devRef .tc main_arg13)) from by show after hostOps2 (W8 m ρ c) _ = _; after_results_simp)).trans (((W8_of_ne m ρ c main_arg13 (by decide))).trans (((show @Eq (FVec Ideal S128 .f32) (W7 m ρ c (Proc.devRef .tc main_arg13)) (W6 m ρ c (Proc.devRef .tc main_arg13)) from by show after hostOps1 (W6 m ρ c) _ = _; after_results_simp)).trans ((W6_of_ne m ρ c main_arg13 (by decide)))))))))))))
theorem arg14_5_17 : @Eq (FVec Ideal S128 .f32) (W17 m ρ c (Proc.devRef .tc main_arg14)) (W5 m ρ c (Proc.devRef .tc main_arg14)) :=
  ((show @Eq (FVec Ideal S128 .f32) (W17 m ρ c (Proc.devRef .tc main_arg14)) (W16 m ρ c (Proc.devRef .tc main_arg14)) from by show after hostOps6 (W16 m ρ c) _ = _; after_results_simp)).trans (((W16_of_ne m ρ c main_arg14 (by decide))).trans (((show @Eq (FVec Ideal S128 .f32) (W15 m ρ c (Proc.devRef .tc main_arg14)) (W14 m ρ c (Proc.devRef .tc main_arg14)) from by show after hostOps5 (W14 m ρ c) _ = _; after_results_simp)).trans (((W14_of_ne m ρ c main_arg14 (by decide))).trans (((show @Eq (FVec Ideal S128 .f32) (W13 m ρ c (Proc.devRef .tc main_arg14)) (W12 m ρ c (Proc.devRef .tc main_arg14)) from by show after hostOps4 (W12 m ρ c) _ = _; after_results_simp)).trans (((W12_of_ne m ρ c main_arg14 (by decide))).trans (((show @Eq (FVec Ideal S128 .f32) (W11 m ρ c (Proc.devRef .tc main_arg14)) (W10 m ρ c (Proc.devRef .tc main_arg14)) from by show after hostOps3 (W10 m ρ c) _ = _; after_results_simp)).trans (((W10_of_ne m ρ c main_arg14 (by decide))).trans (((show @Eq (FVec Ideal S128 .f32) (W9 m ρ c (Proc.devRef .tc main_arg14)) (W8 m ρ c (Proc.devRef .tc main_arg14)) from by show after hostOps2 (W8 m ρ c) _ = _; after_results_simp)).trans (((W8_of_ne m ρ c main_arg14 (by decide))).trans (((show @Eq (FVec Ideal S128 .f32) (W7 m ρ c (Proc.devRef .tc main_arg14)) (W6 m ρ c (Proc.devRef .tc main_arg14)) from by show after hostOps1 (W6 m ρ c) _ = _; after_results_simp)).trans ((W6_of_ne m ρ c main_arg14 (by decide)))))))))))))

end Cert.KernelIdeal.KeepC

end
-- ==== Proof.LibRealOps.lean ====
/-
  Operations that keep an array of extended reals within the real numbers.

  A matrix product entry is zero plus a finite sum of products of entries; an accumulating scatter's entry is the
  operand's entry plus a finite sum of update entries (whatever the index vectors are); an entry of a concatenation is
  an entry of one of the pieces. So each of these has real entries when its operands do.
-/
import Mathlib
import Idealize.ShloMosaic.PureOps.Ideal
import Idealize.ShloMosaic.PureOps.Ideal.Laws
import proofs.«152337_j16226386444398_1_alg».proof.Proof.LibRealSum

noncomputable section

open scoped BigOperators

namespace Cert.Lib.RealOps

open Idealize.ShloMosaic Cert.LibRealSum

/-- The host's matrix product of arrays with real entries has real entries. -/
theorem isReal_dotGeneral {sl sr so : Shape} {φ₁ φ₂ : FTy} (d : DotDims sl sr so) (prec : Option ContractPrecision)
    (l : FVec Ideal sl φ₁) (r : FVec Ideal sr φ₂) (hl : ∀ i, IsReal (l i)) (hr : ∀ i, IsReal (r i)) (j : so.Idx) :
    IsReal (Host.dotGeneral (F := Ideal) d prec l r j) := by
  simp only [Host.dotGeneral]
  rw [Ideal.dotGeneral_apply]
  exact isReal_sum _ _ fun k _ => (hl _).mul (hr _)

/-- The host's accumulating scatter of real updates into a real operand has real entries, for any indices. -/
theorem isReal_scatterAdd {s si u : Shape} {w : Nat} {φ : FTy} (d : ScatterDims s si u) (Z : FVec Ideal s φ)
    (idx : IVec si w) (upd : FVec Ideal u φ) (hZ : ∀ i, IsReal (Z i)) (hu : ∀ j, IsReal (upd j)) (i : s.Idx) :
    IsReal (Host.scatterAdd (F := Ideal) d Z idx upd i) := by
  show IsReal (Ideal.hostScatterAdd d Z idx upd i)
  unfold Ideal.hostScatterAdd
  exact (hZ i).add (isReal_sum _ _ fun j _ => hu j)

/-- An entry of a concatenation of pieces with real entries is real. -/
theorem isReal_concatenate (t : Shape) (a : Fin t.rank) (xs : List ((s : Shape) × (s.Idx → EReal)))
    (h : Shape.Concatenates (xs.map (·.1)) t a) (hxs : ∀ p ∈ xs, ∀ i, IsReal (p.2 i)) (j : t.Idx) :
    IsReal (concatenate t a xs h j) := by
  unfold concatenate
  exact hxs _ (List.getElem_mem _) _

end Cert.Lib.RealOps

end
-- ==== Proof.StageReal.lean ====
/-
  Every stage of a graph-convolution layer of the reference has real entries when its floating-point inputs do.

  The dense product is zero plus finite sums of products; the weights with the self loops' ones appended are the
  weights or 1; a degree is zero plus a finite sum of weights; the guarded reciprocal square root of a real degree is a
  real; a gather only reads entries; the normalisation is a product of three reals; an aggregated entry is zero plus a
  finite sum of products of a gathered entry and a normalisation, whatever the index vectors are; bias and positive part
  keep reals; and the batch normalisation of real entries is real. Only that the values are real numbers is shown here,
  never which numbers they are.
-/
import proofs.«152337_j16226386444398_1_alg».proof.Proof.RefSpec
import proofs.«152337_j16226386444398_1_alg».proof.Proof.LibBatchNorm
import proofs.«152337_j16226386444398_1_alg».proof.Proof.LibF32Consts
import proofs.«152337_j16226386444398_1_alg».proof.Proof.LibRealOps
import proofs.«152337_j16226386444398_1_alg».proof.Proof.BnRead

noncomputable section

open scoped BigOperators

namespace Cert.ReferenceIdeal.StageReal

open Cert.ReferenceIdeal Cert.ReferenceIdeal.Gen Idealize.ShloMosaic Idealize.ShloMosaic.ValueIdx
open Cert.LibRealSum Cert.Lib.RealOps Cert.Lib.F32Consts Cert.Lib.BatchNorm

/-- The word of 0 is a real. -/
theorem isReal_ofBits_zero : IsReal (Ideal.ofBits .f32 0x00000000#32) := by
  rw [Ideal.ofBits_zero_f32]; exact isReal_zero

/-- The word of 1 is a real. -/
theorem isReal_ofBits_one : IsReal (Ideal.ofBits .f32 0x3F800000#32) := by
  rw [ofBits_one]; exact isReal_one

theorem zeros_real (i : S50000.Idx) : IsReal (RefSpec.zeros50000 (F := Ideal) i) := isReal_ofBits_zero

theorem ones_real (i : S50000.Idx) : IsReal (RefSpec.ones50000 (F := Ideal) i) := isReal_ofBits_one

/-- The dense layer. -/
theorem hOf_real (x : FVec Ideal S50000x128 .f32) (W : FVec Ideal S128x128 .f32) (hx : ∀ i, IsReal (x i))
    (hW : ∀ i, IsReal (W i)) (i : S50000x128.Idx) : IsReal (RefSpec.hOf (F := Ideal) x W i) :=
  isReal_dotGeneral _ _ x _ hx (fun _ => hW _) i

/-- The weights with the self loops' ones. -/
theorem wFull_real (ew : FVec Ideal S500000 .f32) (hew : ∀ i, IsReal (ew i)) (i : S550000.Idx) :
    IsReal (RefSpec.wFull (F := Ideal) ew i) := by
  refine isReal_concatenate _ _ _ _ (fun p hp => ?_) i
  simp only [List.mem_cons, List.not_mem_nil, or_false] at hp
  rcases hp with rfl | rfl
  · exact hew
  · exact fun _ => isReal_ofBits_one

/-- The degrees. -/
theorem degOf_real (dst : IVec S550000 32) (w : FVec Ideal S550000 .f32) (hw : ∀ i, IsReal (w i)) (i : S50000.Idx) :
    IsReal (RefSpec.degOf (F := Ideal) dst w i) :=
  isReal_scatterAdd _ _ _ w zeros_real hw i

/-- The guarded reciprocal square roots of real degrees. -/
theorem dinvOf_real (deg : FVec Ideal S50000 .f32) (hdeg : ∀ i, IsReal (deg i)) (i : S50000.Idx) :
    IsReal (RefSpec.dinvOf (F := Ideal) deg i) := by
  show IsReal (Scalar.select (Ideal.cmp .ogt (deg i) (Ideal.ofBits .f32 0x00000000#32))
    (Ideal.div (Ideal.ofBits .f32 0x3F800000#32)
      (Ideal.sqrt (Scalar.select (Ideal.cmp .ogt (deg i) (Ideal.ofBits .f32 0x00000000#32)) (deg i)
        (Ideal.ofBits .f32 0x3F800000#32))))
    (Ideal.ofBits .f32 0x00000000#32))
  rw [Ideal.ofBits_zero_f32, ofBits_one]
  exact isReal_guarded_rsqrt (hdeg i)

/-- A gather only reads entries. -/
theorem gather1_real (x : FVec Ideal S50000 .f32) (idx : IVec S550000 32) (hx : ∀ i, IsReal (x i)) (j : S550000.Idx) :
    IsReal (RefSpec.gather1 (F := Ideal) x idx j) := hx _

/-- A product of three arrays with real entries, entry by entry. -/
theorem mul3_real {s : Shape} (a w b : FVec Ideal s .f32) (ha : ∀ i, IsReal (a i)) (hw : ∀ i, IsReal (w i))
    (hb : ∀ i, IsReal (b i)) (j : s.Idx) : IsReal (mulf (mulf a w) b j) :=
  ((ha j).mul (hw j)).mul (hb j)

/-- The symmetric normalisation from any index vectors and real weights. -/
theorem normFrom_real (src dst : IVec S550000 32) (w : FVec Ideal S550000 .f32) (hw : ∀ i, IsReal (w i))
    (j : S550000.Idx) : IsReal (RefSpec.normFrom (F := Ideal) src dst w j) := by
  have hd : ∀ i, IsReal (RefSpec.dinvOf (F := Ideal) (RefSpec.degOf (F := Ideal) dst w) i) :=
    dinvOf_real _ (degOf_real dst w hw)
  unfold RefSpec.normFrom
  exact mul3_real _ w _ (gather1_real _ src hd) hw (gather1_real _ dst hd) j

theorem normOf_real (ei : IVec S2x500000 32) (ew : FVec Ideal S500000 .f32) (hew : ∀ i, IsReal (ew i))
    (j : S550000.Idx) : IsReal (RefSpec.normOf (F := Ideal) ei ew j) :=
  normFrom_real _ _ _ (wFull_real ew hew) j

/-- A product of two arrays with real entries, entry by entry. -/
theorem mul2_real {s : Shape} (a b : FVec Ideal s .f32) (ha : ∀ i, IsReal (a i)) (hb : ∀ i, IsReal (b i)) (j : s.Idx) :
    IsReal (mulf a b j) := (ha j).mul (hb j)

/-- The aggregation, for any index vectors. -/
theorem aggOf_real (h : FVec Ideal S50000x128 .f32) (norm : FVec Ideal S550000 .f32) (src dst : IVec S550000 32)
    (hh : ∀ i, IsReal (h i)) (hn : ∀ i, IsReal (norm i)) (i : S50000x128.Idx) :
    IsReal (RefSpec.aggOf (F := Ideal) h norm src dst i) := by
  unfold RefSpec.aggOf
  exact isReal_scatterAdd _ _ _ _ (fun _ => isReal_ofBits_zero)
    (mul2_real _ _ (fun _ => hh _) (fun _ => hn _)) i

/-- Bias and positive part. -/
theorem reluOf_real (agg : FVec Ideal S50000x128 .f32) (b : FVec Ideal S128 .f32) (hagg : ∀ i, IsReal (agg i))
    (hb : ∀ i, IsReal (b i)) (i : S50000x128.Idx) : IsReal (RefSpec.reluOf (F := Ideal) agg b i) := by
  show IsReal (max (agg i + RefSpec.rowBcast (F := Ideal) b i) (Ideal.ofBits .f32 0x00000000#32))
  rw [Ideal.ofBits_zero_f32]
  exact isReal_max_zero ((hagg i).add (hb _))

/-- One layer. -/
theorem layer_real (x : FVec Ideal S50000x128 .f32) (W : FVec Ideal S128x128 .f32) (b g be : FVec Ideal S128 .f32)
    (ei : IVec S2x500000 32) (ew : FVec Ideal S500000 .f32) (hx : ∀ i, IsReal (x i)) (hW : ∀ i, IsReal (W i))
    (hb : ∀ i, IsReal (b i)) (hg : ∀ i, IsReal (g i)) (hbe : ∀ i, IsReal (be i)) (hew : ∀ i, IsReal (ew i))
    (i : S50000x128.Idx) : IsReal (RefSpec.layer (F := Ideal) x W b g be ei ew i) :=
  Cert.ReferenceIdeal.BnRead.bnOf_real _ g be
    (reluOf_real _ b (aggOf_real _ _ _ _ (hOf_real x W hx hW) (normOf_real ei ew hew)) hb) hg hbe i

end Cert.ReferenceIdeal.StageReal

end
-- ==== Proof.KernelBridge.lean ====
/-
  The kernel's dense product is the reference's dense layer, and what is aggregated from it is real.

  The kernel multiplies the 50000 × 128 array by the transpose of the 128 × 128 weight with the dimension numbers
  "contract axis 1 with axis 0"; the reference's dense layer is the same product of the same transpose, its dimension
  numbers being those same lists. So the two arrays are one. Consequently the aggregation of that product with the
  reference's normalisation has real entries when the inputs do, and a layer is, by definition, the batch normalisation
  of the positive part of the biased aggregation of the dense layer.
-/
import proofs.«152337_j16226386444398_1_alg».proof.Proof.MatBlock
import proofs.«152337_j16226386444398_1_alg».proof.Proof.RefSpec
import proofs.«152337_j16226386444398_1_alg».proof.Proof.StageReal

noncomputable section

namespace Cert.KernelBridge

open Idealize.ShloMosaic Cert.LibRealSum

/-- The reference's dimension numbers for the dense layer are the plain "rows by columns" ones. -/
theorem dot_eq :
    Cert.ReferenceIdeal.dot_S50000x128_S128x128_S50000x128_1_0_0_1_n_n = DotDims.plain 50000 128 128 := rfl

/-- The kernel's product with the transposed weight is the reference's dense layer (for any witness of the
    transposition's shape condition). -/
theorem prod_eq_hOf' (X : FVec Ideal ⟨2, ![50000, 128]⟩ .f32) (W : FVec Ideal ⟨2, ![128, 128]⟩ .f32)
    (h : Cert.KernelIdeal.S128x128.Transposes [1, 0] Cert.KernelIdeal.S128x128) :
    Cert.KernelIdeal.MatBlock.prod X (transpose Cert.KernelIdeal.S128x128 [1, 0] W h)
      = Cert.ReferenceIdeal.RefSpec.hOf (F := Ideal) X W := by
  unfold Cert.ReferenceIdeal.RefSpec.hOf Cert.KernelIdeal.MatBlock.prod
  rw [dot_eq]

/-- The same with the kernel program's own witness. -/
theorem prod_eq_hOf (X : FVec Ideal ⟨2, ![50000, 128]⟩ .f32) (W : FVec Ideal ⟨2, ![128, 128]⟩ .f32) :
    Cert.KernelIdeal.MatBlock.prod X
        (transpose Cert.KernelIdeal.S128x128 [1, 0] W Cert.KernelIdeal.Facts₀.transposes_S128x128_S128x128_1_0)
      = Cert.ReferenceIdeal.RefSpec.hOf (F := Ideal) X W :=
  prod_eq_hOf' X W _

/-- The aggregation of the kernel's product with the reference's normalisation has real entries. -/
theorem agg_real (X : FVec Ideal ⟨2, ![50000, 128]⟩ .f32) (W : FVec Ideal ⟨2, ![128, 128]⟩ .f32)
    (ei : IVec Cert.ReferenceIdeal.S2x500000 32) (ew : FVec Ideal Cert.ReferenceIdeal.S500000 .f32)
    (hX : ∀ i, IsReal (X i)) (hW : ∀ i, IsReal (W i)) (hew : ∀ i, IsReal (ew i))
    (i : Cert.ReferenceIdeal.S50000x128.Idx) :
    IsReal (Cert.ReferenceIdeal.RefSpec.aggOf (F := Ideal)
      (Cert.KernelIdeal.MatBlock.prod X
        (transpose Cert.KernelIdeal.S128x128 [1, 0] W Cert.KernelIdeal.Facts₀.transposes_S128x128_S128x128_1_0))
      (Cert.ReferenceIdeal.RefSpec.normOf (F := Ideal) ei ew) (Cert.ReferenceIdeal.RefSpec.srcOf (F := Ideal) ei)
      (Cert.ReferenceIdeal.RefSpec.dstOf (F := Ideal) ei) i) := by
  rw [prod_eq_hOf]
  exact Cert.ReferenceIdeal.StageReal.aggOf_real _ _ _ _ (Cert.ReferenceIdeal.StageReal.hOf_real X W hX hW)
    (Cert.ReferenceIdeal.StageReal.normOf_real ei ew hew) i

/-- A layer is the batch normalisation of the positive part of the biased aggregation of the dense layer. -/
theorem layer_unfold (X : FVec Ideal Cert.ReferenceIdeal.S50000x128 .f32) (W : FVec Ideal Cert.ReferenceIdeal.S128x128 .f32)
    (b g be : FVec Ideal Cert.ReferenceIdeal.S128 .f32) (ei : IVec Cert.ReferenceIdeal.S2x500000 32)
    (ew : FVec Ideal Cert.ReferenceIdeal.S500000 .f32) :
    Cert.ReferenceIdeal.RefSpec.bnOf (F := Ideal)
        (Cert.ReferenceIdeal.RefSpec.reluOf (F := Ideal)
          (Cert.ReferenceIdeal.RefSpec.aggOf (F := Ideal) (Cert.ReferenceIdeal.RefSpec.hOf (F := Ideal) X W)
            (Cert.ReferenceIdeal.RefSpec.normOf (F := Ideal) ei ew) (Cert.ReferenceIdeal.RefSpec.srcOf (F := Ideal) ei)
            (Cert.ReferenceIdeal.RefSpec.dstOf (F := Ideal) ei)) b) g be
      = Cert.ReferenceIdeal.RefSpec.layer (F := Ideal) X W b g be ei ew := rfl

end Cert.KernelBridge

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«152337_j16226386444398_1_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.FiniteInputs.lean ====
/-
  The precondition says every floating-point argument array passes, entry by entry, the test |x| < +∞, the
  fourteen tests joined by "and" into one word that is 1. Hence every entry of each of those arrays is a real
  number. (The integer argument is not constrained.)
-/
import proofs.«152337_j16226386444398_1_alg».proof.Defs
import proofs.«152337_j16226386444398_1_alg».proof.Proof.LibFiniteAll

noncomputable section

open Idealize.ShloMosaic Idealize.SL.Sem
open Cert.LibRealSum

namespace Cert.FiniteInputs

open Cert.Pre_finite_inputs

variable [Cert.Pre_finite_inputs.Facts]

/-- If the joined test of the fourteen arrays is 1, every entry of every one of them is a real number. -/
theorem real_of_fn (a0 : FVec Ideal S50000x128 .f32) (a1 : IVec S2x500000 32) (a2 : FVec Ideal S500000 .f32)
    (a3 : FVec Ideal S128x128 .f32) (a4 a5 a6 : FVec Ideal S128 .f32) (a7 : FVec Ideal S128x128 .f32)
    (a8 a9 a10 : FVec Ideal S128 .f32) (a11 : FVec Ideal S128x128 .f32) (a12 a13 a14 : FVec Ideal S128 .f32)
    (h : fn (F := Ideal) a0 a1 a2 a3 a4 a5 a6 a7 a8 a9 a10 a11 a12 a13 a14 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i))
      ∧ (∀ i, IsReal (a14 i)) := by
  have h0 := congrFun h ValueIdx.ix0
  dsimp only [fn, fn_part1, fn_part2, fn_part3, fn_part4] at h0
  simp only [andi, IntOp.andi_eq_one, and_assoc] at h0
  obtain ⟨e0, e2, e3, e4, e5, e6, e7, e8, e9, e10, e11, e12, e13, e14⟩ := h0
  exact ⟨Cert.Lib.FiniteAll.all_real _ _ _ _ _ e0, Cert.Lib.FiniteAll.all_real _ _ _ _ _ e2,
    Cert.Lib.FiniteAll.all_real _ _ _ _ _ e3, Cert.Lib.FiniteAll.all_real _ _ _ _ _ e4,
    Cert.Lib.FiniteAll.all_real _ _ _ _ _ e5, Cert.Lib.FiniteAll.all_real _ _ _ _ _ e6,
    Cert.Lib.FiniteAll.all_real _ _ _ _ _ e7, Cert.Lib.FiniteAll.all_real _ _ _ _ _ e8,
    Cert.Lib.FiniteAll.all_real _ _ _ _ _ e9, Cert.Lib.FiniteAll.all_real _ _ _ _ _ e10,
    Cert.Lib.FiniteAll.all_real _ _ _ _ _ e11, Cert.Lib.FiniteAll.all_real _ _ _ _ _ e12,
    Cert.Lib.FiniteAll.all_real _ _ _ _ _ e13, Cert.Lib.FiniteAll.all_real _ _ _ _ _ e14⟩

/-! ### The same of a memory that satisfies the precondition -/

/-- Under the precondition, on every core, every entry of every floating-point argument array is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal ((m ((c.tc : Thread Cert.KernelIdeal.nD Cert.KernelIdeal.τ).loc Cert.KernelIdeal.main_arg0) : FVec Ideal S50000x128 .f32) i))
      ∧ (∀ i, IsReal ((m ((c.tc : Thread Cert.KernelIdeal.nD Cert.KernelIdeal.τ).loc Cert.KernelIdeal.main_arg2) : FVec Ideal S500000 .f32) i))
      ∧ (∀ i, IsReal ((m ((c.tc : Thread Cert.KernelIdeal.nD Cert.KernelIdeal.τ).loc Cert.KernelIdeal.main_arg3) : FVec Ideal S128x128 .f32) i))
      ∧ (∀ i, IsReal ((m ((c.tc : Thread Cert.KernelIdeal.nD Cert.KernelIdeal.τ).loc Cert.KernelIdeal.main_arg4) : FVec Ideal S128 .f32) i))
      ∧ (∀ i, IsReal ((m ((c.tc : Thread Cert.KernelIdeal.nD Cert.KernelIdeal.τ).loc Cert.KernelIdeal.main_arg5) : FVec Ideal S128 .f32) i))
      ∧ (∀ i, IsReal ((m ((c.tc : Thread Cert.KernelIdeal.nD Cert.KernelIdeal.τ).loc Cert.KernelIdeal.main_arg6) : FVec Ideal S128 .f32) i))
      ∧ (∀ i, IsReal ((m ((c.tc : Thread Cert.KernelIdeal.nD Cert.KernelIdeal.τ).loc Cert.KernelIdeal.main_arg7) : FVec Ideal S128x128 .f32) i))
      ∧ (∀ i, IsReal ((m ((c.tc : Thread Cert.KernelIdeal.nD Cert.KernelIdeal.τ).loc Cert.KernelIdeal.main_arg8) : FVec Ideal S128 .f32) i))
      ∧ (∀ i, IsReal ((m ((c.tc : Thread Cert.KernelIdeal.nD Cert.KernelIdeal.τ).loc Cert.KernelIdeal.main_arg9) : FVec Ideal S128 .f32) i))
      ∧ (∀ i, IsReal ((m ((c.tc : Thread Cert.KernelIdeal.nD Cert.KernelIdeal.τ).loc Cert.KernelIdeal.main_arg10) : FVec Ideal S128 .f32) i))
      ∧ (∀ i, IsReal ((m ((c.tc : Thread Cert.KernelIdeal.nD Cert.KernelIdeal.τ).loc Cert.KernelIdeal.main_arg11) : FVec Ideal S128x128 .f32) i))
      ∧ (∀ i, IsReal ((m ((c.tc : Thread Cert.KernelIdeal.nD Cert.KernelIdeal.τ).loc Cert.KernelIdeal.main_arg12) : FVec Ideal S128 .f32) i))
      ∧ (∀ i, IsReal ((m ((c.tc : Thread Cert.KernelIdeal.nD Cert.KernelIdeal.τ).loc Cert.KernelIdeal.main_arg13) : FVec Ideal S128 .f32) i))
      ∧ (∀ i, IsReal ((m ((c.tc : Thread Cert.KernelIdeal.nD Cert.KernelIdeal.τ).loc Cert.KernelIdeal.main_arg14) : FVec Ideal S128 .f32) i)) :=
  real_of_fn _ _ _ _ _ _ _ _ _ _ _ _ _ _ _ (hpre c)

theorem arg0_real (m : (ℓ : Loc Cert.KernelIdeal.nD Cert.KernelIdeal.τ Cert.KernelIdeal.sig) → Buf (Elt Ideal) ℓ)
    (hpre : Cert.Pre_KernelIdeal m) (c : Dev Cert.KernelIdeal.nD) (i : S50000x128.Idx) :
    IsReal ((m ((c.tc : Thread Cert.KernelIdeal.nD Cert.KernelIdeal.τ).loc Cert.KernelIdeal.main_arg0) : FVec Ideal S50000x128 .f32) i) :=
  (args_real m hpre c).1 i

theorem arg2_real (m : (ℓ : Loc Cert.KernelIdeal.nD Cert.KernelIdeal.τ Cert.KernelIdeal.sig) → Buf (Elt Ideal) ℓ)
    (hpre : Cert.Pre_KernelIdeal m) (c : Dev Cert.KernelIdeal.nD) (i : S500000.Idx) :
    IsReal ((m ((c.tc : Thread Cert.KernelIdeal.nD Cert.KernelIdeal.τ).loc Cert.KernelIdeal.main_arg2) : FVec Ideal S500000 .f32) i) :=
  (args_real m hpre c).2.1 i

theorem arg3_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128x128.Idx) :
    IsReal ((m ((c.tc : Thread Cert.KernelIdeal.nD Cert.KernelIdeal.τ).loc Cert.KernelIdeal.main_arg3) : FVec Ideal S128x128 .f32) i) :=
  (args_real m hpre c).2.2.1 i

theorem arg4_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg4) : FVec Ideal S128 .f32) i) :=
  (args_real m hpre c).2.2.2.1 i

theorem arg5_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg5) : FVec Ideal S128 .f32) i) :=
  (args_real m hpre c).2.2.2.2.1 i

theorem arg6_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg6) : FVec Ideal S128 .f32) i) :=
  (args_real m hpre c).2.2.2.2.2.1 i

theorem arg7_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128x128.Idx) :
    IsReal ((m ((c.tc : Thread Cert.KernelIdeal.nD Cert.KernelIdeal.τ).loc Cert.KernelIdeal.main_arg7) : FVec Ideal S128x128 .f32) i) :=
  (args_real m hpre c).2.2.2.2.2.2.1 i

theorem arg8_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg8) : FVec Ideal S128 .f32) i) :=
  (args_real m hpre c).2.2.2.2.2.2.2.1 i

theorem arg9_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg9) : FVec Ideal S128 .f32) i) :=
  (args_real m hpre c).2.2.2.2.2.2.2.2.1 i

theorem arg10_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg10) : FVec Ideal S128 .f32) i) :=
  (args_real m hpre c).2.2.2.2.2.2.2.2.2.1 i

theorem arg11_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128x128.Idx) :
    IsReal ((m ((c.tc : Thread Cert.KernelIdeal.nD Cert.KernelIdeal.τ).loc Cert.KernelIdeal.main_arg11) : FVec Ideal S128x128 .f32) i) :=
  (args_real m hpre c).2.2.2.2.2.2.2.2.2.2.1 i

theorem arg12_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg12) : FVec Ideal S128 .f32) i) :=
  (args_real m hpre c).2.2.2.2.2.2.2.2.2.2.2.1 i

theorem arg13_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg13) : FVec Ideal S128 .f32) i) :=
  (args_real m hpre c).2.2.2.2.2.2.2.2.2.2.2.2.1 i

theorem arg14_real (m : (ℓ : Loc Cert.KernelIdeal.nD Cert.KernelIdeal.τ Cert.KernelIdeal.sig) → Buf (Elt Ideal) ℓ)
    (hpre : Cert.Pre_KernelIdeal m) (c : Dev Cert.KernelIdeal.nD) (i : S128.Idx) :
    IsReal ((m ((c.tc : Thread Cert.KernelIdeal.nD Cert.KernelIdeal.τ).loc Cert.KernelIdeal.main_arg14) : FVec Ideal S128 .f32) i) :=
  (args_real m hpre c).2.2.2.2.2.2.2.2.2.2.2.2.2 i

end Cert.FiniteInputs

end
-- ==== Proof.KernelValue.lean ====
/-
  The kernel's result is the reference's three layers.

  From the launch memory: the host operations before the first region leave the edge normalisation, the sources, the
  destinations and the transposed first weight matrix; each layer then turns its input array into the reference's
  layer of it, because with finite inputs every array along the way is real (an induction over the three layers);
  between layers the host transposes the next weight matrix and nothing else changes. The result buffer at the last
  boundary is the third layer's output, which is the reference's result term.
-/
import proofs.«152337_j16226386444398_1_alg».proof.Proof.KernelRun
import proofs.«152337_j16226386444398_1_alg».proof.Proof.PreStage
import proofs.«152337_j16226386444398_1_alg».proof.Proof.Layer1
import proofs.«152337_j16226386444398_1_alg».proof.Proof.Layer2
import proofs.«152337_j16226386444398_1_alg».proof.Proof.Layer3
import proofs.«152337_j16226386444398_1_alg».proof.Proof.KeepA
import proofs.«152337_j16226386444398_1_alg».proof.Proof.KeepB
import proofs.«152337_j16226386444398_1_alg».proof.Proof.KeepC
import proofs.«152337_j16226386444398_1_alg».proof.Proof.KernelBridge
import proofs.«152337_j16226386444398_1_alg».proof.Proof.StageReal
import proofs.«152337_j16226386444398_1_alg».proof.Proof.FiniteInputs
import proofs.«152337_j16226386444398_1_alg».proof.Proof.Gen.Pre_finite_inputs

set_option maxRecDepth 16384
set_option maxHeartbeats 1000000

noncomputable section

namespace Cert.KernelIdeal.KernelValue

open Cert.KernelIdeal Cert.KernelIdeal.Gen
open Idealize.ShloMosaic Idealize.ShloMosaic.TcCoe Idealize.SL.Sem Idealize.ShloMosaic.StableHlo
open Cert.LibRealSum

variable (m : (ℓ : Loc nD τ sig) → Buf (Elt Ideal) ℓ) (ρ : Dev nD → PrngReg) (c : Dev nD)

/-! ## The argument arrays, typed -/
abbrev a0 : FVec Ideal S50000x128 .f32 := (m ((c : Thread nD τ).loc main_arg0))
abbrev ei : (⟨S2x500000, .i32⟩ : BufTy).Contents (Elt Ideal) := (m ((c : Thread nD τ).loc main_arg1))
abbrev ew : FVec Ideal S500000 .f32 := (m ((c : Thread nD τ).loc main_arg2))
abbrev a3 : FVec Ideal S128x128 .f32 := (m ((c : Thread nD τ).loc main_arg3))
abbrev a7 : FVec Ideal S128x128 .f32 := (m ((c : Thread nD τ).loc main_arg7))
abbrev a11 : FVec Ideal S128x128 .f32 := (m ((c : Thread nD τ).loc main_arg11))
abbrev a4 : FVec Ideal S128 .f32 := (m ((c : Thread nD τ).loc main_arg4))
abbrev a5 : FVec Ideal S128 .f32 := (m ((c : Thread nD τ).loc main_arg5))
abbrev a6 : FVec Ideal S128 .f32 := (m ((c : Thread nD τ).loc main_arg6))
abbrev a8 : FVec Ideal S128 .f32 := (m ((c : Thread nD τ).loc main_arg8))
abbrev a9 : FVec Ideal S128 .f32 := (m ((c : Thread nD τ).loc main_arg9))
abbrev a10 : FVec Ideal S128 .f32 := (m ((c : Thread nD τ).loc main_arg10))
abbrev a12 : FVec Ideal S128 .f32 := (m ((c : Thread nD τ).loc main_arg12))
abbrev a13 : FVec Ideal S128 .f32 := (m ((c : Thread nD τ).loc main_arg13))
abbrev a14 : FVec Ideal S128 .f32 := (m ((c : Thread nD τ).loc main_arg14))

/-- The layers' arrays: the input, then each layer's output. -/
abbrev x2 : FVec Ideal S50000x128 .f32 := Cert.ReferenceIdeal.RefSpec.layer (F := Ideal) (a0 m c) (a3 m c) (a4 m c) (a5 m c) (a6 m c) (ei m c) (ew m c)
abbrev x3 : FVec Ideal S50000x128 .f32 := Cert.ReferenceIdeal.RefSpec.layer (F := Ideal) (x2 m c) (a7 m c) (a8 m c) (a9 m c) (a10 m c) (ei m c) (ew m c)
abbrev x4 : FVec Ideal S50000x128 .f32 := Cert.ReferenceIdeal.RefSpec.layer (F := Ideal) (x3 m c) (a11 m c) (a12 m c) (a13 m c) (a14 m c) (ei m c) (ew m c)

/-! ## The launch contents, and the boundary before the first region -/
theorem w5_eq : W5 m ρ c = PreStage.run (W0 m ρ c) := rfl
theorem w5_arg0 : @Eq (FVec Ideal S50000x128 .f32) (W5 m ρ c (Proc.devRef .tc main_arg0)) (a0 m c) := PreStage.run_arg0 (W0 m ρ c)
theorem w5_arg3 : @Eq (FVec Ideal S128x128 .f32) (W5 m ρ c (Proc.devRef .tc main_arg3)) (a3 m c) := PreStage.run_arg3 (W0 m ρ c)
theorem w5_arg4 : @Eq (FVec Ideal S128 .f32) (W5 m ρ c (Proc.devRef .tc main_arg4)) (a4 m c) := PreStage.run_arg4 (W0 m ρ c)
theorem w5_arg5 : @Eq (FVec Ideal S128 .f32) (W5 m ρ c (Proc.devRef .tc main_arg5)) (a5 m c) := PreStage.run_arg5 (W0 m ρ c)
theorem w5_arg6 : @Eq (FVec Ideal S128 .f32) (W5 m ρ c (Proc.devRef .tc main_arg6)) (a6 m c) := PreStage.run_arg6 (W0 m ρ c)
theorem w5_arg7 : @Eq (FVec Ideal S128x128 .f32) (W5 m ρ c (Proc.devRef .tc main_arg7)) (a7 m c) := PreStage.run_arg7 (W0 m ρ c)
theorem w5_arg8 : @Eq (FVec Ideal S128 .f32) (W5 m ρ c (Proc.devRef .tc main_arg8)) (a8 m c) := PreStage.run_arg8 (W0 m ρ c)
theorem w5_arg9 : @Eq (FVec Ideal S128 .f32) (W5 m ρ c (Proc.devRef .tc main_arg9)) (a9 m c) := PreStage.run_arg9 (W0 m ρ c)
theorem w5_arg10 : @Eq (FVec Ideal S128 .f32) (W5 m ρ c (Proc.devRef .tc main_arg10)) (a10 m c) := PreStage.run_arg10 (W0 m ρ c)
theorem w5_arg11 : @Eq (FVec Ideal S128x128 .f32) (W5 m ρ c (Proc.devRef .tc main_arg11)) (a11 m c) := PreStage.run_arg11 (W0 m ρ c)
theorem w5_arg12 : @Eq (FVec Ideal S128 .f32) (W5 m ρ c (Proc.devRef .tc main_arg12)) (a12 m c) := PreStage.run_arg12 (W0 m ρ c)
theorem w5_arg13 : @Eq (FVec Ideal S128 .f32) (W5 m ρ c (Proc.devRef .tc main_arg13)) (a13 m c) := PreStage.run_arg13 (W0 m ρ c)
theorem w5_arg14 : @Eq (FVec Ideal S128 .f32) (W5 m ρ c (Proc.devRef .tc main_arg14)) (a14 m c) := PreStage.run_arg14 (W0 m ρ c)
theorem w5_norm : @Eq (FVec Ideal S550000 .f32) (W5 m ρ c (Proc.devRef .tc main_v36)) (Cert.ReferenceIdeal.RefSpec.normOf (F := Ideal) (ei m c) (ew m c)) := PreStage.run_norm (W0 m ρ c)
theorem w5_src : @Eq (IVec S550000 32) (W5 m ρ c (Proc.devRef .tc main_v5)) (Cert.ReferenceIdeal.RefSpec.srcOf (F := Ideal) (ei m c)) := PreStage.run_src (W0 m ρ c)
theorem w5_dst : @Eq (IVec S550000 32) (W5 m ρ c (Proc.devRef .tc main_v6)) (Cert.ReferenceIdeal.RefSpec.dstOf (F := Ideal) (ei m c)) := PreStage.run_dst (W0 m ρ c)
theorem w5_wt : @Eq (FVec Ideal S128x128 .f32) (W5 m ρ c (Proc.devRef .tc main_v37)) (transpose S128x128 [1, 0] (a3 m c) transposes_S128x128_S128x128_1_0) := PreStage.run_wt (W0 m ρ c)

variable (hpre : Cert.Pre_KernelIdeal m)
include hpre

/-! ## Finite inputs: every float argument is real -/
theorem r0 : ∀ i, IsReal ((a0 m c) i) := fun i => Cert.FiniteInputs.arg0_real m hpre c i
theorem r3 : ∀ i, IsReal ((a3 m c) i) := fun i => Cert.FiniteInputs.arg3_real m hpre c i
theorem r4 : ∀ i, IsReal ((a4 m c) i) := fun i => Cert.FiniteInputs.arg4_real m hpre c i
theorem r5 : ∀ i, IsReal ((a5 m c) i) := fun i => Cert.FiniteInputs.arg5_real m hpre c i
theorem r6 : ∀ i, IsReal ((a6 m c) i) := fun i => Cert.FiniteInputs.arg6_real m hpre c i
theorem r7 : ∀ i, IsReal ((a7 m c) i) := fun i => Cert.FiniteInputs.arg7_real m hpre c i
theorem r8 : ∀ i, IsReal ((a8 m c) i) := fun i => Cert.FiniteInputs.arg8_real m hpre c i
theorem r9 : ∀ i, IsReal ((a9 m c) i) := fun i => Cert.FiniteInputs.arg9_real m hpre c i
theorem r10 : ∀ i, IsReal ((a10 m c) i) := fun i => Cert.FiniteInputs.arg10_real m hpre c i
theorem r11 : ∀ i, IsReal ((a11 m c) i) := fun i => Cert.FiniteInputs.arg11_real m hpre c i
theorem r12 : ∀ i, IsReal ((a12 m c) i) := fun i => Cert.FiniteInputs.arg12_real m hpre c i
theorem r13 : ∀ i, IsReal ((a13 m c) i) := fun i => Cert.FiniteInputs.arg13_real m hpre c i
theorem r14 : ∀ i, IsReal ((a14 m c) i) := fun i => Cert.FiniteInputs.arg14_real m hpre c i
theorem rew : ∀ i, IsReal (ew m c i) := fun i => Cert.FiniteInputs.arg2_real m hpre c i

/-! ## Layer 1 -/
theorem out1 : @Eq (FVec Ideal S50000x128 .f32) (W10 m ρ c (Proc.devRef .tc main_v65)) (x2 m c) := by
  refine (Layer1.out_eq m ρ c (a0 m c) (transpose S128x128 [1, 0] (a3 m c) transposes_S128x128_S128x128_1_0) (Cert.ReferenceIdeal.RefSpec.normOf (F := Ideal) (ei m c) (ew m c)) (Cert.ReferenceIdeal.RefSpec.srcOf (F := Ideal) (ei m c)) (Cert.ReferenceIdeal.RefSpec.dstOf (F := Ideal) (ei m c))
    (a4 m c) (a5 m c) (a6 m c) (w5_arg0 m ρ c) (w5_wt m ρ c) (w5_norm m ρ c) (w5_src m ρ c) (w5_dst m ρ c) (w5_arg4 m ρ c) (w5_arg5 m ρ c) (w5_arg6 m ρ c)
    (Cert.KernelBridge.agg_real (a0 m c) (a3 m c) (ei m c) (ew m c) (r0 m c hpre) (r3 m c hpre) (rew m c hpre)) (r4 m c hpre) (r5 m c hpre) (r6 m c hpre)).trans ?_
  rw [Cert.KernelBridge.prod_eq_hOf]
  exact Cert.KernelBridge.layer_unfold _ _ _ _ _ _ _
theorem x2_real : ∀ i, IsReal (x2 m c i) := fun i =>
  Cert.ReferenceIdeal.StageReal.layer_real (a0 m c) (a3 m c) (a4 m c) (a5 m c) (a6 m c) (ei m c) (ew m c) (r0 m c hpre) (r3 m c hpre) (r4 m c hpre) (r5 m c hpre) (r6 m c hpre) (rew m c hpre) i

/-! ## Layer 2 -/
theorem w11_in : @Eq (FVec Ideal S50000x128 .f32) (W11 m ρ c (Proc.devRef .tc main_v65)) (x2 m c) :=
  (show @Eq (FVec Ideal S50000x128 .f32) (W11 m ρ c (Proc.devRef .tc main_v65)) (W10 m ρ c (Proc.devRef .tc main_v65)) from by show after hostOps3 (W10 m ρ c) _ = _; after_results_simp).trans (out1 m ρ c hpre)
theorem w11_wt : @Eq (FVec Ideal S128x128 .f32) (W11 m ρ c (Proc.devRef .tc main_v66)) (transpose S128x128 [1, 0] (a7 m c) transposes_S128x128_S128x128_1_0) := by
  refine (KHost.wt2_eq (W10 m ρ c)).trans ?_
  rw [KeepB.arg7_5_10 m ρ c, w5_arg7]
theorem out2 : @Eq (FVec Ideal S50000x128 .f32) (W16 m ρ c (Proc.devRef .tc main_v94)) (x3 m c) := by
  refine (Layer2.out_eq m ρ c (x2 m c) (transpose S128x128 [1, 0] (a7 m c) transposes_S128x128_S128x128_1_0) (Cert.ReferenceIdeal.RefSpec.normOf (F := Ideal) (ei m c) (ew m c)) (Cert.ReferenceIdeal.RefSpec.srcOf (F := Ideal) (ei m c)) (Cert.ReferenceIdeal.RefSpec.dstOf (F := Ideal) (ei m c))
    (a8 m c) (a9 m c) (a10 m c) (w11_in m ρ c hpre) (w11_wt m ρ c hpre)
    ((KeepA.v36_5_11 m ρ c).trans (w5_norm m ρ c)) ((KeepA.v5_5_11 m ρ c).trans (w5_src m ρ c)) ((KeepA.v6_5_11 m ρ c).trans (w5_dst m ρ c))
    ((KeepB.arg8_5_11 m ρ c).trans (w5_arg8 m ρ c)) ((KeepB.arg9_5_11 m ρ c).trans (w5_arg9 m ρ c)) ((KeepB.arg10_5_11 m ρ c).trans (w5_arg10 m ρ c))
    (Cert.KernelBridge.agg_real (x2 m c) (a7 m c) (ei m c) (ew m c) (x2_real m c hpre) (r7 m c hpre) (rew m c hpre)) (r8 m c hpre) (r9 m c hpre) (r10 m c hpre)).trans ?_
  rw [Cert.KernelBridge.prod_eq_hOf]
  exact Cert.KernelBridge.layer_unfold _ _ _ _ _ _ _
theorem x3_real : ∀ i, IsReal (x3 m c i) := fun i =>
  Cert.ReferenceIdeal.StageReal.layer_real (x2 m c) (a7 m c) (a8 m c) (a9 m c) (a10 m c) (ei m c) (ew m c) (x2_real m c hpre) (r7 m c hpre) (r8 m c hpre) (r9 m c hpre) (r10 m c hpre) (rew m c hpre) i

/-! ## Layer 3 -/
theorem w17_in : @Eq (FVec Ideal S50000x128 .f32) (W17 m ρ c (Proc.devRef .tc main_v94)) (x3 m c) :=
  (show @Eq (FVec Ideal S50000x128 .f32) (W17 m ρ c (Proc.devRef .tc main_v94)) (W16 m ρ c (Proc.devRef .tc main_v94)) from by show after hostOps6 (W16 m ρ c) _ = _; after_results_simp).trans (out2 m ρ c hpre)
theorem w17_wt : @Eq (FVec Ideal S128x128 .f32) (W17 m ρ c (Proc.devRef .tc main_v95)) (transpose S128x128 [1, 0] (a11 m c) transposes_S128x128_S128x128_1_0) := by
  refine (KHost.wt3_eq (W16 m ρ c)).trans ?_
  rw [KeepC.arg11_5_16 m ρ c, w5_arg11]
theorem out3 : @Eq (FVec Ideal S50000x128 .f32) (W22 m ρ c (Proc.devRef .tc main_v123)) (x4 m c) := by
  refine (Layer3.out_eq m ρ c (x3 m c) (transpose S128x128 [1, 0] (a11 m c) transposes_S128x128_S128x128_1_0) (Cert.ReferenceIdeal.RefSpec.normOf (F := Ideal) (ei m c) (ew m c)) (Cert.ReferenceIdeal.RefSpec.srcOf (F := Ideal) (ei m c)) (Cert.ReferenceIdeal.RefSpec.dstOf (F := Ideal) (ei m c))
    (a12 m c) (a13 m c) (a14 m c) (w17_in m ρ c hpre) (w17_wt m ρ c hpre)
    ((KeepA.v36_11_17 m ρ c).trans ((KeepA.v36_5_11 m ρ c).trans (w5_norm m ρ c))) ((KeepA.v5_11_17 m ρ c).trans ((KeepA.v5_5_11 m ρ c).trans (w5_src m ρ c)))
    ((KeepA.v6_11_17 m ρ c).trans ((KeepA.v6_5_11 m ρ c).trans (w5_dst m ρ c)))
    ((KeepC.arg12_5_17 m ρ c).trans (w5_arg12 m ρ c)) ((KeepC.arg13_5_17 m ρ c).trans (w5_arg13 m ρ c)) ((KeepC.arg14_5_17 m ρ c).trans (w5_arg14 m ρ c))
    (Cert.KernelBridge.agg_real (x3 m c) (a11 m c) (ei m c) (ew m c) (x3_real m c hpre) (r11 m c hpre) (rew m c hpre)) (r12 m c hpre) (r13 m c hpre) (r14 m c hpre)).trans ?_
  rw [Cert.KernelBridge.prod_eq_hOf]
  exact Cert.KernelBridge.layer_unfold _ _ _ _ _ _ _

/-! ## The result -/

/-- With finite inputs, the result buffer's contents at the last boundary are the reference's result term of the
    launch arguments. -/
theorem result_eq : Cert.KernelIdeal.Run.result m ρ c
    = Cert.ReferenceIdeal.RefSpec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  out3 m ρ c hpre

end Cert.KernelIdeal.KernelValue

end
-- ==== Proof.lean ====
/-
  A three-layer graph-convolution network over 50000 nodes with 128 features, 500000 weighted edges and a self loop of
  weight one at every node, computed by tiled kernels, against its plain reference: at the ideal instance (a float an
  extended real, every operation exact) the two programs, run from memories that agree on the fifteen arguments, end
  with equal results, and each program leaves its arguments unchanged.

  One layer, for an input `x`, a weight matrix `W`, a bias `b`, a scale `g` and a shift `be`:
    `h = x Wᵀ`; the degree of a node is the sum of the weights of the entries that end there; `dinv = 1 / sqrt deg` where
    `deg > 0` and `0` elsewhere; each entry carries `norm = dinv[src] · w · dinv[dst]`; `agg` sums the rows
    `h[src] · norm` by destination; `v = max (agg + b) 0`; the layer's output is `v` normalized over the 50000 rows,
    column by column. Both programs compute `h`, `norm`, `agg` and `v` by the same operations (the kernel's product and
    its bias-and-positive-part run block by block over ten blocks of 5000 rows). They differ in the normalization: the
    reference takes `mean = Σ v / 50000`, `var = Σ (v − mean)² / 50000` and returns `(v − mean) · (g / sqrt (var + ε)) + be`;
    the kernel accumulates `Σ v` and `Σ v²` over the blocks, takes `var = Σ v² / 50000 − mean²`,
    `scale = g / sqrt (var + ε)`, `shift = be − mean · scale` and returns `v · scale + shift`. When the arguments are finite
    every array along the way holds real numbers, and over the reals `Σ v² / n − mean² = Σ (v − mean)² / n` and
    `v · s + (be − mean · s) = (v − mean) · s + be`: the two results are one array, layer after layer.

  The pieces: the reference's run ends with its result buffer at `RefSpec.out` of the arguments (RefValue.run: the
  program is a straight line of host operations, read back stage by stage); the kernel's run ends with its result
  buffer at the contents the last region boundary leaves (KernelRun.run), and with finite inputs those contents are
  `RefSpec.out` of the arguments (KernelValue.result_eq); the three frames are the generated frame certificates and the
  reference's run; the idealization rewrote no operation, so there is nothing to preserve.
-/
import proofs.«152337_j16226386444398_1_alg».proof.Defs
import proofs.«152337_j16226386444398_1_alg».proof.Proof.Gen.Kernel
import proofs.«152337_j16226386444398_1_alg».proof.Proof.Gen.Kernel.Skeleton
import proofs.«152337_j16226386444398_1_alg».proof.Proof.Gen.Kernel.Launch
import proofs.«152337_j16226386444398_1_alg».proof.Proof.Gen.Kernel.Points
import proofs.«152337_j16226386444398_1_alg».proof.Proof.Gen.Kernel.Frame
import proofs.«152337_j16226386444398_1_alg».proof.Proof.Gen.KernelIdeal
import proofs.«152337_j16226386444398_1_alg».proof.Proof.Gen.KernelIdeal.Skeleton
import proofs.«152337_j16226386444398_1_alg».proof.Proof.Gen.KernelIdeal.Launch
import proofs.«152337_j16226386444398_1_alg».proof.Proof.Gen.KernelIdeal.Points
import proofs.«152337_j16226386444398_1_alg».proof.Proof.Gen.KernelIdeal.Frame
import proofs.«152337_j16226386444398_1_alg».proof.Proof.Gen.ReferenceIdeal
import proofs.«152337_j16226386444398_1_alg».proof.Proof.Gen.Pre_finite_inputs
import proofs.«152337_j16226386444398_1_alg».proof.Proof.RefValue
import proofs.«152337_j16226386444398_1_alg».proof.Proof.KernelRun
import proofs.«152337_j16226386444398_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged: its generated frame certificate. -/
theorem frame_p : Cert.frame_Kernel := fun m ρ _ => Cert.Kernel.Gen.frame m ρ

/-- The idealized kernel runs and leaves its arguments unchanged: its generated frame certificate. -/
theorem frame_pi : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote no operation of the kernel. -/
theorem preserves : Cert.preserves_Kernel_KernelIdeal := trivial

/-- At the ideal instance, from memories that agree on the arguments, both programs end with the network's output of
    the arguments in their result buffers: the kernel's run with finite inputs (`KernelValue.result_eq`) and the
    reference's run (`RefValue.run`), the reference's arguments rewritten to the kernel's by the agreement. -/
theorem algebraic : Cert.algebraic_KernelIdeal_ReferenceIdeal := by
  intro m ρ m' ρ' hpre hagree
  refine ⟨fun c => Cert.ReferenceIdeal.RefSpec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.KernelValue.result_eq (m := m) (ρ := ρ) (c := c) (hpre := hpre)), (h c).2⟩)
      (Cert.KernelIdeal.Run.run (F := Ideal) m ρ)
  · refine (θ_run Cert.ReferenceIdeal.defs _ _).mono (fun _ h c => ⟨(h c).1.trans ?_, (h c).2⟩)
      (Cert.ReferenceIdeal.RefValue.run (F := Ideal) m' ρ')
    obtain ⟨h0, h1, h2, h3, h4, h5, h6, h7, h8, h9, h10, h11, h12, h13, h14⟩ := hagree c
    rw [h0, h1, h2, h3, h4, h5, h6, h7, h8, h9, h10, h11, h12, h13, h14]

/-- Everything the certificate claims. -/
theorem claim : Cert.Claim := ⟨Cert.Kernel.Gen.facts, Cert.KernelIdeal.Gen.facts, Cert.ReferenceIdeal.Gen.facts, Cert.Pre_finite_inputs.Gen.facts, frame_p, frame_pi, frame_ri, trivial, algebraic⟩

end Cert.Proof

end
